-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v439)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v439) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v502) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3x72x64x64 : Shape := ⟨4, ![3, 72, 64, 64]⟩
abbrev S3x72x128x128 : Shape := ⟨4, ![3, 72, 128, 128]⟩
abbrev S3x72x256x256 : Shape := ⟨4, ![3, 72, 256, 256]⟩
abbrev S3x72x512x512 : Shape := ⟨4, ![3, 72, 512, 512]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x72x64x64 : S_.BroadcastsInDim S3x72x64x64 (![] : Fin 0 → Fin S3x72x64x64.rank)
  reducesTo_S3x72x64x64_S_d0_1_2_3 : S3x72x64x64.ReducesTo [0, 1, 2, 3] S_
  bcast_S_S3x72x128x128 : S_.BroadcastsInDim S3x72x128x128 (![] : Fin 0 → Fin S3x72x128x128.rank)
  reducesTo_S3x72x128x128_S_d0_1_2_3 : S3x72x128x128.ReducesTo [0, 1, 2, 3] S_
  bcast_S_S3x72x256x256 : S_.BroadcastsInDim S3x72x256x256 (![] : Fin 0 → Fin S3x72x256x256.rank)
  reducesTo_S3x72x256x256_S_d0_1_2_3 : S3x72x256x256.ReducesTo [0, 1, 2, 3] S_
  bcast_S_S3x72x512x512 : S_.BroadcastsInDim S3x72x512x512 (![] : Fin 0 → Fin S3x72x512x512.rank)
  reducesTo_S3x72x512x512_S_d0_1_2_3 : S3x72x512x512.ReducesTo [0, 1, 2, 3] S_

variable [Facts]

def fn_part1 {F : FTy → Type} [FloatOps F] (main_arg4 : FVec F S3x72x512x512 .f32) (main_v13 : IVec S_ 1) (main_v16 : IVec S3x72x256x256 1) : IVec S_ 1 :=
  let main_c_5 : IVec S_ 1 := constantI S_ 1 1#1
  let main_v17 : IVec S_ 1 := (fun x v => Host.reduce IntOp.andi x v reducesTo_S3x72x256x256_S_d0_1_2_3 h_S_) main_v16 main_c_5
  let main_v18 : IVec S_ 1 := andi main_v13 main_v17
  let main_v19 : FVec F S3x72x512x512 .f32 := Host.absf main_arg4
  let main_cst_6 : FVec F S_ .f32 := constant S_ .f32 0x7F800000#32
  let main_v20 : FVec F S3x72x512x512 .f32 := broadcastInDim S3x72x512x512 ![] bcast_S_S3x72x512x512 main_cst_6
  let main_v21 : IVec S3x72x512x512 1 := cmpf .olt main_v19 main_v20
  let main_c_7 : IVec S_ 1 := constantI S_ 1 1#1
  let main_v22 : IVec S_ 1 := (fun x v => Host.reduce IntOp.andi x v reducesTo_S3x72x512x512_S_d0_1_2_3 h_S_) main_v21 main_c_7
  let main_v23 : IVec S_ 1 := andi main_v18 main_v22
  main_v23

def fn {F : FTy → Type} [FloatOps F] (main_arg0 : FVec F S100000x3 .f32) (main_arg1 : FVec F S3x72x64x64 .f32) (main_arg2 : FVec F S3x72x128x128 .f32) (main_arg3 : FVec F S3x72x256x256 .f32) (main_arg4 : FVec F S3x72x512x512 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x72x64x64 .f32 := Host.absf main_arg1
  let main_cst_0 : FVec F S_ .f32 := constant S_ .f32 0x7F800000#32
  let main_v5 : FVec F S3x72x64x64 .f32 := broadcastInDim S3x72x64x64 ![] bcast_S_S3x72x64x64 main_cst_0
  let main_v6 : IVec S3x72x64x64 1 := cmpf .olt main_v4 main_v5
  let main_c_1 : IVec S_ 1 := constantI S_ 1 1#1
  let main_v7 : IVec S_ 1 := (fun x v => Host.reduce IntOp.andi x v reducesTo_S3x72x64x64_S_d0_1_2_3 h_S_) main_v6 main_c_1
  let main_v8 : IVec S_ 1 := andi main_v3 main_v7
  let main_v9 : FVec F S3x72x128x128 .f32 := Host.absf main_arg2
  let main_cst_2 : FVec F S_ .f32 := constant S_ .f32 0x7F800000#32
  let main_v10 : FVec F S3x72x128x128 .f32 := broadcastInDim S3x72x128x128 ![] bcast_S_S3x72x128x128 main_cst_2
  let main_v11 : IVec S3x72x128x128 1 := cmpf .olt main_v9 main_v10
  let main_c_3 : IVec S_ 1 := constantI S_ 1 1#1
  let main_v12 : IVec S_ 1 := (fun x v => Host.reduce IntOp.andi x v reducesTo_S3x72x128x128_S_d0_1_2_3 h_S_) main_v11 main_c_3
  let main_v13 : IVec S_ 1 := andi main_v8 main_v12
  let main_v14 : FVec F S3x72x256x256 .f32 := Host.absf main_arg3
  let main_cst_4 : FVec F S_ .f32 := constant S_ .f32 0x7F800000#32
  let main_v15 : FVec F S3x72x256x256 .f32 := broadcastInDim S3x72x256x256 ![] bcast_S_S3x72x256x256 main_cst_4
  let main_v16 : IVec S3x72x256x256 1 := cmpf .olt main_v14 main_v15
  fn_part1 (F := F) main_arg4 main_v13 main_v16
-- ==== Kernel.lean ====
abbrev S100000x3 : Shape := ⟨2, ![100000, 3]⟩
abbrev S3x72x64x64 : Shape := ⟨4, ![3, 72, 64, 64]⟩
abbrev S3x72x128x128 : Shape := ⟨4, ![3, 72, 128, 128]⟩
abbrev S3x72x256x256 : Shape := ⟨4, ![3, 72, 256, 256]⟩
abbrev S3x72x512x512 : Shape := ⟨4, ![3, 72, 512, 512]⟩
abbrev S2 : Shape := ⟨1, ![2]⟩
abbrev S_ : Shape := ⟨0, ![]⟩
abbrev S2x1 : Shape := ⟨2, ![2, 1]⟩
abbrev S100000x2 : Shape := ⟨2, ![100000, 2]⟩
abbrev S1x100000x2 : Shape := ⟨3, ![1, 100000, 2]⟩
abbrev S3x100000x2 : Shape := ⟨3, ![3, 100000, 2]⟩
abbrev S3x100000x1 : Shape := ⟨3, ![3, 100000, 1]⟩
abbrev S3x100000 : Shape := ⟨2, ![3, 100000]⟩
abbrev S3x72x100000 : Shape := ⟨3, ![3, 72, 100000]⟩
abbrev S3x100000x72 : Shape := ⟨3, ![3, 100000, 72]⟩
abbrev S1x3x100000x72 : Shape := ⟨4, ![1, 3, 100000, 72]⟩
abbrev S4x3x100000x72 : Shape := ⟨4, ![4, 3, 100000, 72]⟩
abbrev S1x3x100000x1 : Shape := ⟨4, ![1, 3, 100000, 1]⟩
abbrev S4x3x100000x1 : Shape := ⟨4, ![4, 3, 100000, 1]⟩
abbrev S4x100000x216 : Shape := ⟨3, ![4, 100000, 216]⟩
abbrev S1x3x1000x72 : Shape := ⟨4, ![1, 3, 1000, 72]⟩
abbrev S1x3x1000x1 : Shape := ⟨4, ![1, 3, 1000, 1]⟩
abbrev S1x1000x216 : Shape := ⟨3, ![1, 1000, 216]⟩
abbrev S1000x216 : Shape := ⟨2, ![1000, 216]⟩
abbrev S1x1x1000x72 : Shape := ⟨4, ![1, 1, 1000, 72]⟩
abbrev S1000x72 : Shape := ⟨2, ![1000, 72]⟩
abbrev S1x1x1000x1 : Shape := ⟨4, ![1, 1, 1000, 1]⟩
abbrev S1000x1 : Shape := ⟨2, ![1000, 1]⟩
abbrev S100000x4x216 : Shape := ⟨3, ![100000, 4, 216]⟩
abbrev S100000x864 : Shape := ⟨2, ![100000, 864]⟩

abbrev nBuf : Space → Nat
  | .hbm => 617
  | .vmem => 15
  | .smem => 0
  | _ => 0

abbrev hbmTy0_0 (i : Nat) : BufTy := match i % 128 with
  | 0 => ⟨S100000x3, .f32⟩
  | 1 => ⟨S3x72x64x64, .f32⟩
  | 2 => ⟨S3x72x128x128, .f32⟩
  | 3 => ⟨S3x72x256x256, .f32⟩
  | 4 => ⟨S3x72x512x512, .f32⟩
  | 5 => ⟨S2, .i32⟩
  | 6 => ⟨S2, .i32⟩
  | 7 => ⟨S2, .i32⟩
  | 8 => ⟨S_, .f32⟩
  | 9 => ⟨S100000x3, .f32⟩
  | 10 => ⟨S100000x3, .f32⟩
  | 11 => ⟨S_, .f32⟩
  | 12 => ⟨S100000x3, .f32⟩
  | 13 => ⟨S100000x3, .f32⟩
  | 14 => ⟨S_, .f32⟩
  | 15 => ⟨S100000x3, .f32⟩
  | 16 => ⟨S100000x3, .f32⟩
  | 17 => ⟨S_, .i32⟩
  | 18 => ⟨S2, .i32⟩
  | 19 => ⟨S2, .i1⟩
  | 20 => ⟨S_, .i32⟩
  | 21 => ⟨S2, .i32⟩
  | 22 => ⟨S2, .i32⟩
  | 23 => ⟨S2, .i32⟩
  | 24 => ⟨S2x1, .i32⟩
  | 25 => ⟨S100000x2, .f32⟩
  | 26 => ⟨S_, .i32⟩
  | 27 => ⟨S2, .i32⟩
  | 28 => ⟨S2, .i1⟩
  | 29 => ⟨S_, .i32⟩
  | 30 => ⟨S2, .i32⟩
  | 31 => ⟨S2, .i32⟩
  | 32 => ⟨S2, .i32⟩
  | 33 => ⟨S2x1, .i32⟩
  | 34 => ⟨S100000x2, .f32⟩
  | 35 => ⟨S_, .i32⟩
  | 36 => ⟨S2, .i32⟩
  | 37 => ⟨S2, .i1⟩
  | 38 => ⟨S_, .i32⟩
  | 39 => ⟨S2, .i32⟩
  | 40 => ⟨S2, .i32⟩
  | 41 => ⟨S2, .i32⟩
  | 42 => ⟨S2x1, .i32⟩
  | 43 => ⟨S100000x2, .f32⟩
  | 44 => ⟨S1x100000x2, .f32⟩
  | 45 => ⟨S1x100000x2, .f32⟩
  | 46 => ⟨S1x100000x2, .f32⟩
  | 47 => ⟨S3x100000x2, .f32⟩
  | 48 => ⟨S3x100000x1, .f32⟩
  | 49 => ⟨S3x100000, .f32⟩
  | 50 => ⟨S_, .f32⟩
  | 51 => ⟨S3x100000, .f32⟩
  | 52 => ⟨S3x100000, .f32⟩
  | 53 => ⟨S_, .f32⟩
  | 54 => ⟨S3x100000, .f32⟩
  | 55 => ⟨S3x100000, .f32⟩
  | 56 => ⟨S_, .f32⟩
  | 57 => ⟨S3x100000, .f32⟩
  | 58 => ⟨S3x100000, .f32⟩
  | 59 => ⟨S3x100000x1, .f32⟩
  | 60 => ⟨S3x100000, .f32⟩
  | 61 => ⟨S_, .f32⟩
  | 62 => ⟨S3x100000, .f32⟩
  | 63 => ⟨S3x100000, .f32⟩
  | 64 => ⟨S_, .f32⟩
  | 65 => ⟨S3x100000, .f32⟩
  | 66 => ⟨S3x100000, .f32⟩
  | 67 => ⟨S_, .f32⟩
  | 68 => ⟨S3x100000, .f32⟩
  | 69 => ⟨S3x100000, .f32⟩
  | 70 => ⟨S_, .f32⟩
  | 71 => ⟨S_, .i32⟩
  | 72 => ⟨S_, .f32⟩
  | 73 => ⟨S3x100000, .f32⟩
  | 74 => ⟨S3x100000, .f32⟩
  | 75 => ⟨S_, .f32⟩
  | 76 => ⟨S3x100000, .f32⟩
  | 77 => ⟨S3x100000, .f32⟩
  | 78 => ⟨S_, .f32⟩
  | 79 => ⟨S_, .i32⟩
  | 80 => ⟨S_, .f32⟩
  | 81 => ⟨S3x100000, .f32⟩
  | 82 => ⟨S3x100000, .f32⟩
  | 83 => ⟨S_, .f32⟩
  | 84 => ⟨S3x100000, .f32⟩
  | 85 => ⟨S3x100000, .f32⟩
  | 86 => ⟨S3x100000, .f32⟩
  | 87 => ⟨S3x100000, .f32⟩
  | 88 => ⟨S3x100000, .f32⟩
  | 89 => ⟨S3x100000x1, .f32⟩
  | 90 => ⟨S3x100000, .f32⟩
  | 91 => ⟨S3x100000x1, .f32⟩
  | 92 => ⟨S3x100000, .i32⟩
  | 93 => ⟨S3x100000, .i32⟩
  | 94 => ⟨S_, .i32⟩
  | 95 => ⟨S3x100000, .i32⟩
  | 96 => ⟨S3x100000, .i32⟩
  | 97 => ⟨S_, .i32⟩
  | 98 => ⟨S3x100000, .i32⟩
  | 99 => ⟨S3x100000, .i32⟩
  | 100 => ⟨S_, .i32⟩
  | 101 => ⟨S3x100000, .i32⟩
  | 102 => ⟨S3x100000, .i32⟩
  | 103 => ⟨S_, .i32⟩
  | 104 => ⟨S3x100000, .i32⟩
  | 105 => ⟨S3x100000, .i32⟩
  | 106 => ⟨S_, .i32⟩
  | 107 => ⟨S3x100000, .i32⟩
  | 108 => ⟨S3x100000, .i1⟩
  | 109 => ⟨S_, .i32⟩
  | 110 => ⟨S3x100000, .i32⟩
  | 111 => ⟨S3x100000, .i32⟩
  | 112 => ⟨S3x100000, .i32⟩
  | 113 => ⟨S_, .i32⟩
  | 114 => ⟨S3x100000, .i32⟩
  | 115 => ⟨S3x100000, .i1⟩
  | 116 => ⟨S_, .i32⟩
  | 117 => ⟨S3x100000, .i32⟩
  | 118 => ⟨S3x100000, .i32⟩
  | 119 => ⟨S3x100000, .i32⟩
  | 120 => ⟨S3x100000x1, .i32⟩
  | 121 => ⟨S3x100000x1, .i32⟩
  | 122 => ⟨S3x100000x2, .i32⟩
  | 123 => ⟨S3x72x100000, .f32⟩
  | 124 => ⟨S3x100000x72, .f32⟩
  | 125 => ⟨S_, .i32⟩
  | 126 => ⟨S3x100000, .i32⟩
  | 127 => ⟨S3x100000, .i1⟩
  | _ => ⟨S100000x3, .f32⟩

abbrev hbmTy0_1 (i : Nat) : BufTy := match i % 128 with
  | 0 => ⟨S_, .i32⟩
  | 1 => ⟨S3x100000, .i32⟩
  | 2 => ⟨S3x100000, .i32⟩
  | 3 => ⟨S3x100000, .i32⟩
  | 4 => ⟨S_, .i32⟩
  | 5 => ⟨S3x100000, .i32⟩
  | 6 => ⟨S3x100000, .i1⟩
  | 7 => ⟨S_, .i32⟩
  | 8 => ⟨S3x100000, .i32⟩
  | 9 => ⟨S3x100000, .i32⟩
  | 10 => ⟨S3x100000, .i32⟩
  | 11 => ⟨S3x100000x1, .i32⟩
  | 12 => ⟨S3x100000x1, .i32⟩
  | 13 => ⟨S3x100000x2, .i32⟩
  | 14 => ⟨S3x72x100000, .f32⟩
  | 15 => ⟨S3x100000x72, .f32⟩
  | 16 => ⟨S_, .i32⟩
  | 17 => ⟨S3x100000, .i32⟩
  | 18 => ⟨S3x100000, .i1⟩
  | 19 => ⟨S_, .i32⟩
  | 20 => ⟨S3x100000, .i32⟩
  | 21 => ⟨S3x100000, .i32⟩
  | 22 => ⟨S3x100000, .i32⟩
  | 23 => ⟨S_, .i32⟩
  | 24 => ⟨S3x100000, .i32⟩
  | 25 => ⟨S3x100000, .i1⟩
  | 26 => ⟨S_, .i32⟩
  | 27 => ⟨S3x100000, .i32⟩
  | 28 => ⟨S3x100000, .i32⟩
  | 29 => ⟨S3x100000, .i32⟩
  | 30 => ⟨S3x100000x1, .i32⟩
  | 31 => ⟨S3x100000x1, .i32⟩
  | 32 => ⟨S3x100000x2, .i32⟩
  | 33 => ⟨S3x72x100000, .f32⟩
  | 34 => ⟨S3x100000x72, .f32⟩
  | 35 => ⟨S_, .i32⟩
  | 36 => ⟨S3x100000, .i32⟩
  | 37 => ⟨S3x100000, .i1⟩
  | 38 => ⟨S_, .i32⟩
  | 39 => ⟨S3x100000, .i32⟩
  | 40 => ⟨S3x100000, .i32⟩
  | 41 => ⟨S3x100000, .i32⟩
  | 42 => ⟨S_, .i32⟩
  | 43 => ⟨S3x100000, .i32⟩
  | 44 => ⟨S3x100000, .i1⟩
  | 45 => ⟨S_, .i32⟩
  | 46 => ⟨S3x100000, .i32⟩
  | 47 => ⟨S3x100000, .i32⟩
  | 48 => ⟨S3x100000, .i32⟩
  | 49 => ⟨S3x100000x1, .i32⟩
  | 50 => ⟨S3x100000x1, .i32⟩
  | 51 => ⟨S3x100000x2, .i32⟩
  | 52 => ⟨S3x72x100000, .f32⟩
  | 53 => ⟨S3x100000x72, .f32⟩
  | 54 => ⟨S3x100000x1, .f32⟩
  | 55 => ⟨S3x100000, .f32⟩
  | 56 => ⟨S_, .f32⟩
  | 57 => ⟨S3x100000, .f32⟩
  | 58 => ⟨S3x100000, .f32⟩
  | 59 => ⟨S_, .f32⟩
  | 60 => ⟨S3x100000, .f32⟩
  | 61 => ⟨S3x100000, .f32⟩
  | 62 => ⟨S_, .f32⟩
  | 63 => ⟨S3x100000, .f32⟩
  | 64 => ⟨S3x100000, .f32⟩
  | 65 => ⟨S3x100000x1, .f32⟩
  | 66 => ⟨S3x100000, .f32⟩
  | 67 => ⟨S_, .f32⟩
  | 68 => ⟨S3x100000, .f32⟩
  | 69 => ⟨S3x100000, .f32⟩
  | 70 => ⟨S_, .f32⟩
  | 71 => ⟨S3x100000, .f32⟩
  | 72 => ⟨S3x100000, .f32⟩
  | 73 => ⟨S_, .f32⟩
  | 74 => ⟨S3x100000, .f32⟩
  | 75 => ⟨S3x100000, .f32⟩
  | 76 => ⟨S_, .f32⟩
  | 77 => ⟨S_, .i32⟩
  | 78 => ⟨S_, .f32⟩
  | 79 => ⟨S3x100000, .f32⟩
  | 80 => ⟨S3x100000, .f32⟩
  | 81 => ⟨S_, .f32⟩
  | 82 => ⟨S3x100000, .f32⟩
  | 83 => ⟨S3x100000, .f32⟩
  | 84 => ⟨S_, .f32⟩
  | 85 => ⟨S_, .i32⟩
  | 86 => ⟨S_, .f32⟩
  | 87 => ⟨S3x100000, .f32⟩
  | 88 => ⟨S3x100000, .f32⟩
  | 89 => ⟨S_, .f32⟩
  | 90 => ⟨S3x100000, .f32⟩
  | 91 => ⟨S3x100000, .f32⟩
  | 92 => ⟨S3x100000, .f32⟩
  | 93 => ⟨S3x100000, .f32⟩
  | 94 => ⟨S3x100000, .f32⟩
  | 95 => ⟨S3x100000x1, .f32⟩
  | 96 => ⟨S3x100000, .f32⟩
  | 97 => ⟨S3x100000x1, .f32⟩
  | 98 => ⟨S3x100000, .i32⟩
  | 99 => ⟨S3x100000, .i32⟩
  | 100 => ⟨S_, .i32⟩
  | 101 => ⟨S3x100000, .i32⟩
  | 102 => ⟨S3x100000, .i32⟩
  | 103 => ⟨S_, .i32⟩
  | 104 => ⟨S3x100000, .i32⟩
  | 105 => ⟨S3x100000, .i32⟩
  | 106 => ⟨S_, .i32⟩
  | 107 => ⟨S3x100000, .i32⟩
  | 108 => ⟨S3x100000, .i32⟩
  | 109 => ⟨S_, .i32⟩
  | 110 => ⟨S3x100000, .i32⟩
  | 111 => ⟨S3x100000, .i32⟩
  | 112 => ⟨S_, .i32⟩
  | 113 => ⟨S3x100000, .i32⟩
  | 114 => ⟨S3x100000, .i1⟩
  | 115 => ⟨S_, .i32⟩
  | 116 => ⟨S3x100000, .i32⟩
  | 117 => ⟨S3x100000, .i32⟩
  | 118 => ⟨S3x100000, .i32⟩
  | 119 => ⟨S_, .i32⟩
  | 120 => ⟨S3x100000, .i32⟩
  | 121 => ⟨S3x100000, .i1⟩
  | 122 => ⟨S_, .i32⟩
  | 123 => ⟨S3x100000, .i32⟩
  | 124 => ⟨S3x100000, .i32⟩
  | 125 => ⟨S3x100000, .i32⟩
  | 126 => ⟨S3x100000x1, .i32⟩
  | 127 => ⟨S3x100000x1, .i32⟩
  | _ => ⟨S100000x3, .f32⟩

abbrev hbmTy0_2 (i : Nat) : BufTy := match i % 128 with
  | 0 => ⟨S3x100000x2, .i32⟩
  | 1 => ⟨S3x72x100000, .f32⟩
  | 2 => ⟨S3x100000x72, .f32⟩
  | 3 => ⟨S_, .i32⟩
  | 4 => ⟨S3x100000, .i32⟩
  | 5 => ⟨S3x100000, .i1⟩
  | 6 => ⟨S_, .i32⟩
  | 7 => ⟨S3x100000, .i32⟩
  | 8 => ⟨S3x100000, .i32⟩
  | 9 => ⟨S3x100000, .i32⟩
  | 10 => ⟨S_, .i32⟩
  | 11 => ⟨S3x100000, .i32⟩
  | 12 => ⟨S3x100000, .i1⟩
  | 13 => ⟨S_, .i32⟩
  | 14 => ⟨S3x100000, .i32⟩
  | 15 => ⟨S3x100000, .i32⟩
  | 16 => ⟨S3x100000, .i32⟩
  | 17 => ⟨S3x100000x1, .i32⟩
  | 18 => ⟨S3x100000x1, .i32⟩
  | 19 => ⟨S3x100000x2, .i32⟩
  | 20 => ⟨S3x72x100000, .f32⟩
  | 21 => ⟨S3x100000x72, .f32⟩
  | 22 => ⟨S_, .i32⟩
  | 23 => ⟨S3x100000, .i32⟩
  | 24 => ⟨S3x100000, .i1⟩
  | 25 => ⟨S_, .i32⟩
  | 26 => ⟨S3x100000, .i32⟩
  | 27 => ⟨S3x100000, .i32⟩
  | 28 => ⟨S3x100000, .i32⟩
  | 29 => ⟨S_, .i32⟩
  | 30 => ⟨S3x100000, .i32⟩
  | 31 => ⟨S3x100000, .i1⟩
  | 32 => ⟨S_, .i32⟩
  | 33 => ⟨S3x100000, .i32⟩
  | 34 => ⟨S3x100000, .i32⟩
  | 35 => ⟨S3x100000, .i32⟩
  | 36 => ⟨S3x100000x1, .i32⟩
  | 37 => ⟨S3x100000x1, .i32⟩
  | 38 => ⟨S3x100000x2, .i32⟩
  | 39 => ⟨S3x72x100000, .f32⟩
  | 40 => ⟨S3x100000x72, .f32⟩
  | 41 => ⟨S_, .i32⟩
  | 42 => ⟨S3x100000, .i32⟩
  | 43 => ⟨S3x100000, .i1⟩
  | 44 => ⟨S_, .i32⟩
  | 45 => ⟨S3x100000, .i32⟩
  | 46 => ⟨S3x100000, .i32⟩
  | 47 => ⟨S3x100000, .i32⟩
  | 48 => ⟨S_, .i32⟩
  | 49 => ⟨S3x100000, .i32⟩
  | 50 => ⟨S3x100000, .i1⟩
  | 51 => ⟨S_, .i32⟩
  | 52 => ⟨S3x100000, .i32⟩
  | 53 => ⟨S3x100000, .i32⟩
  | 54 => ⟨S3x100000, .i32⟩
  | 55 => ⟨S3x100000x1, .i32⟩
  | 56 => ⟨S3x100000x1, .i32⟩
  | 57 => ⟨S3x100000x2, .i32⟩
  | 58 => ⟨S3x72x100000, .f32⟩
  | 59 => ⟨S3x100000x72, .f32⟩
  | 60 => ⟨S3x100000x1, .f32⟩
  | 61 => ⟨S3x100000, .f32⟩
  | 62 => ⟨S_, .f32⟩
  | 63 => ⟨S3x100000, .f32⟩
  | 64 => ⟨S3x100000, .f32⟩
  | 65 => ⟨S_, .f32⟩
  | 66 => ⟨S3x100000, .f32⟩
  | 67 => ⟨S3x100000, .f32⟩
  | 68 => ⟨S_, .f32⟩
  | 69 => ⟨S3x100000, .f32⟩
  | 70 => ⟨S3x100000, .f32⟩
  | 71 => ⟨S3x100000x1, .f32⟩
  | 72 => ⟨S3x100000, .f32⟩
  | 73 => ⟨S_, .f32⟩
  | 74 => ⟨S3x100000, .f32⟩
  | 75 => ⟨S3x100000, .f32⟩
  | 76 => ⟨S_, .f32⟩
  | 77 => ⟨S3x100000, .f32⟩
  | 78 => ⟨S3x100000, .f32⟩
  | 79 => ⟨S_, .f32⟩
  | 80 => ⟨S3x100000, .f32⟩
  | 81 => ⟨S3x100000, .f32⟩
  | 82 => ⟨S_, .f32⟩
  | 83 => ⟨S_, .i32⟩
  | 84 => ⟨S_, .f32⟩
  | 85 => ⟨S3x100000, .f32⟩
  | 86 => ⟨S3x100000, .f32⟩
  | 87 => ⟨S_, .f32⟩
  | 88 => ⟨S3x100000, .f32⟩
  | 89 => ⟨S3x100000, .f32⟩
  | 90 => ⟨S_, .f32⟩
  | 91 => ⟨S_, .i32⟩
  | 92 => ⟨S_, .f32⟩
  | 93 => ⟨S3x100000, .f32⟩
  | 94 => ⟨S3x100000, .f32⟩
  | 95 => ⟨S_, .f32⟩
  | 96 => ⟨S3x100000, .f32⟩
  | 97 => ⟨S3x100000, .f32⟩
  | 98 => ⟨S3x100000, .f32⟩
  | 99 => ⟨S3x100000, .f32⟩
  | 100 => ⟨S3x100000, .f32⟩
  | 101 => ⟨S3x100000x1, .f32⟩
  | 102 => ⟨S3x100000, .f32⟩
  | 103 => ⟨S3x100000x1, .f32⟩
  | 104 => ⟨S3x100000, .i32⟩
  | 105 => ⟨S3x100000, .i32⟩
  | 106 => ⟨S_, .i32⟩
  | 107 => ⟨S3x100000, .i32⟩
  | 108 => ⟨S3x100000, .i32⟩
  | 109 => ⟨S_, .i32⟩
  | 110 => ⟨S3x100000, .i32⟩
  | 111 => ⟨S3x100000, .i32⟩
  | 112 => ⟨S_, .i32⟩
  | 113 => ⟨S3x100000, .i32⟩
  | 114 => ⟨S3x100000, .i32⟩
  | 115 => ⟨S_, .i32⟩
  | 116 => ⟨S3x100000, .i32⟩
  | 117 => ⟨S3x100000, .i32⟩
  | 118 => ⟨S_, .i32⟩
  | 119 => ⟨S3x100000, .i32⟩
  | 120 => ⟨S3x100000, .i1⟩
  | 121 => ⟨S_, .i32⟩
  | 122 => ⟨S3x100000, .i32⟩
  | 123 => ⟨S3x100000, .i32⟩
  | 124 => ⟨S3x100000, .i32⟩
  | 125 => ⟨S_, .i32⟩
  | 126 => ⟨S3x100000, .i32⟩
  | 127 => ⟨S3x100000, .i1⟩
  | _ => ⟨S100000x3, .f32⟩

abbrev hbmTy0_3 (i : Nat) : BufTy := match i % 128 with
  | 0 => ⟨S_, .i32⟩
  | 1 => ⟨S3x100000, .i32⟩
  | 2 => ⟨S3x100000, .i32⟩
  | 3 => ⟨S3x100000, .i32⟩
  | 4 => ⟨S3x100000x1, .i32⟩
  | 5 => ⟨S3x100000x1, .i32⟩
  | 6 => ⟨S3x100000x2, .i32⟩
  | 7 => ⟨S3x72x100000, .f32⟩
  | 8 => ⟨S3x100000x72, .f32⟩
  | 9 => ⟨S_, .i32⟩
  | 10 => ⟨S3x100000, .i32⟩
  | 11 => ⟨S3x100000, .i1⟩
  | 12 => ⟨S_, .i32⟩
  | 13 => ⟨S3x100000, .i32⟩
  | 14 => ⟨S3x100000, .i32⟩
  | 15 => ⟨S3x100000, .i32⟩
  | 16 => ⟨S_, .i32⟩
  | 17 => ⟨S3x100000, .i32⟩
  | 18 => ⟨S3x100000, .i1⟩
  | 19 => ⟨S_, .i32⟩
  | 20 => ⟨S3x100000, .i32⟩
  | 21 => ⟨S3x100000, .i32⟩
  | 22 => ⟨S3x100000, .i32⟩
  | 23 => ⟨S3x100000x1, .i32⟩
  | 24 => ⟨S3x100000x1, .i32⟩
  | 25 => ⟨S3x100000x2, .i32⟩
  | 26 => ⟨S3x72x100000, .f32⟩
  | 27 => ⟨S3x100000x72, .f32⟩
  | 28 => ⟨S_, .i32⟩
  | 29 => ⟨S3x100000, .i32⟩
  | 30 => ⟨S3x100000, .i1⟩
  | 31 => ⟨S_, .i32⟩
  | 32 => ⟨S3x100000, .i32⟩
  | 33 => ⟨S3x100000, .i32⟩
  | 34 => ⟨S3x100000, .i32⟩
  | 35 => ⟨S_, .i32⟩
  | 36 => ⟨S3x100000, .i32⟩
  | 37 => ⟨S3x100000, .i1⟩
  | 38 => ⟨S_, .i32⟩
  | 39 => ⟨S3x100000, .i32⟩
  | 40 => ⟨S3x100000, .i32⟩
  | 41 => ⟨S3x100000, .i32⟩
  | 42 => ⟨S3x100000x1, .i32⟩
  | 43 => ⟨S3x100000x1, .i32⟩
  | 44 => ⟨S3x100000x2, .i32⟩
  | 45 => ⟨S3x72x100000, .f32⟩
  | 46 => ⟨S3x100000x72, .f32⟩
  | 47 => ⟨S_, .i32⟩
  | 48 => ⟨S3x100000, .i32⟩
  | 49 => ⟨S3x100000, .i1⟩
  | 50 => ⟨S_, .i32⟩
  | 51 => ⟨S3x100000, .i32⟩
  | 52 => ⟨S3x100000, .i32⟩
  | 53 => ⟨S3x100000, .i32⟩
  | 54 => ⟨S_, .i32⟩
  | 55 => ⟨S3x100000, .i32⟩
  | 56 => ⟨S3x100000, .i1⟩
  | 57 => ⟨S_, .i32⟩
  | 58 => ⟨S3x100000, .i32⟩
  | 59 => ⟨S3x100000, .i32⟩
  | 60 => ⟨S3x100000, .i32⟩
  | 61 => ⟨S3x100000x1, .i32⟩
  | 62 => ⟨S3x100000x1, .i32⟩
  | 63 => ⟨S3x100000x2, .i32⟩
  | 64 => ⟨S3x72x100000, .f32⟩
  | 65 => ⟨S3x100000x72, .f32⟩
  | 66 => ⟨S3x100000x1, .f32⟩
  | 67 => ⟨S3x100000, .f32⟩
  | 68 => ⟨S_, .f32⟩
  | 69 => ⟨S3x100000, .f32⟩
  | 70 => ⟨S3x100000, .f32⟩
  | 71 => ⟨S_, .f32⟩
  | 72 => ⟨S3x100000, .f32⟩
  | 73 => ⟨S3x100000, .f32⟩
  | 74 => ⟨S_, .f32⟩
  | 75 => ⟨S3x100000, .f32⟩
  | 76 => ⟨S3x100000, .f32⟩
  | 77 => ⟨S3x100000x1, .f32⟩
  | 78 => ⟨S3x100000, .f32⟩
  | 79 => ⟨S_, .f32⟩
  | 80 => ⟨S3x100000, .f32⟩
  | 81 => ⟨S3x100000, .f32⟩
  | 82 => ⟨S_, .f32⟩
  | 83 => ⟨S3x100000, .f32⟩
  | 84 => ⟨S3x100000, .f32⟩
  | 85 => ⟨S_, .f32⟩
  | 86 => ⟨S3x100000, .f32⟩
  | 87 => ⟨S3x100000, .f32⟩
  | 88 => ⟨S_, .f32⟩
  | 89 => ⟨S_, .i32⟩
  | 90 => ⟨S_, .f32⟩
  | 91 => ⟨S3x100000, .f32⟩
  | 92 => ⟨S3x100000, .f32⟩
  | 93 => ⟨S_, .f32⟩
  | 94 => ⟨S3x100000, .f32⟩
  | 95 => ⟨S3x100000, .f32⟩
  | 96 => ⟨S_, .f32⟩
  | 97 => ⟨S_, .i32⟩
  | 98 => ⟨S_, .f32⟩
  | 99 => ⟨S3x100000, .f32⟩
  | 100 => ⟨S3x100000, .f32⟩
  | 101 => ⟨S_, .f32⟩
  | 102 => ⟨S3x100000, .f32⟩
  | 103 => ⟨S3x100000, .f32⟩
  | 104 => ⟨S3x100000, .f32⟩
  | 105 => ⟨S3x100000, .f32⟩
  | 106 => ⟨S3x100000, .f32⟩
  | 107 => ⟨S3x100000x1, .f32⟩
  | 108 => ⟨S3x100000, .f32⟩
  | 109 => ⟨S3x100000x1, .f32⟩
  | 110 => ⟨S3x100000, .i32⟩
  | 111 => ⟨S3x100000, .i32⟩
  | 112 => ⟨S_, .i32⟩
  | 113 => ⟨S3x100000, .i32⟩
  | 114 => ⟨S3x100000, .i32⟩
  | 115 => ⟨S_, .i32⟩
  | 116 => ⟨S3x100000, .i32⟩
  | 117 => ⟨S3x100000, .i32⟩
  | 118 => ⟨S_, .i32⟩
  | 119 => ⟨S3x100000, .i32⟩
  | 120 => ⟨S3x100000, .i32⟩
  | 121 => ⟨S_, .i32⟩
  | 122 => ⟨S3x100000, .i32⟩
  | 123 => ⟨S3x100000, .i32⟩
  | 124 => ⟨S_, .i32⟩
  | 125 => ⟨S3x100000, .i32⟩
  | 126 => ⟨S3x100000, .i1⟩
  | 127 => ⟨S_, .i32⟩
  | _ => ⟨S100000x3, .f32⟩

abbrev hbmTy0_4 (i : Nat) : BufTy := match i % 128 with
  | 0 => ⟨S3x100000, .i32⟩
  | 1 => ⟨S3x100000, .i32⟩
  | 2 => ⟨S3x100000, .i32⟩
  | 3 => ⟨S_, .i32⟩
  | 4 => ⟨S3x100000, .i32⟩
  | 5 => ⟨S3x100000, .i1⟩
  | 6 => ⟨S_, .i32⟩
  | 7 => ⟨S3x100000, .i32⟩
  | 8 => ⟨S3x100000, .i32⟩
  | 9 => ⟨S3x100000, .i32⟩
  | 10 => ⟨S3x100000x1, .i32⟩
  | 11 => ⟨S3x100000x1, .i32⟩
  | 12 => ⟨S3x100000x2, .i32⟩
  | 13 => ⟨S3x72x100000, .f32⟩
  | 14 => ⟨S3x100000x72, .f32⟩
  | 15 => ⟨S_, .i32⟩
  | 16 => ⟨S3x100000, .i32⟩
  | 17 => ⟨S3x100000, .i1⟩
  | 18 => ⟨S_, .i32⟩
  | 19 => ⟨S3x100000, .i32⟩
  | 20 => ⟨S3x100000, .i32⟩
  | 21 => ⟨S3x100000, .i32⟩
  | 22 => ⟨S_, .i32⟩
  | 23 => ⟨S3x100000, .i32⟩
  | 24 => ⟨S3x100000, .i1⟩
  | 25 => ⟨S_, .i32⟩
  | 26 => ⟨S3x100000, .i32⟩
  | 27 => ⟨S3x100000, .i32⟩
  | 28 => ⟨S3x100000, .i32⟩
  | 29 => ⟨S3x100000x1, .i32⟩
  | 30 => ⟨S3x100000x1, .i32⟩
  | 31 => ⟨S3x100000x2, .i32⟩
  | 32 => ⟨S3x72x100000, .f32⟩
  | 33 => ⟨S3x100000x72, .f32⟩
  | 34 => ⟨S_, .i32⟩
  | 35 => ⟨S3x100000, .i32⟩
  | 36 => ⟨S3x100000, .i1⟩
  | 37 => ⟨S_, .i32⟩
  | 38 => ⟨S3x100000, .i32⟩
  | 39 => ⟨S3x100000, .i32⟩
  | 40 => ⟨S3x100000, .i32⟩
  | 41 => ⟨S_, .i32⟩
  | 42 => ⟨S3x100000, .i32⟩
  | 43 => ⟨S3x100000, .i1⟩
  | 44 => ⟨S_, .i32⟩
  | 45 => ⟨S3x100000, .i32⟩
  | 46 => ⟨S3x100000, .i32⟩
  | 47 => ⟨S3x100000, .i32⟩
  | 48 => ⟨S3x100000x1, .i32⟩
  | 49 => ⟨S3x100000x1, .i32⟩
  | 50 => ⟨S3x100000x2, .i32⟩
  | 51 => ⟨S3x72x100000, .f32⟩
  | 52 => ⟨S3x100000x72, .f32⟩
  | 53 => ⟨S_, .i32⟩
  | 54 => ⟨S3x100000, .i32⟩
  | 55 => ⟨S3x100000, .i1⟩
  | 56 => ⟨S_, .i32⟩
  | 57 => ⟨S3x100000, .i32⟩
  | 58 => ⟨S3x100000, .i32⟩
  | 59 => ⟨S3x100000, .i32⟩
  | 60 => ⟨S_, .i32⟩
  | 61 => ⟨S3x100000, .i32⟩
  | 62 => ⟨S3x100000, .i1⟩
  | 63 => ⟨S_, .i32⟩
  | 64 => ⟨S3x100000, .i32⟩
  | 65 => ⟨S3x100000, .i32⟩
  | 66 => ⟨S3x100000, .i32⟩
  | 67 => ⟨S3x100000x1, .i32⟩
  | 68 => ⟨S3x100000x1, .i32⟩
  | 69 => ⟨S3x100000x2, .i32⟩
  | 70 => ⟨S3x72x100000, .f32⟩
  | 71 => ⟨S3x100000x72, .f32⟩
  | 72 => ⟨S1x3x100000x72, .f32⟩
  | 73 => ⟨S1x3x100000x72, .f32⟩
  | 74 => ⟨S1x3x100000x72, .f32⟩
  | 75 => ⟨S1x3x100000x72, .f32⟩
  | 76 => ⟨S4x3x100000x72, .f32⟩
  | 77 => ⟨S1x3x100000x72, .f32⟩
  | 78 => ⟨S1x3x100000x72, .f32⟩
  | 79 => ⟨S1x3x100000x72, .f32⟩
  | 80 => ⟨S1x3x100000x72, .f32⟩
  | 81 => ⟨S4x3x100000x72, .f32⟩
  | 82 => ⟨S1x3x100000x72, .f32⟩
  | 83 => ⟨S1x3x100000x72, .f32⟩
  | 84 => ⟨S1x3x100000x72, .f32⟩
  | 85 => ⟨S1x3x100000x72, .f32⟩
  | 86 => ⟨S4x3x100000x72, .f32⟩
  | 87 => ⟨S1x3x100000x72, .f32⟩
  | 88 => ⟨S1x3x100000x72, .f32⟩
  | 89 => ⟨S1x3x100000x72, .f32⟩
  | 90 => ⟨S1x3x100000x72, .f32⟩
  | 91 => ⟨S4x3x100000x72, .f32⟩
  | 92 => ⟨S1x3x100000x1, .f32⟩
  | 93 => ⟨S1x3x100000x1, .f32⟩
  | 94 => ⟨S1x3x100000x1, .f32⟩
  | 95 => ⟨S1x3x100000x1, .f32⟩
  | 96 => ⟨S4x3x100000x1, .f32⟩
  | 97 => ⟨S1x3x100000x1, .f32⟩
  | 98 => ⟨S1x3x100000x1, .f32⟩
  | 99 => ⟨S1x3x100000x1, .f32⟩
  | 100 => ⟨S1x3x100000x1, .f32⟩
  | 101 => ⟨S4x3x100000x1, .f32⟩
  | 102 => ⟨S4x100000x216, .f32⟩
  | 103 => ⟨S100000x4x216, .f32⟩
  | 104 => ⟨S100000x864, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x3, .f32⟩

abbrev bufTy : (tb : Table) → Fin (tcTables nBuf tb) → BufTy
  | .hbm, ⟨i, _⟩ => hbmTy i
  | .local _ .vmem, ⟨0, _⟩ => ⟨S1x3x1000x72, .f32⟩
  | .local _ .vmem, ⟨1, _⟩ => ⟨S1x3x1000x72, .f32⟩
  | .local _ .vmem, ⟨2, _⟩ => ⟨S1x3x1000x72, .f32⟩
  | .local _ .vmem, ⟨3, _⟩ => ⟨S1x3x1000x72, .f32⟩
  | .local _ .vmem, ⟨4, _⟩ => ⟨S1x3x1000x72, .f32⟩
  | .local _ .vmem, ⟨5, _⟩ => ⟨S1x3x1000x72, .f32⟩
  | .local _ .vmem, ⟨6, _⟩ => ⟨S1x3x1000x72, .f32⟩
  | .local _ .vmem, ⟨7, _⟩ => ⟨S1x3x1000x72, .f32⟩
  | .local _ .vmem, ⟨8, _⟩ => ⟨S1x3x1000x1, .f32⟩
  | .local _ .vmem, ⟨9, _⟩ => ⟨S1x3x1000x1, .f32⟩
  | .local _ .vmem, ⟨10, _⟩ => ⟨S1x3x1000x1, .f32⟩
  | .local _ .vmem, ⟨11, _⟩ => ⟨S1x3x1000x1, .f32⟩
  | .local _ .vmem, ⟨12, _⟩ => ⟨S1x1000x216, .f32⟩
  | .local _ .vmem, ⟨13, _⟩ => ⟨S1x1000x216, .f32⟩
  | .local _ .vmem, ⟨14, _⟩ => ⟨S1000x216, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_v5 : Ref sig .tc := ⟨.hbm, 16, rfl⟩
abbrev main_c_4 : Ref sig .tc := ⟨.hbm, 17, rfl⟩
abbrev main_v6 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_c_7 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_c_9 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_cst_15 : Ref sig .tc := ⟨.hbm, 67, rfl⟩
abbrev main_v45 : Ref sig .tc := ⟨.hbm, 68, rfl⟩
abbrev main_v46 : Ref sig .tc := ⟨.hbm, 69, rfl⟩
abbrev main_cst_16 : Ref sig .tc := ⟨.hbm, 70, rfl⟩
abbrev main_c_17 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v47 : Ref sig .tc := ⟨.hbm, 77, rfl⟩
abbrev main_cst_18 : Ref sig .tc := ⟨.hbm, 78, rfl⟩
abbrev main_c_19 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_20 : Ref sig .tc := ⟨.hbm, 94, rfl⟩
abbrev main_v57 : Ref sig .tc := ⟨.hbm, 95, rfl⟩
abbrev main_v58 : Ref sig .tc := ⟨.hbm, 96, rfl⟩
abbrev main_c_21 : Ref sig .tc := ⟨.hbm, 97, rfl⟩
abbrev main_v59 : Ref sig .tc := ⟨.hbm, 98, rfl⟩
abbrev main_v60 : Ref sig .tc := ⟨.hbm, 99, rfl⟩
abbrev main_c_22 : Ref sig .tc := ⟨.hbm, 100, rfl⟩
abbrev main_v61 : Ref sig .tc := ⟨.hbm, 101, rfl⟩
abbrev main_v62 : Ref sig .tc := ⟨.hbm, 102, rfl⟩
abbrev main_c_23 : Ref sig .tc := ⟨.hbm, 103, rfl⟩
abbrev main_v63 : Ref sig .tc := ⟨.hbm, 104, rfl⟩
abbrev main_v64 : Ref sig .tc := ⟨.hbm, 105, rfl⟩
abbrev main_c_24 : Ref sig .tc := ⟨.hbm, 106, rfl⟩
abbrev main_v65 : Ref sig .tc := ⟨.hbm, 107, rfl⟩
abbrev main_v66 : Ref sig .tc := ⟨.hbm, 108, rfl⟩
abbrev main_c_25 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_26 : Ref sig .tc := ⟨.hbm, 113, rfl⟩
abbrev main_v70 : Ref sig .tc := ⟨.hbm, 114, rfl⟩
abbrev main_v71 : Ref sig .tc := ⟨.hbm, 115, rfl⟩
abbrev main_c_27 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_28 : Ref sig .tc := ⟨.hbm, 125, rfl⟩
abbrev main_v80 : Ref sig .tc := ⟨.hbm, 126, rfl⟩
abbrev main_v81 : Ref sig .tc := ⟨.hbm, 127, rfl⟩
abbrev main_c_29 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_30 : Ref sig .tc := ⟨.hbm, 132, rfl⟩
abbrev main_v85 : Ref sig .tc := ⟨.hbm, 133, rfl⟩
abbrev main_v86 : Ref sig .tc := ⟨.hbm, 134, rfl⟩
abbrev main_c_31 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_32 : Ref sig .tc := ⟨.hbm, 144, rfl⟩
abbrev main_v95 : Ref sig .tc := ⟨.hbm, 145, rfl⟩
abbrev main_v96 : Ref sig .tc := ⟨.hbm, 146, rfl⟩
abbrev main_c_33 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_34 : Ref sig .tc := ⟨.hbm, 151, rfl⟩
abbrev main_v100 : Ref sig .tc := ⟨.hbm, 152, rfl⟩
abbrev main_v101 : Ref sig .tc := ⟨.hbm, 153, rfl⟩
abbrev main_c_35 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_c_36 : Ref sig .tc := ⟨.hbm, 163, rfl⟩
abbrev main_v110 : Ref sig .tc := ⟨.hbm, 164, rfl⟩
abbrev main_v111 : Ref sig .tc := ⟨.hbm, 165, rfl⟩
abbrev main_c_37 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_38 : Ref sig .tc := ⟨.hbm, 170, rfl⟩
abbrev main_v115 : Ref sig .tc := ⟨.hbm, 171, rfl⟩
abbrev main_v116 : Ref sig .tc := ⟨.hbm, 172, rfl⟩
abbrev main_c_39 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_40 : Ref sig .tc := ⟨.hbm, 184, rfl⟩
abbrev main_v127 : Ref sig .tc := ⟨.hbm, 185, rfl⟩
abbrev main_v128 : Ref sig .tc := ⟨.hbm, 186, rfl⟩
abbrev main_cst_41 : Ref sig .tc := ⟨.hbm, 187, rfl⟩
abbrev main_v129 : Ref sig .tc := ⟨.hbm, 188, rfl⟩
abbrev main_v130 : Ref sig .tc := ⟨.hbm, 189, rfl⟩
abbrev main_cst_42 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_43 : Ref sig .tc := ⟨.hbm, 195, rfl⟩
abbrev main_v135 : Ref sig .tc := ⟨.hbm, 196, rfl⟩
abbrev main_v136 : Ref sig .tc := ⟨.hbm, 197, rfl⟩
abbrev main_cst_44 : Ref sig .tc := ⟨.hbm, 198, rfl⟩
abbrev main_v137 : Ref sig .tc := ⟨.hbm, 199, rfl⟩
abbrev main_v138 : Ref sig .tc := ⟨.hbm, 200, rfl⟩
abbrev main_cst_45 : Ref sig .tc := ⟨.hbm, 201, rfl⟩
abbrev main_v139 : Ref sig .tc := ⟨.hbm, 202, rfl⟩
abbrev main_v140 : Ref sig .tc := ⟨.hbm, 203, rfl⟩
abbrev main_cst_46 : Ref sig .tc := ⟨.hbm, 204, rfl⟩
abbrev main_c_47 : Ref sig .tc := ⟨.hbm, 205, rfl⟩
abbrev main_call2_v0 : Ref sig .tc := ⟨.hbm, 206, rfl⟩
abbrev main_call2_v1 : Ref sig .tc := ⟨.hbm, 207, rfl⟩
abbrev main_call2_v2 : Ref sig .tc := ⟨.hbm, 208, rfl⟩
abbrev main_call2_v3 : Ref sig .tc := ⟨.hbm, 209, rfl⟩
abbrev main_call2_v4 : Ref sig .tc := ⟨.hbm, 210, rfl⟩
abbrev main_v141 : Ref sig .tc := ⟨.hbm, 211, rfl⟩
abbrev main_cst_48 : Ref sig .tc := ⟨.hbm, 212, rfl⟩
abbrev main_c_49 : Ref sig .tc := ⟨.hbm, 213, rfl⟩
abbrev main_call3_v0 : Ref sig .tc := ⟨.hbm, 214, rfl⟩
abbrev main_call3_v1 : Ref sig .tc := ⟨.hbm, 215, rfl⟩
abbrev main_call3_v2 : Ref sig .tc := ⟨.hbm, 216, rfl⟩
abbrev main_call3_v3 : Ref sig .tc := ⟨.hbm, 217, rfl⟩
abbrev main_call3_v4 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_c_50 : Ref sig .tc := ⟨.hbm, 228, rfl⟩
abbrev main_v151 : Ref sig .tc := ⟨.hbm, 229, rfl⟩
abbrev main_v152 : Ref sig .tc := ⟨.hbm, 230, rfl⟩
abbrev main_c_51 : Ref sig .tc := ⟨.hbm, 231, rfl⟩
abbrev main_v153 : Ref sig .tc := ⟨.hbm, 232, rfl⟩
abbrev main_v154 : Ref sig .tc := ⟨.hbm, 233, rfl⟩
abbrev main_c_52 : Ref sig .tc := ⟨.hbm, 234, rfl⟩
abbrev main_v155 : Ref sig .tc := ⟨.hbm, 235, rfl⟩
abbrev main_v156 : Ref sig .tc := ⟨.hbm, 236, rfl⟩
abbrev main_c_53 : Ref sig .tc := ⟨.hbm, 237, rfl⟩
abbrev main_v157 : Ref sig .tc := ⟨.hbm, 238, rfl⟩
abbrev main_v158 : Ref sig .tc := ⟨.hbm, 239, rfl⟩
abbrev main_c_54 : Ref sig .tc := ⟨.hbm, 240, rfl⟩
abbrev main_v159 : Ref sig .tc := ⟨.hbm, 241, rfl⟩
abbrev main_v160 : Ref sig .tc := ⟨.hbm, 242, rfl⟩
abbrev main_c_55 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_c_56 : Ref sig .tc := ⟨.hbm, 247, rfl⟩
abbrev main_v164 : Ref sig .tc := ⟨.hbm, 248, rfl⟩
abbrev main_v165 : Ref sig .tc := ⟨.hbm, 249, rfl⟩
abbrev main_c_57 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_c_58 : Ref sig .tc := ⟨.hbm, 259, rfl⟩
abbrev main_v174 : Ref sig .tc := ⟨.hbm, 260, rfl⟩
abbrev main_v175 : Ref sig .tc := ⟨.hbm, 261, rfl⟩
abbrev main_c_59 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_c_60 : Ref sig .tc := ⟨.hbm, 266, rfl⟩
abbrev main_v179 : Ref sig .tc := ⟨.hbm, 267, rfl⟩
abbrev main_v180 : Ref sig .tc := ⟨.hbm, 268, rfl⟩
abbrev main_c_61 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_c_62 : Ref sig .tc := ⟨.hbm, 278, rfl⟩
abbrev main_v189 : Ref sig .tc := ⟨.hbm, 279, rfl⟩
abbrev main_v190 : Ref sig .tc := ⟨.hbm, 280, rfl⟩
abbrev main_c_63 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_c_64 : Ref sig .tc := ⟨.hbm, 285, rfl⟩
abbrev main_v194 : Ref sig .tc := ⟨.hbm, 286, rfl⟩
abbrev main_v195 : Ref sig .tc := ⟨.hbm, 287, rfl⟩
abbrev main_c_65 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_c_66 : Ref sig .tc := ⟨.hbm, 297, rfl⟩
abbrev main_v204 : Ref sig .tc := ⟨.hbm, 298, rfl⟩
abbrev main_v205 : Ref sig .tc := ⟨.hbm, 299, rfl⟩
abbrev main_c_67 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_c_68 : Ref sig .tc := ⟨.hbm, 304, rfl⟩
abbrev main_v209 : Ref sig .tc := ⟨.hbm, 305, rfl⟩
abbrev main_v210 : Ref sig .tc := ⟨.hbm, 306, rfl⟩
abbrev main_c_69 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_cst_70 : Ref sig .tc := ⟨.hbm, 318, rfl⟩
abbrev main_v221 : Ref sig .tc := ⟨.hbm, 319, rfl⟩
abbrev main_v222 : Ref sig .tc := ⟨.hbm, 320, rfl⟩
abbrev main_cst_71 : Ref sig .tc := ⟨.hbm, 321, rfl⟩
abbrev main_v223 : Ref sig .tc := ⟨.hbm, 322, rfl⟩
abbrev main_v224 : Ref sig .tc := ⟨.hbm, 323, rfl⟩
abbrev main_cst_72 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_v228 : Ref sig .tc := ⟨.hbm, 328, rfl⟩
abbrev main_cst_73 : Ref sig .tc := ⟨.hbm, 329, rfl⟩
abbrev main_v229 : Ref sig .tc := ⟨.hbm, 330, rfl⟩
abbrev main_v230 : Ref sig .tc := ⟨.hbm, 331, rfl⟩
abbrev main_cst_74 : Ref sig .tc := ⟨.hbm, 332, rfl⟩
abbrev main_v231 : Ref sig .tc := ⟨.hbm, 333, rfl⟩
abbrev main_v232 : Ref sig .tc := ⟨.hbm, 334, rfl⟩
abbrev main_cst_75 : Ref sig .tc := ⟨.hbm, 335, rfl⟩
abbrev main_v233 : Ref sig .tc := ⟨.hbm, 336, rfl⟩
abbrev main_v234 : Ref sig .tc := ⟨.hbm, 337, rfl⟩
abbrev main_cst_76 : Ref sig .tc := ⟨.hbm, 338, rfl⟩
abbrev main_c_77 : Ref sig .tc := ⟨.hbm, 339, rfl⟩
abbrev main_call4_v0 : Ref sig .tc := ⟨.hbm, 340, rfl⟩
abbrev main_call4_v1 : Ref sig .tc := ⟨.hbm, 341, rfl⟩
abbrev main_call4_v2 : Ref sig .tc := ⟨.hbm, 342, rfl⟩
abbrev main_call4_v3 : Ref sig .tc := ⟨.hbm, 343, rfl⟩
abbrev main_call4_v4 : Ref sig .tc := ⟨.hbm, 344, rfl⟩
abbrev main_v235 : Ref sig .tc := ⟨.hbm, 345, rfl⟩
abbrev main_cst_78 : Ref sig .tc := ⟨.hbm, 346, rfl⟩
abbrev main_c_79 : Ref sig .tc := ⟨.hbm, 347, rfl⟩
abbrev main_call5_v0 : Ref sig .tc := ⟨.hbm, 348, rfl⟩
abbrev main_call5_v1 : Ref sig .tc := ⟨.hbm, 349, rfl⟩
abbrev main_call5_v2 : Ref sig .tc := ⟨.hbm, 350, rfl⟩
abbrev main_call5_v3 : Ref sig .tc := ⟨.hbm, 351, rfl⟩
abbrev main_call5_v4 : Ref sig .tc := ⟨.hbm, 352, rfl⟩
abbrev main_v236 : Ref sig .tc := ⟨.hbm, 353, rfl⟩
abbrev main_v237 : Ref sig .tc := ⟨.hbm, 354, rfl⟩
abbrev main_v238 : Ref sig .tc := ⟨.hbm, 355, rfl⟩
abbrev main_v239 : Ref sig .tc := ⟨.hbm, 356, rfl⟩
abbrev main_v240 : Ref sig .tc := ⟨.hbm, 357, rfl⟩
abbrev main_v241 : Ref sig .tc := ⟨.hbm, 358, rfl⟩
abbrev main_v242 : Ref sig .tc := ⟨.hbm, 359, rfl⟩
abbrev main_v243 : Ref sig .tc := ⟨.hbm, 360, rfl⟩
abbrev main_v244 : Ref sig .tc := ⟨.hbm, 361, rfl⟩
abbrev main_c_80 : Ref sig .tc := ⟨.hbm, 362, rfl⟩
abbrev main_v245 : Ref sig .tc := ⟨.hbm, 363, rfl⟩
abbrev main_v246 : Ref sig .tc := ⟨.hbm, 364, rfl⟩
abbrev main_c_81 : Ref sig .tc := ⟨.hbm, 365, rfl⟩
abbrev main_v247 : Ref sig .tc := ⟨.hbm, 366, rfl⟩
abbrev main_v248 : Ref sig .tc := ⟨.hbm, 367, rfl⟩
abbrev main_c_82 : Ref sig .tc := ⟨.hbm, 368, rfl⟩
abbrev main_v249 : Ref sig .tc := ⟨.hbm, 369, rfl⟩
abbrev main_v250 : Ref sig .tc := ⟨.hbm, 370, rfl⟩
abbrev main_c_83 : Ref sig .tc := ⟨.hbm, 371, rfl⟩
abbrev main_v251 : Ref sig .tc := ⟨.hbm, 372, rfl⟩
abbrev main_v252 : Ref sig .tc := ⟨.hbm, 373, rfl⟩
abbrev main_c_84 : Ref sig .tc := ⟨.hbm, 374, rfl⟩
abbrev main_v253 : Ref sig .tc := ⟨.hbm, 375, rfl⟩
abbrev main_v254 : Ref sig .tc := ⟨.hbm, 376, rfl⟩
abbrev main_c_85 : Ref sig .tc := ⟨.hbm, 377, rfl⟩
abbrev main_v255 : Ref sig .tc := ⟨.hbm, 378, rfl⟩
abbrev main_v256 : Ref sig .tc := ⟨.hbm, 379, rfl⟩
abbrev main_v257 : Ref sig .tc := ⟨.hbm, 380, rfl⟩
abbrev main_c_86 : Ref sig .tc := ⟨.hbm, 381, rfl⟩
abbrev main_v258 : Ref sig .tc := ⟨.hbm, 382, rfl⟩
abbrev main_v259 : Ref sig .tc := ⟨.hbm, 383, rfl⟩
abbrev main_c_87 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩
abbrev main_v263 : Ref sig .tc := ⟨.hbm, 388, rfl⟩
abbrev main_v264 : Ref sig .tc := ⟨.hbm, 389, rfl⟩
abbrev main_v265 : Ref sig .tc := ⟨.hbm, 390, rfl⟩
abbrev main_v266 : Ref sig .tc := ⟨.hbm, 391, rfl⟩
abbrev main_v267 : Ref sig .tc := ⟨.hbm, 392, rfl⟩
abbrev main_c_88 : Ref sig .tc := ⟨.hbm, 393, rfl⟩
abbrev main_v268 : Ref sig .tc := ⟨.hbm, 394, rfl⟩
abbrev main_v269 : Ref sig .tc := ⟨.hbm, 395, rfl⟩
abbrev main_c_89 : Ref sig .tc := ⟨.hbm, 396, rfl⟩
abbrev main_v270 : Ref sig .tc := ⟨.hbm, 397, rfl⟩
abbrev main_v271 : Ref sig .tc := ⟨.hbm, 398, rfl⟩
abbrev main_v272 : Ref sig .tc := ⟨.hbm, 399, rfl⟩
abbrev main_c_90 : Ref sig .tc := ⟨.hbm, 400, rfl⟩
abbrev main_v273 : Ref sig .tc := ⟨.hbm, 401, rfl⟩
abbrev main_v274 : Ref sig .tc := ⟨.hbm, 402, rfl⟩
abbrev main_c_91 : Ref sig .tc := ⟨.hbm, 403, rfl⟩
abbrev main_v275 : Ref sig .tc := ⟨.hbm, 404, rfl⟩
abbrev main_v276 : Ref sig .tc := ⟨.hbm, 405, rfl⟩
abbrev main_v277 : Ref sig .tc := ⟨.hbm, 406, rfl⟩
abbrev main_v278 : Ref sig .tc := ⟨.hbm, 407, rfl⟩
abbrev main_v279 : Ref sig .tc := ⟨.hbm, 408, rfl⟩
abbrev main_v280 : Ref sig .tc := ⟨.hbm, 409, rfl⟩
abbrev main_v281 : Ref sig .tc := ⟨.hbm, 410, rfl⟩
abbrev main_v282 : Ref sig .tc := ⟨.hbm, 411, rfl⟩
abbrev main_c_92 : Ref sig .tc := ⟨.hbm, 412, rfl⟩
abbrev main_v283 : Ref sig .tc := ⟨.hbm, 413, rfl⟩
abbrev main_v284 : Ref sig .tc := ⟨.hbm, 414, rfl⟩
abbrev main_c_93 : Ref sig .tc := ⟨.hbm, 415, rfl⟩
abbrev main_v285 : Ref sig .tc := ⟨.hbm, 416, rfl⟩
abbrev main_v286 : Ref sig .tc := ⟨.hbm, 417, rfl⟩
abbrev main_v287 : Ref sig .tc := ⟨.hbm, 418, rfl⟩
abbrev main_c_94 : Ref sig .tc := ⟨.hbm, 419, rfl⟩
abbrev main_v288 : Ref sig .tc := ⟨.hbm, 420, rfl⟩
abbrev main_v289 : Ref sig .tc := ⟨.hbm, 421, rfl⟩
abbrev main_c_95 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_c_96 : Ref sig .tc := ⟨.hbm, 431, rfl⟩
abbrev main_v298 : Ref sig .tc := ⟨.hbm, 432, rfl⟩
abbrev main_v299 : Ref sig .tc := ⟨.hbm, 433, rfl⟩
abbrev main_c_97 : Ref sig .tc := ⟨.hbm, 434, rfl⟩
abbrev main_v300 : Ref sig .tc := ⟨.hbm, 435, rfl⟩
abbrev main_v301 : Ref sig .tc := ⟨.hbm, 436, rfl⟩
abbrev main_v302 : Ref sig .tc := ⟨.hbm, 437, rfl⟩
abbrev main_c_98 : Ref sig .tc := ⟨.hbm, 438, rfl⟩
abbrev main_v303 : Ref sig .tc := ⟨.hbm, 439, rfl⟩
abbrev main_v304 : Ref sig .tc := ⟨.hbm, 440, rfl⟩
abbrev main_c_99 : Ref sig .tc := ⟨.hbm, 441, rfl⟩
abbrev main_v305 : Ref sig .tc := ⟨.hbm, 442, rfl⟩
abbrev main_v306 : Ref sig .tc := ⟨.hbm, 443, rfl⟩
abbrev main_v307 : Ref sig .tc := ⟨.hbm, 444, rfl⟩
abbrev main_v308 : Ref sig .tc := ⟨.hbm, 445, rfl⟩
abbrev main_v309 : Ref sig .tc := ⟨.hbm, 446, rfl⟩
abbrev main_v310 : Ref sig .tc := ⟨.hbm, 447, rfl⟩
abbrev main_v311 : Ref sig .tc := ⟨.hbm, 448, rfl⟩
abbrev main_v312 : Ref sig .tc := ⟨.hbm, 449, rfl⟩
abbrev main_v313 : Ref sig .tc := ⟨.hbm, 450, rfl⟩
abbrev main_v314 : Ref sig .tc := ⟨.hbm, 451, rfl⟩
abbrev main_cst_100 : Ref sig .tc := ⟨.hbm, 452, rfl⟩
abbrev main_v315 : Ref sig .tc := ⟨.hbm, 453, rfl⟩
abbrev main_v316 : Ref sig .tc := ⟨.hbm, 454, rfl⟩
abbrev main_cst_101 : Ref sig .tc := ⟨.hbm, 455, rfl⟩
abbrev main_v317 : Ref sig .tc := ⟨.hbm, 456, rfl⟩
abbrev main_v318 : Ref sig .tc := ⟨.hbm, 457, rfl⟩
abbrev main_cst_102 : Ref sig .tc := ⟨.hbm, 458, rfl⟩
abbrev main_v319 : Ref sig .tc := ⟨.hbm, 459, rfl⟩
abbrev main_v320 : Ref sig .tc := ⟨.hbm, 460, rfl⟩
abbrev main_v321 : Ref sig .tc := ⟨.hbm, 461, rfl⟩
abbrev main_v322 : Ref sig .tc := ⟨.hbm, 462, rfl⟩
abbrev main_cst_103 : Ref sig .tc := ⟨.hbm, 463, rfl⟩
abbrev main_v323 : Ref sig .tc := ⟨.hbm, 464, rfl⟩
abbrev main_v324 : Ref sig .tc := ⟨.hbm, 465, rfl⟩
abbrev main_cst_104 : Ref sig .tc := ⟨.hbm, 466, rfl⟩
abbrev main_v325 : Ref sig .tc := ⟨.hbm, 467, rfl⟩
abbrev main_v326 : Ref sig .tc := ⟨.hbm, 468, rfl⟩
abbrev main_cst_105 : Ref sig .tc := ⟨.hbm, 469, rfl⟩
abbrev main_v327 : Ref sig .tc := ⟨.hbm, 470, rfl⟩
abbrev main_v328 : Ref sig .tc := ⟨.hbm, 471, rfl⟩
abbrev main_cst_106 : Ref sig .tc := ⟨.hbm, 472, rfl⟩
abbrev main_c_107 : Ref sig .tc := ⟨.hbm, 473, rfl⟩
abbrev main_call6_v0 : Ref sig .tc := ⟨.hbm, 474, rfl⟩
abbrev main_call6_v1 : Ref sig .tc := ⟨.hbm, 475, rfl⟩
abbrev main_call6_v2 : Ref sig .tc := ⟨.hbm, 476, rfl⟩
abbrev main_call6_v3 : Ref sig .tc := ⟨.hbm, 477, rfl⟩
abbrev main_call6_v4 : Ref sig .tc := ⟨.hbm, 478, rfl⟩
abbrev main_v329 : Ref sig .tc := ⟨.hbm, 479, rfl⟩
abbrev main_cst_108 : Ref sig .tc := ⟨.hbm, 480, rfl⟩
abbrev main_c_109 : Ref sig .tc := ⟨.hbm, 481, rfl⟩
abbrev main_call7_v0 : Ref sig .tc := ⟨.hbm, 482, rfl⟩
abbrev main_call7_v1 : Ref sig .tc := ⟨.hbm, 483, rfl⟩
abbrev main_call7_v2 : Ref sig .tc := ⟨.hbm, 484, rfl⟩
abbrev main_call7_v3 : Ref sig .tc := ⟨.hbm, 485, rfl⟩
abbrev main_call7_v4 : Ref sig .tc := ⟨.hbm, 486, rfl⟩
abbrev main_v330 : Ref sig .tc := ⟨.hbm, 487, rfl⟩
abbrev main_v331 : Ref sig .tc := ⟨.hbm, 488, rfl⟩
abbrev main_v332 : Ref sig .tc := ⟨.hbm, 489, rfl⟩
abbrev main_v333 : Ref sig .tc := ⟨.hbm, 490, rfl⟩
abbrev main_v334 : Ref sig .tc := ⟨.hbm, 491, rfl⟩
abbrev main_v335 : Ref sig .tc := ⟨.hbm, 492, rfl⟩
abbrev main_v336 : Ref sig .tc := ⟨.hbm, 493, rfl⟩
abbrev main_v337 : Ref sig .tc := ⟨.hbm, 494, rfl⟩
abbrev main_v338 : Ref sig .tc := ⟨.hbm, 495, rfl⟩
abbrev main_c_110 : Ref sig .tc := ⟨.hbm, 496, rfl⟩
abbrev main_v339 : Ref sig .tc := ⟨.hbm, 497, rfl⟩
abbrev main_v340 : Ref sig .tc := ⟨.hbm, 498, rfl⟩
abbrev main_c_111 : Ref sig .tc := ⟨.hbm, 499, rfl⟩
abbrev main_v341 : Ref sig .tc := ⟨.hbm, 500, rfl⟩
abbrev main_v342 : Ref sig .tc := ⟨.hbm, 501, rfl⟩
abbrev main_c_112 : Ref sig .tc := ⟨.hbm, 502, rfl⟩
abbrev main_v343 : Ref sig .tc := ⟨.hbm, 503, rfl⟩
abbrev main_v344 : Ref sig .tc := ⟨.hbm, 504, rfl⟩
abbrev main_c_113 : Ref sig .tc := ⟨.hbm, 505, rfl⟩
abbrev main_v345 : Ref sig .tc := ⟨.hbm, 506, rfl⟩
abbrev main_v346 : Ref sig .tc := ⟨.hbm, 507, rfl⟩
abbrev main_c_114 : Ref sig .tc := ⟨.hbm, 508, rfl⟩
abbrev main_v347 : Ref sig .tc := ⟨.hbm, 509, rfl⟩
abbrev main_v348 : Ref sig .tc := ⟨.hbm, 510, rfl⟩
abbrev main_c_115 : Ref sig .tc := ⟨.hbm, 511, rfl⟩
abbrev main_v349 : Ref sig .tc := ⟨.hbm, 512, rfl⟩
abbrev main_v350 : Ref sig .tc := ⟨.hbm, 513, rfl⟩
abbrev main_v351 : Ref sig .tc := ⟨.hbm, 514, rfl⟩
abbrev main_c_116 : Ref sig .tc := ⟨.hbm, 515, rfl⟩
abbrev main_v352 : Ref sig .tc := ⟨.hbm, 516, rfl⟩
abbrev main_v353 : Ref sig .tc := ⟨.hbm, 517, rfl⟩
abbrev main_c_117 : Ref sig .tc := ⟨.hbm, 518, rfl⟩
abbrev main_v354 : Ref sig .tc := ⟨.hbm, 519, rfl⟩
abbrev main_v355 : Ref sig .tc := ⟨.hbm, 520, rfl⟩
abbrev main_v356 : Ref sig .tc := ⟨.hbm, 521, rfl⟩
abbrev main_v357 : Ref sig .tc := ⟨.hbm, 522, rfl⟩
abbrev main_v358 : Ref sig .tc := ⟨.hbm, 523, rfl⟩
abbrev main_v359 : Ref sig .tc := ⟨.hbm, 524, rfl⟩
abbrev main_v360 : Ref sig .tc := ⟨.hbm, 525, rfl⟩
abbrev main_v361 : Ref sig .tc := ⟨.hbm, 526, rfl⟩
abbrev main_c_118 : Ref sig .tc := ⟨.hbm, 527, rfl⟩
abbrev main_v362 : Ref sig .tc := ⟨.hbm, 528, rfl⟩
abbrev main_v363 : Ref sig .tc := ⟨.hbm, 529, rfl⟩
abbrev main_c_119 : Ref sig .tc := ⟨.hbm, 530, rfl⟩
abbrev main_v364 : Ref sig .tc := ⟨.hbm, 531, rfl⟩
abbrev main_v365 : Ref sig .tc := ⟨.hbm, 532, rfl⟩
abbrev main_v366 : Ref sig .tc := ⟨.hbm, 533, rfl⟩
abbrev main_c_120 : Ref sig .tc := ⟨.hbm, 534, rfl⟩
abbrev main_v367 : Ref sig .tc := ⟨.hbm, 535, rfl⟩
abbrev main_v368 : Ref sig .tc := ⟨.hbm, 536, rfl⟩
abbrev main_c_121 : Ref sig .tc := ⟨.hbm, 537, rfl⟩
abbrev main_v369 : Ref sig .tc := ⟨.hbm, 538, rfl⟩
abbrev main_v370 : Ref sig .tc := ⟨.hbm, 539, rfl⟩
abbrev main_v371 : Ref sig .tc := ⟨.hbm, 540, rfl⟩
abbrev main_v372 : Ref sig .tc := ⟨.hbm, 541, rfl⟩
abbrev main_v373 : Ref sig .tc := ⟨.hbm, 542, rfl⟩
abbrev main_v374 : Ref sig .tc := ⟨.hbm, 543, rfl⟩
abbrev main_v375 : Ref sig .tc := ⟨.hbm, 544, rfl⟩
abbrev main_v376 : Ref sig .tc := ⟨.hbm, 545, rfl⟩
abbrev main_c_122 : Ref sig .tc := ⟨.hbm, 546, rfl⟩
abbrev main_v377 : Ref sig .tc := ⟨.hbm, 547, rfl⟩
abbrev main_v378 : Ref sig .tc := ⟨.hbm, 548, rfl⟩
abbrev main_c_123 : Ref sig .tc := ⟨.hbm, 549, rfl⟩
abbrev main_v379 : Ref sig .tc := ⟨.hbm, 550, rfl⟩
abbrev main_v380 : Ref sig .tc := ⟨.hbm, 551, rfl⟩
abbrev main_v381 : Ref sig .tc := ⟨.hbm, 552, rfl⟩
abbrev main_c_124 : Ref sig .tc := ⟨.hbm, 553, rfl⟩
abbrev main_v382 : Ref sig .tc := ⟨.hbm, 554, rfl⟩
abbrev main_v383 : Ref sig .tc := ⟨.hbm, 555, rfl⟩
abbrev main_c_125 : Ref sig .tc := ⟨.hbm, 556, rfl⟩
abbrev main_v384 : Ref sig .tc := ⟨.hbm, 557, rfl⟩
abbrev main_v385 : Ref sig .tc := ⟨.hbm, 558, rfl⟩
abbrev main_v386 : Ref sig .tc := ⟨.hbm, 559, rfl⟩
abbrev main_v387 : Ref sig .tc := ⟨.hbm, 560, rfl⟩
abbrev main_v388 : Ref sig .tc := ⟨.hbm, 561, rfl⟩
abbrev main_v389 : Ref sig .tc := ⟨.hbm, 562, rfl⟩
abbrev main_v390 : Ref sig .tc := ⟨.hbm, 563, rfl⟩
abbrev main_v391 : Ref sig .tc := ⟨.hbm, 564, rfl⟩
abbrev main_c_126 : Ref sig .tc := ⟨.hbm, 565, rfl⟩
abbrev main_v392 : Ref sig .tc := ⟨.hbm, 566, rfl⟩
abbrev main_v393 : Ref sig .tc := ⟨.hbm, 567, rfl⟩
abbrev main_c_127 : Ref sig .tc := ⟨.hbm, 568, rfl⟩
abbrev main_v394 : Ref sig .tc := ⟨.hbm, 569, rfl⟩
abbrev main_v395 : Ref sig .tc := ⟨.hbm, 570, rfl⟩
abbrev main_v396 : Ref sig .tc := ⟨.hbm, 571, rfl⟩
abbrev main_c_128 : Ref sig .tc := ⟨.hbm, 572, rfl⟩
abbrev main_v397 : Ref sig .tc := ⟨.hbm, 573, rfl⟩
abbrev main_v398 : Ref sig .tc := ⟨.hbm, 574, rfl⟩
abbrev main_c_129 : Ref sig .tc := ⟨.hbm, 575, rfl⟩
abbrev main_v399 : Ref sig .tc := ⟨.hbm, 576, rfl⟩
abbrev main_v400 : Ref sig .tc := ⟨.hbm, 577, rfl⟩
abbrev main_v401 : Ref sig .tc := ⟨.hbm, 578, rfl⟩
abbrev main_v402 : Ref sig .tc := ⟨.hbm, 579, rfl⟩
abbrev main_v403 : Ref sig .tc := ⟨.hbm, 580, rfl⟩
abbrev main_v404 : Ref sig .tc := ⟨.hbm, 581, rfl⟩
abbrev main_v405 : Ref sig .tc := ⟨.hbm, 582, rfl⟩
abbrev main_v406 : Ref sig .tc := ⟨.hbm, 583, rfl⟩
abbrev main_v407 : Ref sig .tc := ⟨.hbm, 584, rfl⟩
abbrev main_v408 : Ref sig .tc := ⟨.hbm, 585, rfl⟩
abbrev main_v409 : Ref sig .tc := ⟨.hbm, 586, rfl⟩
abbrev main_v410 : Ref sig .tc := ⟨.hbm, 587, rfl⟩
abbrev main_v411 : Ref sig .tc := ⟨.hbm, 588, rfl⟩
abbrev main_v412 : Ref sig .tc := ⟨.hbm, 589, rfl⟩
abbrev main_v413 : Ref sig .tc := ⟨.hbm, 590, rfl⟩
abbrev main_v414 : Ref sig .tc := ⟨.hbm, 591, rfl⟩
abbrev main_v415 : Ref sig .tc := ⟨.hbm, 592, rfl⟩
abbrev main_v416 : Ref sig .tc := ⟨.hbm, 593, rfl⟩
abbrev main_v417 : Ref sig .tc := ⟨.hbm, 594, rfl⟩
abbrev main_v418 : Ref sig .tc := ⟨.hbm, 595, rfl⟩
abbrev main_v419 : Ref sig .tc := ⟨.hbm, 596, rfl⟩
abbrev main_v420 : Ref sig .tc := ⟨.hbm, 597, rfl⟩
abbrev main_v421 : Ref sig .tc := ⟨.hbm, 598, rfl⟩
abbrev main_v422 : Ref sig .tc := ⟨.hbm, 599, rfl⟩
abbrev main_v423 : Ref sig .tc := ⟨.hbm, 600, rfl⟩
abbrev main_v424 : Ref sig .tc := ⟨.hbm, 601, rfl⟩
abbrev main_v425 : Ref sig .tc := ⟨.hbm, 602, rfl⟩
abbrev main_v426 : Ref sig .tc := ⟨.hbm, 603, rfl⟩
abbrev main_v427 : Ref sig .tc := ⟨.hbm, 604, rfl⟩
abbrev main_v428 : Ref sig .tc := ⟨.hbm, 605, rfl⟩
abbrev main_v429 : Ref sig .tc := ⟨.hbm, 606, rfl⟩
abbrev main_v430 : Ref sig .tc := ⟨.hbm, 607, rfl⟩
abbrev main_v431 : Ref sig .tc := ⟨.hbm, 608, rfl⟩
abbrev main_v432 : Ref sig .tc := ⟨.hbm, 609, rfl⟩
abbrev main_v433 : Ref sig .tc := ⟨.hbm, 610, rfl⟩
abbrev main_v434 : Ref sig .tc := ⟨.hbm, 611, rfl⟩
abbrev main_v435 : Ref sig .tc := ⟨.hbm, 612, rfl⟩
abbrev main_v436 : Ref sig .tc := ⟨.hbm, 613, rfl⟩
abbrev main_v437 : Ref sig .tc := ⟨.hbm, 614, rfl⟩
abbrev main_v438 : Ref sig .tc := ⟨.hbm, 615, rfl⟩
abbrev main_v439 : Ref sig .tc := ⟨.hbm, 616, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![100, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x3x1000x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1000x72 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1000x72 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1000x72 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1000x216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S100000x3 : S_.BroadcastsInDim S100000x3 (![] : Fin 0 → Fin S100000x3.rank)
  bcast_S_S2 : S_.BroadcastsInDim S2 (![] : Fin 0 → Fin S2.rank)
  bcast_S2_S2x1_0 : S2.BroadcastsInDim S2x1 (![0] : Fin 1 → Fin S2x1.rank)
  bcast_S100000x2_S1x100000x2_1_2 : S100000x2.BroadcastsInDim S1x100000x2 (![1, 2] : Fin 2 → Fin S1x100000x2.rank)
  concatenates_S1x100000x2_S1x100000x2_S1x100000x2_S3x100000x2_d0 : Shape.Concatenates [S1x100000x2, S1x100000x2, S1x100000x2] S3x100000x2 0
  slices_S3x100000x2_S3x100000x1_0_0_0 : S3x100000x2.Slices ![0, 0, 0] S3x100000x1
  shapeCasts_S3x100000x1_S3x100000 : S3x100000x1.ShapeCasts S3x100000
  bcast_S_S3x100000 : S_.BroadcastsInDim S3x100000 (![] : Fin 0 → Fin S3x100000.rank)
  slices_S3x100000x2_S3x100000x1_0_0_1 : S3x100000x2.Slices ![0, 0, 1] S3x100000x1
  bcast_S3x100000_S3x100000x1_0_1 : S3x100000.BroadcastsInDim S3x100000x1 (![0, 1] : Fin 2 → Fin S3x100000x1.rank)
  concatenates_S3x100000x1_S3x100000x1_S3x100000x2_d2 : Shape.Concatenates [S3x100000x1, S3x100000x1] S3x100000x2 2
  transposes_S3x72x100000_S3x100000x72_0_2_1 : S3x72x100000.Transposes [0, 2, 1] S3x100000x72
  bcast_S3x100000x72_S1x3x100000x72_1_2_3 : S3x100000x72.BroadcastsInDim S1x3x100000x72 (![1, 2, 3] : Fin 3 → Fin S1x3x100000x72.rank)
  concatenates_S1x3x100000x72_S1x3x100000x72_S1x3x100000x72_S1x3x100000x72_S4x3x100000x72_d0 : Shape.Concatenates [S1x3x100000x72, S1x3x100000x72, S1x3x100000x72, S1x3x100000x72] S4x3x100000x72 0
  bcast_S3x100000x1_S1x3x100000x1_1_2_3 : S3x100000x1.BroadcastsInDim S1x3x100000x1 (![1, 2, 3] : Fin 3 → Fin S1x3x100000x1.rank)
  concatenates_S1x3x100000x1_S1x3x100000x1_S1x3x100000x1_S1x3x100000x1_S4x3x100000x1_d0 : Shape.Concatenates [S1x3x100000x1, S1x3x100000x1, S1x3x100000x1, S1x3x100000x1] S4x3x100000x1 0
  inb_S1000x216_S1000x216_0_0 : ∀ a, (![0, 0] : Fin 2 → Nat) a + S1000x216.size a ≤ S1000x216.size a
  h_S1000x216 : 0 < S1000x216.numel
  shapeCasts_S1000x216_S1000x216 : S1000x216.ShapeCasts S1000x216
  inb_S1x3x1000x72_S1x1x1000x72_0_0_0_0 : ∀ a, (![0, 0, 0, 0] : Fin 4 → Nat) a + S1x1x1000x72.size a ≤ S1x3x1000x72.size a
  h_S1x1x1000x72 : 0 < S1x1x1000x72.numel
  shapeCasts_S1x1x1000x72_S1000x72 : S1x1x1000x72.ShapeCasts S1000x72
  inb_S1x3x1000x1_S1x1x1000x1_0_0_0_0 : ∀ a, (![0, 0, 0, 0] : Fin 4 → Nat) a + S1x1x1000x1.size a ≤ S1x3x1000x1.size a
  h_S1x1x1000x1 : 0 < S1x1x1000x1.numel
  shapeCasts_S1x1x1000x1_S1000x1 : S1x1x1000x1.ShapeCasts S1000x1
  broadcasts_S1000x1_S1000x72 : S1000x1.Broadcasts S1000x72
  inb_S1000x216_S1000x72_0_0 : ∀ a, (![0, 0] : Fin 2 → Nat) a + S1000x72.size a ≤ S1000x216.size a
  h_S1000x72 : 0 < S1000x72.numel
  shapeCasts_S1000x72_S1000x72 : S1000x72.ShapeCasts S1000x72
  inb_S1x3x1000x72_S1x1x1000x72_0_1_0_0 : ∀ a, (![0, 1, 0, 0] : Fin 4 → Nat) a + S1x1x1000x72.size a ≤ S1x3x1000x72.size a
  inb_S1x3x1000x1_S1x1x1000x1_0_1_0_0 : ∀ a, (![0, 1, 0, 0] : Fin 4 → Nat) a + S1x1x1000x1.size a ≤ S1x3x1000x1.size a
  inb_S1000x216_S1000x72_0_72 : ∀ a, (![0, 72] : Fin 2 → Nat) a + S1000x72.size a ≤ S1000x216.size a
  inb_S1x3x1000x72_S1x1x1000x72_0_2_0_0 : ∀ a, (![0, 2, 0, 0] : Fin 4 → Nat) a + S1x1x1000x72.size a ≤ S1x3x1000x72.size a
  inb_S1x3x1000x1_S1x1x1000x1_0_2_0_0 : ∀ a, (![0, 2, 0, 0] : Fin 4 → Nat) a + S1x1x1000x1.size a ≤ S1x3x1000x1.size a
  inb_S1000x216_S1000x72_0_144 : ∀ a, (![0, 144] : Fin 2 → Nat) a + S1000x72.size a ≤ S1000x216.size a
  inb_S1x1000x216_S1x1000x216_0_0_0 : ∀ a, (![0, 0, 0] : Fin 3 → Nat) a + S1x1000x216.size a ≤ S1x1000x216.size a
  h_S1x1000x216 : 0 < S1x1000x216.numel
  shapeCasts_S1x1000x216_S1000x216 : S1x1000x216.ShapeCasts S1000x216
  shapeCasts_S1000x216_S1x1000x216 : S1000x216.ShapeCasts S1x1000x216
  transposes_S4x100000x216_S100000x4x216_1_0_2 : S4x100000x216.Transposes [1, 0, 2] S100000x4x216
  shapeCasts_S100000x4x216_S100000x864 : S100000x4x216.ShapeCasts S100000x864
  gather_S100000x3_S2x1_S100000x2_0_1_n_n_1_1_1000001_wf : GatherDims.WF S100000x3 S2x1 S100000x2 [0] [1] [] [1] [] 1 ![100000, 1]
  gather_S3x72x64x64_S3x100000x2_S3x72x100000_1_23_0_0_23_2_17211_wf : GatherDims.WF S3x72x64x64 S3x100000x2 S3x72x100000 [1] [2, 3] [0] [2, 3] [0] 2 ![1, 72, 1, 1]
  gather_S3x72x128x128_S3x100000x2_S3x72x100000_1_23_0_0_23_2_17211_wf : GatherDims.WF S3x72x128x128 S3x100000x2 S3x72x100000 [1] [2, 3] [0] [2, 3] [0] 2 ![1, 72, 1, 1]
  gather_S3x72x256x256_S3x100000x2_S3x72x100000_1_23_0_0_23_2_17211_wf : GatherDims.WF S3x72x256x256 S3x100000x2 S3x72x100000 [1] [2, 3] [0] [2, 3] [0] 2 ![1, 72, 1, 1]
  gather_S3x72x512x512_S3x100000x2_S3x72x100000_1_23_0_0_23_2_17211_wf : GatherDims.WF S3x72x512x512 S3x100000x2 S3x72x100000 [1] [2, 3] [0] [2, 3] [0] 2 ![1, 72, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1000x72.size a ≤ S4x3x100000x72.size a
  hwx0_0 : ∀ i : grid0.Coords, EltTy.bits .f32 = 32 ∨ (Rect.block (s := S4x3x100000x72) S1x3x1000x72.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1000x72.size a ≤ S4x3x100000x72.size a
  hwx0_1 : ∀ i : grid0.Coords, EltTy.bits .f32 = 32 ∨ (Rect.block (s := S4x3x100000x72) S1x3x1000x72.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1000x72.size a ≤ S4x3x100000x72.size a
  hwx0_2 : ∀ i : grid0.Coords, EltTy.bits .f32 = 32 ∨ (Rect.block (s := S4x3x100000x72) S1x3x1000x72.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x1000x72.size a ≤ S4x3x100000x72.size a
  hwx0_3 : ∀ i : grid0.Coords, EltTy.bits .f32 = 32 ∨ (Rect.block (s := S4x3x100000x72) S1x3x1000x72.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x1000x1.size a ≤ S4x3x100000x1.size a
  hwx0_4 : ∀ i : grid0.Coords, EltTy.bits .f32 = 32 ∨ (Rect.block (s := S4x3x100000x1) S1x3x1000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x1000x1.size a ≤ S4x3x100000x1.size a
  hwx0_5 : ∀ i : grid0.Coords, EltTy.bits .f32 = 32 ∨ (Rect.block (s := S4x3x100000x1) S1x3x1000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1000x216.size a ≤ S4x100000x216.size a
  hwx0_6 : ∀ i : grid0.Coords, EltTy.bits .f32 = 32 ∨ (Rect.block (s := S4x100000x216) S1x1000x216.size (cc0_transform_6 i) (hinb0_6 i)).WholeWords (EltTy.packing .f32)

variable [Facts₀]

def gather_S100000x3_S2x1_S100000x2_0_1_n_n_1_1_1000001 : GatherDims S100000x3 S2x1 S100000x2 where
  offsetDims := [0]
  collapsedSliceDims := [1]
  operandBatchingDims := []
  startIndicesBatchingDims := []
  startIndexMap := [1]
  indexVectorDim := 1
  sliceSizes := ![100000, 1]
  wf := gather_S100000x3_S2x1_S100000x2_0_1_n_n_1_1_1000001_wf
def gather_S3x72x64x64_S3x100000x2_S3x72x100000_1_23_0_0_23_2_17211 : GatherDims S3x72x64x64 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x64x64_S3x100000x2_S3x72x100000_1_23_0_0_23_2_17211_wf
def gather_S3x72x128x128_S3x100000x2_S3x72x100000_1_23_0_0_23_2_17211 : GatherDims S3x72x128x128 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x128x128_S3x100000x2_S3x72x100000_1_23_0_0_23_2_17211_wf
def gather_S3x72x256x256_S3x100000x2_S3x72x100000_1_23_0_0_23_2_17211 : GatherDims S3x72x256x256 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x256x256_S3x100000x2_S3x72x100000_1_23_0_0_23_2_17211_wf
def gather_S3x72x512x512_S3x100000x2_S3x72x100000_1_23_0_0_23_2_17211 : GatherDims S3x72x512x512 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x512x512_S3x100000x2_S3x72x100000_1_23_0_0_23_2_17211_wf

abbrev win0_0 : Pipeline.Window sig grid0 :=
  Pipeline.Window.ofSpec (Memref.whole main_v411) S1x3x1000x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v416) S1x3x1000x72.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v421) S1x3x1000x72.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v426) S1x3x1000x72.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v431) S1x3x1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v436) S1x3x1000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v437) S1x1000x216.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x3 : Shape := ⟨2, ![100000, 3]⟩
abbrev S3x72x64x64 : Shape := ⟨4, ![3, 72, 64, 64]⟩
abbrev S3x72x128x128 : Shape := ⟨4, ![3, 72, 128, 128]⟩
abbrev S3x72x256x256 : Shape := ⟨4, ![3, 72, 256, 256]⟩
abbrev S3x72x512x512 : Shape := ⟨4, ![3, 72, 512, 512]⟩
abbrev S2 : Shape := ⟨1, ![2]⟩
abbrev S_ : Shape := ⟨0, ![]⟩
abbrev S2x1 : Shape := ⟨2, ![2, 1]⟩
abbrev S100000x2 : Shape := ⟨2, ![100000, 2]⟩
abbrev S1x100000x2 : Shape := ⟨3, ![1, 100000, 2]⟩
abbrev S3x100000x2 : Shape := ⟨3, ![3, 100000, 2]⟩
abbrev S3x100000x1 : Shape := ⟨3, ![3, 100000, 1]⟩
abbrev S3x100000 : Shape := ⟨2, ![3, 100000]⟩
abbrev S3x72x100000 : Shape := ⟨3, ![3, 72, 100000]⟩
abbrev S3x100000x72 : Shape := ⟨3, ![3, 100000, 72]⟩
abbrev S100000x3x72 : Shape := ⟨3, ![100000, 3, 72]⟩
abbrev S100000x216 : Shape := ⟨2, ![100000, 216]⟩
abbrev S100000x864 : Shape := ⟨2, ![100000, 864]⟩

abbrev nBuf : Space → Nat
  | .hbm => 692
  | .vmem => 0
  | .smem => 0
  | _ => 0

abbrev hbmTy0_0 (i : Nat) : BufTy := match i % 128 with
  | 0 => ⟨S100000x3, .f32⟩
  | 1 => ⟨S3x72x64x64, .f32⟩
  | 2 => ⟨S3x72x128x128, .f32⟩
  | 3 => ⟨S3x72x256x256, .f32⟩
  | 4 => ⟨S3x72x512x512, .f32⟩
  | 5 => ⟨S2, .i32⟩
  | 6 => ⟨S2, .i32⟩
  | 7 => ⟨S2, .i32⟩
  | 8 => ⟨S_, .f32⟩
  | 9 => ⟨S100000x3, .f32⟩
  | 10 => ⟨S100000x3, .f32⟩
  | 11 => ⟨S_, .f32⟩
  | 12 => ⟨S100000x3, .f32⟩
  | 13 => ⟨S100000x3, .f32⟩
  | 14 => ⟨S_, .f32⟩
  | 15 => ⟨S100000x3, .f32⟩
  | 16 => ⟨S100000x3, .f32⟩
  | 17 => ⟨S_, .i32⟩
  | 18 => ⟨S2, .i32⟩
  | 19 => ⟨S2, .i1⟩
  | 20 => ⟨S_, .i32⟩
  | 21 => ⟨S2, .i32⟩
  | 22 => ⟨S2, .i32⟩
  | 23 => ⟨S2, .i32⟩
  | 24 => ⟨S2x1, .i32⟩
  | 25 => ⟨S100000x2, .f32⟩
  | 26 => ⟨S_, .i32⟩
  | 27 => ⟨S2, .i32⟩
  | 28 => ⟨S2, .i1⟩
  | 29 => ⟨S_, .i32⟩
  | 30 => ⟨S2, .i32⟩
  | 31 => ⟨S2, .i32⟩
  | 32 => ⟨S2, .i32⟩
  | 33 => ⟨S2x1, .i32⟩
  | 34 => ⟨S100000x2, .f32⟩
  | 35 => ⟨S_, .i32⟩
  | 36 => ⟨S2, .i32⟩
  | 37 => ⟨S2, .i1⟩
  | 38 => ⟨S_, .i32⟩
  | 39 => ⟨S2, .i32⟩
  | 40 => ⟨S2, .i32⟩
  | 41 => ⟨S2, .i32⟩
  | 42 => ⟨S2x1, .i32⟩
  | 43 => ⟨S100000x2, .f32⟩
  | 44 => ⟨S1x100000x2, .f32⟩
  | 45 => ⟨S1x100000x2, .f32⟩
  | 46 => ⟨S1x100000x2, .f32⟩
  | 47 => ⟨S3x100000x2, .f32⟩
  | 48 => ⟨S3x100000x1, .f32⟩
  | 49 => ⟨S3x100000, .f32⟩
  | 50 => ⟨S_, .f32⟩
  | 51 => ⟨S3x100000, .f32⟩
  | 52 => ⟨S3x100000, .f32⟩
  | 53 => ⟨S_, .f32⟩
  | 54 => ⟨S3x100000, .f32⟩
  | 55 => ⟨S3x100000, .f32⟩
  | 56 => ⟨S_, .f32⟩
  | 57 => ⟨S3x100000, .f32⟩
  | 58 => ⟨S3x100000, .f32⟩
  | 59 => ⟨S3x100000x1, .f32⟩
  | 60 => ⟨S3x100000, .f32⟩
  | 61 => ⟨S_, .f32⟩
  | 62 => ⟨S3x100000, .f32⟩
  | 63 => ⟨S3x100000, .f32⟩
  | 64 => ⟨S_, .f32⟩
  | 65 => ⟨S3x100000, .f32⟩
  | 66 => ⟨S3x100000, .f32⟩
  | 67 => ⟨S_, .f32⟩
  | 68 => ⟨S3x100000, .f32⟩
  | 69 => ⟨S3x100000, .f32⟩
  | 70 => ⟨S_, .f32⟩
  | 71 => ⟨S_, .i32⟩
  | 72 => ⟨S_, .f32⟩
  | 73 => ⟨S3x100000, .f32⟩
  | 74 => ⟨S3x100000, .f32⟩
  | 75 => ⟨S_, .f32⟩
  | 76 => ⟨S3x100000, .f32⟩
  | 77 => ⟨S3x100000, .f32⟩
  | 78 => ⟨S_, .f32⟩
  | 79 => ⟨S_, .i32⟩
  | 80 => ⟨S_, .f32⟩
  | 81 => ⟨S3x100000, .f32⟩
  | 82 => ⟨S3x100000, .f32⟩
  | 83 => ⟨S_, .f32⟩
  | 84 => ⟨S3x100000, .f32⟩
  | 85 => ⟨S3x100000, .f32⟩
  | 86 => ⟨S3x100000, .f32⟩
  | 87 => ⟨S3x100000, .f32⟩
  | 88 => ⟨S3x100000, .f32⟩
  | 89 => ⟨S3x100000x1, .f32⟩
  | 90 => ⟨S3x100000, .f32⟩
  | 91 => ⟨S3x100000x1, .f32⟩
  | 92 => ⟨S3x100000, .i32⟩
  | 93 => ⟨S3x100000, .i32⟩
  | 94 => ⟨S_, .i32⟩
  | 95 => ⟨S3x100000, .i32⟩
  | 96 => ⟨S3x100000, .i32⟩
  | 97 => ⟨S_, .i32⟩
  | 98 => ⟨S3x100000, .i32⟩
  | 99 => ⟨S3x100000, .i32⟩
  | 100 => ⟨S_, .i32⟩
  | 101 => ⟨S3x100000, .i32⟩
  | 102 => ⟨S3x100000, .i32⟩
  | 103 => ⟨S_, .i32⟩
  | 104 => ⟨S3x100000, .i32⟩
  | 105 => ⟨S3x100000, .i32⟩
  | 106 => ⟨S_, .i32⟩
  | 107 => ⟨S3x100000, .i32⟩
  | 108 => ⟨S3x100000, .i1⟩
  | 109 => ⟨S_, .i32⟩
  | 110 => ⟨S3x100000, .i32⟩
  | 111 => ⟨S3x100000, .i32⟩
  | 112 => ⟨S3x100000, .i32⟩
  | 113 => ⟨S_, .i32⟩
  | 114 => ⟨S3x100000, .i32⟩
  | 115 => ⟨S3x100000, .i1⟩
  | 116 => ⟨S_, .i32⟩
  | 117 => ⟨S3x100000, .i32⟩
  | 118 => ⟨S3x100000, .i32⟩
  | 119 => ⟨S3x100000, .i32⟩
  | 120 => ⟨S3x100000x1, .i32⟩
  | 121 => ⟨S3x100000x1, .i32⟩
  | 122 => ⟨S3x100000x2, .i32⟩
  | 123 => ⟨S3x72x100000, .f32⟩
  | 124 => ⟨S3x100000x72, .f32⟩
  | 125 => ⟨S_, .i32⟩
  | 126 => ⟨S3x100000, .i32⟩
  | 127 => ⟨S3x100000, .i1⟩
  | _ => ⟨S100000x3, .f32⟩

abbrev hbmTy0_1 (i : Nat) : BufTy := match i % 128 with
  | 0 => ⟨S_, .i32⟩
  | 1 => ⟨S3x100000, .i32⟩
  | 2 => ⟨S3x100000, .i32⟩
  | 3 => ⟨S3x100000, .i32⟩
  | 4 => ⟨S_, .i32⟩
  | 5 => ⟨S3x100000, .i32⟩
  | 6 => ⟨S3x100000, .i1⟩
  | 7 => ⟨S_, .i32⟩
  | 8 => ⟨S3x100000, .i32⟩
  | 9 => ⟨S3x100000, .i32⟩
  | 10 => ⟨S3x100000, .i32⟩
  | 11 => ⟨S3x100000x1, .i32⟩
  | 12 => ⟨S3x100000x1, .i32⟩
  | 13 => ⟨S3x100000x2, .i32⟩
  | 14 => ⟨S3x72x100000, .f32⟩
  | 15 => ⟨S3x100000x72, .f32⟩
  | 16 => ⟨S_, .i32⟩
  | 17 => ⟨S3x100000, .i32⟩
  | 18 => ⟨S3x100000, .i1⟩
  | 19 => ⟨S_, .i32⟩
  | 20 => ⟨S3x100000, .i32⟩
  | 21 => ⟨S3x100000, .i32⟩
  | 22 => ⟨S3x100000, .i32⟩
  | 23 => ⟨S_, .i32⟩
  | 24 => ⟨S3x100000, .i32⟩
  | 25 => ⟨S3x100000, .i1⟩
  | 26 => ⟨S_, .i32⟩
  | 27 => ⟨S3x100000, .i32⟩
  | 28 => ⟨S3x100000, .i32⟩
  | 29 => ⟨S3x100000, .i32⟩
  | 30 => ⟨S3x100000x1, .i32⟩
  | 31 => ⟨S3x100000x1, .i32⟩
  | 32 => ⟨S3x100000x2, .i32⟩
  | 33 => ⟨S3x72x100000, .f32⟩
  | 34 => ⟨S3x100000x72, .f32⟩
  | 35 => ⟨S_, .i32⟩
  | 36 => ⟨S3x100000, .i32⟩
  | 37 => ⟨S3x100000, .i1⟩
  | 38 => ⟨S_, .i32⟩
  | 39 => ⟨S3x100000, .i32⟩
  | 40 => ⟨S3x100000, .i32⟩
  | 41 => ⟨S3x100000, .i32⟩
  | 42 => ⟨S_, .i32⟩
  | 43 => ⟨S3x100000, .i32⟩
  | 44 => ⟨S3x100000, .i1⟩
  | 45 => ⟨S_, .i32⟩
  | 46 => ⟨S3x100000, .i32⟩
  | 47 => ⟨S3x100000, .i32⟩
  | 48 => ⟨S3x100000, .i32⟩
  | 49 => ⟨S3x100000x1, .i32⟩
  | 50 => ⟨S3x100000x1, .i32⟩
  | 51 => ⟨S3x100000x2, .i32⟩
  | 52 => ⟨S3x72x100000, .f32⟩
  | 53 => ⟨S3x100000x72, .f32⟩
  | 54 => ⟨S_, .f32⟩
  | 55 => ⟨S3x100000x1, .f32⟩
  | 56 => ⟨S3x100000x1, .f32⟩
  | 57 => ⟨S3x100000x72, .f32⟩
  | 58 => ⟨S3x100000x72, .f32⟩
  | 59 => ⟨S3x100000x72, .f32⟩
  | 60 => ⟨S3x100000x72, .f32⟩
  | 61 => ⟨S3x100000x72, .f32⟩
  | 62 => ⟨S_, .f32⟩
  | 63 => ⟨S3x100000x1, .f32⟩
  | 64 => ⟨S3x100000x1, .f32⟩
  | 65 => ⟨S3x100000x72, .f32⟩
  | 66 => ⟨S3x100000x72, .f32⟩
  | 67 => ⟨S3x100000x72, .f32⟩
  | 68 => ⟨S3x100000x72, .f32⟩
  | 69 => ⟨S3x100000x72, .f32⟩
  | 70 => ⟨S_, .f32⟩
  | 71 => ⟨S3x100000x1, .f32⟩
  | 72 => ⟨S3x100000x1, .f32⟩
  | 73 => ⟨S3x100000x72, .f32⟩
  | 74 => ⟨S3x100000x72, .f32⟩
  | 75 => ⟨S3x100000x72, .f32⟩
  | 76 => ⟨S3x100000x72, .f32⟩
  | 77 => ⟨S3x100000x72, .f32⟩
  | 78 => ⟨S100000x3x72, .f32⟩
  | 79 => ⟨S100000x216, .f32⟩
  | 80 => ⟨S3x100000x1, .f32⟩
  | 81 => ⟨S3x100000, .f32⟩
  | 82 => ⟨S_, .f32⟩
  | 83 => ⟨S3x100000, .f32⟩
  | 84 => ⟨S3x100000, .f32⟩
  | 85 => ⟨S_, .f32⟩
  | 86 => ⟨S3x100000, .f32⟩
  | 87 => ⟨S3x100000, .f32⟩
  | 88 => ⟨S_, .f32⟩
  | 89 => ⟨S3x100000, .f32⟩
  | 90 => ⟨S3x100000, .f32⟩
  | 91 => ⟨S3x100000x1, .f32⟩
  | 92 => ⟨S3x100000, .f32⟩
  | 93 => ⟨S_, .f32⟩
  | 94 => ⟨S3x100000, .f32⟩
  | 95 => ⟨S3x100000, .f32⟩
  | 96 => ⟨S_, .f32⟩
  | 97 => ⟨S3x100000, .f32⟩
  | 98 => ⟨S3x100000, .f32⟩
  | 99 => ⟨S_, .f32⟩
  | 100 => ⟨S3x100000, .f32⟩
  | 101 => ⟨S3x100000, .f32⟩
  | 102 => ⟨S_, .f32⟩
  | 103 => ⟨S_, .i32⟩
  | 104 => ⟨S_, .f32⟩
  | 105 => ⟨S3x100000, .f32⟩
  | 106 => ⟨S3x100000, .f32⟩
  | 107 => ⟨S_, .f32⟩
  | 108 => ⟨S3x100000, .f32⟩
  | 109 => ⟨S3x100000, .f32⟩
  | 110 => ⟨S_, .f32⟩
  | 111 => ⟨S_, .i32⟩
  | 112 => ⟨S_, .f32⟩
  | 113 => ⟨S3x100000, .f32⟩
  | 114 => ⟨S3x100000, .f32⟩
  | 115 => ⟨S_, .f32⟩
  | 116 => ⟨S3x100000, .f32⟩
  | 117 => ⟨S3x100000, .f32⟩
  | 118 => ⟨S3x100000, .f32⟩
  | 119 => ⟨S3x100000, .f32⟩
  | 120 => ⟨S3x100000, .f32⟩
  | 121 => ⟨S3x100000x1, .f32⟩
  | 122 => ⟨S3x100000, .f32⟩
  | 123 => ⟨S3x100000x1, .f32⟩
  | 124 => ⟨S3x100000, .i32⟩
  | 125 => ⟨S3x100000, .i32⟩
  | 126 => ⟨S_, .i32⟩
  | 127 => ⟨S3x100000, .i32⟩
  | _ => ⟨S100000x3, .f32⟩

abbrev hbmTy0_2 (i : Nat) : BufTy := match i % 128 with
  | 0 => ⟨S3x100000, .i32⟩
  | 1 => ⟨S_, .i32⟩
  | 2 => ⟨S3x100000, .i32⟩
  | 3 => ⟨S3x100000, .i32⟩
  | 4 => ⟨S_, .i32⟩
  | 5 => ⟨S3x100000, .i32⟩
  | 6 => ⟨S3x100000, .i32⟩
  | 7 => ⟨S_, .i32⟩
  | 8 => ⟨S3x100000, .i32⟩
  | 9 => ⟨S3x100000, .i32⟩
  | 10 => ⟨S_, .i32⟩
  | 11 => ⟨S3x100000, .i32⟩
  | 12 => ⟨S3x100000, .i1⟩
  | 13 => ⟨S_, .i32⟩
  | 14 => ⟨S3x100000, .i32⟩
  | 15 => ⟨S3x100000, .i32⟩
  | 16 => ⟨S3x100000, .i32⟩
  | 17 => ⟨S_, .i32⟩
  | 18 => ⟨S3x100000, .i32⟩
  | 19 => ⟨S3x100000, .i1⟩
  | 20 => ⟨S_, .i32⟩
  | 21 => ⟨S3x100000, .i32⟩
  | 22 => ⟨S3x100000, .i32⟩
  | 23 => ⟨S3x100000, .i32⟩
  | 24 => ⟨S3x100000x1, .i32⟩
  | 25 => ⟨S3x100000x1, .i32⟩
  | 26 => ⟨S3x100000x2, .i32⟩
  | 27 => ⟨S3x72x100000, .f32⟩
  | 28 => ⟨S3x100000x72, .f32⟩
  | 29 => ⟨S_, .i32⟩
  | 30 => ⟨S3x100000, .i32⟩
  | 31 => ⟨S3x100000, .i1⟩
  | 32 => ⟨S_, .i32⟩
  | 33 => ⟨S3x100000, .i32⟩
  | 34 => ⟨S3x100000, .i32⟩
  | 35 => ⟨S3x100000, .i32⟩
  | 36 => ⟨S_, .i32⟩
  | 37 => ⟨S3x100000, .i32⟩
  | 38 => ⟨S3x100000, .i1⟩
  | 39 => ⟨S_, .i32⟩
  | 40 => ⟨S3x100000, .i32⟩
  | 41 => ⟨S3x100000, .i32⟩
  | 42 => ⟨S3x100000, .i32⟩
  | 43 => ⟨S3x100000x1, .i32⟩
  | 44 => ⟨S3x100000x1, .i32⟩
  | 45 => ⟨S3x100000x2, .i32⟩
  | 46 => ⟨S3x72x100000, .f32⟩
  | 47 => ⟨S3x100000x72, .f32⟩
  | 48 => ⟨S_, .i32⟩
  | 49 => ⟨S3x100000, .i32⟩
  | 50 => ⟨S3x100000, .i1⟩
  | 51 => ⟨S_, .i32⟩
  | 52 => ⟨S3x100000, .i32⟩
  | 53 => ⟨S3x100000, .i32⟩
  | 54 => ⟨S3x100000, .i32⟩
  | 55 => ⟨S_, .i32⟩
  | 56 => ⟨S3x100000, .i32⟩
  | 57 => ⟨S3x100000, .i1⟩
  | 58 => ⟨S_, .i32⟩
  | 59 => ⟨S3x100000, .i32⟩
  | 60 => ⟨S3x100000, .i32⟩
  | 61 => ⟨S3x100000, .i32⟩
  | 62 => ⟨S3x100000x1, .i32⟩
  | 63 => ⟨S3x100000x1, .i32⟩
  | 64 => ⟨S3x100000x2, .i32⟩
  | 65 => ⟨S3x72x100000, .f32⟩
  | 66 => ⟨S3x100000x72, .f32⟩
  | 67 => ⟨S_, .i32⟩
  | 68 => ⟨S3x100000, .i32⟩
  | 69 => ⟨S3x100000, .i1⟩
  | 70 => ⟨S_, .i32⟩
  | 71 => ⟨S3x100000, .i32⟩
  | 72 => ⟨S3x100000, .i32⟩
  | 73 => ⟨S3x100000, .i32⟩
  | 74 => ⟨S_, .i32⟩
  | 75 => ⟨S3x100000, .i32⟩
  | 76 => ⟨S3x100000, .i1⟩
  | 77 => ⟨S_, .i32⟩
  | 78 => ⟨S3x100000, .i32⟩
  | 79 => ⟨S3x100000, .i32⟩
  | 80 => ⟨S3x100000, .i32⟩
  | 81 => ⟨S3x100000x1, .i32⟩
  | 82 => ⟨S3x100000x1, .i32⟩
  | 83 => ⟨S3x100000x2, .i32⟩
  | 84 => ⟨S3x72x100000, .f32⟩
  | 85 => ⟨S3x100000x72, .f32⟩
  | 86 => ⟨S_, .f32⟩
  | 87 => ⟨S3x100000x1, .f32⟩
  | 88 => ⟨S3x100000x1, .f32⟩
  | 89 => ⟨S3x100000x72, .f32⟩
  | 90 => ⟨S3x100000x72, .f32⟩
  | 91 => ⟨S3x100000x72, .f32⟩
  | 92 => ⟨S3x100000x72, .f32⟩
  | 93 => ⟨S3x100000x72, .f32⟩
  | 94 => ⟨S_, .f32⟩
  | 95 => ⟨S3x100000x1, .f32⟩
  | 96 => ⟨S3x100000x1, .f32⟩
  | 97 => ⟨S3x100000x72, .f32⟩
  | 98 => ⟨S3x100000x72, .f32⟩
  | 99 => ⟨S3x100000x72, .f32⟩
  | 100 => ⟨S3x100000x72, .f32⟩
  | 101 => ⟨S3x100000x72, .f32⟩
  | 102 => ⟨S_, .f32⟩
  | 103 => ⟨S3x100000x1, .f32⟩
  | 104 => ⟨S3x100000x1, .f32⟩
  | 105 => ⟨S3x100000x72, .f32⟩
  | 106 => ⟨S3x100000x72, .f32⟩
  | 107 => ⟨S3x100000x72, .f32⟩
  | 108 => ⟨S3x100000x72, .f32⟩
  | 109 => ⟨S3x100000x72, .f32⟩
  | 110 => ⟨S100000x3x72, .f32⟩
  | 111 => ⟨S100000x216, .f32⟩
  | 112 => ⟨S100000x216, .f32⟩
  | 113 => ⟨S3x100000x1, .f32⟩
  | 114 => ⟨S3x100000, .f32⟩
  | 115 => ⟨S_, .f32⟩
  | 116 => ⟨S3x100000, .f32⟩
  | 117 => ⟨S3x100000, .f32⟩
  | 118 => ⟨S_, .f32⟩
  | 119 => ⟨S3x100000, .f32⟩
  | 120 => ⟨S3x100000, .f32⟩
  | 121 => ⟨S_, .f32⟩
  | 122 => ⟨S3x100000, .f32⟩
  | 123 => ⟨S3x100000, .f32⟩
  | 124 => ⟨S3x100000x1, .f32⟩
  | 125 => ⟨S3x100000, .f32⟩
  | 126 => ⟨S_, .f32⟩
  | 127 => ⟨S3x100000, .f32⟩
  | _ => ⟨S100000x3, .f32⟩

abbrev hbmTy0_3 (i : Nat) : BufTy := match i % 128 with
  | 0 => ⟨S3x100000, .f32⟩
  | 1 => ⟨S_, .f32⟩
  | 2 => ⟨S3x100000, .f32⟩
  | 3 => ⟨S3x100000, .f32⟩
  | 4 => ⟨S_, .f32⟩
  | 5 => ⟨S3x100000, .f32⟩
  | 6 => ⟨S3x100000, .f32⟩
  | 7 => ⟨S_, .f32⟩
  | 8 => ⟨S_, .i32⟩
  | 9 => ⟨S_, .f32⟩
  | 10 => ⟨S3x100000, .f32⟩
  | 11 => ⟨S3x100000, .f32⟩
  | 12 => ⟨S_, .f32⟩
  | 13 => ⟨S3x100000, .f32⟩
  | 14 => ⟨S3x100000, .f32⟩
  | 15 => ⟨S_, .f32⟩
  | 16 => ⟨S_, .i32⟩
  | 17 => ⟨S_, .f32⟩
  | 18 => ⟨S3x100000, .f32⟩
  | 19 => ⟨S3x100000, .f32⟩
  | 20 => ⟨S_, .f32⟩
  | 21 => ⟨S3x100000, .f32⟩
  | 22 => ⟨S3x100000, .f32⟩
  | 23 => ⟨S3x100000, .f32⟩
  | 24 => ⟨S3x100000, .f32⟩
  | 25 => ⟨S3x100000, .f32⟩
  | 26 => ⟨S3x100000x1, .f32⟩
  | 27 => ⟨S3x100000, .f32⟩
  | 28 => ⟨S3x100000x1, .f32⟩
  | 29 => ⟨S3x100000, .i32⟩
  | 30 => ⟨S3x100000, .i32⟩
  | 31 => ⟨S_, .i32⟩
  | 32 => ⟨S3x100000, .i32⟩
  | 33 => ⟨S3x100000, .i32⟩
  | 34 => ⟨S_, .i32⟩
  | 35 => ⟨S3x100000, .i32⟩
  | 36 => ⟨S3x100000, .i32⟩
  | 37 => ⟨S_, .i32⟩
  | 38 => ⟨S3x100000, .i32⟩
  | 39 => ⟨S3x100000, .i32⟩
  | 40 => ⟨S_, .i32⟩
  | 41 => ⟨S3x100000, .i32⟩
  | 42 => ⟨S3x100000, .i32⟩
  | 43 => ⟨S_, .i32⟩
  | 44 => ⟨S3x100000, .i32⟩
  | 45 => ⟨S3x100000, .i1⟩
  | 46 => ⟨S_, .i32⟩
  | 47 => ⟨S3x100000, .i32⟩
  | 48 => ⟨S3x100000, .i32⟩
  | 49 => ⟨S3x100000, .i32⟩
  | 50 => ⟨S_, .i32⟩
  | 51 => ⟨S3x100000, .i32⟩
  | 52 => ⟨S3x100000, .i1⟩
  | 53 => ⟨S_, .i32⟩
  | 54 => ⟨S3x100000, .i32⟩
  | 55 => ⟨S3x100000, .i32⟩
  | 56 => ⟨S3x100000, .i32⟩
  | 57 => ⟨S3x100000x1, .i32⟩
  | 58 => ⟨S3x100000x1, .i32⟩
  | 59 => ⟨S3x100000x2, .i32⟩
  | 60 => ⟨S3x72x100000, .f32⟩
  | 61 => ⟨S3x100000x72, .f32⟩
  | 62 => ⟨S_, .i32⟩
  | 63 => ⟨S3x100000, .i32⟩
  | 64 => ⟨S3x100000, .i1⟩
  | 65 => ⟨S_, .i32⟩
  | 66 => ⟨S3x100000, .i32⟩
  | 67 => ⟨S3x100000, .i32⟩
  | 68 => ⟨S3x100000, .i32⟩
  | 69 => ⟨S_, .i32⟩
  | 70 => ⟨S3x100000, .i32⟩
  | 71 => ⟨S3x100000, .i1⟩
  | 72 => ⟨S_, .i32⟩
  | 73 => ⟨S3x100000, .i32⟩
  | 74 => ⟨S3x100000, .i32⟩
  | 75 => ⟨S3x100000, .i32⟩
  | 76 => ⟨S3x100000x1, .i32⟩
  | 77 => ⟨S3x100000x1, .i32⟩
  | 78 => ⟨S3x100000x2, .i32⟩
  | 79 => ⟨S3x72x100000, .f32⟩
  | 80 => ⟨S3x100000x72, .f32⟩
  | 81 => ⟨S_, .i32⟩
  | 82 => ⟨S3x100000, .i32⟩
  | 83 => ⟨S3x100000, .i1⟩
  | 84 => ⟨S_, .i32⟩
  | 85 => ⟨S3x100000, .i32⟩
  | 86 => ⟨S3x100000, .i32⟩
  | 87 => ⟨S3x100000, .i32⟩
  | 88 => ⟨S_, .i32⟩
  | 89 => ⟨S3x100000, .i32⟩
  | 90 => ⟨S3x100000, .i1⟩
  | 91 => ⟨S_, .i32⟩
  | 92 => ⟨S3x100000, .i32⟩
  | 93 => ⟨S3x100000, .i32⟩
  | 94 => ⟨S3x100000, .i32⟩
  | 95 => ⟨S3x100000x1, .i32⟩
  | 96 => ⟨S3x100000x1, .i32⟩
  | 97 => ⟨S3x100000x2, .i32⟩
  | 98 => ⟨S3x72x100000, .f32⟩
  | 99 => ⟨S3x100000x72, .f32⟩
  | 100 => ⟨S_, .i32⟩
  | 101 => ⟨S3x100000, .i32⟩
  | 102 => ⟨S3x100000, .i1⟩
  | 103 => ⟨S_, .i32⟩
  | 104 => ⟨S3x100000, .i32⟩
  | 105 => ⟨S3x100000, .i32⟩
  | 106 => ⟨S3x100000, .i32⟩
  | 107 => ⟨S_, .i32⟩
  | 108 => ⟨S3x100000, .i32⟩
  | 109 => ⟨S3x100000, .i1⟩
  | 110 => ⟨S_, .i32⟩
  | 111 => ⟨S3x100000, .i32⟩
  | 112 => ⟨S3x100000, .i32⟩
  | 113 => ⟨S3x100000, .i32⟩
  | 114 => ⟨S3x100000x1, .i32⟩
  | 115 => ⟨S3x100000x1, .i32⟩
  | 116 => ⟨S3x100000x2, .i32⟩
  | 117 => ⟨S3x72x100000, .f32⟩
  | 118 => ⟨S3x100000x72, .f32⟩
  | 119 => ⟨S_, .f32⟩
  | 120 => ⟨S3x100000x1, .f32⟩
  | 121 => ⟨S3x100000x1, .f32⟩
  | 122 => ⟨S3x100000x72, .f32⟩
  | 123 => ⟨S3x100000x72, .f32⟩
  | 124 => ⟨S3x100000x72, .f32⟩
  | 125 => ⟨S3x100000x72, .f32⟩
  | 126 => ⟨S3x100000x72, .f32⟩
  | 127 => ⟨S_, .f32⟩
  | _ => ⟨S100000x3, .f32⟩

abbrev hbmTy0_4 (i : Nat) : BufTy := match i % 128 with
  | 0 => ⟨S3x100000x1, .f32⟩
  | 1 => ⟨S3x100000x1, .f32⟩
  | 2 => ⟨S3x100000x72, .f32⟩
  | 3 => ⟨S3x100000x72, .f32⟩
  | 4 => ⟨S3x100000x72, .f32⟩
  | 5 => ⟨S3x100000x72, .f32⟩
  | 6 => ⟨S3x100000x72, .f32⟩
  | 7 => ⟨S_, .f32⟩
  | 8 => ⟨S3x100000x1, .f32⟩
  | 9 => ⟨S3x100000x1, .f32⟩
  | 10 => ⟨S3x100000x72, .f32⟩
  | 11 => ⟨S3x100000x72, .f32⟩
  | 12 => ⟨S3x100000x72, .f32⟩
  | 13 => ⟨S3x100000x72, .f32⟩
  | 14 => ⟨S3x100000x72, .f32⟩
  | 15 => ⟨S100000x3x72, .f32⟩
  | 16 => ⟨S100000x216, .f32⟩
  | 17 => ⟨S100000x216, .f32⟩
  | 18 => ⟨S3x100000x1, .f32⟩
  | 19 => ⟨S3x100000, .f32⟩
  | 20 => ⟨S_, .f32⟩
  | 21 => ⟨S3x100000, .f32⟩
  | 22 => ⟨S3x100000, .f32⟩
  | 23 => ⟨S_, .f32⟩
  | 24 => ⟨S3x100000, .f32⟩
  | 25 => ⟨S3x100000, .f32⟩
  | 26 => ⟨S_, .f32⟩
  | 27 => ⟨S3x100000, .f32⟩
  | 28 => ⟨S3x100000, .f32⟩
  | 29 => ⟨S3x100000x1, .f32⟩
  | 30 => ⟨S3x100000, .f32⟩
  | 31 => ⟨S_, .f32⟩
  | 32 => ⟨S3x100000, .f32⟩
  | 33 => ⟨S3x100000, .f32⟩
  | 34 => ⟨S_, .f32⟩
  | 35 => ⟨S3x100000, .f32⟩
  | 36 => ⟨S3x100000, .f32⟩
  | 37 => ⟨S_, .f32⟩
  | 38 => ⟨S3x100000, .f32⟩
  | 39 => ⟨S3x100000, .f32⟩
  | 40 => ⟨S_, .f32⟩
  | 41 => ⟨S_, .i32⟩
  | 42 => ⟨S_, .f32⟩
  | 43 => ⟨S3x100000, .f32⟩
  | 44 => ⟨S3x100000, .f32⟩
  | 45 => ⟨S_, .f32⟩
  | 46 => ⟨S3x100000, .f32⟩
  | 47 => ⟨S3x100000, .f32⟩
  | 48 => ⟨S_, .f32⟩
  | 49 => ⟨S_, .i32⟩
  | 50 => ⟨S_, .f32⟩
  | 51 => ⟨S3x100000, .f32⟩
  | 52 => ⟨S3x100000, .f32⟩
  | 53 => ⟨S_, .f32⟩
  | 54 => ⟨S3x100000, .f32⟩
  | 55 => ⟨S3x100000, .f32⟩
  | 56 => ⟨S3x100000, .f32⟩
  | 57 => ⟨S3x100000, .f32⟩
  | 58 => ⟨S3x100000, .f32⟩
  | 59 => ⟨S3x100000x1, .f32⟩
  | 60 => ⟨S3x100000, .f32⟩
  | 61 => ⟨S3x100000x1, .f32⟩
  | 62 => ⟨S3x100000, .i32⟩
  | 63 => ⟨S3x100000, .i32⟩
  | 64 => ⟨S_, .i32⟩
  | 65 => ⟨S3x100000, .i32⟩
  | 66 => ⟨S3x100000, .i32⟩
  | 67 => ⟨S_, .i32⟩
  | 68 => ⟨S3x100000, .i32⟩
  | 69 => ⟨S3x100000, .i32⟩
  | 70 => ⟨S_, .i32⟩
  | 71 => ⟨S3x100000, .i32⟩
  | 72 => ⟨S3x100000, .i32⟩
  | 73 => ⟨S_, .i32⟩
  | 74 => ⟨S3x100000, .i32⟩
  | 75 => ⟨S3x100000, .i32⟩
  | 76 => ⟨S_, .i32⟩
  | 77 => ⟨S3x100000, .i32⟩
  | 78 => ⟨S3x100000, .i1⟩
  | 79 => ⟨S_, .i32⟩
  | 80 => ⟨S3x100000, .i32⟩
  | 81 => ⟨S3x100000, .i32⟩
  | 82 => ⟨S3x100000, .i32⟩
  | 83 => ⟨S_, .i32⟩
  | 84 => ⟨S3x100000, .i32⟩
  | 85 => ⟨S3x100000, .i1⟩
  | 86 => ⟨S_, .i32⟩
  | 87 => ⟨S3x100000, .i32⟩
  | 88 => ⟨S3x100000, .i32⟩
  | 89 => ⟨S3x100000, .i32⟩
  | 90 => ⟨S3x100000x1, .i32⟩
  | 91 => ⟨S3x100000x1, .i32⟩
  | 92 => ⟨S3x100000x2, .i32⟩
  | 93 => ⟨S3x72x100000, .f32⟩
  | 94 => ⟨S3x100000x72, .f32⟩
  | 95 => ⟨S_, .i32⟩
  | 96 => ⟨S3x100000, .i32⟩
  | 97 => ⟨S3x100000, .i1⟩
  | 98 => ⟨S_, .i32⟩
  | 99 => ⟨S3x100000, .i32⟩
  | 100 => ⟨S3x100000, .i32⟩
  | 101 => ⟨S3x100000, .i32⟩
  | 102 => ⟨S_, .i32⟩
  | 103 => ⟨S3x100000, .i32⟩
  | 104 => ⟨S3x100000, .i1⟩
  | 105 => ⟨S_, .i32⟩
  | 106 => ⟨S3x100000, .i32⟩
  | 107 => ⟨S3x100000, .i32⟩
  | 108 => ⟨S3x100000, .i32⟩
  | 109 => ⟨S3x100000x1, .i32⟩
  | 110 => ⟨S3x100000x1, .i32⟩
  | 111 => ⟨S3x100000x2, .i32⟩
  | 112 => ⟨S3x72x100000, .f32⟩
  | 113 => ⟨S3x100000x72, .f32⟩
  | 114 => ⟨S_, .i32⟩
  | 115 => ⟨S3x100000, .i32⟩
  | 116 => ⟨S3x100000, .i1⟩
  | 117 => ⟨S_, .i32⟩
  | 118 => ⟨S3x100000, .i32⟩
  | 119 => ⟨S3x100000, .i32⟩
  | 120 => ⟨S3x100000, .i32⟩
  | 121 => ⟨S_, .i32⟩
  | 122 => ⟨S3x100000, .i32⟩
  | 123 => ⟨S3x100000, .i1⟩
  | 124 => ⟨S_, .i32⟩
  | 125 => ⟨S3x100000, .i32⟩
  | 126 => ⟨S3x100000, .i32⟩
  | 127 => ⟨S3x100000, .i32⟩
  | _ => ⟨S100000x3, .f32⟩

abbrev hbmTy0_5 (i : Nat) : BufTy := match i % 128 with
  | 0 => ⟨S3x100000x1, .i32⟩
  | 1 => ⟨S3x100000x1, .i32⟩
  | 2 => ⟨S3x100000x2, .i32⟩
  | 3 => ⟨S3x72x100000, .f32⟩
  | 4 => ⟨S3x100000x72, .f32⟩
  | 5 => ⟨S_, .i32⟩
  | 6 => ⟨S3x100000, .i32⟩
  | 7 => ⟨S3x100000, .i1⟩
  | 8 => ⟨S_, .i32⟩
  | 9 => ⟨S3x100000, .i32⟩
  | 10 => ⟨S3x100000, .i32⟩
  | 11 => ⟨S3x100000, .i32⟩
  | 12 => ⟨S_, .i32⟩
  | 13 => ⟨S3x100000, .i32⟩
  | 14 => ⟨S3x100000, .i1⟩
  | 15 => ⟨S_, .i32⟩
  | 16 => ⟨S3x100000, .i32⟩
  | 17 => ⟨S3x100000, .i32⟩
  | 18 => ⟨S3x100000, .i32⟩
  | 19 => ⟨S3x100000x1, .i32⟩
  | 20 => ⟨S3x100000x1, .i32⟩
  | 21 => ⟨S3x100000x2, .i32⟩
  | 22 => ⟨S3x72x100000, .f32⟩
  | 23 => ⟨S3x100000x72, .f32⟩
  | 24 => ⟨S_, .f32⟩
  | 25 => ⟨S3x100000x1, .f32⟩
  | 26 => ⟨S3x100000x1, .f32⟩
  | 27 => ⟨S3x100000x72, .f32⟩
  | 28 => ⟨S3x100000x72, .f32⟩
  | 29 => ⟨S3x100000x72, .f32⟩
  | 30 => ⟨S3x100000x72, .f32⟩
  | 31 => ⟨S3x100000x72, .f32⟩
  | 32 => ⟨S_, .f32⟩
  | 33 => ⟨S3x100000x1, .f32⟩
  | 34 => ⟨S3x100000x1, .f32⟩
  | 35 => ⟨S3x100000x72, .f32⟩
  | 36 => ⟨S3x100000x72, .f32⟩
  | 37 => ⟨S3x100000x72, .f32⟩
  | 38 => ⟨S3x100000x72, .f32⟩
  | 39 => ⟨S3x100000x72, .f32⟩
  | 40 => ⟨S_, .f32⟩
  | 41 => ⟨S3x100000x1, .f32⟩
  | 42 => ⟨S3x100000x1, .f32⟩
  | 43 => ⟨S3x100000x72, .f32⟩
  | 44 => ⟨S3x100000x72, .f32⟩
  | 45 => ⟨S3x100000x72, .f32⟩
  | 46 => ⟨S3x100000x72, .f32⟩
  | 47 => ⟨S3x100000x72, .f32⟩
  | 48 => ⟨S100000x3x72, .f32⟩
  | 49 => ⟨S100000x216, .f32⟩
  | 50 => ⟨S100000x216, .f32⟩
  | 51 => ⟨S100000x864, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_v5 : Ref sig .tc := ⟨.hbm, 16, rfl⟩
abbrev main_c_4 : Ref sig .tc := ⟨.hbm, 17, rfl⟩
abbrev main_v6 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_c_7 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_c_9 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_cst_15 : Ref sig .tc := ⟨.hbm, 67, rfl⟩
abbrev main_v45 : Ref sig .tc := ⟨.hbm, 68, rfl⟩
abbrev main_v46 : Ref sig .tc := ⟨.hbm, 69, rfl⟩
abbrev main_cst_16 : Ref sig .tc := ⟨.hbm, 70, rfl⟩
abbrev main_c_17 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v47 : Ref sig .tc := ⟨.hbm, 77, rfl⟩
abbrev main_cst_18 : Ref sig .tc := ⟨.hbm, 78, rfl⟩
abbrev main_c_19 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_20 : Ref sig .tc := ⟨.hbm, 94, rfl⟩
abbrev main_v57 : Ref sig .tc := ⟨.hbm, 95, rfl⟩
abbrev main_v58 : Ref sig .tc := ⟨.hbm, 96, rfl⟩
abbrev main_c_21 : Ref sig .tc := ⟨.hbm, 97, rfl⟩
abbrev main_v59 : Ref sig .tc := ⟨.hbm, 98, rfl⟩
abbrev main_v60 : Ref sig .tc := ⟨.hbm, 99, rfl⟩
abbrev main_c_22 : Ref sig .tc := ⟨.hbm, 100, rfl⟩
abbrev main_v61 : Ref sig .tc := ⟨.hbm, 101, rfl⟩
abbrev main_v62 : Ref sig .tc := ⟨.hbm, 102, rfl⟩
abbrev main_c_23 : Ref sig .tc := ⟨.hbm, 103, rfl⟩
abbrev main_v63 : Ref sig .tc := ⟨.hbm, 104, rfl⟩
abbrev main_v64 : Ref sig .tc := ⟨.hbm, 105, rfl⟩
abbrev main_c_24 : Ref sig .tc := ⟨.hbm, 106, rfl⟩
abbrev main_v65 : Ref sig .tc := ⟨.hbm, 107, rfl⟩
abbrev main_v66 : Ref sig .tc := ⟨.hbm, 108, rfl⟩
abbrev main_c_25 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_26 : Ref sig .tc := ⟨.hbm, 113, rfl⟩
abbrev main_v70 : Ref sig .tc := ⟨.hbm, 114, rfl⟩
abbrev main_v71 : Ref sig .tc := ⟨.hbm, 115, rfl⟩
abbrev main_c_27 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_28 : Ref sig .tc := ⟨.hbm, 125, rfl⟩
abbrev main_v80 : Ref sig .tc := ⟨.hbm, 126, rfl⟩
abbrev main_v81 : Ref sig .tc := ⟨.hbm, 127, rfl⟩
abbrev main_c_29 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_30 : Ref sig .tc := ⟨.hbm, 132, rfl⟩
abbrev main_v85 : Ref sig .tc := ⟨.hbm, 133, rfl⟩
abbrev main_v86 : Ref sig .tc := ⟨.hbm, 134, rfl⟩
abbrev main_c_31 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_32 : Ref sig .tc := ⟨.hbm, 144, rfl⟩
abbrev main_v95 : Ref sig .tc := ⟨.hbm, 145, rfl⟩
abbrev main_v96 : Ref sig .tc := ⟨.hbm, 146, rfl⟩
abbrev main_c_33 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_34 : Ref sig .tc := ⟨.hbm, 151, rfl⟩
abbrev main_v100 : Ref sig .tc := ⟨.hbm, 152, rfl⟩
abbrev main_v101 : Ref sig .tc := ⟨.hbm, 153, rfl⟩
abbrev main_c_35 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_c_36 : Ref sig .tc := ⟨.hbm, 163, rfl⟩
abbrev main_v110 : Ref sig .tc := ⟨.hbm, 164, rfl⟩
abbrev main_v111 : Ref sig .tc := ⟨.hbm, 165, rfl⟩
abbrev main_c_37 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_38 : Ref sig .tc := ⟨.hbm, 170, rfl⟩
abbrev main_v115 : Ref sig .tc := ⟨.hbm, 171, rfl⟩
abbrev main_v116 : Ref sig .tc := ⟨.hbm, 172, rfl⟩
abbrev main_c_39 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_40 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_41 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_42 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_43 : Ref sig .tc := ⟨.hbm, 210, rfl⟩
abbrev main_v150 : Ref sig .tc := ⟨.hbm, 211, rfl⟩
abbrev main_v151 : Ref sig .tc := ⟨.hbm, 212, rfl⟩
abbrev main_cst_44 : Ref sig .tc := ⟨.hbm, 213, rfl⟩
abbrev main_v152 : Ref sig .tc := ⟨.hbm, 214, rfl⟩
abbrev main_v153 : Ref sig .tc := ⟨.hbm, 215, rfl⟩
abbrev main_cst_45 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_cst_46 : Ref sig .tc := ⟨.hbm, 221, rfl⟩
abbrev main_v158 : Ref sig .tc := ⟨.hbm, 222, rfl⟩
abbrev main_v159 : Ref sig .tc := ⟨.hbm, 223, rfl⟩
abbrev main_cst_47 : Ref sig .tc := ⟨.hbm, 224, rfl⟩
abbrev main_v160 : Ref sig .tc := ⟨.hbm, 225, rfl⟩
abbrev main_v161 : Ref sig .tc := ⟨.hbm, 226, rfl⟩
abbrev main_cst_48 : Ref sig .tc := ⟨.hbm, 227, rfl⟩
abbrev main_v162 : Ref sig .tc := ⟨.hbm, 228, rfl⟩
abbrev main_v163 : Ref sig .tc := ⟨.hbm, 229, rfl⟩
abbrev main_cst_49 : Ref sig .tc := ⟨.hbm, 230, rfl⟩
abbrev main_c_50 : Ref sig .tc := ⟨.hbm, 231, rfl⟩
abbrev main_call2_v0 : Ref sig .tc := ⟨.hbm, 232, rfl⟩
abbrev main_call2_v1 : Ref sig .tc := ⟨.hbm, 233, rfl⟩
abbrev main_call2_v2 : Ref sig .tc := ⟨.hbm, 234, rfl⟩
abbrev main_call2_v3 : Ref sig .tc := ⟨.hbm, 235, rfl⟩
abbrev main_call2_v4 : Ref sig .tc := ⟨.hbm, 236, rfl⟩
abbrev main_v164 : Ref sig .tc := ⟨.hbm, 237, rfl⟩
abbrev main_cst_51 : Ref sig .tc := ⟨.hbm, 238, rfl⟩
abbrev main_c_52 : Ref sig .tc := ⟨.hbm, 239, rfl⟩
abbrev main_call3_v0 : Ref sig .tc := ⟨.hbm, 240, rfl⟩
abbrev main_call3_v1 : Ref sig .tc := ⟨.hbm, 241, rfl⟩
abbrev main_call3_v2 : Ref sig .tc := ⟨.hbm, 242, rfl⟩
abbrev main_call3_v3 : Ref sig .tc := ⟨.hbm, 243, rfl⟩
abbrev main_call3_v4 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_c_53 : Ref sig .tc := ⟨.hbm, 254, rfl⟩
abbrev main_v174 : Ref sig .tc := ⟨.hbm, 255, rfl⟩
abbrev main_v175 : Ref sig .tc := ⟨.hbm, 256, rfl⟩
abbrev main_c_54 : Ref sig .tc := ⟨.hbm, 257, rfl⟩
abbrev main_v176 : Ref sig .tc := ⟨.hbm, 258, rfl⟩
abbrev main_v177 : Ref sig .tc := ⟨.hbm, 259, rfl⟩
abbrev main_c_55 : Ref sig .tc := ⟨.hbm, 260, rfl⟩
abbrev main_v178 : Ref sig .tc := ⟨.hbm, 261, rfl⟩
abbrev main_v179 : Ref sig .tc := ⟨.hbm, 262, rfl⟩
abbrev main_c_56 : Ref sig .tc := ⟨.hbm, 263, rfl⟩
abbrev main_v180 : Ref sig .tc := ⟨.hbm, 264, rfl⟩
abbrev main_v181 : Ref sig .tc := ⟨.hbm, 265, rfl⟩
abbrev main_c_57 : Ref sig .tc := ⟨.hbm, 266, rfl⟩
abbrev main_v182 : Ref sig .tc := ⟨.hbm, 267, rfl⟩
abbrev main_v183 : Ref sig .tc := ⟨.hbm, 268, rfl⟩
abbrev main_c_58 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_c_59 : Ref sig .tc := ⟨.hbm, 273, rfl⟩
abbrev main_v187 : Ref sig .tc := ⟨.hbm, 274, rfl⟩
abbrev main_v188 : Ref sig .tc := ⟨.hbm, 275, rfl⟩
abbrev main_c_60 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_c_61 : Ref sig .tc := ⟨.hbm, 285, rfl⟩
abbrev main_v197 : Ref sig .tc := ⟨.hbm, 286, rfl⟩
abbrev main_v198 : Ref sig .tc := ⟨.hbm, 287, rfl⟩
abbrev main_c_62 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_c_63 : Ref sig .tc := ⟨.hbm, 292, rfl⟩
abbrev main_v202 : Ref sig .tc := ⟨.hbm, 293, rfl⟩
abbrev main_v203 : Ref sig .tc := ⟨.hbm, 294, rfl⟩
abbrev main_c_64 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_c_65 : Ref sig .tc := ⟨.hbm, 304, rfl⟩
abbrev main_v212 : Ref sig .tc := ⟨.hbm, 305, rfl⟩
abbrev main_v213 : Ref sig .tc := ⟨.hbm, 306, rfl⟩
abbrev main_c_66 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_c_67 : Ref sig .tc := ⟨.hbm, 311, rfl⟩
abbrev main_v217 : Ref sig .tc := ⟨.hbm, 312, rfl⟩
abbrev main_v218 : Ref sig .tc := ⟨.hbm, 313, rfl⟩
abbrev main_c_68 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_c_69 : Ref sig .tc := ⟨.hbm, 323, rfl⟩
abbrev main_v227 : Ref sig .tc := ⟨.hbm, 324, rfl⟩
abbrev main_v228 : Ref sig .tc := ⟨.hbm, 325, rfl⟩
abbrev main_c_70 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_c_71 : Ref sig .tc := ⟨.hbm, 330, rfl⟩
abbrev main_v232 : Ref sig .tc := ⟨.hbm, 331, rfl⟩
abbrev main_v233 : Ref sig .tc := ⟨.hbm, 332, rfl⟩
abbrev main_c_72 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_cst_73 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_cst_74 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_cst_75 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_cst_76 : Ref sig .tc := ⟨.hbm, 371, rfl⟩
abbrev main_v268 : Ref sig .tc := ⟨.hbm, 372, rfl⟩
abbrev main_v269 : Ref sig .tc := ⟨.hbm, 373, rfl⟩
abbrev main_cst_77 : Ref sig .tc := ⟨.hbm, 374, rfl⟩
abbrev main_v270 : Ref sig .tc := ⟨.hbm, 375, rfl⟩
abbrev main_v271 : Ref sig .tc := ⟨.hbm, 376, rfl⟩
abbrev main_cst_78 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_cst_79 : Ref sig .tc := ⟨.hbm, 382, rfl⟩
abbrev main_v276 : Ref sig .tc := ⟨.hbm, 383, rfl⟩
abbrev main_v277 : Ref sig .tc := ⟨.hbm, 384, rfl⟩
abbrev main_cst_80 : Ref sig .tc := ⟨.hbm, 385, rfl⟩
abbrev main_v278 : Ref sig .tc := ⟨.hbm, 386, rfl⟩
abbrev main_v279 : Ref sig .tc := ⟨.hbm, 387, rfl⟩
abbrev main_cst_81 : Ref sig .tc := ⟨.hbm, 388, rfl⟩
abbrev main_v280 : Ref sig .tc := ⟨.hbm, 389, rfl⟩
abbrev main_v281 : Ref sig .tc := ⟨.hbm, 390, rfl⟩
abbrev main_cst_82 : Ref sig .tc := ⟨.hbm, 391, rfl⟩
abbrev main_c_83 : Ref sig .tc := ⟨.hbm, 392, rfl⟩
abbrev main_call4_v0 : Ref sig .tc := ⟨.hbm, 393, rfl⟩
abbrev main_call4_v1 : Ref sig .tc := ⟨.hbm, 394, rfl⟩
abbrev main_call4_v2 : Ref sig .tc := ⟨.hbm, 395, rfl⟩
abbrev main_call4_v3 : Ref sig .tc := ⟨.hbm, 396, rfl⟩
abbrev main_call4_v4 : Ref sig .tc := ⟨.hbm, 397, rfl⟩
abbrev main_v282 : Ref sig .tc := ⟨.hbm, 398, rfl⟩
abbrev main_cst_84 : Ref sig .tc := ⟨.hbm, 399, rfl⟩
abbrev main_c_85 : Ref sig .tc := ⟨.hbm, 400, rfl⟩
abbrev main_call5_v0 : Ref sig .tc := ⟨.hbm, 401, rfl⟩
abbrev main_call5_v1 : Ref sig .tc := ⟨.hbm, 402, rfl⟩
abbrev main_call5_v2 : Ref sig .tc := ⟨.hbm, 403, rfl⟩
abbrev main_call5_v3 : Ref sig .tc := ⟨.hbm, 404, rfl⟩
abbrev main_call5_v4 : Ref sig .tc := ⟨.hbm, 405, rfl⟩
abbrev main_v283 : Ref sig .tc := ⟨.hbm, 406, rfl⟩
abbrev main_v284 : Ref sig .tc := ⟨.hbm, 407, rfl⟩
abbrev main_v285 : Ref sig .tc := ⟨.hbm, 408, rfl⟩
abbrev main_v286 : Ref sig .tc := ⟨.hbm, 409, rfl⟩
abbrev main_v287 : Ref sig .tc := ⟨.hbm, 410, rfl⟩
abbrev main_v288 : Ref sig .tc := ⟨.hbm, 411, rfl⟩
abbrev main_v289 : Ref sig .tc := ⟨.hbm, 412, rfl⟩
abbrev main_v290 : Ref sig .tc := ⟨.hbm, 413, rfl⟩
abbrev main_v291 : Ref sig .tc := ⟨.hbm, 414, rfl⟩
abbrev main_c_86 : Ref sig .tc := ⟨.hbm, 415, rfl⟩
abbrev main_v292 : Ref sig .tc := ⟨.hbm, 416, rfl⟩
abbrev main_v293 : Ref sig .tc := ⟨.hbm, 417, rfl⟩
abbrev main_c_87 : Ref sig .tc := ⟨.hbm, 418, rfl⟩
abbrev main_v294 : Ref sig .tc := ⟨.hbm, 419, rfl⟩
abbrev main_v295 : Ref sig .tc := ⟨.hbm, 420, rfl⟩
abbrev main_c_88 : Ref sig .tc := ⟨.hbm, 421, rfl⟩
abbrev main_v296 : Ref sig .tc := ⟨.hbm, 422, rfl⟩
abbrev main_v297 : Ref sig .tc := ⟨.hbm, 423, rfl⟩
abbrev main_c_89 : Ref sig .tc := ⟨.hbm, 424, rfl⟩
abbrev main_v298 : Ref sig .tc := ⟨.hbm, 425, rfl⟩
abbrev main_v299 : Ref sig .tc := ⟨.hbm, 426, rfl⟩
abbrev main_c_90 : Ref sig .tc := ⟨.hbm, 427, rfl⟩
abbrev main_v300 : Ref sig .tc := ⟨.hbm, 428, rfl⟩
abbrev main_v301 : Ref sig .tc := ⟨.hbm, 429, rfl⟩
abbrev main_c_91 : Ref sig .tc := ⟨.hbm, 430, rfl⟩
abbrev main_v302 : Ref sig .tc := ⟨.hbm, 431, rfl⟩
abbrev main_v303 : Ref sig .tc := ⟨.hbm, 432, rfl⟩
abbrev main_v304 : Ref sig .tc := ⟨.hbm, 433, rfl⟩
abbrev main_c_92 : Ref sig .tc := ⟨.hbm, 434, rfl⟩
abbrev main_v305 : Ref sig .tc := ⟨.hbm, 435, rfl⟩
abbrev main_v306 : Ref sig .tc := ⟨.hbm, 436, rfl⟩
abbrev main_c_93 : Ref sig .tc := ⟨.hbm, 437, rfl⟩
abbrev main_v307 : Ref sig .tc := ⟨.hbm, 438, rfl⟩
abbrev main_v308 : Ref sig .tc := ⟨.hbm, 439, rfl⟩
abbrev main_v309 : Ref sig .tc := ⟨.hbm, 440, rfl⟩
abbrev main_v310 : Ref sig .tc := ⟨.hbm, 441, rfl⟩
abbrev main_v311 : Ref sig .tc := ⟨.hbm, 442, rfl⟩
abbrev main_v312 : Ref sig .tc := ⟨.hbm, 443, rfl⟩
abbrev main_v313 : Ref sig .tc := ⟨.hbm, 444, rfl⟩
abbrev main_v314 : Ref sig .tc := ⟨.hbm, 445, rfl⟩
abbrev main_c_94 : Ref sig .tc := ⟨.hbm, 446, rfl⟩
abbrev main_v315 : Ref sig .tc := ⟨.hbm, 447, rfl⟩
abbrev main_v316 : Ref sig .tc := ⟨.hbm, 448, rfl⟩
abbrev main_c_95 : Ref sig .tc := ⟨.hbm, 449, rfl⟩
abbrev main_v317 : Ref sig .tc := ⟨.hbm, 450, rfl⟩
abbrev main_v318 : Ref sig .tc := ⟨.hbm, 451, rfl⟩
abbrev main_v319 : Ref sig .tc := ⟨.hbm, 452, rfl⟩
abbrev main_c_96 : Ref sig .tc := ⟨.hbm, 453, rfl⟩
abbrev main_v320 : Ref sig .tc := ⟨.hbm, 454, rfl⟩
abbrev main_v321 : Ref sig .tc := ⟨.hbm, 455, rfl⟩
abbrev main_c_97 : Ref sig .tc := ⟨.hbm, 456, rfl⟩
abbrev main_v322 : Ref sig .tc := ⟨.hbm, 457, rfl⟩
abbrev main_v323 : Ref sig .tc := ⟨.hbm, 458, rfl⟩
abbrev main_v324 : Ref sig .tc := ⟨.hbm, 459, rfl⟩
abbrev main_v325 : Ref sig .tc := ⟨.hbm, 460, rfl⟩
abbrev main_v326 : Ref sig .tc := ⟨.hbm, 461, rfl⟩
abbrev main_v327 : Ref sig .tc := ⟨.hbm, 462, rfl⟩
abbrev main_v328 : Ref sig .tc := ⟨.hbm, 463, rfl⟩
abbrev main_v329 : Ref sig .tc := ⟨.hbm, 464, rfl⟩
abbrev main_c_98 : Ref sig .tc := ⟨.hbm, 465, rfl⟩
abbrev main_v330 : Ref sig .tc := ⟨.hbm, 466, rfl⟩
abbrev main_v331 : Ref sig .tc := ⟨.hbm, 467, rfl⟩
abbrev main_c_99 : Ref sig .tc := ⟨.hbm, 468, rfl⟩
abbrev main_v332 : Ref sig .tc := ⟨.hbm, 469, rfl⟩
abbrev main_v333 : Ref sig .tc := ⟨.hbm, 470, rfl⟩
abbrev main_v334 : Ref sig .tc := ⟨.hbm, 471, rfl⟩
abbrev main_c_100 : Ref sig .tc := ⟨.hbm, 472, rfl⟩
abbrev main_v335 : Ref sig .tc := ⟨.hbm, 473, rfl⟩
abbrev main_v336 : Ref sig .tc := ⟨.hbm, 474, rfl⟩
abbrev main_c_101 : Ref sig .tc := ⟨.hbm, 475, rfl⟩
abbrev main_v337 : Ref sig .tc := ⟨.hbm, 476, rfl⟩
abbrev main_v338 : Ref sig .tc := ⟨.hbm, 477, rfl⟩
abbrev main_v339 : Ref sig .tc := ⟨.hbm, 478, rfl⟩
abbrev main_v340 : Ref sig .tc := ⟨.hbm, 479, rfl⟩
abbrev main_v341 : Ref sig .tc := ⟨.hbm, 480, rfl⟩
abbrev main_v342 : Ref sig .tc := ⟨.hbm, 481, rfl⟩
abbrev main_v343 : Ref sig .tc := ⟨.hbm, 482, rfl⟩
abbrev main_v344 : Ref sig .tc := ⟨.hbm, 483, rfl⟩
abbrev main_c_102 : Ref sig .tc := ⟨.hbm, 484, rfl⟩
abbrev main_v345 : Ref sig .tc := ⟨.hbm, 485, rfl⟩
abbrev main_v346 : Ref sig .tc := ⟨.hbm, 486, rfl⟩
abbrev main_c_103 : Ref sig .tc := ⟨.hbm, 487, rfl⟩
abbrev main_v347 : Ref sig .tc := ⟨.hbm, 488, rfl⟩
abbrev main_v348 : Ref sig .tc := ⟨.hbm, 489, rfl⟩
abbrev main_v349 : Ref sig .tc := ⟨.hbm, 490, rfl⟩
abbrev main_c_104 : Ref sig .tc := ⟨.hbm, 491, rfl⟩
abbrev main_v350 : Ref sig .tc := ⟨.hbm, 492, rfl⟩
abbrev main_v351 : Ref sig .tc := ⟨.hbm, 493, rfl⟩
abbrev main_c_105 : Ref sig .tc := ⟨.hbm, 494, rfl⟩
abbrev main_v352 : Ref sig .tc := ⟨.hbm, 495, rfl⟩
abbrev main_v353 : Ref sig .tc := ⟨.hbm, 496, rfl⟩
abbrev main_v354 : Ref sig .tc := ⟨.hbm, 497, rfl⟩
abbrev main_v355 : Ref sig .tc := ⟨.hbm, 498, rfl⟩
abbrev main_v356 : Ref sig .tc := ⟨.hbm, 499, rfl⟩
abbrev main_v357 : Ref sig .tc := ⟨.hbm, 500, rfl⟩
abbrev main_v358 : Ref sig .tc := ⟨.hbm, 501, rfl⟩
abbrev main_v359 : Ref sig .tc := ⟨.hbm, 502, rfl⟩
abbrev main_cst_106 : Ref sig .tc := ⟨.hbm, 503, rfl⟩
abbrev main_v360 : Ref sig .tc := ⟨.hbm, 504, rfl⟩
abbrev main_v361 : Ref sig .tc := ⟨.hbm, 505, rfl⟩
abbrev main_v362 : Ref sig .tc := ⟨.hbm, 506, rfl⟩
abbrev main_v363 : Ref sig .tc := ⟨.hbm, 507, rfl⟩
abbrev main_v364 : Ref sig .tc := ⟨.hbm, 508, rfl⟩
abbrev main_v365 : Ref sig .tc := ⟨.hbm, 509, rfl⟩
abbrev main_v366 : Ref sig .tc := ⟨.hbm, 510, rfl⟩
abbrev main_cst_107 : Ref sig .tc := ⟨.hbm, 511, rfl⟩
abbrev main_v367 : Ref sig .tc := ⟨.hbm, 512, rfl⟩
abbrev main_v368 : Ref sig .tc := ⟨.hbm, 513, rfl⟩
abbrev main_v369 : Ref sig .tc := ⟨.hbm, 514, rfl⟩
abbrev main_v370 : Ref sig .tc := ⟨.hbm, 515, rfl⟩
abbrev main_v371 : Ref sig .tc := ⟨.hbm, 516, rfl⟩
abbrev main_v372 : Ref sig .tc := ⟨.hbm, 517, rfl⟩
abbrev main_v373 : Ref sig .tc := ⟨.hbm, 518, rfl⟩
abbrev main_cst_108 : Ref sig .tc := ⟨.hbm, 519, rfl⟩
abbrev main_v374 : Ref sig .tc := ⟨.hbm, 520, rfl⟩
abbrev main_v375 : Ref sig .tc := ⟨.hbm, 521, rfl⟩
abbrev main_v376 : Ref sig .tc := ⟨.hbm, 522, rfl⟩
abbrev main_v377 : Ref sig .tc := ⟨.hbm, 523, rfl⟩
abbrev main_v378 : Ref sig .tc := ⟨.hbm, 524, rfl⟩
abbrev main_v379 : Ref sig .tc := ⟨.hbm, 525, rfl⟩
abbrev main_v380 : Ref sig .tc := ⟨.hbm, 526, rfl⟩
abbrev main_v381 : Ref sig .tc := ⟨.hbm, 527, rfl⟩
abbrev main_v382 : Ref sig .tc := ⟨.hbm, 528, rfl⟩
abbrev main_v383 : Ref sig .tc := ⟨.hbm, 529, rfl⟩
abbrev main_v384 : Ref sig .tc := ⟨.hbm, 530, rfl⟩
abbrev main_v385 : Ref sig .tc := ⟨.hbm, 531, rfl⟩
abbrev main_cst_109 : Ref sig .tc := ⟨.hbm, 532, rfl⟩
abbrev main_v386 : Ref sig .tc := ⟨.hbm, 533, rfl⟩
abbrev main_v387 : Ref sig .tc := ⟨.hbm, 534, rfl⟩
abbrev main_cst_110 : Ref sig .tc := ⟨.hbm, 535, rfl⟩
abbrev main_v388 : Ref sig .tc := ⟨.hbm, 536, rfl⟩
abbrev main_v389 : Ref sig .tc := ⟨.hbm, 537, rfl⟩
abbrev main_cst_111 : Ref sig .tc := ⟨.hbm, 538, rfl⟩
abbrev main_v390 : Ref sig .tc := ⟨.hbm, 539, rfl⟩
abbrev main_v391 : Ref sig .tc := ⟨.hbm, 540, rfl⟩
abbrev main_v392 : Ref sig .tc := ⟨.hbm, 541, rfl⟩
abbrev main_v393 : Ref sig .tc := ⟨.hbm, 542, rfl⟩
abbrev main_cst_112 : Ref sig .tc := ⟨.hbm, 543, rfl⟩
abbrev main_v394 : Ref sig .tc := ⟨.hbm, 544, rfl⟩
abbrev main_v395 : Ref sig .tc := ⟨.hbm, 545, rfl⟩
abbrev main_cst_113 : Ref sig .tc := ⟨.hbm, 546, rfl⟩
abbrev main_v396 : Ref sig .tc := ⟨.hbm, 547, rfl⟩
abbrev main_v397 : Ref sig .tc := ⟨.hbm, 548, rfl⟩
abbrev main_cst_114 : Ref sig .tc := ⟨.hbm, 549, rfl⟩
abbrev main_v398 : Ref sig .tc := ⟨.hbm, 550, rfl⟩
abbrev main_v399 : Ref sig .tc := ⟨.hbm, 551, rfl⟩
abbrev main_cst_115 : Ref sig .tc := ⟨.hbm, 552, rfl⟩
abbrev main_c_116 : Ref sig .tc := ⟨.hbm, 553, rfl⟩
abbrev main_call6_v0 : Ref sig .tc := ⟨.hbm, 554, rfl⟩
abbrev main_call6_v1 : Ref sig .tc := ⟨.hbm, 555, rfl⟩
abbrev main_call6_v2 : Ref sig .tc := ⟨.hbm, 556, rfl⟩
abbrev main_call6_v3 : Ref sig .tc := ⟨.hbm, 557, rfl⟩
abbrev main_call6_v4 : Ref sig .tc := ⟨.hbm, 558, rfl⟩
abbrev main_v400 : Ref sig .tc := ⟨.hbm, 559, rfl⟩
abbrev main_cst_117 : Ref sig .tc := ⟨.hbm, 560, rfl⟩
abbrev main_c_118 : Ref sig .tc := ⟨.hbm, 561, rfl⟩
abbrev main_call7_v0 : Ref sig .tc := ⟨.hbm, 562, rfl⟩
abbrev main_call7_v1 : Ref sig .tc := ⟨.hbm, 563, rfl⟩
abbrev main_call7_v2 : Ref sig .tc := ⟨.hbm, 564, rfl⟩
abbrev main_call7_v3 : Ref sig .tc := ⟨.hbm, 565, rfl⟩
abbrev main_call7_v4 : Ref sig .tc := ⟨.hbm, 566, rfl⟩
abbrev main_v401 : Ref sig .tc := ⟨.hbm, 567, rfl⟩
abbrev main_v402 : Ref sig .tc := ⟨.hbm, 568, rfl⟩
abbrev main_v403 : Ref sig .tc := ⟨.hbm, 569, rfl⟩
abbrev main_v404 : Ref sig .tc := ⟨.hbm, 570, rfl⟩
abbrev main_v405 : Ref sig .tc := ⟨.hbm, 571, rfl⟩
abbrev main_v406 : Ref sig .tc := ⟨.hbm, 572, rfl⟩
abbrev main_v407 : Ref sig .tc := ⟨.hbm, 573, rfl⟩
abbrev main_v408 : Ref sig .tc := ⟨.hbm, 574, rfl⟩
abbrev main_v409 : Ref sig .tc := ⟨.hbm, 575, rfl⟩
abbrev main_c_119 : Ref sig .tc := ⟨.hbm, 576, rfl⟩
abbrev main_v410 : Ref sig .tc := ⟨.hbm, 577, rfl⟩
abbrev main_v411 : Ref sig .tc := ⟨.hbm, 578, rfl⟩
abbrev main_c_120 : Ref sig .tc := ⟨.hbm, 579, rfl⟩
abbrev main_v412 : Ref sig .tc := ⟨.hbm, 580, rfl⟩
abbrev main_v413 : Ref sig .tc := ⟨.hbm, 581, rfl⟩
abbrev main_c_121 : Ref sig .tc := ⟨.hbm, 582, rfl⟩
abbrev main_v414 : Ref sig .tc := ⟨.hbm, 583, rfl⟩
abbrev main_v415 : Ref sig .tc := ⟨.hbm, 584, rfl⟩
abbrev main_c_122 : Ref sig .tc := ⟨.hbm, 585, rfl⟩
abbrev main_v416 : Ref sig .tc := ⟨.hbm, 586, rfl⟩
abbrev main_v417 : Ref sig .tc := ⟨.hbm, 587, rfl⟩
abbrev main_c_123 : Ref sig .tc := ⟨.hbm, 588, rfl⟩
abbrev main_v418 : Ref sig .tc := ⟨.hbm, 589, rfl⟩
abbrev main_v419 : Ref sig .tc := ⟨.hbm, 590, rfl⟩
abbrev main_c_124 : Ref sig .tc := ⟨.hbm, 591, rfl⟩
abbrev main_v420 : Ref sig .tc := ⟨.hbm, 592, rfl⟩
abbrev main_v421 : Ref sig .tc := ⟨.hbm, 593, rfl⟩
abbrev main_v422 : Ref sig .tc := ⟨.hbm, 594, rfl⟩
abbrev main_c_125 : Ref sig .tc := ⟨.hbm, 595, rfl⟩
abbrev main_v423 : Ref sig .tc := ⟨.hbm, 596, rfl⟩
abbrev main_v424 : Ref sig .tc := ⟨.hbm, 597, rfl⟩
abbrev main_c_126 : Ref sig .tc := ⟨.hbm, 598, rfl⟩
abbrev main_v425 : Ref sig .tc := ⟨.hbm, 599, rfl⟩
abbrev main_v426 : Ref sig .tc := ⟨.hbm, 600, rfl⟩
abbrev main_v427 : Ref sig .tc := ⟨.hbm, 601, rfl⟩
abbrev main_v428 : Ref sig .tc := ⟨.hbm, 602, rfl⟩
abbrev main_v429 : Ref sig .tc := ⟨.hbm, 603, rfl⟩
abbrev main_v430 : Ref sig .tc := ⟨.hbm, 604, rfl⟩
abbrev main_v431 : Ref sig .tc := ⟨.hbm, 605, rfl⟩
abbrev main_v432 : Ref sig .tc := ⟨.hbm, 606, rfl⟩
abbrev main_c_127 : Ref sig .tc := ⟨.hbm, 607, rfl⟩
abbrev main_v433 : Ref sig .tc := ⟨.hbm, 608, rfl⟩
abbrev main_v434 : Ref sig .tc := ⟨.hbm, 609, rfl⟩
abbrev main_c_128 : Ref sig .tc := ⟨.hbm, 610, rfl⟩
abbrev main_v435 : Ref sig .tc := ⟨.hbm, 611, rfl⟩
abbrev main_v436 : Ref sig .tc := ⟨.hbm, 612, rfl⟩
abbrev main_v437 : Ref sig .tc := ⟨.hbm, 613, rfl⟩
abbrev main_c_129 : Ref sig .tc := ⟨.hbm, 614, rfl⟩
abbrev main_v438 : Ref sig .tc := ⟨.hbm, 615, rfl⟩
abbrev main_v439 : Ref sig .tc := ⟨.hbm, 616, rfl⟩
abbrev main_c_130 : Ref sig .tc := ⟨.hbm, 617, rfl⟩
abbrev main_v440 : Ref sig .tc := ⟨.hbm, 618, rfl⟩
abbrev main_v441 : Ref sig .tc := ⟨.hbm, 619, rfl⟩
abbrev main_v442 : Ref sig .tc := ⟨.hbm, 620, rfl⟩
abbrev main_v443 : Ref sig .tc := ⟨.hbm, 621, rfl⟩
abbrev main_v444 : Ref sig .tc := ⟨.hbm, 622, rfl⟩
abbrev main_v445 : Ref sig .tc := ⟨.hbm, 623, rfl⟩
abbrev main_v446 : Ref sig .tc := ⟨.hbm, 624, rfl⟩
abbrev main_v447 : Ref sig .tc := ⟨.hbm, 625, rfl⟩
abbrev main_c_131 : Ref sig .tc := ⟨.hbm, 626, rfl⟩
abbrev main_v448 : Ref sig .tc := ⟨.hbm, 627, rfl⟩
abbrev main_v449 : Ref sig .tc := ⟨.hbm, 628, rfl⟩
abbrev main_c_132 : Ref sig .tc := ⟨.hbm, 629, rfl⟩
abbrev main_v450 : Ref sig .tc := ⟨.hbm, 630, rfl⟩
abbrev main_v451 : Ref sig .tc := ⟨.hbm, 631, rfl⟩
abbrev main_v452 : Ref sig .tc := ⟨.hbm, 632, rfl⟩
abbrev main_c_133 : Ref sig .tc := ⟨.hbm, 633, rfl⟩
abbrev main_v453 : Ref sig .tc := ⟨.hbm, 634, rfl⟩
abbrev main_v454 : Ref sig .tc := ⟨.hbm, 635, rfl⟩
abbrev main_c_134 : Ref sig .tc := ⟨.hbm, 636, rfl⟩
abbrev main_v455 : Ref sig .tc := ⟨.hbm, 637, rfl⟩
abbrev main_v456 : Ref sig .tc := ⟨.hbm, 638, rfl⟩
abbrev main_v457 : Ref sig .tc := ⟨.hbm, 639, rfl⟩
abbrev main_v458 : Ref sig .tc := ⟨.hbm, 640, rfl⟩
abbrev main_v459 : Ref sig .tc := ⟨.hbm, 641, rfl⟩
abbrev main_v460 : Ref sig .tc := ⟨.hbm, 642, rfl⟩
abbrev main_v461 : Ref sig .tc := ⟨.hbm, 643, rfl⟩
abbrev main_v462 : Ref sig .tc := ⟨.hbm, 644, rfl⟩
abbrev main_c_135 : Ref sig .tc := ⟨.hbm, 645, rfl⟩
abbrev main_v463 : Ref sig .tc := ⟨.hbm, 646, rfl⟩
abbrev main_v464 : Ref sig .tc := ⟨.hbm, 647, rfl⟩
abbrev main_c_136 : Ref sig .tc := ⟨.hbm, 648, rfl⟩
abbrev main_v465 : Ref sig .tc := ⟨.hbm, 649, rfl⟩
abbrev main_v466 : Ref sig .tc := ⟨.hbm, 650, rfl⟩
abbrev main_v467 : Ref sig .tc := ⟨.hbm, 651, rfl⟩
abbrev main_c_137 : Ref sig .tc := ⟨.hbm, 652, rfl⟩
abbrev main_v468 : Ref sig .tc := ⟨.hbm, 653, rfl⟩
abbrev main_v469 : Ref sig .tc := ⟨.hbm, 654, rfl⟩
abbrev main_c_138 : Ref sig .tc := ⟨.hbm, 655, rfl⟩
abbrev main_v470 : Ref sig .tc := ⟨.hbm, 656, rfl⟩
abbrev main_v471 : Ref sig .tc := ⟨.hbm, 657, rfl⟩
abbrev main_v472 : Ref sig .tc := ⟨.hbm, 658, rfl⟩
abbrev main_v473 : Ref sig .tc := ⟨.hbm, 659, rfl⟩
abbrev main_v474 : Ref sig .tc := ⟨.hbm, 660, rfl⟩
abbrev main_v475 : Ref sig .tc := ⟨.hbm, 661, rfl⟩
abbrev main_v476 : Ref sig .tc := ⟨.hbm, 662, rfl⟩
abbrev main_v477 : Ref sig .tc := ⟨.hbm, 663, rfl⟩
abbrev main_cst_139 : Ref sig .tc := ⟨.hbm, 664, rfl⟩
abbrev main_v478 : Ref sig .tc := ⟨.hbm, 665, rfl⟩
abbrev main_v479 : Ref sig .tc := ⟨.hbm, 666, rfl⟩
abbrev main_v480 : Ref sig .tc := ⟨.hbm, 667, rfl⟩
abbrev main_v481 : Ref sig .tc := ⟨.hbm, 668, rfl⟩
abbrev main_v482 : Ref sig .tc := ⟨.hbm, 669, rfl⟩
abbrev main_v483 : Ref sig .tc := ⟨.hbm, 670, rfl⟩
abbrev main_v484 : Ref sig .tc := ⟨.hbm, 671, rfl⟩
abbrev main_cst_140 : Ref sig .tc := ⟨.hbm, 672, rfl⟩
abbrev main_v485 : Ref sig .tc := ⟨.hbm, 673, rfl⟩
abbrev main_v486 : Ref sig .tc := ⟨.hbm, 674, rfl⟩
abbrev main_v487 : Ref sig .tc := ⟨.hbm, 675, rfl⟩
abbrev main_v488 : Ref sig .tc := ⟨.hbm, 676, rfl⟩
abbrev main_v489 : Ref sig .tc := ⟨.hbm, 677, rfl⟩
abbrev main_v490 : Ref sig .tc := ⟨.hbm, 678, rfl⟩
abbrev main_v491 : Ref sig .tc := ⟨.hbm, 679, rfl⟩
abbrev main_cst_141 : Ref sig .tc := ⟨.hbm, 680, rfl⟩
abbrev main_v492 : Ref sig .tc := ⟨.hbm, 681, rfl⟩
abbrev main_v493 : Ref sig .tc := ⟨.hbm, 682, rfl⟩
abbrev main_v494 : Ref sig .tc := ⟨.hbm, 683, rfl⟩
abbrev main_v495 : Ref sig .tc := ⟨.hbm, 684, rfl⟩
abbrev main_v496 : Ref sig .tc := ⟨.hbm, 685, rfl⟩
abbrev main_v497 : Ref sig .tc := ⟨.hbm, 686, rfl⟩
abbrev main_v498 : Ref sig .tc := ⟨.hbm, 687, rfl⟩
abbrev main_v499 : Ref sig .tc := ⟨.hbm, 688, rfl⟩
abbrev main_v500 : Ref sig .tc := ⟨.hbm, 689, rfl⟩
abbrev main_v501 : Ref sig .tc := ⟨.hbm, 690, rfl⟩
abbrev main_v502 : Ref sig .tc := ⟨.hbm, 691, rfl⟩

abbrev nD : Nat := 1
abbrev τ : Topo := Topo.v7x

variable {F : FTy → Type} [FloatOps F]

class Facts₀ : Prop where
  bcast_S_S100000x3 : S_.BroadcastsInDim S100000x3 (![] : Fin 0 → Fin S100000x3.rank)
  bcast_S_S2 : S_.BroadcastsInDim S2 (![] : Fin 0 → Fin S2.rank)
  bcast_S2_S2x1_0 : S2.BroadcastsInDim S2x1 (![0] : Fin 1 → Fin S2x1.rank)
  bcast_S100000x2_S1x100000x2_1_2 : S100000x2.BroadcastsInDim S1x100000x2 (![1, 2] : Fin 2 → Fin S1x100000x2.rank)
  concatenates_S1x100000x2_S1x100000x2_S1x100000x2_S3x100000x2_d0 : Shape.Concatenates [S1x100000x2, S1x100000x2, S1x100000x2] S3x100000x2 0
  slices_S3x100000x2_S3x100000x1_0_0_0 : S3x100000x2.Slices ![0, 0, 0] S3x100000x1
  shapeCasts_S3x100000x1_S3x100000 : S3x100000x1.ShapeCasts S3x100000
  bcast_S_S3x100000 : S_.BroadcastsInDim S3x100000 (![] : Fin 0 → Fin S3x100000.rank)
  slices_S3x100000x2_S3x100000x1_0_0_1 : S3x100000x2.Slices ![0, 0, 1] S3x100000x1
  bcast_S3x100000_S3x100000x1_0_1 : S3x100000.BroadcastsInDim S3x100000x1 (![0, 1] : Fin 2 → Fin S3x100000x1.rank)
  concatenates_S3x100000x1_S3x100000x1_S3x100000x2_d2 : Shape.Concatenates [S3x100000x1, S3x100000x1] S3x100000x2 2
  transposes_S3x72x100000_S3x100000x72_0_2_1 : S3x72x100000.Transposes [0, 2, 1] S3x100000x72
  bcast_S_S3x100000x1 : S_.BroadcastsInDim S3x100000x1 (![] : Fin 0 → Fin S3x100000x1.rank)
  bcast_S3x100000x1_S3x100000x72_0_1_2 : S3x100000x1.BroadcastsInDim S3x100000x72 (![0, 1, 2] : Fin 3 → Fin S3x100000x72.rank)
  transposes_S3x100000x72_S100000x3x72_1_0_2 : S3x100000x72.Transposes [1, 0, 2] S100000x3x72
  shapeCasts_S100000x3x72_S100000x216 : S100000x3x72.ShapeCasts S100000x216
  concatenates_S100000x216_S100000x216_S100000x216_S100000x216_S100000x864_d1 : Shape.Concatenates [S100000x216, S100000x216, S100000x216, S100000x216] S100000x864 1
  gather_S100000x3_S2x1_S100000x2_0_1_n_n_1_1_1000001_wf : GatherDims.WF S100000x3 S2x1 S100000x2 [0] [1] [] [1] [] 1 ![100000, 1]
  gather_S3x72x64x64_S3x100000x2_S3x72x100000_1_23_0_0_23_2_17211_wf : GatherDims.WF S3x72x64x64 S3x100000x2 S3x72x100000 [1] [2, 3] [0] [2, 3] [0] 2 ![1, 72, 1, 1]
  gather_S3x72x128x128_S3x100000x2_S3x72x100000_1_23_0_0_23_2_17211_wf : GatherDims.WF S3x72x128x128 S3x100000x2 S3x72x100000 [1] [2, 3] [0] [2, 3] [0] 2 ![1, 72, 1, 1]
  gather_S3x72x256x256_S3x100000x2_S3x72x100000_1_23_0_0_23_2_17211_wf : GatherDims.WF S3x72x256x256 S3x100000x2 S3x72x100000 [1] [2, 3] [0] [2, 3] [0] 2 ![1, 72, 1, 1]
  gather_S3x72x512x512_S3x100000x2_S3x72x100000_1_23_0_0_23_2_17211_wf : GatherDims.WF S3x72x512x512 S3x100000x2 S3x72x100000 [1] [2, 3] [0] [2, 3] [0] 2 ![1, 72, 1, 1]

variable [Facts₀]

def gather_S100000x3_S2x1_S100000x2_0_1_n_n_1_1_1000001 : GatherDims S100000x3 S2x1 S100000x2 where
  offsetDims := [0]
  collapsedSliceDims := [1]
  operandBatchingDims := []
  startIndicesBatchingDims := []
  startIndexMap := [1]
  indexVectorDim := 1
  sliceSizes := ![100000, 1]
  wf := gather_S100000x3_S2x1_S100000x2_0_1_n_n_1_1_1000001_wf
def gather_S3x72x64x64_S3x100000x2_S3x72x100000_1_23_0_0_23_2_17211 : GatherDims S3x72x64x64 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x64x64_S3x100000x2_S3x72x100000_1_23_0_0_23_2_17211_wf
def gather_S3x72x128x128_S3x100000x2_S3x72x100000_1_23_0_0_23_2_17211 : GatherDims S3x72x128x128 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x128x128_S3x100000x2_S3x72x100000_1_23_0_0_23_2_17211_wf
def gather_S3x72x256x256_S3x100000x2_S3x72x100000_1_23_0_0_23_2_17211 : GatherDims S3x72x256x256 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x256x256_S3x100000x2_S3x72x100000_1_23_0_0_23_2_17211_wf
def gather_S3x72x512x512_S3x100000x2_S3x72x100000_1_23_0_0_23_2_17211 : GatherDims S3x72x512x512 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x512x512_S3x100000x2_S3x72x100000_1_23_0_0_23_2_17211_wf

class Facts : Prop extends Facts₀ where

variable [Facts]
-- ==== Proof.K.Entry.lean ====
/-
  The arrays as the one pallas region of the kernel program finds them. The host lines of @main before the region
  (seventeen stretches: the coordinate normalisation, the per-scale clamp / floor / corner gathers, the stacking of the
  four scales) are folded over the launch memory; `V0` is that fold as a valuation, `V` reads it at a TensorCore
  reference, and `iblk` is window `w`'s block at grid point `t` cut out of its array as found.
-/
import proofs.«135668_j17884243821138_2_alg».proof.Proof.Gen.Kernel.Launch
import proofs.«135668_j17884243821138_2_alg».proof.Proof.Gen.Kernel.Skeleton
import proofs.«135668_j17884243821138_2_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ)

/-- The host stretches before the region, in order. -/
abbrev pre : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s TensorCore buffer contents when the region is entered: the host lines before it folded over the launch memory. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.K.Kept.lean ====
/-
  The host lines before the region, stretch by stretch: none of them allocates a buffer, and none writes an argument
  array of @main (each line writes only its own result buffer), so each stretch leaves the five argument arrays as it
  found them.
-/
import proofs.«135668_j17884243821138_2_alg».proof.Proof.K.Entry
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after)

variable {F : FTy → Type} [FloatOps F]

set_option maxHeartbeats 4000000 in
theorem fresh_0 : (hostOps0 : List (HloOp τ sig (Elt F))).Forall fun op => op.fresh = ∅ := by
  simp only [List.Forall]; repeat' constructor
set_option maxHeartbeats 4000000 in
theorem kept_0_0 (V : Valuation τ sig (Elt F)) : after hostOps0 V (Proc.devRef .tc main_arg0) = V (Proc.devRef .tc main_arg0) := by
  after_results_simp
set_option maxHeartbeats 4000000 in
theorem kept_0_1 (V : Valuation τ sig (Elt F)) : after hostOps0 V (Proc.devRef .tc main_arg1) = V (Proc.devRef .tc main_arg1) := by
  after_results_simp
set_option maxHeartbeats 4000000 in
theorem kept_0_2 (V : Valuation τ sig (Elt F)) : after hostOps0 V (Proc.devRef .tc main_arg2) = V (Proc.devRef .tc main_arg2) := by
  after_results_simp
set_option maxHeartbeats 4000000 in
theorem kept_0_3 (V : Valuation τ sig (Elt F)) : after hostOps0 V (Proc.devRef .tc main_arg3) = V (Proc.devRef .tc main_arg3) := by
  after_results_simp
set_option maxHeartbeats 4000000 in
theorem kept_0_4 (V : Valuation τ sig (Elt F)) : after hostOps0 V (Proc.devRef .tc main_arg4) = V (Proc.devRef .tc main_arg4) := by
  after_results_simp

set_option maxHeartbeats 4000000 in
theorem fresh_1 : (hostOps0_1 : List (HloOp τ sig (Elt F))).Forall fun op => op.fresh = ∅ := by
  simp only [List.Forall]; repeat' constructor
set_option maxHeartbeats 4000000 in
theorem kept_1_0 (V : Valuation τ sig (Elt F)) : after hostOps0_1 V (Proc.devRef .tc main_arg0) = V (Proc.devRef .tc main_arg0) := by
  after_results_simp
set_option maxHeartbeats 4000000 in
theorem kept_1_1 (V : Valuation τ sig (Elt F)) : after hostOps0_1 V (Proc.devRef .tc main_arg1) = V (Proc.devRef .tc main_arg1) := by
  after_results_simp
set_option maxHeartbeats 4000000 in
theorem kept_1_2 (V : Valuation τ sig (Elt F)) : after hostOps0_1 V (Proc.devRef .tc main_arg2) = V (Proc.devRef .tc main_arg2) := by
  after_results_simp
set_option maxHeartbeats 4000000 in
theorem kept_1_3 (V : Valuation τ sig (Elt F)) : after hostOps0_1 V (Proc.devRef .tc main_arg3) = V (Proc.devRef .tc main_arg3) := by
  after_results_simp
set_option maxHeartbeats 4000000 in
theorem kept_1_4 (V : Valuation τ sig (Elt F)) : after hostOps0_1 V (Proc.devRef .tc main_arg4) = V (Proc.devRef .tc main_arg4) := by
  after_results_simp

set_option maxHeartbeats 4000000 in
theorem fresh_2 : (hostOps0_2 : List (HloOp τ sig (Elt F))).Forall fun op => op.fresh = ∅ := by
  simp only [List.Forall]; repeat' constructor
set_option maxHeartbeats 4000000 in
theorem kept_2_0 (V : Valuation τ sig (Elt F)) : after hostOps0_2 V (Proc.devRef .tc main_arg0) = V (Proc.devRef .tc main_arg0) := by
  after_results_simp
set_option maxHeartbeats 4000000 in
theorem kept_2_1 (V : Valuation τ sig (Elt F)) : after hostOps0_2 V (Proc.devRef .tc main_arg1) = V (Proc.devRef .tc main_arg1) := by
  after_results_simp
set_option maxHeartbeats 4000000 in
theorem kept_2_2 (V : Valuation τ sig (Elt F)) : after hostOps0_2 V (Proc.devRef .tc main_arg2) = V (Proc.devRef .tc main_arg2) := by
  after_results_simp
set_option maxHeartbeats 4000000 in
theorem kept_2_3 (V : Valuation τ sig (Elt F)) : after hostOps0_2 V (Proc.devRef .tc main_arg3) = V (Proc.devRef .tc main_arg3) := by
  after_results_simp
set_option maxHeartbeats 4000000 in
theorem kept_2_4 (V : Valuation τ sig (Elt F)) : after hostOps0_2 V (Proc.devRef .tc main_arg4) = V (Proc.devRef .tc main_arg4) := by
  after_results_simp

set_option maxHeartbeats 4000000 in
theorem fresh_3 : (hostOps0_3 : List (HloOp τ sig (Elt F))).Forall fun op => op.fresh = ∅ := by
  simp only [List.Forall]; repeat' constructor
set_option maxHeartbeats 4000000 in
theorem kept_3_0 (V : Valuation τ sig (Elt F)) : after hostOps0_3 V (Proc.devRef .tc main_arg0) = V (Proc.devRef .tc main_arg0) := by
  after_results_simp
set_option maxHeartbeats 4000000 in
theorem kept_3_1 (V : Valuation τ sig (Elt F)) : after hostOps0_3 V (Proc.devRef .tc main_arg1) = V (Proc.devRef .tc main_arg1) := by
  after_results_simp
set_option maxHeartbeats 4000000 in
theorem kept_3_2 (V : Valuation τ sig (Elt F)) : after hostOps0_3 V (Proc.devRef .tc main_arg2) = V (Proc.devRef .tc main_arg2) := by
  after_results_simp
set_option maxHeartbeats 4000000 in
theorem kept_3_3 (V : Valuation τ sig (Elt F)) : after hostOps0_3 V (Proc.devRef .tc main_arg3) = V (Proc.devRef .tc main_arg3) := by
  after_results_simp
set_option maxHeartbeats 4000000 in
theorem kept_3_4 (V : Valuation τ sig (Elt F)) : after hostOps0_3 V (Proc.devRef .tc main_arg4) = V (Proc.devRef .tc main_arg4) := by
  after_results_simp

set_option maxHeartbeats 4000000 in
theorem fresh_4 : (hostOps0_4 : List (HloOp τ sig (Elt F))).Forall fun op => op.fresh = ∅ := by
  simp only [List.Forall]; repeat' constructor
set_option maxHeartbeats 4000000 in
theorem kept_4_0 (V : Valuation τ sig (Elt F)) : after hostOps0_4 V (Proc.devRef .tc main_arg0) = V (Proc.devRef .tc main_arg0) := by
  after_results_simp
set_option maxHeartbeats 4000000 in
theorem kept_4_1 (V : Valuation τ sig (Elt F)) : after hostOps0_4 V (Proc.devRef .tc main_arg1) = V (Proc.devRef .tc main_arg1) := by
  after_results_simp
set_option maxHeartbeats 4000000 in
theorem kept_4_2 (V : Valuation τ sig (Elt F)) : after hostOps0_4 V (Proc.devRef .tc main_arg2) = V (Proc.devRef .tc main_arg2) := by
  after_results_simp
set_option maxHeartbeats 4000000 in
theorem kept_4_3 (V : Valuation τ sig (Elt F)) : after hostOps0_4 V (Proc.devRef .tc main_arg3) = V (Proc.devRef .tc main_arg3) := by
  after_results_simp
set_option maxHeartbeats 4000000 in
theorem kept_4_4 (V : Valuation τ sig (Elt F)) : after hostOps0_4 V (Proc.devRef .tc main_arg4) = V (Proc.devRef .tc main_arg4) := by
  after_results_simp

set_option maxHeartbeats 4000000 in
theorem fresh_5 : (hostOps0_5 : List (HloOp τ sig (Elt F))).Forall fun op => op.fresh = ∅ := by
  simp only [List.Forall]; repeat' constructor
set_option maxHeartbeats 4000000 in
theorem kept_5_0 (V : Valuation τ sig (Elt F)) : after hostOps0_5 V (Proc.devRef .tc main_arg0) = V (Proc.devRef .tc main_arg0) := by
  after_results_simp
set_option maxHeartbeats 4000000 in
theorem kept_5_1 (V : Valuation τ sig (Elt F)) : after hostOps0_5 V (Proc.devRef .tc main_arg1) = V (Proc.devRef .tc main_arg1) := by
  after_results_simp
set_option maxHeartbeats 4000000 in
theorem kept_5_2 (V : Valuation τ sig (Elt F)) : after hostOps0_5 V (Proc.devRef .tc main_arg2) = V (Proc.devRef .tc main_arg2) := by
  after_results_simp
set_option maxHeartbeats 4000000 in
theorem kept_5_3 (V : Valuation τ sig (Elt F)) : after hostOps0_5 V (Proc.devRef .tc main_arg3) = V (Proc.devRef .tc main_arg3) := by
  after_results_simp
set_option maxHeartbeats 4000000 in
theorem kept_5_4 (V : Valuation τ sig (Elt F)) : after hostOps0_5 V (Proc.devRef .tc main_arg4) = V (Proc.devRef .tc main_arg4) := by
  after_results_simp

set_option maxHeartbeats 4000000 in
theorem fresh_6 : (hostOps0_6 : List (HloOp τ sig (Elt F))).Forall fun op => op.fresh = ∅ := by
  simp only [List.Forall]; repeat' constructor
set_option maxHeartbeats 4000000 in
theorem kept_6_0 (V : Valuation τ sig (Elt F)) : after hostOps0_6 V (Proc.devRef .tc main_arg0) = V (Proc.devRef .tc main_arg0) := by
  after_results_simp
set_option maxHeartbeats 4000000 in
theorem kept_6_1 (V : Valuation τ sig (Elt F)) : after hostOps0_6 V (Proc.devRef .tc main_arg1) = V (Proc.devRef .tc main_arg1) := by
  after_results_simp
set_option maxHeartbeats 4000000 in
theorem kept_6_2 (V : Valuation τ sig (Elt F)) : after hostOps0_6 V (Proc.devRef .tc main_arg2) = V (Proc.devRef .tc main_arg2) := by
  after_results_simp
set_option maxHeartbeats 4000000 in
theorem kept_6_3 (V : Valuation τ sig (Elt F)) : after hostOps0_6 V (Proc.devRef .tc main_arg3) = V (Proc.devRef .tc main_arg3) := by
  after_results_simp
set_option maxHeartbeats 4000000 in
theorem kept_6_4 (V : Valuation τ sig (Elt F)) : after hostOps0_6 V (Proc.devRef .tc main_arg4) = V (Proc.devRef .tc main_arg4) := by
  after_results_simp

set_option maxHeartbeats 4000000 in
theorem fresh_7 : (hostOps0_7 : List (HloOp τ sig (Elt F))).Forall fun op => op.fresh = ∅ := by
  simp only [List.Forall]; repeat' constructor
set_option maxHeartbeats 4000000 in
theorem kept_7_0 (V : Valuation τ sig (Elt F)) : after hostOps0_7 V (Proc.devRef .tc main_arg0) = V (Proc.devRef .tc main_arg0) := by
  after_results_simp
set_option maxHeartbeats 4000000 in
theorem kept_7_1 (V : Valuation τ sig (Elt F)) : after hostOps0_7 V (Proc.devRef .tc main_arg1) = V (Proc.devRef .tc main_arg1) := by
  after_results_simp
set_option maxHeartbeats 4000000 in
theorem kept_7_2 (V : Valuation τ sig (Elt F)) : after hostOps0_7 V (Proc.devRef .tc main_arg2) = V (Proc.devRef .tc main_arg2) := by
  after_results_simp
set_option maxHeartbeats 4000000 in
theorem kept_7_3 (V : Valuation τ sig (Elt F)) : after hostOps0_7 V (Proc.devRef .tc main_arg3) = V (Proc.devRef .tc main_arg3) := by
  after_results_simp
set_option maxHeartbeats 4000000 in
theorem kept_7_4 (V : Valuation τ sig (Elt F)) : after hostOps0_7 V (Proc.devRef .tc main_arg4) = V (Proc.devRef .tc main_arg4) := by
  after_results_simp

set_option maxHeartbeats 4000000 in
theorem fresh_8 : (hostOps0_8 : List (HloOp τ sig (Elt F))).Forall fun op => op.fresh = ∅ := by
  simp only [List.Forall]; repeat' constructor
set_option maxHeartbeats 4000000 in
theorem kept_8_0 (V : Valuation τ sig (Elt F)) : after hostOps0_8 V (Proc.devRef .tc main_arg0) = V (Proc.devRef .tc main_arg0) := by
  after_results_simp
set_option maxHeartbeats 4000000 in
theorem kept_8_1 (V : Valuation τ sig (Elt F)) : after hostOps0_8 V (Proc.devRef .tc main_arg1) = V (Proc.devRef .tc main_arg1) := by
  after_results_simp
set_option maxHeartbeats 4000000 in
theorem kept_8_2 (V : Valuation τ sig (Elt F)) : after hostOps0_8 V (Proc.devRef .tc main_arg2) = V (Proc.devRef .tc main_arg2) := by
  after_results_simp
set_option maxHeartbeats 4000000 in
theorem kept_8_3 (V : Valuation τ sig (Elt F)) : after hostOps0_8 V (Proc.devRef .tc main_arg3) = V (Proc.devRef .tc main_arg3) := by
  after_results_simp
set_option maxHeartbeats 4000000 in
theorem kept_8_4 (V : Valuation τ sig (Elt F)) : after hostOps0_8 V (Proc.devRef .tc main_arg4) = V (Proc.devRef .tc main_arg4) := by
  after_results_simp

set_option maxHeartbeats 4000000 in
theorem fresh_9 : (hostOps0_9 : List (HloOp τ sig (Elt F))).Forall fun op => op.fresh = ∅ := by
  simp only [List.Forall]; repeat' constructor
set_option maxHeartbeats 4000000 in
theorem kept_9_0 (V : Valuation τ sig (Elt F)) : after hostOps0_9 V (Proc.devRef .tc main_arg0) = V (Proc.devRef .tc main_arg0) := by
  after_results_simp
set_option maxHeartbeats 4000000 in
theorem kept_9_1 (V : Valuation τ sig (Elt F)) : after hostOps0_9 V (Proc.devRef .tc main_arg1) = V (Proc.devRef .tc main_arg1) := by
  after_results_simp
set_option maxHeartbeats 4000000 in
theorem kept_9_2 (V : Valuation τ sig (Elt F)) : after hostOps0_9 V (Proc.devRef .tc main_arg2) = V (Proc.devRef .tc main_arg2) := by
  after_results_simp
set_option maxHeartbeats 4000000 in
theorem kept_9_3 (V : Valuation τ sig (Elt F)) : after hostOps0_9 V (Proc.devRef .tc main_arg3) = V (Proc.devRef .tc main_arg3) := by
  after_results_simp
set_option maxHeartbeats 4000000 in
theorem kept_9_4 (V : Valuation τ sig (Elt F)) : after hostOps0_9 V (Proc.devRef .tc main_arg4) = V (Proc.devRef .tc main_arg4) := by
  after_results_simp

set_option maxHeartbeats 4000000 in
theorem fresh_10 : (hostOps0_10 : List (HloOp τ sig (Elt F))).Forall fun op => op.fresh = ∅ := by
  simp only [List.Forall]; repeat' constructor
set_option maxHeartbeats 4000000 in
theorem kept_10_0 (V : Valuation τ sig (Elt F)) : after hostOps0_10 V (Proc.devRef .tc main_arg0) = V (Proc.devRef .tc main_arg0) := by
  after_results_simp
set_option maxHeartbeats 4000000 in
theorem kept_10_1 (V : Valuation τ sig (Elt F)) : after hostOps0_10 V (Proc.devRef .tc main_arg1) = V (Proc.devRef .tc main_arg1) := by
  after_results_simp
set_option maxHeartbeats 4000000 in
theorem kept_10_2 (V : Valuation τ sig (Elt F)) : after hostOps0_10 V (Proc.devRef .tc main_arg2) = V (Proc.devRef .tc main_arg2) := by
  after_results_simp
set_option maxHeartbeats 4000000 in
theorem kept_10_3 (V : Valuation τ sig (Elt F)) : after hostOps0_10 V (Proc.devRef .tc main_arg3) = V (Proc.devRef .tc main_arg3) := by
  after_results_simp
set_option maxHeartbeats 4000000 in
theorem kept_10_4 (V : Valuation τ sig (Elt F)) : after hostOps0_10 V (Proc.devRef .tc main_arg4) = V (Proc.devRef .tc main_arg4) := by
  after_results_simp

set_option maxHeartbeats 4000000 in
theorem fresh_11 : (hostOps0_11 : List (HloOp τ sig (Elt F))).Forall fun op => op.fresh = ∅ := by
  simp only [List.Forall]; repeat' constructor
set_option maxHeartbeats 4000000 in
theorem kept_11_0 (V : Valuation τ sig (Elt F)) : after hostOps0_11 V (Proc.devRef .tc main_arg0) = V (Proc.devRef .tc main_arg0) := by
  after_results_simp
set_option maxHeartbeats 4000000 in
theorem kept_11_1 (V : Valuation τ sig (Elt F)) : after hostOps0_11 V (Proc.devRef .tc main_arg1) = V (Proc.devRef .tc main_arg1) := by
  after_results_simp
set_option maxHeartbeats 4000000 in
theorem kept_11_2 (V : Valuation τ sig (Elt F)) : after hostOps0_11 V (Proc.devRef .tc main_arg2) = V (Proc.devRef .tc main_arg2) := by
  after_results_simp
set_option maxHeartbeats 4000000 in
theorem kept_11_3 (V : Valuation τ sig (Elt F)) : after hostOps0_11 V (Proc.devRef .tc main_arg3) = V (Proc.devRef .tc main_arg3) := by
  after_results_simp
set_option maxHeartbeats 4000000 in
theorem kept_11_4 (V : Valuation τ sig (Elt F)) : after hostOps0_11 V (Proc.devRef .tc main_arg4) = V (Proc.devRef .tc main_arg4) := by
  after_results_simp

set_option maxHeartbeats 4000000 in
theorem fresh_12 : (hostOps0_12 : List (HloOp τ sig (Elt F))).Forall fun op => op.fresh = ∅ := by
  simp only [List.Forall]; repeat' constructor
set_option maxHeartbeats 4000000 in
theorem kept_12_0 (V : Valuation τ sig (Elt F)) : after hostOps0_12 V (Proc.devRef .tc main_arg0) = V (Proc.devRef .tc main_arg0) := by
  after_results_simp
set_option maxHeartbeats 4000000 in
theorem kept_12_1 (V : Valuation τ sig (Elt F)) : after hostOps0_12 V (Proc.devRef .tc main_arg1) = V (Proc.devRef .tc main_arg1) := by
  after_results_simp
set_option maxHeartbeats 4000000 in
theorem kept_12_2 (V : Valuation τ sig (Elt F)) : after hostOps0_12 V (Proc.devRef .tc main_arg2) = V (Proc.devRef .tc main_arg2) := by
  after_results_simp
set_option maxHeartbeats 4000000 in
theorem kept_12_3 (V : Valuation τ sig (Elt F)) : after hostOps0_12 V (Proc.devRef .tc main_arg3) = V (Proc.devRef .tc main_arg3) := by
  after_results_simp
set_option maxHeartbeats 4000000 in
theorem kept_12_4 (V : Valuation τ sig (Elt F)) : after hostOps0_12 V (Proc.devRef .tc main_arg4) = V (Proc.devRef .tc main_arg4) := by
  after_results_simp

set_option maxHeartbeats 4000000 in
theorem fresh_13 : (hostOps0_13 : List (HloOp τ sig (Elt F))).Forall fun op => op.fresh = ∅ := by
  simp only [List.Forall]; repeat' constructor
set_option maxHeartbeats 4000000 in
theorem kept_13_0 (V : Valuation τ sig (Elt F)) : after hostOps0_13 V (Proc.devRef .tc main_arg0) = V (Proc.devRef .tc main_arg0) := by
  after_results_simp
set_option maxHeartbeats 4000000 in
theorem kept_13_1 (V : Valuation τ sig (Elt F)) : after hostOps0_13 V (Proc.devRef .tc main_arg1) = V (Proc.devRef .tc main_arg1) := by
  after_results_simp
set_option maxHeartbeats 4000000 in
theorem kept_13_2 (V : Valuation τ sig (Elt F)) : after hostOps0_13 V (Proc.devRef .tc main_arg2) = V (Proc.devRef .tc main_arg2) := by
  after_results_simp
set_option maxHeartbeats 4000000 in
theorem kept_13_3 (V : Valuation τ sig (Elt F)) : after hostOps0_13 V (Proc.devRef .tc main_arg3) = V (Proc.devRef .tc main_arg3) := by
  after_results_simp
set_option maxHeartbeats 4000000 in
theorem kept_13_4 (V : Valuation τ sig (Elt F)) : after hostOps0_13 V (Proc.devRef .tc main_arg4) = V (Proc.devRef .tc main_arg4) := by
  after_results_simp

set_option maxHeartbeats 4000000 in
theorem fresh_14 : (hostOps0_14 : List (HloOp τ sig (Elt F))).Forall fun op => op.fresh = ∅ := by
  simp only [List.Forall]; repeat' constructor
set_option maxHeartbeats 4000000 in
theorem kept_14_0 (V : Valuation τ sig (Elt F)) : after hostOps0_14 V (Proc.devRef .tc main_arg0) = V (Proc.devRef .tc main_arg0) := by
  after_results_simp
set_option maxHeartbeats 4000000 in
theorem kept_14_1 (V : Valuation τ sig (Elt F)) : after hostOps0_14 V (Proc.devRef .tc main_arg1) = V (Proc.devRef .tc main_arg1) := by
  after_results_simp
set_option maxHeartbeats 4000000 in
theorem kept_14_2 (V : Valuation τ sig (Elt F)) : after hostOps0_14 V (Proc.devRef .tc main_arg2) = V (Proc.devRef .tc main_arg2) := by
  after_results_simp
set_option maxHeartbeats 4000000 in
theorem kept_14_3 (V : Valuation τ sig (Elt F)) : after hostOps0_14 V (Proc.devRef .tc main_arg3) = V (Proc.devRef .tc main_arg3) := by
  after_results_simp
set_option maxHeartbeats 4000000 in
theorem kept_14_4 (V : Valuation τ sig (Elt F)) : after hostOps0_14 V (Proc.devRef .tc main_arg4) = V (Proc.devRef .tc main_arg4) := by
  after_results_simp

set_option maxHeartbeats 4000000 in
theorem fresh_15 : (hostOps0_15 : List (HloOp τ sig (Elt F))).Forall fun op => op.fresh = ∅ := by
  simp only [List.Forall]; repeat' constructor
set_option maxHeartbeats 4000000 in
theorem kept_15_0 (V : Valuation τ sig (Elt F)) : after hostOps0_15 V (Proc.devRef .tc main_arg0) = V (Proc.devRef .tc main_arg0) := by
  after_results_simp
set_option maxHeartbeats 4000000 in
theorem kept_15_1 (V : Valuation τ sig (Elt F)) : after hostOps0_15 V (Proc.devRef .tc main_arg1) = V (Proc.devRef .tc main_arg1) := by
  after_results_simp
set_option maxHeartbeats 4000000 in
theorem kept_15_2 (V : Valuation τ sig (Elt F)) : after hostOps0_15 V (Proc.devRef .tc main_arg2) = V (Proc.devRef .tc main_arg2) := by
  after_results_simp
set_option maxHeartbeats 4000000 in
theorem kept_15_3 (V : Valuation τ sig (Elt F)) : after hostOps0_15 V (Proc.devRef .tc main_arg3) = V (Proc.devRef .tc main_arg3) := by
  after_results_simp
set_option maxHeartbeats 4000000 in
theorem kept_15_4 (V : Valuation τ sig (Elt F)) : after hostOps0_15 V (Proc.devRef .tc main_arg4) = V (Proc.devRef .tc main_arg4) := by
  after_results_simp

set_option maxHeartbeats 4000000 in
theorem fresh_16 : (hostOps0_16 : List (HloOp τ sig (Elt F))).Forall fun op => op.fresh = ∅ := by
  simp only [List.Forall]; repeat' constructor
set_option maxHeartbeats 4000000 in
theorem kept_16_0 (V : Valuation τ sig (Elt F)) : after hostOps0_16 V (Proc.devRef .tc main_arg0) = V (Proc.devRef .tc main_arg0) := by
  after_results_simp
set_option maxHeartbeats 4000000 in
theorem kept_16_1 (V : Valuation τ sig (Elt F)) : after hostOps0_16 V (Proc.devRef .tc main_arg1) = V (Proc.devRef .tc main_arg1) := by
  after_results_simp
set_option maxHeartbeats 4000000 in
theorem kept_16_2 (V : Valuation τ sig (Elt F)) : after hostOps0_16 V (Proc.devRef .tc main_arg2) = V (Proc.devRef .tc main_arg2) := by
  after_results_simp
set_option maxHeartbeats 4000000 in
theorem kept_16_3 (V : Valuation τ sig (Elt F)) : after hostOps0_16 V (Proc.devRef .tc main_arg3) = V (Proc.devRef .tc main_arg3) := by
  after_results_simp
set_option maxHeartbeats 4000000 in
theorem kept_16_4 (V : Valuation τ sig (Elt F)) : after hostOps0_16 V (Proc.devRef .tc main_arg4) = V (Proc.devRef .tc main_arg4) := by
  after_results_simp

end Cert.Kernel.Hand

end
-- ==== Proof.K.Around.lean ====
/-
  @main of the kernel program around its one pallas region. Before the region stand the host lines that normalise the
  points, clamp and floor the plane coordinates at each of the four resolutions, gather the four bilinear corners per
  plane and stack the scales; after it stand two lines that lay the region's result out as the final array (a transpose of the
  scale and point axes and a reshape). None of these lines writes an argument array, and the two later lines write no
  array the region's windows stage; so whatever the region's frame run says of "every other buffer" reads, at the
  five arguments, as "unchanged since launch".
-/
import proofs.«135668_j17884243821138_2_alg».proof.Proof.K.Kept
import Idealize.ShloMosaic.Lib.StableHlo.RunLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines before and after the region -/

/-- Every host line before the region touches TensorCore references only. -/
theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩

/-- None of them allocates. -/
theorem pre_fresh : (pre (F := F)).Forall fun ops => ops.Forall fun op => op.fresh = ∅ :=
  ⟨fresh_0, fresh_1, fresh_2, fresh_3, fresh_4, fresh_5, fresh_6, fresh_7, fresh_8, fresh_9, fresh_10, fresh_11, fresh_12, fresh_13, fresh_14, fresh_15, fresh_16⟩

theorem hostOps1_fresh : (hostOps1 : List (HloOp τ sig (Elt F))).Forall fun op => op.fresh = ∅ := by
  simp only [List.Forall]; repeat' constructor

/-- The fold of the lines before the region, stretch after stretch. -/
theorem V0_eq (c : Dev nD) : V0 m c = StableHlo.afterL (pre (F := F)) (fun b => m (c, b)) :=
  (StableHlo.afterL_eq_after_flatten (pre (F := F)) _).symm

/-- @main is the lines before the region, the region, and the two lines after it: it reduces to the region continued by
    the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1] pre_sub pre_fresh main_chain

/-- The lines after the region touch the windows' arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array a window stages: the transpose writes its own result, the reshape its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The arguments, as the region finds them and as @main leaves them -/

/-- No line before the region writes argument 0: the region finds it as launched. -/
theorem V_main_arg0 (c : Dev nD) : V m c main_arg0 = m ((c : Thread nD τ).loc main_arg0) := by
  show V0 m c (Proc.devRef .tc main_arg0) = _
  rw [V0_eq]
  simp only [pre, StableHlo.afterL_cons, StableHlo.afterL_nil]
  rw [kept_16_0, kept_15_0, kept_14_0, kept_13_0, kept_12_0, kept_11_0, kept_10_0, kept_9_0, kept_8_0, kept_7_0, kept_6_0, kept_5_0, kept_4_0, kept_3_0, kept_2_0, kept_1_0, kept_0_0]

/-- No line after the region writes it either, and it is no window's array: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) := by
  show V0 m c (Proc.devRef .tc main_arg1) = _
  rw [V0_eq]
  simp only [pre, StableHlo.afterL_cons, StableHlo.afterL_nil]
  rw [kept_16_1, kept_15_1, kept_14_1, kept_13_1, kept_12_1, kept_11_1, kept_10_1, kept_9_1, kept_8_1, kept_7_1, kept_6_1, kept_5_1, kept_4_1, kept_3_1, kept_2_1, kept_1_1, kept_0_1]

/-- No line after the region writes it either, and it is no window's array: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) := by
  show V0 m c (Proc.devRef .tc main_arg2) = _
  rw [V0_eq]
  simp only [pre, StableHlo.afterL_cons, StableHlo.afterL_nil]
  rw [kept_16_2, kept_15_2, kept_14_2, kept_13_2, kept_12_2, kept_11_2, kept_10_2, kept_9_2, kept_8_2, kept_7_2, kept_6_2, kept_5_2, kept_4_2, kept_3_2, kept_2_2, kept_1_2, kept_0_2]

/-- No line after the region writes it either, and it is no window's array: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line before the region writes argument 3: the region finds it as launched. -/
theorem V_main_arg3 (c : Dev nD) : V m c main_arg3 = m ((c : Thread nD τ).loc main_arg3) := by
  show V0 m c (Proc.devRef .tc main_arg3) = _
  rw [V0_eq]
  simp only [pre, StableHlo.afterL_cons, StableHlo.afterL_nil]
  rw [kept_16_3, kept_15_3, kept_14_3, kept_13_3, kept_12_3, kept_11_3, kept_10_3, kept_9_3, kept_8_3, kept_7_3, kept_6_3, kept_5_3, kept_4_3, kept_3_3, kept_2_3, kept_1_3, kept_0_3]

/-- No line after the region writes it either, and it is no window's array: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No line before the region writes argument 4: the region finds it as launched. -/
theorem V_main_arg4 (c : Dev nD) : V m c main_arg4 = m ((c : Thread nD τ).loc main_arg4) := by
  show V0 m c (Proc.devRef .tc main_arg4) = _
  rw [V0_eq]
  simp only [pre, StableHlo.afterL_cons, StableHlo.afterL_nil]
  rw [kept_16_4, kept_15_4, kept_14_4, kept_13_4, kept_12_4, kept_11_4, kept_10_4, kept_9_4, kept_8_4, kept_7_4, kept_6_4, kept_5_4, kept_4_4, kept_3_4, kept_2_4, kept_1_4, kept_0_4]

/-- No line after the region writes it either, and it is no window's array: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The frame claim's post from the region's frame run -/

/-- For any proof data of the region, a run of @main to the library's frame post (every window's array at what the
    proof data computes, every other buffer at what the later lines make of the region's exit contents) ends with the
    five argument arrays unchanged: none is a window's array, and no host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

end Cert.Kernel.Hand

end
-- ==== Proof.K.Body.lean ====
/-
  What the runs of the kernel body share: the body's one branch condition in closed form over the grid, where the
  windows are live, the staging and scratch memrefs as the pipeline passes them, the launch invariant with the
  scratch operand as an owned memref, and each input window's staging buffer holding its block at every point.
-/
import proofs.«135668_j17884243821138_2_alg».proof.Proof.K.Entry
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body's branch condition -/

/-- The condition of the body's one conditional, from the grid coordinates (the skeleton's scalar chain substituted):
    coordinate 1 is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## Where the windows are idle: nowhere -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-! ## The staging and scratch memrefs -/

/-- One staging buffer of output window 6, through which its contents are stated (the choice does not matter). -/
abbrev VO0_6 : View sig .tc .vmem S1x1000x216 .f32 := (Memref.whole cc0_stg6_0 : Memref sig .tc .vmem S1x1000x216 .f32).view
/-- Each window's current staging memref at point `t`, spelled as the pipeline passes it, and its wholeness. -/
abbrev ms0_0 (t : Fin cfg0.N) : Memref sig .tc .vmem S1x3x1000x72 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1000x72 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x1000x72 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x1000x72 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x1000x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x1000x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1000x216 .f32 := win0_6.stage (cfg0.slots t 6)
abbrev hs0_6 (t : Fin cfg0.N) : (ms0_6 t).IsWhole := hstage0_6 ((cfg0.slots t 6).cast nbuf0_6)
/-- The scratch operand: a whole scoped buffer of the kernel's own, passed beside the windows. -/
abbrev scM0_0 : Memref sig .tc .vmem S1000x216 .f32 := Memref.whole cc0_scratch0
/-- The scratch the kernel carries between points, as a view: what it holds is stated through it. -/
abbrev VS0_0 : View sig .tc .vmem S1000x216 .f32 := scM0_0.view

/-- The launch invariant with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The input windows' blocks -/

/-- Input window 0's current staging buffer holds its block at every point, fetched there or not, for any proof data
    whose array is the one the region finds and whose body leaves the block in place (the window uncut and never idle). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the one the region finds and whose body leaves the block in place (the window uncut and never idle). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the one the region finds and whose body leaves the block in place (the window uncut and never idle). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the one the region finds and whose body leaves the block in place (the window uncut and never idle). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the one the region finds and whose body leaves the block in place (the window uncut and never idle). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the one the region finds and whose body leaves the block in place (the window uncut and never idle). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.RunA.lean ====
/-
  The whole-body run of the kernel in the case where grid coordinate 1 is zero: the scratch is zeroed before it is
  read, so its earlier contents do not matter.
-/
import proofs.«135668_j17884243821138_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- What the body's stores leave in the output's staging memref and in the scratch operand, as pieces (last first), in the case where the body's condition holds (grid coordinate 1 is zero: the scratch is stored whole first),
    with the proof that on whole memrefs — the six inputs' at their contents, the output's at anything, the scratch at anything —
    the body runs to the continuation holding the inputs' as they were, the output's buffer with its pieces written and the
    scratch with its pieces written. The pieces are the witness the run finds. -/
noncomputable def kernelRun0_A (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) :
    Σ' (L6 : List (View.Piece (Elt F) S1x1000x216 .f32)), { LS0 : List (View.Piece (Elt F) S1000x216 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__tri_kernel i arg2 harg2 arg3 harg3 arg4 harg4 arg5 harg5 arg6 harg6 arg7 harg7 arg8 harg8 arg9 harg9) K } := by
  refine ⟨?_, ?_, fun E K => ?run⟩
  case run =>
    simp only [cc0__tri_kernel_eq_skeleton]; unfold cc0__tri_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.RunB.lean ====
/-
  The whole-body run of the kernel in the case where grid coordinate 1 is not zero: the scratch is read before it is
  stored, so it is held at the contents the point before left.
-/
import proofs.«135668_j17884243821138_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- What the body's stores leave in the output's staging memref and in the scratch operand, as pieces (last first), in the case where the body's condition fails (grid coordinate 1 is not zero: the scratch is added to),
    with the proof that on whole memrefs — the six inputs' at their contents, the output's at anything, the scratch at the contents the point before left (`xs0`) —
    the body runs to the continuation holding the inputs' as they were, the output's buffer with its pieces written and the
    scratch with its pieces written. The pieces are the witness the run finds. -/
noncomputable def kernelRun0_B (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : ¬cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (xs0 : Vec F S1000x216 .f32) :
    Σ' (L6 : List (View.Piece (Elt F) S1x1000x216 .f32)), { LS0 : List (View.Piece (Elt F) S1000x216 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__tri_kernel i arg2 harg2 arg3 harg3 arg4 harg4 arg5 harg5 arg6 harg6 arg7 harg7 arg8 harg8 arg9 harg9) K } := by
  refine ⟨?_, ?_, fun E K => ?run⟩
  case run =>
    simp only [cc0__tri_kernel_eq_skeleton]; unfold cc0__tri_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.Frame.lean ====
/-
  The body of the one region, point by point: what each case's stores leave in the output's staging buffer and in the
  scratch the kernel carries between points (their pieces cover the buffers, so the contents are the pieces read back),
  what the two hold after each point by recursion on the point, the pipeline's proof data, and the body obligation
  together with the invariant's two ends.
-/
import proofs.«135668_j17884243821138_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves -/

/-- In the case where the condition holds the one store into the output's staging buffer is of the whole block, so the
    pieces cover it. -/
theorem cover0_A_6 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (y : S1x1000x216.Idx) :
    ∃ pc ∈ (kernelRun0_A c i arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).1 S1x1000x216.size (by sl_kernel_rfl) y

/-- What that case leaves in the output's staging buffer: its pieces read back over junk. -/
def out0_A_6 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) : Vec F S1x1000x216 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4 x5).1)

/-- In that case the scratch is stored whole first (the later column stores lie inside it), so its pieces cover it. -/
theorem scover0_A_0 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (y : S1000x216.Idx) :
    ∃ pc ∈ (kernelRun0_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).2.1 S1000x216.size (by sl_kernel_rfl) y

/-- What that case leaves in the scratch: its pieces read back over junk. -/
def sout0_A_0 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) : Vec F S1000x216 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4 x5).2.1)

/-- In the case where the condition fails the one store into the output's staging buffer is again of the whole block. -/
theorem cover0_B_6 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : ¬cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (xs0 : Vec F S1000x216 .f32) (y : S1x1000x216.Idx) :
    ∃ pc ∈ (kernelRun0_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).1 S1x1000x216.size (by sl_kernel_rfl) y

/-- What that case leaves in the output's staging buffer: its pieces read back over junk. -/
def out0_B_6 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : ¬cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (xs0 : Vec F S1000x216 .f32) : Vec F S1x1000x216 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 x5 xs0).1)

/-- In that case the three column stores (72 columns each, at columns 0, 72 and 144) tile the scratch. -/
theorem scover0_B_0 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : ¬cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (xs0 : Vec F S1000x216 .f32) (y : S1000x216.Idx) :
    ∃ pc ∈ (kernelRun0_B c i arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).2.1 S1000x72.size (by sl_kernel_rfl) y

/-- What that case leaves in the scratch: its pieces read back over junk. -/
def sout0_B_0 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : ¬cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (xs0 : Vec F S1000x216 .f32) : Vec F S1000x216 .f32 :=
  VS0_0.read (Elt F) (VS0_0.writes (Elt F) VS0_0.junk (kernelRun0_B c i arg2 harg2 arg3 harg3 arg4 harg4 arg5 harg5 arg6 harg6 arg7 harg7 arg8 harg8 arg9 harg9 hc0 x0 x1 x2 x3 x4 x5 xs0).2.1)

/-! ## What the output's buffer and the scratch hold after each point -/

/-- The accumulation. What the output's staging buffer and the scratch hold after the body at position `n` (a pair: the
    output, then the scratch): at a position ≡ 0 (mod 4) the case that zeroes the scratch first, run at the point's
    memrefs and input blocks; at any other position the case that adds to the scratch, over what position `n - 1` left
    in it. -/
def outsAt0 (c : Dev nD) : (n : ℕ) → n < cfg0.N → Vec F S1x1000x216 .f32 × Vec F S1000x216 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- `outsAt0` at a point ≡ 0 (mod 4): the zeroing case's contents. -/
theorem outsAt0_A (c : Dev nD) (t : Fin cfg0.N) (h0 : t.val % 4 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at any other point: the adding case's contents, over what the point before left. -/
theorem outsAt0_B (c : Dev nD) (t : Fin cfg0.N) (h0 : ¬t.val % 4 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the launch's (the scratch at anything); afterwards
    the scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`'s first component; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' memrefs hold their blocks; the closed form says which case the point is in; the
    invariant hands the body the scratch at what the point before left (at anything at the first point) and takes it back
    at this point's contents; the output's buffer is taken at anything and returned at this point's contents; the core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  have hN : t.val < 400 := lt_of_lt_of_eq t.isLt (show cfg0.N = 400 from N_0)
  by_cases h0 : t.val % 4 = 0
  · rw [outsAt0_A m c t h0]
    unfold out0_A_6 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
  · rw [outsAt0_B m c t h0]
    unfold out0_B_6 sout0_B_0; (try dsimp only)
    by_cases hz : t.val = 0
    · exfalso; rw [hz] at h0; exact h0 (Nat.zero_mod _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 400 := N_0; omega)

end Cert.Kernel.Hand

end
-- ==== Proof.K.Run.lean ====
/-
  The kernel program's run and its frame. The region's proof data say what every window's staging buffer holds after the
  body at each grid point (the six corner and weight blocks unchanged; the output block and the carried accumulator at the
  running sum over the scales met so far); the body obligation is met at every point; and @main is host lines, the region,
  host lines. So every weakly fair execution of @main terminates without a fault, every window's array ends at what the
  proof data compute, every other buffer at what the two later lines make of the region's exit contents — in particular the
  five argument arrays end as launched.
-/
import proofs.«135668_j17884243821138_2_alg».proof.Proof.K.Around
import proofs.«135668_j17884243821138_2_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, and every final state has every
    array of the pipeline at what the library computes from the proof data and every other unscoped buffer as the lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Hand

end
-- ==== Proof.KI.Entry.lean ====
/-
  The arrays as the one pallas region of the kernel program finds them. The host lines of @main before the region
  (seventeen stretches: the coordinate normalisation, the per-scale clamp / floor / corner gathers, the stacking of the
  four scales) are folded over the launch memory; `V0` is that fold as a valuation, `V` reads it at a TensorCore
  reference, and `iblk` is window `w`'s block at grid point `t` cut out of its array as found.
-/
import proofs.«135668_j17884243821138_2_alg».proof.Proof.Gen.KernelIdeal.Launch
import proofs.«135668_j17884243821138_2_alg».proof.Proof.Gen.KernelIdeal.Skeleton
import proofs.«135668_j17884243821138_2_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ)

/-- The host stretches before the region, in order. -/
abbrev pre : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s TensorCore buffer contents when the region is entered: the host lines before it folded over the launch memory. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.Kept.lean ====
/-
  The host lines before the region, stretch by stretch: none of them allocates a buffer, and none writes an argument
  array of @main (each line writes only its own result buffer), so each stretch leaves the five argument arrays as it
  found them.
-/
import proofs.«135668_j17884243821138_2_alg».proof.Proof.KI.Entry
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after)

variable {F : FTy → Type} [FloatOps F]

set_option maxHeartbeats 4000000 in
theorem fresh_0 : (hostOps0 : List (HloOp τ sig (Elt F))).Forall fun op => op.fresh = ∅ := by
  simp only [List.Forall]; repeat' constructor
set_option maxHeartbeats 4000000 in
theorem kept_0_0 (V : Valuation τ sig (Elt F)) : after hostOps0 V (Proc.devRef .tc main_arg0) = V (Proc.devRef .tc main_arg0) := by
  after_results_simp
set_option maxHeartbeats 4000000 in
theorem kept_0_1 (V : Valuation τ sig (Elt F)) : after hostOps0 V (Proc.devRef .tc main_arg1) = V (Proc.devRef .tc main_arg1) := by
  after_results_simp
set_option maxHeartbeats 4000000 in
theorem kept_0_2 (V : Valuation τ sig (Elt F)) : after hostOps0 V (Proc.devRef .tc main_arg2) = V (Proc.devRef .tc main_arg2) := by
  after_results_simp
set_option maxHeartbeats 4000000 in
theorem kept_0_3 (V : Valuation τ sig (Elt F)) : after hostOps0 V (Proc.devRef .tc main_arg3) = V (Proc.devRef .tc main_arg3) := by
  after_results_simp
set_option maxHeartbeats 4000000 in
theorem kept_0_4 (V : Valuation τ sig (Elt F)) : after hostOps0 V (Proc.devRef .tc main_arg4) = V (Proc.devRef .tc main_arg4) := by
  after_results_simp

set_option maxHeartbeats 4000000 in
theorem fresh_1 : (hostOps0_1 : List (HloOp τ sig (Elt F))).Forall fun op => op.fresh = ∅ := by
  simp only [List.Forall]; repeat' constructor
set_option maxHeartbeats 4000000 in
theorem kept_1_0 (V : Valuation τ sig (Elt F)) : after hostOps0_1 V (Proc.devRef .tc main_arg0) = V (Proc.devRef .tc main_arg0) := by
  after_results_simp
set_option maxHeartbeats 4000000 in
theorem kept_1_1 (V : Valuation τ sig (Elt F)) : after hostOps0_1 V (Proc.devRef .tc main_arg1) = V (Proc.devRef .tc main_arg1) := by
  after_results_simp
set_option maxHeartbeats 4000000 in
theorem kept_1_2 (V : Valuation τ sig (Elt F)) : after hostOps0_1 V (Proc.devRef .tc main_arg2) = V (Proc.devRef .tc main_arg2) := by
  after_results_simp
set_option maxHeartbeats 4000000 in
theorem kept_1_3 (V : Valuation τ sig (Elt F)) : after hostOps0_1 V (Proc.devRef .tc main_arg3) = V (Proc.devRef .tc main_arg3) := by
  after_results_simp
set_option maxHeartbeats 4000000 in
theorem kept_1_4 (V : Valuation τ sig (Elt F)) : after hostOps0_1 V (Proc.devRef .tc main_arg4) = V (Proc.devRef .tc main_arg4) := by
  after_results_simp

set_option maxHeartbeats 4000000 in
theorem fresh_2 : (hostOps0_2 : List (HloOp τ sig (Elt F))).Forall fun op => op.fresh = ∅ := by
  simp only [List.Forall]; repeat' constructor
set_option maxHeartbeats 4000000 in
theorem kept_2_0 (V : Valuation τ sig (Elt F)) : after hostOps0_2 V (Proc.devRef .tc main_arg0) = V (Proc.devRef .tc main_arg0) := by
  after_results_simp
set_option maxHeartbeats 4000000 in
theorem kept_2_1 (V : Valuation τ sig (Elt F)) : after hostOps0_2 V (Proc.devRef .tc main_arg1) = V (Proc.devRef .tc main_arg1) := by
  after_results_simp
set_option maxHeartbeats 4000000 in
theorem kept_2_2 (V : Valuation τ sig (Elt F)) : after hostOps0_2 V (Proc.devRef .tc main_arg2) = V (Proc.devRef .tc main_arg2) := by
  after_results_simp
set_option maxHeartbeats 4000000 in
theorem kept_2_3 (V : Valuation τ sig (Elt F)) : after hostOps0_2 V (Proc.devRef .tc main_arg3) = V (Proc.devRef .tc main_arg3) := by
  after_results_simp
set_option maxHeartbeats 4000000 in
theorem kept_2_4 (V : Valuation τ sig (Elt F)) : after hostOps0_2 V (Proc.devRef .tc main_arg4) = V (Proc.devRef .tc main_arg4) := by
  after_results_simp

set_option maxHeartbeats 4000000 in
theorem fresh_3 : (hostOps0_3 : List (HloOp τ sig (Elt F))).Forall fun op => op.fresh = ∅ := by
  simp only [List.Forall]; repeat' constructor
set_option maxHeartbeats 4000000 in
theorem kept_3_0 (V : Valuation τ sig (Elt F)) : after hostOps0_3 V (Proc.devRef .tc main_arg0) = V (Proc.devRef .tc main_arg0) := by
  after_results_simp
set_option maxHeartbeats 4000000 in
theorem kept_3_1 (V : Valuation τ sig (Elt F)) : after hostOps0_3 V (Proc.devRef .tc main_arg1) = V (Proc.devRef .tc main_arg1) := by
  after_results_simp
set_option maxHeartbeats 4000000 in
theorem kept_3_2 (V : Valuation τ sig (Elt F)) : after hostOps0_3 V (Proc.devRef .tc main_arg2) = V (Proc.devRef .tc main_arg2) := by
  after_results_simp
set_option maxHeartbeats 4000000 in
theorem kept_3_3 (V : Valuation τ sig (Elt F)) : after hostOps0_3 V (Proc.devRef .tc main_arg3) = V (Proc.devRef .tc main_arg3) := by
  after_results_simp
set_option maxHeartbeats 4000000 in
theorem kept_3_4 (V : Valuation τ sig (Elt F)) : after hostOps0_3 V (Proc.devRef .tc main_arg4) = V (Proc.devRef .tc main_arg4) := by
  after_results_simp

set_option maxHeartbeats 4000000 in
theorem fresh_4 : (hostOps0_4 : List (HloOp τ sig (Elt F))).Forall fun op => op.fresh = ∅ := by
  simp only [List.Forall]; repeat' constructor
set_option maxHeartbeats 4000000 in
theorem kept_4_0 (V : Valuation τ sig (Elt F)) : after hostOps0_4 V (Proc.devRef .tc main_arg0) = V (Proc.devRef .tc main_arg0) := by
  after_results_simp
set_option maxHeartbeats 4000000 in
theorem kept_4_1 (V : Valuation τ sig (Elt F)) : after hostOps0_4 V (Proc.devRef .tc main_arg1) = V (Proc.devRef .tc main_arg1) := by
  after_results_simp
set_option maxHeartbeats 4000000 in
theorem kept_4_2 (V : Valuation τ sig (Elt F)) : after hostOps0_4 V (Proc.devRef .tc main_arg2) = V (Proc.devRef .tc main_arg2) := by
  after_results_simp
set_option maxHeartbeats 4000000 in
theorem kept_4_3 (V : Valuation τ sig (Elt F)) : after hostOps0_4 V (Proc.devRef .tc main_arg3) = V (Proc.devRef .tc main_arg3) := by
  after_results_simp
set_option maxHeartbeats 4000000 in
theorem kept_4_4 (V : Valuation τ sig (Elt F)) : after hostOps0_4 V (Proc.devRef .tc main_arg4) = V (Proc.devRef .tc main_arg4) := by
  after_results_simp

set_option maxHeartbeats 4000000 in
theorem fresh_5 : (hostOps0_5 : List (HloOp τ sig (Elt F))).Forall fun op => op.fresh = ∅ := by
  simp only [List.Forall]; repeat' constructor
set_option maxHeartbeats 4000000 in
theorem kept_5_0 (V : Valuation τ sig (Elt F)) : after hostOps0_5 V (Proc.devRef .tc main_arg0) = V (Proc.devRef .tc main_arg0) := by
  after_results_simp
set_option maxHeartbeats 4000000 in
theorem kept_5_1 (V : Valuation τ sig (Elt F)) : after hostOps0_5 V (Proc.devRef .tc main_arg1) = V (Proc.devRef .tc main_arg1) := by
  after_results_simp
set_option maxHeartbeats 4000000 in
theorem kept_5_2 (V : Valuation τ sig (Elt F)) : after hostOps0_5 V (Proc.devRef .tc main_arg2) = V (Proc.devRef .tc main_arg2) := by
  after_results_simp
set_option maxHeartbeats 4000000 in
theorem kept_5_3 (V : Valuation τ sig (Elt F)) : after hostOps0_5 V (Proc.devRef .tc main_arg3) = V (Proc.devRef .tc main_arg3) := by
  after_results_simp
set_option maxHeartbeats 4000000 in
theorem kept_5_4 (V : Valuation τ sig (Elt F)) : after hostOps0_5 V (Proc.devRef .tc main_arg4) = V (Proc.devRef .tc main_arg4) := by
  after_results_simp

set_option maxHeartbeats 4000000 in
theorem fresh_6 : (hostOps0_6 : List (HloOp τ sig (Elt F))).Forall fun op => op.fresh = ∅ := by
  simp only [List.Forall]; repeat' constructor
set_option maxHeartbeats 4000000 in
theorem kept_6_0 (V : Valuation τ sig (Elt F)) : after hostOps0_6 V (Proc.devRef .tc main_arg0) = V (Proc.devRef .tc main_arg0) := by
  after_results_simp
set_option maxHeartbeats 4000000 in
theorem kept_6_1 (V : Valuation τ sig (Elt F)) : after hostOps0_6 V (Proc.devRef .tc main_arg1) = V (Proc.devRef .tc main_arg1) := by
  after_results_simp
set_option maxHeartbeats 4000000 in
theorem kept_6_2 (V : Valuation τ sig (Elt F)) : after hostOps0_6 V (Proc.devRef .tc main_arg2) = V (Proc.devRef .tc main_arg2) := by
  after_results_simp
set_option maxHeartbeats 4000000 in
theorem kept_6_3 (V : Valuation τ sig (Elt F)) : after hostOps0_6 V (Proc.devRef .tc main_arg3) = V (Proc.devRef .tc main_arg3) := by
  after_results_simp
set_option maxHeartbeats 4000000 in
theorem kept_6_4 (V : Valuation τ sig (Elt F)) : after hostOps0_6 V (Proc.devRef .tc main_arg4) = V (Proc.devRef .tc main_arg4) := by
  after_results_simp

set_option maxHeartbeats 4000000 in
theorem fresh_7 : (hostOps0_7 : List (HloOp τ sig (Elt F))).Forall fun op => op.fresh = ∅ := by
  simp only [List.Forall]; repeat' constructor
set_option maxHeartbeats 4000000 in
theorem kept_7_0 (V : Valuation τ sig (Elt F)) : after hostOps0_7 V (Proc.devRef .tc main_arg0) = V (Proc.devRef .tc main_arg0) := by
  after_results_simp
set_option maxHeartbeats 4000000 in
theorem kept_7_1 (V : Valuation τ sig (Elt F)) : after hostOps0_7 V (Proc.devRef .tc main_arg1) = V (Proc.devRef .tc main_arg1) := by
  after_results_simp
set_option maxHeartbeats 4000000 in
theorem kept_7_2 (V : Valuation τ sig (Elt F)) : after hostOps0_7 V (Proc.devRef .tc main_arg2) = V (Proc.devRef .tc main_arg2) := by
  after_results_simp
set_option maxHeartbeats 4000000 in
theorem kept_7_3 (V : Valuation τ sig (Elt F)) : after hostOps0_7 V (Proc.devRef .tc main_arg3) = V (Proc.devRef .tc main_arg3) := by
  after_results_simp
set_option maxHeartbeats 4000000 in
theorem kept_7_4 (V : Valuation τ sig (Elt F)) : after hostOps0_7 V (Proc.devRef .tc main_arg4) = V (Proc.devRef .tc main_arg4) := by
  after_results_simp

set_option maxHeartbeats 4000000 in
theorem fresh_8 : (hostOps0_8 : List (HloOp τ sig (Elt F))).Forall fun op => op.fresh = ∅ := by
  simp only [List.Forall]; repeat' constructor
set_option maxHeartbeats 4000000 in
theorem kept_8_0 (V : Valuation τ sig (Elt F)) : after hostOps0_8 V (Proc.devRef .tc main_arg0) = V (Proc.devRef .tc main_arg0) := by
  after_results_simp
set_option maxHeartbeats 4000000 in
theorem kept_8_1 (V : Valuation τ sig (Elt F)) : after hostOps0_8 V (Proc.devRef .tc main_arg1) = V (Proc.devRef .tc main_arg1) := by
  after_results_simp
set_option maxHeartbeats 4000000 in
theorem kept_8_2 (V : Valuation τ sig (Elt F)) : after hostOps0_8 V (Proc.devRef .tc main_arg2) = V (Proc.devRef .tc main_arg2) := by
  after_results_simp
set_option maxHeartbeats 4000000 in
theorem kept_8_3 (V : Valuation τ sig (Elt F)) : after hostOps0_8 V (Proc.devRef .tc main_arg3) = V (Proc.devRef .tc main_arg3) := by
  after_results_simp
set_option maxHeartbeats 4000000 in
theorem kept_8_4 (V : Valuation τ sig (Elt F)) : after hostOps0_8 V (Proc.devRef .tc main_arg4) = V (Proc.devRef .tc main_arg4) := by
  after_results_simp

set_option maxHeartbeats 4000000 in
theorem fresh_9 : (hostOps0_9 : List (HloOp τ sig (Elt F))).Forall fun op => op.fresh = ∅ := by
  simp only [List.Forall]; repeat' constructor
set_option maxHeartbeats 4000000 in
theorem kept_9_0 (V : Valuation τ sig (Elt F)) : after hostOps0_9 V (Proc.devRef .tc main_arg0) = V (Proc.devRef .tc main_arg0) := by
  after_results_simp
set_option maxHeartbeats 4000000 in
theorem kept_9_1 (V : Valuation τ sig (Elt F)) : after hostOps0_9 V (Proc.devRef .tc main_arg1) = V (Proc.devRef .tc main_arg1) := by
  after_results_simp
set_option maxHeartbeats 4000000 in
theorem kept_9_2 (V : Valuation τ sig (Elt F)) : after hostOps0_9 V (Proc.devRef .tc main_arg2) = V (Proc.devRef .tc main_arg2) := by
  after_results_simp
set_option maxHeartbeats 4000000 in
theorem kept_9_3 (V : Valuation τ sig (Elt F)) : after hostOps0_9 V (Proc.devRef .tc main_arg3) = V (Proc.devRef .tc main_arg3) := by
  after_results_simp
set_option maxHeartbeats 4000000 in
theorem kept_9_4 (V : Valuation τ sig (Elt F)) : after hostOps0_9 V (Proc.devRef .tc main_arg4) = V (Proc.devRef .tc main_arg4) := by
  after_results_simp

set_option maxHeartbeats 4000000 in
theorem fresh_10 : (hostOps0_10 : List (HloOp τ sig (Elt F))).Forall fun op => op.fresh = ∅ := by
  simp only [List.Forall]; repeat' constructor
set_option maxHeartbeats 4000000 in
theorem kept_10_0 (V : Valuation τ sig (Elt F)) : after hostOps0_10 V (Proc.devRef .tc main_arg0) = V (Proc.devRef .tc main_arg0) := by
  after_results_simp
set_option maxHeartbeats 4000000 in
theorem kept_10_1 (V : Valuation τ sig (Elt F)) : after hostOps0_10 V (Proc.devRef .tc main_arg1) = V (Proc.devRef .tc main_arg1) := by
  after_results_simp
set_option maxHeartbeats 4000000 in
theorem kept_10_2 (V : Valuation τ sig (Elt F)) : after hostOps0_10 V (Proc.devRef .tc main_arg2) = V (Proc.devRef .tc main_arg2) := by
  after_results_simp
set_option maxHeartbeats 4000000 in
theorem kept_10_3 (V : Valuation τ sig (Elt F)) : after hostOps0_10 V (Proc.devRef .tc main_arg3) = V (Proc.devRef .tc main_arg3) := by
  after_results_simp
set_option maxHeartbeats 4000000 in
theorem kept_10_4 (V : Valuation τ sig (Elt F)) : after hostOps0_10 V (Proc.devRef .tc main_arg4) = V (Proc.devRef .tc main_arg4) := by
  after_results_simp

set_option maxHeartbeats 4000000 in
theorem fresh_11 : (hostOps0_11 : List (HloOp τ sig (Elt F))).Forall fun op => op.fresh = ∅ := by
  simp only [List.Forall]; repeat' constructor
set_option maxHeartbeats 4000000 in
theorem kept_11_0 (V : Valuation τ sig (Elt F)) : after hostOps0_11 V (Proc.devRef .tc main_arg0) = V (Proc.devRef .tc main_arg0) := by
  after_results_simp
set_option maxHeartbeats 4000000 in
theorem kept_11_1 (V : Valuation τ sig (Elt F)) : after hostOps0_11 V (Proc.devRef .tc main_arg1) = V (Proc.devRef .tc main_arg1) := by
  after_results_simp
set_option maxHeartbeats 4000000 in
theorem kept_11_2 (V : Valuation τ sig (Elt F)) : after hostOps0_11 V (Proc.devRef .tc main_arg2) = V (Proc.devRef .tc main_arg2) := by
  after_results_simp
set_option maxHeartbeats 4000000 in
theorem kept_11_3 (V : Valuation τ sig (Elt F)) : after hostOps0_11 V (Proc.devRef .tc main_arg3) = V (Proc.devRef .tc main_arg3) := by
  after_results_simp
set_option maxHeartbeats 4000000 in
theorem kept_11_4 (V : Valuation τ sig (Elt F)) : after hostOps0_11 V (Proc.devRef .tc main_arg4) = V (Proc.devRef .tc main_arg4) := by
  after_results_simp

set_option maxHeartbeats 4000000 in
theorem fresh_12 : (hostOps0_12 : List (HloOp τ sig (Elt F))).Forall fun op => op.fresh = ∅ := by
  simp only [List.Forall]; repeat' constructor
set_option maxHeartbeats 4000000 in
theorem kept_12_0 (V : Valuation τ sig (Elt F)) : after hostOps0_12 V (Proc.devRef .tc main_arg0) = V (Proc.devRef .tc main_arg0) := by
  after_results_simp
set_option maxHeartbeats 4000000 in
theorem kept_12_1 (V : Valuation τ sig (Elt F)) : after hostOps0_12 V (Proc.devRef .tc main_arg1) = V (Proc.devRef .tc main_arg1) := by
  after_results_simp
set_option maxHeartbeats 4000000 in
theorem kept_12_2 (V : Valuation τ sig (Elt F)) : after hostOps0_12 V (Proc.devRef .tc main_arg2) = V (Proc.devRef .tc main_arg2) := by
  after_results_simp
set_option maxHeartbeats 4000000 in
theorem kept_12_3 (V : Valuation τ sig (Elt F)) : after hostOps0_12 V (Proc.devRef .tc main_arg3) = V (Proc.devRef .tc main_arg3) := by
  after_results_simp
set_option maxHeartbeats 4000000 in
theorem kept_12_4 (V : Valuation τ sig (Elt F)) : after hostOps0_12 V (Proc.devRef .tc main_arg4) = V (Proc.devRef .tc main_arg4) := by
  after_results_simp

set_option maxHeartbeats 4000000 in
theorem fresh_13 : (hostOps0_13 : List (HloOp τ sig (Elt F))).Forall fun op => op.fresh = ∅ := by
  simp only [List.Forall]; repeat' constructor
set_option maxHeartbeats 4000000 in
theorem kept_13_0 (V : Valuation τ sig (Elt F)) : after hostOps0_13 V (Proc.devRef .tc main_arg0) = V (Proc.devRef .tc main_arg0) := by
  after_results_simp
set_option maxHeartbeats 4000000 in
theorem kept_13_1 (V : Valuation τ sig (Elt F)) : after hostOps0_13 V (Proc.devRef .tc main_arg1) = V (Proc.devRef .tc main_arg1) := by
  after_results_simp
set_option maxHeartbeats 4000000 in
theorem kept_13_2 (V : Valuation τ sig (Elt F)) : after hostOps0_13 V (Proc.devRef .tc main_arg2) = V (Proc.devRef .tc main_arg2) := by
  after_results_simp
set_option maxHeartbeats 4000000 in
theorem kept_13_3 (V : Valuation τ sig (Elt F)) : after hostOps0_13 V (Proc.devRef .tc main_arg3) = V (Proc.devRef .tc main_arg3) := by
  after_results_simp
set_option maxHeartbeats 4000000 in
theorem kept_13_4 (V : Valuation τ sig (Elt F)) : after hostOps0_13 V (Proc.devRef .tc main_arg4) = V (Proc.devRef .tc main_arg4) := by
  after_results_simp

set_option maxHeartbeats 4000000 in
theorem fresh_14 : (hostOps0_14 : List (HloOp τ sig (Elt F))).Forall fun op => op.fresh = ∅ := by
  simp only [List.Forall]; repeat' constructor
set_option maxHeartbeats 4000000 in
theorem kept_14_0 (V : Valuation τ sig (Elt F)) : after hostOps0_14 V (Proc.devRef .tc main_arg0) = V (Proc.devRef .tc main_arg0) := by
  after_results_simp
set_option maxHeartbeats 4000000 in
theorem kept_14_1 (V : Valuation τ sig (Elt F)) : after hostOps0_14 V (Proc.devRef .tc main_arg1) = V (Proc.devRef .tc main_arg1) := by
  after_results_simp
set_option maxHeartbeats 4000000 in
theorem kept_14_2 (V : Valuation τ sig (Elt F)) : after hostOps0_14 V (Proc.devRef .tc main_arg2) = V (Proc.devRef .tc main_arg2) := by
  after_results_simp
set_option maxHeartbeats 4000000 in
theorem kept_14_3 (V : Valuation τ sig (Elt F)) : after hostOps0_14 V (Proc.devRef .tc main_arg3) = V (Proc.devRef .tc main_arg3) := by
  after_results_simp
set_option maxHeartbeats 4000000 in
theorem kept_14_4 (V : Valuation τ sig (Elt F)) : after hostOps0_14 V (Proc.devRef .tc main_arg4) = V (Proc.devRef .tc main_arg4) := by
  after_results_simp

set_option maxHeartbeats 4000000 in
theorem fresh_15 : (hostOps0_15 : List (HloOp τ sig (Elt F))).Forall fun op => op.fresh = ∅ := by
  simp only [List.Forall]; repeat' constructor
set_option maxHeartbeats 4000000 in
theorem kept_15_0 (V : Valuation τ sig (Elt F)) : after hostOps0_15 V (Proc.devRef .tc main_arg0) = V (Proc.devRef .tc main_arg0) := by
  after_results_simp
set_option maxHeartbeats 4000000 in
theorem kept_15_1 (V : Valuation τ sig (Elt F)) : after hostOps0_15 V (Proc.devRef .tc main_arg1) = V (Proc.devRef .tc main_arg1) := by
  after_results_simp
set_option maxHeartbeats 4000000 in
theorem kept_15_2 (V : Valuation τ sig (Elt F)) : after hostOps0_15 V (Proc.devRef .tc main_arg2) = V (Proc.devRef .tc main_arg2) := by
  after_results_simp
set_option maxHeartbeats 4000000 in
theorem kept_15_3 (V : Valuation τ sig (Elt F)) : after hostOps0_15 V (Proc.devRef .tc main_arg3) = V (Proc.devRef .tc main_arg3) := by
  after_results_simp
set_option maxHeartbeats 4000000 in
theorem kept_15_4 (V : Valuation τ sig (Elt F)) : after hostOps0_15 V (Proc.devRef .tc main_arg4) = V (Proc.devRef .tc main_arg4) := by
  after_results_simp

set_option maxHeartbeats 4000000 in
theorem fresh_16 : (hostOps0_16 : List (HloOp τ sig (Elt F))).Forall fun op => op.fresh = ∅ := by
  simp only [List.Forall]; repeat' constructor
set_option maxHeartbeats 4000000 in
theorem kept_16_0 (V : Valuation τ sig (Elt F)) : after hostOps0_16 V (Proc.devRef .tc main_arg0) = V (Proc.devRef .tc main_arg0) := by
  after_results_simp
set_option maxHeartbeats 4000000 in
theorem kept_16_1 (V : Valuation τ sig (Elt F)) : after hostOps0_16 V (Proc.devRef .tc main_arg1) = V (Proc.devRef .tc main_arg1) := by
  after_results_simp
set_option maxHeartbeats 4000000 in
theorem kept_16_2 (V : Valuation τ sig (Elt F)) : after hostOps0_16 V (Proc.devRef .tc main_arg2) = V (Proc.devRef .tc main_arg2) := by
  after_results_simp
set_option maxHeartbeats 4000000 in
theorem kept_16_3 (V : Valuation τ sig (Elt F)) : after hostOps0_16 V (Proc.devRef .tc main_arg3) = V (Proc.devRef .tc main_arg3) := by
  after_results_simp
set_option maxHeartbeats 4000000 in
theorem kept_16_4 (V : Valuation τ sig (Elt F)) : after hostOps0_16 V (Proc.devRef .tc main_arg4) = V (Proc.devRef .tc main_arg4) := by
  after_results_simp

end Cert.KernelIdeal.Hand

end
-- ==== Proof.KI.Around.lean ====
/-
  @main of the kernel program around its one pallas region. Before the region stand the host lines that normalise the
  points, clamp and floor the plane coordinates at each of the four resolutions, gather the four bilinear corners per
  plane and stack the scales; after it stand two lines that lay the region's result out as the final array (a transpose of the
  scale and point axes and a reshape). None of these lines writes an argument array, and the two later lines write no
  array the region's windows stage; so whatever the region's frame run says of "every other buffer" reads, at the
  five arguments, as "unchanged since launch".
-/
import proofs.«135668_j17884243821138_2_alg».proof.Proof.KI.Kept
import Idealize.ShloMosaic.Lib.StableHlo.RunLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines before and after the region -/

/-- Every host line before the region touches TensorCore references only. -/
theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩

/-- None of them allocates. -/
theorem pre_fresh : (pre (F := F)).Forall fun ops => ops.Forall fun op => op.fresh = ∅ :=
  ⟨fresh_0, fresh_1, fresh_2, fresh_3, fresh_4, fresh_5, fresh_6, fresh_7, fresh_8, fresh_9, fresh_10, fresh_11, fresh_12, fresh_13, fresh_14, fresh_15, fresh_16⟩

theorem hostOps1_fresh : (hostOps1 : List (HloOp τ sig (Elt F))).Forall fun op => op.fresh = ∅ := by
  simp only [List.Forall]; repeat' constructor

/-- The fold of the lines before the region, stretch after stretch. -/
theorem V0_eq (c : Dev nD) : V0 m c = StableHlo.afterL (pre (F := F)) (fun b => m (c, b)) :=
  (StableHlo.afterL_eq_after_flatten (pre (F := F)) _).symm

/-- @main is the lines before the region, the region, and the two lines after it: it reduces to the region continued by
    the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1] pre_sub pre_fresh main_chain

/-- The lines after the region touch the windows' arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array a window stages: the transpose writes its own result, the reshape its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The arguments, as the region finds them and as @main leaves them -/

/-- No line before the region writes argument 0: the region finds it as launched. -/
theorem V_main_arg0 (c : Dev nD) : V m c main_arg0 = m ((c : Thread nD τ).loc main_arg0) := by
  show V0 m c (Proc.devRef .tc main_arg0) = _
  rw [V0_eq]
  simp only [pre, StableHlo.afterL_cons, StableHlo.afterL_nil]
  rw [kept_16_0, kept_15_0, kept_14_0, kept_13_0, kept_12_0, kept_11_0, kept_10_0, kept_9_0, kept_8_0, kept_7_0, kept_6_0, kept_5_0, kept_4_0, kept_3_0, kept_2_0, kept_1_0, kept_0_0]

/-- No line after the region writes it either, and it is no window's array: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) := by
  show V0 m c (Proc.devRef .tc main_arg1) = _
  rw [V0_eq]
  simp only [pre, StableHlo.afterL_cons, StableHlo.afterL_nil]
  rw [kept_16_1, kept_15_1, kept_14_1, kept_13_1, kept_12_1, kept_11_1, kept_10_1, kept_9_1, kept_8_1, kept_7_1, kept_6_1, kept_5_1, kept_4_1, kept_3_1, kept_2_1, kept_1_1, kept_0_1]

/-- No line after the region writes it either, and it is no window's array: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) := by
  show V0 m c (Proc.devRef .tc main_arg2) = _
  rw [V0_eq]
  simp only [pre, StableHlo.afterL_cons, StableHlo.afterL_nil]
  rw [kept_16_2, kept_15_2, kept_14_2, kept_13_2, kept_12_2, kept_11_2, kept_10_2, kept_9_2, kept_8_2, kept_7_2, kept_6_2, kept_5_2, kept_4_2, kept_3_2, kept_2_2, kept_1_2, kept_0_2]

/-- No line after the region writes it either, and it is no window's array: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line before the region writes argument 3: the region finds it as launched. -/
theorem V_main_arg3 (c : Dev nD) : V m c main_arg3 = m ((c : Thread nD τ).loc main_arg3) := by
  show V0 m c (Proc.devRef .tc main_arg3) = _
  rw [V0_eq]
  simp only [pre, StableHlo.afterL_cons, StableHlo.afterL_nil]
  rw [kept_16_3, kept_15_3, kept_14_3, kept_13_3, kept_12_3, kept_11_3, kept_10_3, kept_9_3, kept_8_3, kept_7_3, kept_6_3, kept_5_3, kept_4_3, kept_3_3, kept_2_3, kept_1_3, kept_0_3]

/-- No line after the region writes it either, and it is no window's array: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No line before the region writes argument 4: the region finds it as launched. -/
theorem V_main_arg4 (c : Dev nD) : V m c main_arg4 = m ((c : Thread nD τ).loc main_arg4) := by
  show V0 m c (Proc.devRef .tc main_arg4) = _
  rw [V0_eq]
  simp only [pre, StableHlo.afterL_cons, StableHlo.afterL_nil]
  rw [kept_16_4, kept_15_4, kept_14_4, kept_13_4, kept_12_4, kept_11_4, kept_10_4, kept_9_4, kept_8_4, kept_7_4, kept_6_4, kept_5_4, kept_4_4, kept_3_4, kept_2_4, kept_1_4, kept_0_4]

/-- No line after the region writes it either, and it is no window's array: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The frame claim's post from the region's frame run -/

/-- For any proof data of the region, a run of @main to the library's frame post (every window's array at what the
    proof data computes, every other buffer at what the later lines make of the region's exit contents) ends with the
    five argument arrays unchanged: none is a window's array, and no host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

end Cert.KernelIdeal.Hand

end
-- ==== Proof.KI.Body.lean ====
/-
  What the runs of the kernel body share: the body's one branch condition in closed form over the grid, where the
  windows are live, the staging and scratch memrefs as the pipeline passes them, the launch invariant with the
  scratch operand as an owned memref, and each input window's staging buffer holding its block at every point.
-/
import proofs.«135668_j17884243821138_2_alg».proof.Proof.KI.Entry
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body's branch condition -/

/-- The condition of the body's one conditional, from the grid coordinates (the skeleton's scalar chain substituted):
    coordinate 1 is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## Where the windows are idle: nowhere -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-! ## The staging and scratch memrefs -/

/-- One staging buffer of output window 6, through which its contents are stated (the choice does not matter). -/
abbrev VO0_6 : View sig .tc .vmem S1x1000x216 .f32 := (Memref.whole cc0_stg6_0 : Memref sig .tc .vmem S1x1000x216 .f32).view
/-- Each window's current staging memref at point `t`, spelled as the pipeline passes it, and its wholeness. -/
abbrev ms0_0 (t : Fin cfg0.N) : Memref sig .tc .vmem S1x3x1000x72 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1000x72 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x1000x72 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x1000x72 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x1000x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x1000x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1000x216 .f32 := win0_6.stage (cfg0.slots t 6)
abbrev hs0_6 (t : Fin cfg0.N) : (ms0_6 t).IsWhole := hstage0_6 ((cfg0.slots t 6).cast nbuf0_6)
/-- The scratch operand: a whole scoped buffer of the kernel's own, passed beside the windows. -/
abbrev scM0_0 : Memref sig .tc .vmem S1000x216 .f32 := Memref.whole cc0_scratch0
/-- The scratch the kernel carries between points, as a view: what it holds is stated through it. -/
abbrev VS0_0 : View sig .tc .vmem S1000x216 .f32 := scM0_0.view

/-- The launch invariant with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The input windows' blocks -/

/-- Input window 0's current staging buffer holds its block at every point, fetched there or not, for any proof data
    whose array is the one the region finds and whose body leaves the block in place (the window uncut and never idle). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the one the region finds and whose body leaves the block in place (the window uncut and never idle). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the one the region finds and whose body leaves the block in place (the window uncut and never idle). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the one the region finds and whose body leaves the block in place (the window uncut and never idle). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the one the region finds and whose body leaves the block in place (the window uncut and never idle). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the one the region finds and whose body leaves the block in place (the window uncut and never idle). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.RunA.lean ====
/-
  The whole-body run of the kernel in the case where grid coordinate 1 is zero: the scratch is zeroed before it is
  read, so its earlier contents do not matter.
-/
import proofs.«135668_j17884243821138_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- What the body's stores leave in the output's staging memref and in the scratch operand, as pieces (last first), in the case where the body's condition holds (grid coordinate 1 is zero: the scratch is stored whole first),
    with the proof that on whole memrefs — the six inputs' at their contents, the output's at anything, the scratch at anything —
    the body runs to the continuation holding the inputs' as they were, the output's buffer with its pieces written and the
    scratch with its pieces written. The pieces are the witness the run finds. -/
noncomputable def kernelRun0_A (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) :
    Σ' (L6 : List (View.Piece (Elt F) S1x1000x216 .f32)), { LS0 : List (View.Piece (Elt F) S1000x216 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__tri_kernel i arg2 harg2 arg3 harg3 arg4 harg4 arg5 harg5 arg6 harg6 arg7 harg7 arg8 harg8 arg9 harg9) K } := by
  refine ⟨?_, ?_, fun E K => ?run⟩
  case run =>
    simp only [cc0__tri_kernel_eq_skeleton]; unfold cc0__tri_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.RunB.lean ====
/-
  The whole-body run of the kernel in the case where grid coordinate 1 is not zero: the scratch is read before it is
  stored, so it is held at the contents the point before left.
-/
import proofs.«135668_j17884243821138_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- What the body's stores leave in the output's staging memref and in the scratch operand, as pieces (last first), in the case where the body's condition fails (grid coordinate 1 is not zero: the scratch is added to),
    with the proof that on whole memrefs — the six inputs' at their contents, the output's at anything, the scratch at the contents the point before left (`xs0`) —
    the body runs to the continuation holding the inputs' as they were, the output's buffer with its pieces written and the
    scratch with its pieces written. The pieces are the witness the run finds. -/
noncomputable def kernelRun0_B (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : ¬cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (xs0 : Vec F S1000x216 .f32) :
    Σ' (L6 : List (View.Piece (Elt F) S1x1000x216 .f32)), { LS0 : List (View.Piece (Elt F) S1000x216 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__tri_kernel i arg2 harg2 arg3 harg3 arg4 harg4 arg5 harg5 arg6 harg6 arg7 harg7 arg8 harg8 arg9 harg9) K } := by
  refine ⟨?_, ?_, fun E K => ?run⟩
  case run =>
    simp only [cc0__tri_kernel_eq_skeleton]; unfold cc0__tri_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Frame.lean ====
/-
  The body of the one region, point by point: what each case's stores leave in the output's staging buffer and in the
  scratch the kernel carries between points (their pieces cover the buffers, so the contents are the pieces read back),
  what the two hold after each point by recursion on the point, the pipeline's proof data, and the body obligation
  together with the invariant's two ends.
-/
import proofs.«135668_j17884243821138_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves -/

/-- In the case where the condition holds the one store into the output's staging buffer is of the whole block, so the
    pieces cover it. -/
theorem cover0_A_6 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (y : S1x1000x216.Idx) :
    ∃ pc ∈ (kernelRun0_A c i arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).1 S1x1000x216.size (by sl_kernel_rfl) y

/-- What that case leaves in the output's staging buffer: its pieces read back over junk. -/
def out0_A_6 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) : Vec F S1x1000x216 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4 x5).1)

/-- In that case the scratch is stored whole first (the later column stores lie inside it), so its pieces cover it. -/
theorem scover0_A_0 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (y : S1000x216.Idx) :
    ∃ pc ∈ (kernelRun0_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).2.1 S1000x216.size (by sl_kernel_rfl) y

/-- What that case leaves in the scratch: its pieces read back over junk. -/
def sout0_A_0 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) : Vec F S1000x216 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4 x5).2.1)

/-- In the case where the condition fails the one store into the output's staging buffer is again of the whole block. -/
theorem cover0_B_6 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : ¬cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (xs0 : Vec F S1000x216 .f32) (y : S1x1000x216.Idx) :
    ∃ pc ∈ (kernelRun0_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).1 S1x1000x216.size (by sl_kernel_rfl) y

/-- What that case leaves in the output's staging buffer: its pieces read back over junk. -/
def out0_B_6 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : ¬cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (xs0 : Vec F S1000x216 .f32) : Vec F S1x1000x216 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 x5 xs0).1)

/-- In that case the three column stores (72 columns each, at columns 0, 72 and 144) tile the scratch. -/
theorem scover0_B_0 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : ¬cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (xs0 : Vec F S1000x216 .f32) (y : S1000x216.Idx) :
    ∃ pc ∈ (kernelRun0_B c i arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).2.1 S1000x72.size (by sl_kernel_rfl) y

/-- What that case leaves in the scratch: its pieces read back over junk. -/
def sout0_B_0 (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole) (hc0 : ¬cond0_0 i)
    (x0 : Vec F S1x3x1000x72 .f32) (x1 : Vec F S1x3x1000x72 .f32) (x2 : Vec F S1x3x1000x72 .f32) (x3 : Vec F S1x3x1000x72 .f32) (x4 : Vec F S1x3x1000x1 .f32) (x5 : Vec F S1x3x1000x1 .f32) (xs0 : Vec F S1000x216 .f32) : Vec F S1000x216 .f32 :=
  VS0_0.read (Elt F) (VS0_0.writes (Elt F) VS0_0.junk (kernelRun0_B c i arg2 harg2 arg3 harg3 arg4 harg4 arg5 harg5 arg6 harg6 arg7 harg7 arg8 harg8 arg9 harg9 hc0 x0 x1 x2 x3 x4 x5 xs0).2.1)

/-! ## What the output's buffer and the scratch hold after each point -/

/-- The accumulation. What the output's staging buffer and the scratch hold after the body at position `n` (a pair: the
    output, then the scratch): at a position ≡ 0 (mod 4) the case that zeroes the scratch first, run at the point's
    memrefs and input blocks; at any other position the case that adds to the scratch, over what position `n - 1` left
    in it. -/
def outsAt0 (c : Dev nD) : (n : ℕ) → n < cfg0.N → Vec F S1x1000x216 .f32 × Vec F S1000x216 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- `outsAt0` at a point ≡ 0 (mod 4): the zeroing case's contents. -/
theorem outsAt0_A (c : Dev nD) (t : Fin cfg0.N) (h0 : t.val % 4 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at any other point: the adding case's contents, over what the point before left. -/
theorem outsAt0_B (c : Dev nD) (t : Fin cfg0.N) (h0 : ¬t.val % 4 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the launch's (the scratch at anything); afterwards
    the scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`'s first component; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' memrefs hold their blocks; the closed form says which case the point is in; the
    invariant hands the body the scratch at what the point before left (at anything at the first point) and takes it back
    at this point's contents; the output's buffer is taken at anything and returned at this point's contents; the core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  have hN : t.val < 400 := lt_of_lt_of_eq t.isLt (show cfg0.N = 400 from N_0)
  by_cases h0 : t.val % 4 = 0
  · rw [outsAt0_A m c t h0]
    unfold out0_A_6 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
  · rw [outsAt0_B m c t h0]
    unfold out0_B_6 sout0_B_0; (try dsimp only)
    by_cases hz : t.val = 0
    · exfalso; rw [hz] at h0; exact h0 (Nat.zero_mod _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 400 := N_0; omega)

end Cert.KernelIdeal.Hand

end
-- ==== Proof.KI.Run.lean ====
/-
  The kernel program's run and its frame. The region's proof data say what every window's staging buffer holds after the
  body at each grid point (the six corner and weight blocks unchanged; the output block and the carried accumulator at the
  running sum over the scales met so far); the body obligation is met at every point; and @main is host lines, the region,
  host lines. So every weakly fair execution of @main terminates without a fault, every window's array ends at what the
  proof data compute, every other buffer at what the two later lines make of the region's exit contents — in particular the
  five argument arrays end as launched.
-/
import proofs.«135668_j17884243821138_2_alg».proof.Proof.KI.Around
import proofs.«135668_j17884243821138_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, and every final state has every
    array of the pipeline at what the library computes from the proof data and every other unscoped buffer as the lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Hand

end
-- ==== Proof.RefRun.W0.lean ====
/- The reference program's window main_part0 (@main's statements 1 … 60 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 40000000 in
/-- 60 host operations of @main, window 0, in order. -/
abbrev w0_ops0 : List (HloOp τ sig (Elt F)) :=
  ( StableHlo.nullary main_c (fun i => lit0 (S2.rowMajor i))
  :: StableHlo.nullary main_c_0 (fun i => lit1 (S2.rowMajor i))
  :: StableHlo.nullary main_c_1 (fun i => lit2 (S2.rowMajor i))
  :: StableHlo.nullary main_cst (constant S_ .f32 0x3FCCCCCD#32)
  :: StableHlo.unary main_cst main_v0 (broadcastInDim S100000x3 ![] bcast_S_S100000x3 : (⟨S_, .f32⟩ : BufTy).Contents (Elt F) → (⟨S100000x3, .f32⟩ : BufTy).Contents (Elt F))
  :: StableHlo.binary main_arg0 main_v0 main_v1 (subf : (⟨S100000x3, .f32⟩ : BufTy).Contents (Elt F) → (⟨S100000x3, .f32⟩ : BufTy).Contents (Elt F) → (⟨S100000x3, .f32⟩ : BufTy).Contents (Elt F))
  :: StableHlo.nullary main_cst_2 (constant S_ .f32 0xBF200000#32)
  :: StableHlo.unary main_cst_2 main_v2 (broadcastInDim S100000x3 ![] bcast_S_S100000x3 : (⟨S_, .f32⟩ : BufTy).Contents (Elt F) → (⟨S100000x3, .f32⟩ : BufTy).Contents (Elt F))
  :: StableHlo.binary main_v1 main_v2 main_v3 (mulf : (⟨S100000x3, .f32⟩ : BufTy).Contents (Elt F) → (⟨S100000x3, .f32⟩ : BufTy).Contents (Elt F) → (⟨S100000x3, .f32⟩ : BufTy).Contents (Elt F))
  :: StableHlo.nullary main_cst_3 (constant S_ .f32 0x3F800000#32)
  :: StableHlo.unary main_cst_3 main_v4 (broadcastInDim S100000x3 ![] bcast_S_S100000x3 : (⟨S_, .f32⟩ : BufTy).Contents (Elt F) → (⟨S100000x3, .f32⟩ : BufTy).Contents (Elt F))
  :: StableHlo.binary main_v3 main_v4 main_v5 (subf : (⟨S100000x3, .f32⟩ : BufTy).Contents (Elt F) → (⟨S100000x3, .f32⟩ : BufTy).Contents (Elt F) → (⟨S100000x3, .f32⟩ : BufTy).Contents (Elt F))
  :: StableHlo.nullary main_c_4 (constantI S_ 32 0#32)
  :: StableHlo.unary main_c_4 main_v6 (broadcastInDim S2 ![] bcast_S_S2 : (⟨S_, .i32⟩ : BufTy).Contents (Elt F) → (⟨S2, .i32⟩ : BufTy).Contents (Elt F))
  :: StableHlo.binary main_c main_v6 main_v7 (cmpi .slt : (⟨S2, .i32⟩ : BufTy).Contents (Elt F) → (⟨S2, .i32⟩ : BufTy).Contents (Elt F) → (⟨S2, .i1⟩ : BufTy).Contents (Elt F))
  :: StableHlo.nullary main_c_5 (constantI S_ 32 3#32)
  :: StableHlo.unary main_c_5 main_v8 (broadcastInDim S2 ![] bcast_S_S2 : (⟨S_, .i32⟩ : BufTy).Contents (Elt F) → (⟨S2, .i32⟩ : BufTy).Contents (Elt F))
  :: StableHlo.binary main_c main_v8 main_v9 (addi : (⟨S2, .i32⟩ : BufTy).Contents (Elt F) → (⟨S2, .i32⟩ : BufTy).Contents (Elt F) → (⟨S2, .i32⟩ : BufTy).Contents (Elt F))
  :: StableHlo.ternary main_v7 main_v9 main_c main_v10 (select : (⟨S2, .i1⟩ : BufTy).Contents (Elt F) → (⟨S2, .i32⟩ : BufTy).Contents (Elt F) → (⟨S2, .i32⟩ : BufTy).Contents (Elt F) → (⟨S2, .i32⟩ : BufTy).Contents (Elt F))
  :: StableHlo.unary main_v10 main_v11 (broadcastInDim S2x1 ![0] bcast_S2_S2x1_0 : (⟨S2, .i32⟩ : BufTy).Contents (Elt F) → (⟨S2x1, .i32⟩ : BufTy).Contents (Elt F))
  :: StableHlo.binary main_v5 main_v11 main_v12 ((fun x i => Host.gather gather_S100000x3_S2x1_S100000x2_0_1_n_n_1_1_1000001 x i) : (⟨S100000x3, .f32⟩ : BufTy).Contents (Elt F) → (⟨S2x1, .i32⟩ : BufTy).Contents (Elt F) → (⟨S100000x2, .f32⟩ : BufTy).Contents (Elt F))
  :: StableHlo.nullary main_c_6 (constantI S_ 32 0#32)
  :: StableHlo.unary main_c_6 main_v13 (broadcastInDim S2 ![] bcast_S_S2 : (⟨S_, .i32⟩ : BufTy).Contents (Elt F) → (⟨S2, .i32⟩ : BufTy).Contents (Elt F))
  :: StableHlo.binary main_c_0 main_v13 main_v14 (cmpi .slt : (⟨S2, .i32⟩ : BufTy).Contents (Elt F) → (⟨S2, .i32⟩ : BufTy).Contents (Elt F) → (⟨S2, .i1⟩ : BufTy).Contents (Elt F))
  :: StableHlo.nullary main_c_7 (constantI S_ 32 3#32)
  :: StableHlo.unary main_c_7 main_v15 (broadcastInDim S2 ![] bcast_S_S2 : (⟨S_, .i32⟩ : BufTy).Contents (Elt F) → (⟨S2, .i32⟩ : BufTy).Contents (Elt F))
  :: StableHlo.binary main_c_0 main_v15 main_v16 (addi : (⟨S2, .i32⟩ : BufTy).Contents (Elt F) → (⟨S2, .i32⟩ : BufTy).Contents (Elt F) → (⟨S2, .i32⟩ : BufTy).Contents (Elt F))
  :: StableHlo.ternary main_v14 main_v16 main_c_0 main_v17 (select : (⟨S2, .i1⟩ : BufTy).Contents (Elt F) → (⟨S2, .i32⟩ : BufTy).Contents (Elt F) → (⟨S2, .i32⟩ : BufTy).Contents (Elt F) → (⟨S2, .i32⟩ : BufTy).Contents (Elt F))
  :: StableHlo.unary main_v17 main_v18 (broadcastInDim S2x1 ![0] bcast_S2_S2x1_0 : (⟨S2, .i32⟩ : BufTy).Contents (Elt F) → (⟨S2x1, .i32⟩ : BufTy).Contents (Elt F))
  :: StableHlo.binary main_v5 main_v18 main_v19 ((fun x i => Host.gather gather_S100000x3_S2x1_S100000x2_0_1_n_n_1_1_1000001 x i) : (⟨S100000x3, .f32⟩ : BufTy).Contents (Elt F) → (⟨S2x1, .i32⟩ : BufTy).Contents (Elt F) → (⟨S100000x2, .f32⟩ : BufTy).Contents (Elt F))
  :: StableHlo.nullary main_c_8 (constantI S_ 32 0#32)
  :: StableHlo.unary main_c_8 main_v20 (broadcastInDim S2 ![] bcast_S_S2 : (⟨S_, .i32⟩ : BufTy).Contents (Elt F) → (⟨S2, .i32⟩ : BufTy).Contents (Elt F))
  :: StableHlo.binary main_c_1 main_v20 main_v21 (cmpi .slt : (⟨S2, .i32⟩ : BufTy).Contents (Elt F) → (⟨S2, .i32⟩ : BufTy).Contents (Elt F) → (⟨S2, .i1⟩ : BufTy).Contents (Elt F))
  :: StableHlo.nullary main_c_9 (constantI S_ 32 3#32)
  :: StableHlo.unary main_c_9 main_v22 (broadcastInDim S2 ![] bcast_S_S2 : (⟨S_, .i32⟩ : BufTy).Contents (Elt F) → (⟨S2, .i32⟩ : BufTy).Contents (Elt F))
  :: StableHlo.binary main_c_1 main_v22 main_v23 (addi : (⟨S2, .i32⟩ : BufTy).Contents (Elt F) → (⟨S2, .i32⟩ : BufTy).Contents (Elt F) → (⟨S2, .i32⟩ : BufTy).Contents (Elt F))
  :: StableHlo.ternary main_v21 main_v23 main_c_1 main_v24 (select : (⟨S2, .i1⟩ : BufTy).Contents (Elt F) → (⟨S2, .i32⟩ : BufTy).Contents (Elt F) → (⟨S2, .i32⟩ : BufTy).Contents (Elt F) → (⟨S2, .i32⟩ : BufTy).Contents (Elt F))
  :: StableHlo.unary main_v24 main_v25 (broadcastInDim S2x1 ![0] bcast_S2_S2x1_0 : (⟨S2, .i32⟩ : BufTy).Contents (Elt F) → (⟨S2x1, .i32⟩ : BufTy).Contents (Elt F))
  :: StableHlo.binary main_v5 main_v25 main_v26 ((fun x i => Host.gather gather_S100000x3_S2x1_S100000x2_0_1_n_n_1_1_1000001 x i) : (⟨S100000x3, .f32⟩ : BufTy).Contents (Elt F) → (⟨S2x1, .i32⟩ : BufTy).Contents (Elt F) → (⟨S100000x2, .f32⟩ : BufTy).Contents (Elt F))
  :: StableHlo.unary main_v12 main_v27 (broadcastInDim S1x100000x2 ![1, 2] bcast_S100000x2_S1x100000x2_1_2 : (⟨S100000x2, .f32⟩ : BufTy).Contents (Elt F) → (⟨S1x100000x2, .f32⟩ : BufTy).Contents (Elt F))
  :: StableHlo.unary main_v19 main_v28 (broadcastInDim S1x100000x2 ![1, 2] bcast_S100000x2_S1x100000x2_1_2 : (⟨S100000x2, .f32⟩ : BufTy).Contents (Elt F) → (⟨S1x100000x2, .f32⟩ : BufTy).Contents (Elt F))
  :: StableHlo.unary main_v26 main_v29 (broadcastInDim S1x100000x2 ![1, 2] bcast_S100000x2_S1x100000x2_1_2 : (⟨S100000x2, .f32⟩ : BufTy).Contents (Elt F) → (⟨S1x100000x2, .f32⟩ : BufTy).Contents (Elt F))
  :: StableHlo.nary ![main_v27, main_v28, main_v29] main_v30 (fun u => concatenate S3x100000x2 0 [⟨S1x100000x2, u 0⟩, ⟨S1x100000x2, u 1⟩, ⟨S1x100000x2, u 2⟩] concatenates_S1x100000x2_S1x100000x2_S1x100000x2_S3x100000x2_d0)
  :: StableHlo.unary main_v30 main_v31 ((extractStridedSlice S3x100000x1 ![0, 0, 0] · slices_S3x100000x2_S3x100000x1_0_0_0) : (⟨S3x100000x2, .f32⟩ : BufTy).Contents (Elt F) → (⟨S3x100000x1, .f32⟩ : BufTy).Contents (Elt F))
  :: StableHlo.reshape main_v31 main_v32 rfl shapeCasts_S3x100000x1_S3x100000
  :: StableHlo.nullary main_cst_10 (constant S_ .f32 0x3F800000#32)
  :: StableHlo.unary main_cst_10 main_v33 (broadcastInDim S3x100000 ![] bcast_S_S3x100000 : (⟨S_, .f32⟩ : BufTy).Contents (Elt F) → (⟨S3x100000, .f32⟩ : BufTy).Contents (Elt F))
  :: StableHlo.binary main_v32 main_v33 main_v34 (addf : (⟨S3x100000, .f32⟩ : BufTy).Contents (Elt F) → (⟨S3x100000, .f32⟩ : BufTy).Contents (Elt F) → (⟨S3x100000, .f32⟩ : BufTy).Contents (Elt F))
  :: StableHlo.nullary main_cst_11 (constant S_ .f32 0x3F000000#32)
  :: StableHlo.unary main_cst_11 main_v35 (broadcastInDim S3x100000 ![] bcast_S_S3x100000 : (⟨S_, .f32⟩ : BufTy).Contents (Elt F) → (⟨S3x100000, .f32⟩ : BufTy).Contents (Elt F))
  :: StableHlo.binary main_v34 main_v35 main_v36 (mulf : (⟨S3x100000, .f32⟩ : BufTy).Contents (Elt F) → (⟨S3x100000, .f32⟩ : BufTy).Contents (Elt F) → (⟨S3x100000, .f32⟩ : BufTy).Contents (Elt F))
  :: StableHlo.nullary main_cst_12 (constant S_ .f32 0x427C0000#32)
  :: StableHlo.unary main_cst_12 main_v37 (broadcastInDim S3x100000 ![] bcast_S_S3x100000 : (⟨S_, .f32⟩ : BufTy).Contents (Elt F) → (⟨S3x100000, .f32⟩ : BufTy).Contents (Elt F))
  :: StableHlo.binary main_v36 main_v37 main_v38 (mulf : (⟨S3x100000, .f32⟩ : BufTy).Contents (Elt F) → (⟨S3x100000, .f32⟩ : BufTy).Contents (Elt F) → (⟨S3x100000, .f32⟩ : BufTy).Contents (Elt F))
  :: StableHlo.unary main_v30 main_v39 ((extractStridedSlice S3x100000x1 ![0, 0, 1] · slices_S3x100000x2_S3x100000x1_0_0_1) : (⟨S3x100000x2, .f32⟩ : BufTy).Contents (Elt F) → (⟨S3x100000x1, .f32⟩ : BufTy).Contents (Elt F))
  :: StableHlo.reshape main_v39 main_v40 rfl shapeCasts_S3x100000x1_S3x100000
  :: StableHlo.nullary main_cst_13 (constant S_ .f32 0x3F800000#32)
  :: StableHlo.unary main_cst_13 main_v41 (broadcastInDim S3x100000 ![] bcast_S_S3x100000 : (⟨S_, .f32⟩ : BufTy).Contents (Elt F) → (⟨S3x100000, .f32⟩ : BufTy).Contents (Elt F))
  :: StableHlo.binary main_v40 main_v41 main_v42 (addf : (⟨S3x100000, .f32⟩ : BufTy).Contents (Elt F) → (⟨S3x100000, .f32⟩ : BufTy).Contents (Elt F) → (⟨S3x100000, .f32⟩ : BufTy).Contents (Elt F))
  :: StableHlo.nullary main_cst_14 (constant S_ .f32 0x3F000000#32)
  :: [] )
set_option maxHeartbeats 40000000 in
/-- Each touches TensorCore references only. -/
theorem w0_ops0_sub : (w0_ops0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.unary_bufs_sub .., StableHlo.nary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub ..⟩
set_option maxHeartbeats 40000000 in
/-- None allocates a buffer. -/
theorem w0_ops0_fresh : (w0_ops0 : List (HloOp τ sig (Elt F))).Forall fun op => op.fresh = ∅ := by
  simp only [List.Forall]; repeat' constructor
/-- The references the operations write. -/
abbrev w0_ops0_W : List (Ref sig .tc) := [main_c, main_c_0, main_c_1, main_cst, main_v0, main_v1, main_cst_2, main_v2, main_v3, main_cst_3, main_v4, main_v5, main_c_4, main_v6, main_v7, main_c_5, main_v8, main_v9, main_v10, main_v11, main_v12, main_c_6, main_v13, main_v14, main_c_7, main_v15, main_v16, main_v17, main_v18, main_v19, main_c_8, main_v20, main_v21, main_c_9, main_v22, main_v23, main_v24, main_v25, main_v26, main_v27, main_v28, main_v29, main_v30, main_v31, main_v32, main_cst_10, main_v33, main_v34, main_cst_11, main_v35, main_v36, main_cst_12, main_v37, main_v38, main_v39, main_v40, main_cst_13, main_v41, main_v42, main_cst_14]
set_option maxHeartbeats 40000000 in
/-- Each writes inside that list. -/
theorem w0_ops0_writes : (w0_ops0 : List (HloOp τ sig (Elt F))).Forall fun op => op.writes ⊆ (w0_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- Window 0 is the chain of its lists' runs, the last in tail position: both sides unfold to the same sequence of steps. -/
theorem main_part0_chain (c : Dev nD) : main_part0 (F := F) c = (Pipeline.chainK
  [  ]
  (StableHlo.seq w0_ops0) : Prog (TpuEff nD τ sig (Elt F) (Pipeline.Sig Λ₀ (Fin 0) fun p => (pcfgs (F := F) p).Adm) .tc) PUnit) := by
  chain_rfl

end Cert.ReferenceIdeal.RefRun

end
-- ==== Proof.RefRun.W1.lean ====
/- The reference program's window main_part1 (@main's statements 61 … 120 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- 7 host operations of @main, window 1, in order. -/
abbrev w1_ops0 : List (HloOp τ sig (Elt F)) :=
  [ StableHlo.unary main_cst_14 main_v43 (broadcastInDim S3x100000 ![] bcast_S_S3x100000 : (⟨S_, .f32⟩ : BufTy).Contents (Elt F) → (⟨S3x100000, .f32⟩ : BufTy).Contents (Elt F)),
    StableHlo.binary main_v42 main_v43 main_v44 (mulf : (⟨S3x100000, .f32⟩ : BufTy).Contents (Elt F) → (⟨S3x100000, .f32⟩ : BufTy).Contents (Elt F) → (⟨S3x100000, .f32⟩ : BufTy).Contents (Elt F)),
    StableHlo.nullary main_cst_15 (constant S_ .f32 0x427C0000#32),
    StableHlo.unary main_cst_15 main_v45 (broadcastInDim S3x100000 ![] bcast_S_S3x100000 : (⟨S_, .f32⟩ : BufTy).Contents (Elt F) → (⟨S3x100000, .f32⟩ : BufTy).Contents (Elt F)),
    StableHlo.binary main_v44 main_v45 main_v46 (mulf : (⟨S3x100000, .f32⟩ : BufTy).Contents (Elt F) → (⟨S3x100000, .f32⟩ : BufTy).Contents (Elt F) → (⟨S3x100000, .f32⟩ : BufTy).Contents (Elt F)),
    StableHlo.nullary main_cst_16 (constant S_ .f32 0x00000000#32),
    StableHlo.nullary main_c_17 (constantI S_ 32 63#32) ]
/-- Each touches TensorCore references only. -/
theorem w1_ops0_sub : (w1_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩
/-- None allocates a buffer. -/
theorem w1_ops0_fresh : (w1_ops0 : List (HloOp τ sig (Elt F))).Forall fun op => op.fresh = ∅ := by
  simp only [List.Forall]; repeat' constructor
/-- The references the operations write. -/
abbrev w1_ops0_W : List (Ref sig .tc) := [main_v43, main_v44, main_cst_15, main_v45, main_v46, main_cst_16, main_c_17]
/-- Each writes inside that list. -/
theorem w1_ops0_writes : (w1_ops0 : List (HloOp τ sig (Elt F))).Forall fun op => op.writes ⊆ (w1_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 6 host operations of @clip (main_call0), window 1, in order. -/
abbrev w1_ops1 : List (HloOp τ sig (Elt F)) :=
  [ StableHlo.TRef.unary (.of main_cst_16 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S3x100000, .f32⟩) (broadcastInDim S3x100000 ![] bcast_S_S3x100000),
    StableHlo.TRef.binary (.of main_call0_v1 : StableHlo.TRef sig ⟨S3x100000, .f32⟩) (.of main_v38 : StableHlo.TRef sig ⟨S3x100000, .f32⟩) (.of main_call0_v2 : StableHlo.TRef sig ⟨S3x100000, .f32⟩) maximumf,
    StableHlo.TRef.unary (.of main_c_17 : StableHlo.TRef sig ⟨S_, .i32⟩) (.of main_call0_v3 : StableHlo.TRef sig ⟨S_, .f32⟩) (sitofp .f32),
    StableHlo.TRef.unary (.of main_call0_v3 : StableHlo.TRef sig ⟨S_, .f32⟩) (.of main_call0_v4 : StableHlo.TRef sig ⟨S3x100000, .f32⟩) (broadcastInDim S3x100000 ![] bcast_S_S3x100000),
    StableHlo.TRef.binary (.of main_call0_v4 : StableHlo.TRef sig ⟨S3x100000, .f32⟩) (.of main_call0_v2 : StableHlo.TRef sig ⟨S3x100000, .f32⟩) (.of main_v47 : StableHlo.TRef sig ⟨S3x100000, .f32⟩) minimumf ]
/-- Each touches TensorCore references only. -/
theorem w1_ops1_sub : (w1_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- None allocates a buffer. -/
theorem w1_ops1_fresh : (w1_ops1 : List (HloOp τ sig (Elt F))).Forall fun op => op.fresh = ∅ := by
  simp only [List.Forall]; repeat' constructor
/-- The references the operations write. -/
abbrev w1_ops1_W : List (Ref sig .tc) := [main_call0_v0, main_call0_v1, main_call0_v2, main_call0_v3, main_call0_v4, main_v47]
/-- Each writes inside that list. -/
theorem w1_ops1_writes : (w1_ops1 : List (HloOp τ sig (Elt F))).Forall fun op => op.writes ⊆ (w1_ops1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 2 host operations of @main, window 1, in order. -/
abbrev w1_ops2 : List (HloOp τ sig (Elt F)) :=
  [ StableHlo.nullary main_cst_18 (constant S_ .f32 0x00000000#32),
    StableHlo.nullary main_c_19 (constantI S_ 32 63#32) ]
/-- Each touches TensorCore references only. -/
theorem w1_ops2_sub : (w1_ops2 : List (HloOp τ sig (Elt F))).Forall fun op => op.bufs ⊆ StableHlo.tcRefs τ sig :=
  ⟨StableHlo.nullary_bufs_sub .., StableHlo.nullary_bufs_sub ..⟩
/-- None allocates a buffer. -/
theorem w1_ops2_fresh : (w1_ops2 : List (HloOp τ sig (Elt F))).Forall fun op => op.fresh = ∅ := by
  simp only [List.Forall]; repeat' constructor
/-- The references the operations write. -/
abbrev w1_ops2_W : List (Ref sig .tc) := [main_cst_18, main_c_19]
/-- Each writes inside that list. -/
theorem w1_ops2_writes : (w1_ops2 : List (HloOp τ sig (Elt F))).Forall fun op => op.writes ⊆ (w1_ops2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 6 host operations of @clip (main_call1), window 1, in order. -/
abbrev w1_ops3 : List (HloOp τ sig (Elt F)) :=
  [ StableHlo.TRef.unary (.of main_cst_18 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S3x100000, .f32⟩) (broadcastInDim S3x100000 ![] bcast_S_S3x100000),
    StableHlo.TRef.binary (.of main_call1_v1 : StableHlo.TRef sig ⟨S3x100000, .f32⟩) (.of main_v46 : StableHlo.TRef sig ⟨S3x100000, .f32⟩) (.of main_call1_v2 : StableHlo.TRef sig ⟨S3x100000, .f32⟩) maximumf,
    StableHlo.TRef.unary (.of main_c_19 : StableHlo.TRef sig ⟨S_, .i32⟩) (.of main_call1_v3 : StableHlo.TRef sig ⟨S_, .f32⟩) (sitofp .f32),
    StableHlo.TRef.unary (.of main_call1_v3 : StableHlo.TRef sig ⟨S_, .f32⟩) (.of main_call1_v4 : StableHlo.TRef sig ⟨S3x100000, .f32⟩) (broadcastInDim S3x100000 ![] bcast_S_S3x100000),
    StableHlo.TRef.binary (.of main_call1_v4 : StableHlo.TRef sig ⟨S3x100000, .f32⟩) (.of main_call1_v2 : StableHlo.TRef sig ⟨S3x100000, .f32⟩) (.of main_v48 : StableHlo.TRef sig ⟨S3x100000, .f32⟩) minimumf ]
/-- Each touches TensorCore references only. -/
theorem w1_ops3_sub : (w1_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- None allocates a buffer. -/
theorem w1_ops3_fresh : (w1_ops3 : List (HloOp τ sig (Elt F))).Forall fun op => op.fresh = ∅ := by
  simp only [List.Forall]; repeat' constructor
/-- The references the operations write. -/
abbrev w1_ops3_W : List (Ref sig .tc) := [main_call1_v0, main_call1_v1, main_call1_v2, main_call1_v3, main_call1_v4, main_v48]
/-- Each writes inside that list. -/
theorem w1_ops3_writes : (w1_ops3 : List (HloOp τ sig (Elt F))).Forall fun op => op.writes ⊆ (w1_ops3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

set_option maxHeartbeats 40000000 in
/-- 49 host operations of @main, window 1, in order. -/
abbrev w1_ops4 : List (HloOp τ sig (Elt F)) :=
  ( StableHlo.unary main_v47 main_v49 (Host.floor : (⟨S3x100000, .f32⟩ : BufTy).Contents (Elt F) → (⟨S3x100000, .f32⟩ : BufTy).Contents (Elt F))
  :: StableHlo.unary main_v48 main_v50 (Host.floor : (⟨S3x100000, .f32⟩ : BufTy).Contents (Elt F) → (⟨S3x100000, .f32⟩ : BufTy).Contents (Elt F))
  :: StableHlo.binary main_v47 main_v49 main_v51 (subf : (⟨S3x100000, .f32⟩ : BufTy).Contents (Elt F) → (⟨S3x100000, .f32⟩ : BufTy).Contents (Elt F) → (⟨S3x100000, .f32⟩ : BufTy).Contents (Elt F))
  :: StableHlo.unary main_v51 main_v52 (broadcastInDim S3x100000x1 ![0, 1] bcast_S3x100000_S3x100000x1_0_1 : (⟨S3x100000, .f32⟩ : BufTy).Contents (Elt F) → (⟨S3x100000x1, .f32⟩ : BufTy).Contents (Elt F))
  :: StableHlo.binary main_v48 main_v50 main_v53 (subf : (⟨S3x100000, .f32⟩ : BufTy).Contents (Elt F) → (⟨S3x100000, .f32⟩ : BufTy).Contents (Elt F) → (⟨S3x100000, .f32⟩ : BufTy).Contents (Elt F))
  :: StableHlo.unary main_v53 main_v54 (broadcastInDim S3x100000x1 ![0, 1] bcast_S3x100000_S3x100000x1_0_1 : (⟨S3x100000, .f32⟩ : BufTy).Contents (Elt F) → (⟨S3x100000x1, .f32⟩ : BufTy).Contents (Elt F))
  :: StableHlo.unary main_v49 main_v55 (fptosi 32 : (⟨S3x100000, .f32⟩ : BufTy).Contents (Elt F) → (⟨S3x100000, .i32⟩ : BufTy).Contents (Elt F))
  :: StableHlo.unary main_v50 main_v56 (fptosi 32 : (⟨S3x100000, .f32⟩ : BufTy).Contents (Elt F) → (⟨S3x100000, .i32⟩ : BufTy).Contents (Elt F))
  :: StableHlo.nullary main_c_20 (constantI S_ 32 1#32)
  :: StableHlo.unary main_c_20 main_v57 (broadcastInDim S3x100000 ![] bcast_S_S3x100000 : (⟨S_, .i32⟩ : BufTy).Contents (Elt F) → (⟨S3x100000, .i32⟩ : BufTy).Contents (Elt F))
  :: StableHlo.binary main_v55 main_v57 main_v58 (addi : (⟨S3x100000, .i32⟩ : BufTy).Contents (Elt F) → (⟨S3x100000, .i32⟩ : BufTy).Contents (Elt F) → (⟨S3x100000, .i32⟩ : BufTy).Contents (Elt F))
  :: StableHlo.nullary main_c_21 (constantI S_ 32 63#32)
  :: StableHlo.unary main_c_21 main_v59 (broadcastInDim S3x100000 ![] bcast_S_S3x100000 : (⟨S_, .i32⟩ : BufTy).Contents (Elt F) → (⟨S3x100000, .i32⟩ : BufTy).Contents (Elt F))
  :: StableHlo.binary main_v58 main_v59 main_v60 (minsi : (⟨S3x100000, .i32⟩ : BufTy).Contents (Elt F) → (⟨S3x100000, .i32⟩ : BufTy).Contents (Elt F) → (⟨S3x100000, .i32⟩ : BufTy).Contents (Elt F))
  :: StableHlo.nullary main_c_22 (constantI S_ 32 1#32)
  :: StableHlo.unary main_c_22 main_v61 (broadcastInDim S3x100000 ![] bcast_S_S3x100000 : (⟨S_, .i32⟩ : BufTy).Contents (Elt F) → (⟨S3x100000, .i32⟩ : BufTy).Contents (Elt F))
  :: StableHlo.binary main_v56 main_v61 main_v62 (addi : (⟨S3x100000, .i32⟩ : BufTy).Contents (Elt F) → (⟨S3x100000, .i32⟩ : BufTy).Contents (Elt F) → (⟨S3x100000, .i32⟩ : BufTy).Contents (Elt F))
  :: StableHlo.nullary main_c_23 (constantI S_ 32 63#32)
  :: StableHlo.unary main_c_23 main_v63 (broadcastInDim S3x100000 ![] bcast_S_S3x100000 : (⟨S_, .i32⟩ : BufTy).Contents (Elt F) → (⟨S3x100000, .i32⟩ : BufTy).Contents (Elt F))
  :: StableHlo.binary main_v62 main_v63 main_v64 (minsi : (⟨S3x100000, .i32⟩ : BufTy).Contents (Elt F) → (⟨S3x100000, .i32⟩ : BufTy).Contents (Elt F) → (⟨S3x100000, .i32⟩ : BufTy).Contents (Elt F))
  :: StableHlo.nullary main_c_24 (constantI S_ 32 0#32)
  :: StableHlo.unary main_c_24 main_v65 (broadcastInDim S3x100000 ![] bcast_S_S3x100000 : (⟨S_, .i32⟩ : BufTy).Contents (Elt F) → (⟨S3x100000, .i32⟩ : BufTy).Contents (Elt F))
  :: StableHlo.binary main_v56 main_v65 main_v66 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_25 (constantI S_ 32 64#32)
  :: StableHlo.unary main_c_25 main_v67 (broadcastInDim S3x100000 ![] bcast_S_S3x100000 : (⟨S_, .i32⟩ : BufTy).Contents (Elt F) → (⟨S3x100000, .i32⟩ : BufTy).Contents (Elt F))
  :: StableHlo.binary main_v56 main_v67 main_v68 (addi : (⟨S3x100000, .i32⟩ : BufTy).Contents (Elt F) → (⟨S3x100000, .i32⟩ : BufTy).Contents (Elt F) → (⟨S3x100000, .i32⟩ : BufTy).Contents (Elt F))
  :: StableHlo.ternary main_v66 main_v68 main_v56 main_v69 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_26 (constantI S_ 32 0#32)
  :: StableHlo.unary main_c_26 main_v70 (broadcastInDim S3x100000 ![] bcast_S_S3x100000 : (⟨S_, .i32⟩ : BufTy).Contents (Elt F) → (⟨S3x100000, .i32⟩ : BufTy).Contents (Elt F))
  :: StableHlo.binary main_v55 main_v70 main_v71 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_27 (constantI S_ 32 64#32)
  :: StableHlo.unary main_c_27 main_v72 (broadcastInDim S3x100000 ![] bcast_S_S3x100000 : (⟨S_, .i32⟩ : BufTy).Contents (Elt F) → (⟨S3x100000, .i32⟩ : BufTy).Contents (Elt F))
  :: StableHlo.binary main_v55 main_v72 main_v73 (addi : (⟨S3x100000, .i32⟩ : BufTy).Contents (Elt F) → (⟨S3x100000, .i32⟩ : BufTy).Contents (Elt F) → (⟨S3x100000, .i32⟩ : BufTy).Contents (Elt F))
  :: StableHlo.ternary main_v71 main_v73 main_v55 main_v74 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v69 main_v75 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v74 main_v76 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v75 main_v76 main_v77 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg1 main_v77 main_v78 ((fun x i => Host.gather gather_S3x72x64x64_S3x100000x2_S3x72x100000_1_23_0_0_23_2_17211 x i) : (⟨S3x72x64x64, .f32⟩ : BufTy).Contents (Elt F) → (⟨S3x100000x2, .i32⟩ : BufTy).Contents (Elt F) → (⟨S3x72x100000, .f32⟩ : BufTy).Contents (Elt F))
  :: StableHlo.unary main_v78 main_v79 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_28 (constantI S_ 32 0#32)
  :: StableHlo.unary main_c_28 main_v80 (broadcastInDim S3x100000 ![] bcast_S_S3x100000 : (⟨S_, .i32⟩ : BufTy).Contents (Elt F) → (⟨S3x100000, .i32⟩ : BufTy).Contents (Elt F))
  :: StableHlo.binary main_v56 main_v80 main_v81 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_29 (constantI S_ 32 64#32)
  :: StableHlo.unary main_c_29 main_v82 (broadcastInDim S3x100000 ![] bcast_S_S3x100000 : (⟨S_, .i32⟩ : BufTy).Contents (Elt F) → (⟨S3x100000, .i32⟩ : BufTy).Contents (Elt F))
  :: StableHlo.binary main_v56 main_v82 main_v83 (addi : (⟨S3x100000, .i32⟩ : BufTy).Contents (Elt F) → (⟨S3x100000, .i32⟩ : BufTy).Contents (Elt F) → (⟨S3x100000, .i32⟩ : BufTy).Contents (Elt F))
  :: StableHlo.ternary main_v81 main_v83 main_v56 main_v84 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_30 (constantI S_ 32 0#32)
  :: StableHlo.unary main_c_30 main_v85 (broadcastInDim S3x100000 ![] bcast_S_S3x100000 : (⟨S_, .i32⟩ : BufTy).Contents (Elt F) → (⟨S3x100000, .i32⟩ : BufTy).Contents (Elt F))
  :: StableHlo.binary main_v60 main_v85 main_v86 (cmpi .slt : (⟨S3x100000, .i32⟩ : BufTy).Contents (Elt F) → (⟨S3x100000, .i32⟩ : BufTy).Contents (Elt F) → (⟨S3x100000, .i1⟩ : BufTy).Contents (Elt F))
  :: [] )
set_option maxHeartbeats 40000000 in
/-- Each touches TensorCore references only. -/
theorem w1_ops4_sub : (w1_ops4 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub ..⟩
set_option maxHeartbeats 40000000 in
/-- None allocates a buffer. -/
theorem w1_ops4_fresh : (w1_ops4 : List (HloOp τ sig (Elt F))).Forall fun op => op.fresh = ∅ := by
  simp only [List.Forall]; repeat' constructor
/-- The references the operations write. -/
abbrev w1_ops4_W : List (Ref sig .tc) := [main_v49, main_v50, main_v51, main_v52, main_v53, main_v54, main_v55, main_v56, main_c_20, main_v57, main_v58, main_c_21, main_v59, main_v60, main_c_22, main_v61, main_v62, main_c_23, main_v63, main_v64, main_c_24, main_v65, main_v66, main_c_25, main_v67, main_v68, main_v69, main_c_26, main_v70, main_v71, main_c_27, main_v72, main_v73, main_v74, main_v75, main_v76, main_v77, main_v78, main_v79, main_c_28, main_v80, main_v81, main_c_29, main_v82, main_v83, main_v84, main_c_30, main_v85, main_v86]
set_option maxHeartbeats 40000000 in
/-- Each writes inside that list. -/
theorem w1_ops4_writes : (w1_ops4 : List (HloOp τ sig (Elt F))).Forall fun op => op.writes ⊆ (w1_ops4_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- Window 1 is the chain of its lists' runs, the last in tail position: both sides unfold to the same sequence of steps. -/
theorem main_part1_chain (c : Dev nD) : main_part1 (F := F) c = (Pipeline.chainK
  [ StableHlo.seq w1_ops0,
    StableHlo.seq w1_ops1,
    StableHlo.seq w1_ops2,
    StableHlo.seq w1_ops3 ]
  (StableHlo.seq w1_ops4) : Prog (TpuEff nD τ sig (Elt F) (Pipeline.Sig Λ₀ (Fin 0) fun p => (pcfgs (F := F) p).Adm) .tc) PUnit) := by
  chain_rfl

end Cert.ReferenceIdeal.RefRun

end
-- ==== Proof.RefRun.W2.lean ====
/- The reference program's window main_part2 (@main's statements 121 … 180 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 40000000 in
/-- 60 host operations of @main, window 2, in order. -/
abbrev w2_ops0 : List (HloOp τ sig (Elt F)) :=
  ( StableHlo.nullary main_c_31 (constantI S_ 32 64#32)
  :: StableHlo.unary main_c_31 main_v87 (broadcastInDim S3x100000 ![] bcast_S_S3x100000 : (⟨S_, .i32⟩ : BufTy).Contents (Elt F) → (⟨S3x100000, .i32⟩ : BufTy).Contents (Elt F))
  :: StableHlo.binary main_v60 main_v87 main_v88 (addi : (⟨S3x100000, .i32⟩ : BufTy).Contents (Elt F) → (⟨S3x100000, .i32⟩ : BufTy).Contents (Elt F) → (⟨S3x100000, .i32⟩ : BufTy).Contents (Elt F))
  :: StableHlo.ternary main_v86 main_v88 main_v60 main_v89 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v84 main_v90 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v89 main_v91 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v90 main_v91 main_v92 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg1 main_v92 main_v93 ((fun x i => Host.gather gather_S3x72x64x64_S3x100000x2_S3x72x100000_1_23_0_0_23_2_17211 x i) : (⟨S3x72x64x64, .f32⟩ : BufTy).Contents (Elt F) → (⟨S3x100000x2, .i32⟩ : BufTy).Contents (Elt F) → (⟨S3x72x100000, .f32⟩ : BufTy).Contents (Elt F))
  :: StableHlo.unary main_v93 main_v94 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_32 (constantI S_ 32 0#32)
  :: StableHlo.unary main_c_32 main_v95 (broadcastInDim S3x100000 ![] bcast_S_S3x100000 : (⟨S_, .i32⟩ : BufTy).Contents (Elt F) → (⟨S3x100000, .i32⟩ : BufTy).Contents (Elt F))
  :: StableHlo.binary main_v64 main_v95 main_v96 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_33 (constantI S_ 32 64#32)
  :: StableHlo.unary main_c_33 main_v97 (broadcastInDim S3x100000 ![] bcast_S_S3x100000 : (⟨S_, .i32⟩ : BufTy).Contents (Elt F) → (⟨S3x100000, .i32⟩ : BufTy).Contents (Elt F))
  :: StableHlo.binary main_v64 main_v97 main_v98 (addi : (⟨S3x100000, .i32⟩ : BufTy).Contents (Elt F) → (⟨S3x100000, .i32⟩ : BufTy).Contents (Elt F) → (⟨S3x100000, .i32⟩ : BufTy).Contents (Elt F))
  :: StableHlo.ternary main_v96 main_v98 main_v64 main_v99 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_34 (constantI S_ 32 0#32)
  :: StableHlo.unary main_c_34 main_v100 (broadcastInDim S3x100000 ![] bcast_S_S3x100000 : (⟨S_, .i32⟩ : BufTy).Contents (Elt F) → (⟨S3x100000, .i32⟩ : BufTy).Contents (Elt F))
  :: StableHlo.binary main_v55 main_v100 main_v101 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_35 (constantI S_ 32 64#32)
  :: StableHlo.unary main_c_35 main_v102 (broadcastInDim S3x100000 ![] bcast_S_S3x100000 : (⟨S_, .i32⟩ : BufTy).Contents (Elt F) → (⟨S3x100000, .i32⟩ : BufTy).Contents (Elt F))
  :: StableHlo.binary main_v55 main_v102 main_v103 (addi : (⟨S3x100000, .i32⟩ : BufTy).Contents (Elt F) → (⟨S3x100000, .i32⟩ : BufTy).Contents (Elt F) → (⟨S3x100000, .i32⟩ : BufTy).Contents (Elt F))
  :: StableHlo.ternary main_v101 main_v103 main_v55 main_v104 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v99 main_v105 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v104 main_v106 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v105 main_v106 main_v107 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg1 main_v107 main_v108 ((fun x i => Host.gather gather_S3x72x64x64_S3x100000x2_S3x72x100000_1_23_0_0_23_2_17211 x i) : (⟨S3x72x64x64, .f32⟩ : BufTy).Contents (Elt F) → (⟨S3x100000x2, .i32⟩ : BufTy).Contents (Elt F) → (⟨S3x72x100000, .f32⟩ : BufTy).Contents (Elt F))
  :: StableHlo.unary main_v108 main_v109 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_36 (constantI S_ 32 0#32)
  :: StableHlo.unary main_c_36 main_v110 (broadcastInDim S3x100000 ![] bcast_S_S3x100000 : (⟨S_, .i32⟩ : BufTy).Contents (Elt F) → (⟨S3x100000, .i32⟩ : BufTy).Contents (Elt F))
  :: StableHlo.binary main_v64 main_v110 main_v111 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_37 (constantI S_ 32 64#32)
  :: StableHlo.unary main_c_37 main_v112 (broadcastInDim S3x100000 ![] bcast_S_S3x100000 : (⟨S_, .i32⟩ : BufTy).Contents (Elt F) → (⟨S3x100000, .i32⟩ : BufTy).Contents (Elt F))
  :: StableHlo.binary main_v64 main_v112 main_v113 (addi : (⟨S3x100000, .i32⟩ : BufTy).Contents (Elt F) → (⟨S3x100000, .i32⟩ : BufTy).Contents (Elt F) → (⟨S3x100000, .i32⟩ : BufTy).Contents (Elt F))
  :: StableHlo.ternary main_v111 main_v113 main_v64 main_v114 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_38 (constantI S_ 32 0#32)
  :: StableHlo.unary main_c_38 main_v115 (broadcastInDim S3x100000 ![] bcast_S_S3x100000 : (⟨S_, .i32⟩ : BufTy).Contents (Elt F) → (⟨S3x100000, .i32⟩ : BufTy).Contents (Elt F))
  :: StableHlo.binary main_v60 main_v115 main_v116 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_39 (constantI S_ 32 64#32)
  :: StableHlo.unary main_c_39 main_v117 (broadcastInDim S3x100000 ![] bcast_S_S3x100000 : (⟨S_, .i32⟩ : BufTy).Contents (Elt F) → (⟨S3x100000, .i32⟩ : BufTy).Contents (Elt F))
  :: StableHlo.binary main_v60 main_v117 main_v118 (addi : (⟨S3x100000, .i32⟩ : BufTy).Contents (Elt F) → (⟨S3x100000, .i32⟩ : BufTy).Contents (Elt F) → (⟨S3x100000, .i32⟩ : BufTy).Contents (Elt F))
  :: StableHlo.ternary main_v116 main_v118 main_v60 main_v119 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v114 main_v120 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v119 main_v121 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v120 main_v121 main_v122 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg1 main_v122 main_v123 ((fun x i => Host.gather gather_S3x72x64x64_S3x100000x2_S3x72x100000_1_23_0_0_23_2_17211 x i) : (⟨S3x72x64x64, .f32⟩ : BufTy).Contents (Elt F) → (⟨S3x100000x2, .i32⟩ : BufTy).Contents (Elt F) → (⟨S3x72x100000, .f32⟩ : BufTy).Contents (Elt F))
  :: StableHlo.unary main_v123 main_v124 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_cst_40 (constant S_ .f32 0x3F800000#32)
  :: StableHlo.unary main_cst_40 main_v125 (broadcastInDim S3x100000x1 ![] bcast_S_S3x100000x1 : (⟨S_, .f32⟩ : BufTy).Contents (Elt F) → (⟨S3x100000x1, .f32⟩ : BufTy).Contents (Elt F))
  :: StableHlo.binary main_v125 main_v52 main_v126 (subf : (⟨S3x100000x1, .f32⟩ : BufTy).Contents (Elt F) → (⟨S3x100000x1, .f32⟩ : BufTy).Contents (Elt F) → (⟨S3x100000x1, .f32⟩ : BufTy).Contents (Elt F))
  :: StableHlo.unary main_v126 main_v127 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v79 main_v127 main_v128 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v52 main_v129 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v94 main_v129 main_v130 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v128 main_v130 main_v131 (addf : (⟨S3x100000x72, .f32⟩ : BufTy).Contents (Elt F) → (⟨S3x100000x72, .f32⟩ : BufTy).Contents (Elt F) → (⟨S3x100000x72, .f32⟩ : BufTy).Contents (Elt F))
  :: StableHlo.nullary main_cst_41 (constant S_ .f32 0x3F800000#32)
  :: StableHlo.unary main_cst_41 main_v132 (broadcastInDim S3x100000x1 ![] bcast_S_S3x100000x1 : (⟨S_, .f32⟩ : BufTy).Contents (Elt F) → (⟨S3x100000x1, .f32⟩ : BufTy).Contents (Elt F))
  :: StableHlo.binary main_v132 main_v52 main_v133 (subf : (⟨S3x100000x1, .f32⟩ : BufTy).Contents (Elt F) → (⟨S3x100000x1, .f32⟩ : BufTy).Contents (Elt F) → (⟨S3x100000x1, .f32⟩ : BufTy).Contents (Elt F))
  :: StableHlo.unary main_v133 main_v134 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v109 main_v134 main_v135 (mulf : (⟨S3x100000x72, .f32⟩ : BufTy).Contents (Elt F) → (⟨S3x100000x72, .f32⟩ : BufTy).Contents (Elt F) → (⟨S3x100000x72, .f32⟩ : BufTy).Contents (Elt F))
  :: [] )
set_option maxHeartbeats 40000000 in
/-- Each touches TensorCore references only. -/
theorem w2_ops0_sub : (w2_ops0 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub ..⟩
set_option maxHeartbeats 40000000 in
/-- None allocates a buffer. -/
theorem w2_ops0_fresh : (w2_ops0 : List (HloOp τ sig (Elt F))).Forall fun op => op.fresh = ∅ := by
  simp only [List.Forall]; repeat' constructor
/-- The references the operations write. -/
abbrev w2_ops0_W : List (Ref sig .tc) := [main_c_31, main_v87, main_v88, main_v89, main_v90, main_v91, main_v92, main_v93, main_v94, main_c_32, main_v95, main_v96, main_c_33, main_v97, main_v98, main_v99, main_c_34, main_v100, main_v101, main_c_35, main_v102, main_v103, main_v104, main_v105, main_v106, main_v107, main_v108, main_v109, main_c_36, main_v110, main_v111, main_c_37, main_v112, main_v113, main_v114, main_c_38, main_v115, main_v116, main_c_39, main_v117, main_v118, main_v119, main_v120, main_v121, main_v122, main_v123, main_v124, main_cst_40, main_v125, main_v126, main_v127, main_v128, main_v129, main_v130, main_v131, main_cst_41, main_v132, main_v133, main_v134, main_v135]
set_option maxHeartbeats 40000000 in
/-- Each writes inside that list. -/
theorem w2_ops0_writes : (w2_ops0 : List (HloOp τ sig (Elt F))).Forall fun op => op.writes ⊆ (w2_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- Window 2 is the chain of its lists' runs, the last in tail position: both sides unfold to the same sequence of steps. -/
theorem main_part2_chain (c : Dev nD) : main_part2 (F := F) c = (Pipeline.chainK
  [  ]
  (StableHlo.seq w2_ops0) : Prog (TpuEff nD τ sig (Elt F) (Pipeline.Sig Λ₀ (Fin 0) fun p => (pcfgs (F := F) p).Adm) .tc) PUnit) := by
  chain_rfl

end Cert.ReferenceIdeal.RefRun

end
-- ==== Proof.RefRun.W3.lean ====
/- The reference program's window main_part3 (@main's statements 181 … 240 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 40000000 in
/-- 37 host operations of @main, window 3, in order. -/
abbrev w3_ops0 : List (HloOp τ sig (Elt F)) :=
  ( StableHlo.unary main_v52 main_v136 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v124 main_v136 main_v137 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v135 main_v137 main_v138 (addf : (⟨S3x100000x72, .f32⟩ : BufTy).Contents (Elt F) → (⟨S3x100000x72, .f32⟩ : BufTy).Contents (Elt F) → (⟨S3x100000x72, .f32⟩ : BufTy).Contents (Elt F))
  :: StableHlo.nullary main_cst_42 (constant S_ .f32 0x3F800000#32)
  :: StableHlo.unary main_cst_42 main_v139 (broadcastInDim S3x100000x1 ![] bcast_S_S3x100000x1 : (⟨S_, .f32⟩ : BufTy).Contents (Elt F) → (⟨S3x100000x1, .f32⟩ : BufTy).Contents (Elt F))
  :: StableHlo.binary main_v139 main_v54 main_v140 (subf : (⟨S3x100000x1, .f32⟩ : BufTy).Contents (Elt F) → (⟨S3x100000x1, .f32⟩ : BufTy).Contents (Elt F) → (⟨S3x100000x1, .f32⟩ : BufTy).Contents (Elt F))
  :: StableHlo.unary main_v140 main_v141 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v131 main_v141 main_v142 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v54 main_v143 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v138 main_v143 main_v144 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v142 main_v144 main_v145 (addf : (⟨S3x100000x72, .f32⟩ : BufTy).Contents (Elt F) → (⟨S3x100000x72, .f32⟩ : BufTy).Contents (Elt F) → (⟨S3x100000x72, .f32⟩ : BufTy).Contents (Elt F))
  :: StableHlo.unary main_v145 main_v146 ((transpose S100000x3x72 [1, 0, 2] · transposes_S3x100000x72_S100000x3x72_1_0_2) : (⟨S3x100000x72, .f32⟩ : BufTy).Contents (Elt F) → (⟨S100000x3x72, .f32⟩ : BufTy).Contents (Elt F))
  :: StableHlo.reshape main_v146 main_v147 rfl shapeCasts_S100000x3x72_S100000x216
  :: StableHlo.unary main_v30 main_v148 ((extractStridedSlice S3x100000x1 ![0, 0, 0] · slices_S3x100000x2_S3x100000x1_0_0_0) : (⟨S3x100000x2, .f32⟩ : BufTy).Contents (Elt F) → (⟨S3x100000x1, .f32⟩ : BufTy).Contents (Elt F))
  :: StableHlo.reshape main_v148 main_v149 rfl shapeCasts_S3x100000x1_S3x100000
  :: StableHlo.nullary main_cst_43 (constant S_ .f32 0x3F800000#32)
  :: StableHlo.unary main_cst_43 main_v150 (broadcastInDim S3x100000 ![] bcast_S_S3x100000 : (⟨S_, .f32⟩ : BufTy).Contents (Elt F) → (⟨S3x100000, .f32⟩ : BufTy).Contents (Elt F))
  :: StableHlo.binary main_v149 main_v150 main_v151 (addf : (⟨S3x100000, .f32⟩ : BufTy).Contents (Elt F) → (⟨S3x100000, .f32⟩ : BufTy).Contents (Elt F) → (⟨S3x100000, .f32⟩ : BufTy).Contents (Elt F))
  :: StableHlo.nullary main_cst_44 (constant S_ .f32 0x3F000000#32)
  :: StableHlo.unary main_cst_44 main_v152 (broadcastInDim S3x100000 ![] bcast_S_S3x100000 : (⟨S_, .f32⟩ : BufTy).Contents (Elt F) → (⟨S3x100000, .f32⟩ : BufTy).Contents (Elt F))
  :: StableHlo.binary main_v151 main_v152 main_v153 (mulf : (⟨S3x100000, .f32⟩ : BufTy).Contents (Elt F) → (⟨S3x100000, .f32⟩ : BufTy).Contents (Elt F) → (⟨S3x100000, .f32⟩ : BufTy).Contents (Elt F))
  :: StableHlo.nullary main_cst_45 (constant S_ .f32 0x42FE0000#32)
  :: StableHlo.unary main_cst_45 main_v154 (broadcastInDim S3x100000 ![] bcast_S_S3x100000 : (⟨S_, .f32⟩ : BufTy).Contents (Elt F) → (⟨S3x100000, .f32⟩ : BufTy).Contents (Elt F))
  :: StableHlo.binary main_v153 main_v154 main_v155 (mulf : (⟨S3x100000, .f32⟩ : BufTy).Contents (Elt F) → (⟨S3x100000, .f32⟩ : BufTy).Contents (Elt F) → (⟨S3x100000, .f32⟩ : BufTy).Contents (Elt F))
  :: StableHlo.unary main_v30 main_v156 ((extractStridedSlice S3x100000x1 ![0, 0, 1] · slices_S3x100000x2_S3x100000x1_0_0_1) : (⟨S3x100000x2, .f32⟩ : BufTy).Contents (Elt F) → (⟨S3x100000x1, .f32⟩ : BufTy).Contents (Elt F))
  :: StableHlo.reshape main_v156 main_v157 rfl shapeCasts_S3x100000x1_S3x100000
  :: StableHlo.nullary main_cst_46 (constant S_ .f32 0x3F800000#32)
  :: StableHlo.unary main_cst_46 main_v158 (broadcastInDim S3x100000 ![] bcast_S_S3x100000 : (⟨S_, .f32⟩ : BufTy).Contents (Elt F) → (⟨S3x100000, .f32⟩ : BufTy).Contents (Elt F))
  :: StableHlo.binary main_v157 main_v158 main_v159 (addf : (⟨S3x100000, .f32⟩ : BufTy).Contents (Elt F) → (⟨S3x100000, .f32⟩ : BufTy).Contents (Elt F) → (⟨S3x100000, .f32⟩ : BufTy).Contents (Elt F))
  :: StableHlo.nullary main_cst_47 (constant S_ .f32 0x3F000000#32)
  :: StableHlo.unary main_cst_47 main_v160 (broadcastInDim S3x100000 ![] bcast_S_S3x100000 : (⟨S_, .f32⟩ : BufTy).Contents (Elt F) → (⟨S3x100000, .f32⟩ : BufTy).Contents (Elt F))
  :: StableHlo.binary main_v159 main_v160 main_v161 (mulf : (⟨S3x100000, .f32⟩ : BufTy).Contents (Elt F) → (⟨S3x100000, .f32⟩ : BufTy).Contents (Elt F) → (⟨S3x100000, .f32⟩ : BufTy).Contents (Elt F))
  :: StableHlo.nullary main_cst_48 (constant S_ .f32 0x42FE0000#32)
  :: StableHlo.unary main_cst_48 main_v162 (broadcastInDim S3x100000 ![] bcast_S_S3x100000 : (⟨S_, .f32⟩ : BufTy).Contents (Elt F) → (⟨S3x100000, .f32⟩ : BufTy).Contents (Elt F))
  :: StableHlo.binary main_v161 main_v162 main_v163 (mulf : (⟨S3x100000, .f32⟩ : BufTy).Contents (Elt F) → (⟨S3x100000, .f32⟩ : BufTy).Contents (Elt F) → (⟨S3x100000, .f32⟩ : BufTy).Contents (Elt F))
  :: StableHlo.nullary main_cst_49 (constant S_ .f32 0x00000000#32)
  :: StableHlo.nullary main_c_50 (constantI S_ 32 127#32)
  :: [] )
set_option maxHeartbeats 40000000 in
/-- Each touches TensorCore references only. -/
theorem w3_ops0_sub : (w3_ops0 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩
set_option maxHeartbeats 40000000 in
/-- None allocates a buffer. -/
theorem w3_ops0_fresh : (w3_ops0 : List (HloOp τ sig (Elt F))).Forall fun op => op.fresh = ∅ := by
  simp only [List.Forall]; repeat' constructor
/-- The references the operations write. -/
abbrev w3_ops0_W : List (Ref sig .tc) := [main_v136, main_v137, main_v138, main_cst_42, main_v139, main_v140, main_v141, main_v142, main_v143, main_v144, main_v145, main_v146, main_v147, main_v148, main_v149, main_cst_43, main_v150, main_v151, main_cst_44, main_v152, main_v153, main_cst_45, main_v154, main_v155, main_v156, main_v157, main_cst_46, main_v158, main_v159, main_cst_47, main_v160, main_v161, main_cst_48, main_v162, main_v163, main_cst_49, main_c_50]
set_option maxHeartbeats 40000000 in
/-- Each writes inside that list. -/
theorem w3_ops0_writes : (w3_ops0 : List (HloOp τ sig (Elt F))).Forall fun op => op.writes ⊆ (w3_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 6 host operations of @clip (main_call2), window 3, in order. -/
abbrev w3_ops1 : List (HloOp τ sig (Elt F)) :=
  [ StableHlo.TRef.unary (.of main_cst_49 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S3x100000, .f32⟩) (broadcastInDim S3x100000 ![] bcast_S_S3x100000),
    StableHlo.TRef.binary (.of main_call2_v1 : StableHlo.TRef sig ⟨S3x100000, .f32⟩) (.of main_v155 : StableHlo.TRef sig ⟨S3x100000, .f32⟩) (.of main_call2_v2 : StableHlo.TRef sig ⟨S3x100000, .f32⟩) maximumf,
    StableHlo.TRef.unary (.of main_c_50 : StableHlo.TRef sig ⟨S_, .i32⟩) (.of main_call2_v3 : StableHlo.TRef sig ⟨S_, .f32⟩) (sitofp .f32),
    StableHlo.TRef.unary (.of main_call2_v3 : StableHlo.TRef sig ⟨S_, .f32⟩) (.of main_call2_v4 : StableHlo.TRef sig ⟨S3x100000, .f32⟩) (broadcastInDim S3x100000 ![] bcast_S_S3x100000),
    StableHlo.TRef.binary (.of main_call2_v4 : StableHlo.TRef sig ⟨S3x100000, .f32⟩) (.of main_call2_v2 : StableHlo.TRef sig ⟨S3x100000, .f32⟩) (.of main_v164 : StableHlo.TRef sig ⟨S3x100000, .f32⟩) minimumf ]
/-- Each touches TensorCore references only. -/
theorem w3_ops1_sub : (w3_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- None allocates a buffer. -/
theorem w3_ops1_fresh : (w3_ops1 : List (HloOp τ sig (Elt F))).Forall fun op => op.fresh = ∅ := by
  simp only [List.Forall]; repeat' constructor
/-- The references the operations write. -/
abbrev w3_ops1_W : List (Ref sig .tc) := [main_call2_v0, main_call2_v1, main_call2_v2, main_call2_v3, main_call2_v4, main_v164]
/-- Each writes inside that list. -/
theorem w3_ops1_writes : (w3_ops1 : List (HloOp τ sig (Elt F))).Forall fun op => op.writes ⊆ (w3_ops1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 2 host operations of @main, window 3, in order. -/
abbrev w3_ops2 : List (HloOp τ sig (Elt F)) :=
  [ StableHlo.nullary main_cst_51 (constant S_ .f32 0x00000000#32),
    StableHlo.nullary main_c_52 (constantI S_ 32 127#32) ]
/-- Each touches TensorCore references only. -/
theorem w3_ops2_sub : (w3_ops2 : List (HloOp τ sig (Elt F))).Forall fun op => op.bufs ⊆ StableHlo.tcRefs τ sig :=
  ⟨StableHlo.nullary_bufs_sub .., StableHlo.nullary_bufs_sub ..⟩
/-- None allocates a buffer. -/
theorem w3_ops2_fresh : (w3_ops2 : List (HloOp τ sig (Elt F))).Forall fun op => op.fresh = ∅ := by
  simp only [List.Forall]; repeat' constructor
/-- The references the operations write. -/
abbrev w3_ops2_W : List (Ref sig .tc) := [main_cst_51, main_c_52]
/-- Each writes inside that list. -/
theorem w3_ops2_writes : (w3_ops2 : List (HloOp τ sig (Elt F))).Forall fun op => op.writes ⊆ (w3_ops2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 6 host operations of @clip (main_call3), window 3, in order. -/
abbrev w3_ops3 : List (HloOp τ sig (Elt F)) :=
  [ StableHlo.TRef.unary (.of main_cst_51 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S3x100000, .f32⟩) (broadcastInDim S3x100000 ![] bcast_S_S3x100000),
    StableHlo.TRef.binary (.of main_call3_v1 : StableHlo.TRef sig ⟨S3x100000, .f32⟩) (.of main_v163 : StableHlo.TRef sig ⟨S3x100000, .f32⟩) (.of main_call3_v2 : StableHlo.TRef sig ⟨S3x100000, .f32⟩) maximumf,
    StableHlo.TRef.unary (.of main_c_52 : StableHlo.TRef sig ⟨S_, .i32⟩) (.of main_call3_v3 : StableHlo.TRef sig ⟨S_, .f32⟩) (sitofp .f32),
    StableHlo.TRef.unary (.of main_call3_v3 : StableHlo.TRef sig ⟨S_, .f32⟩) (.of main_call3_v4 : StableHlo.TRef sig ⟨S3x100000, .f32⟩) (broadcastInDim S3x100000 ![] bcast_S_S3x100000),
    StableHlo.TRef.binary (.of main_call3_v4 : StableHlo.TRef sig ⟨S3x100000, .f32⟩) (.of main_call3_v2 : StableHlo.TRef sig ⟨S3x100000, .f32⟩) (.of main_v165 : StableHlo.TRef sig ⟨S3x100000, .f32⟩) minimumf ]
/-- Each touches TensorCore references only. -/
theorem w3_ops3_sub : (w3_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- None allocates a buffer. -/
theorem w3_ops3_fresh : (w3_ops3 : List (HloOp τ sig (Elt F))).Forall fun op => op.fresh = ∅ := by
  simp only [List.Forall]; repeat' constructor
/-- The references the operations write. -/
abbrev w3_ops3_W : List (Ref sig .tc) := [main_call3_v0, main_call3_v1, main_call3_v2, main_call3_v3, main_call3_v4, main_v165]
/-- Each writes inside that list. -/
theorem w3_ops3_writes : (w3_ops3 : List (HloOp τ sig (Elt F))).Forall fun op => op.writes ⊆ (w3_ops3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

set_option maxHeartbeats 40000000 in
/-- 19 host operations of @main, window 3, in order. -/
abbrev w3_ops4 : List (HloOp τ sig (Elt F)) :=
  ( StableHlo.unary main_v164 main_v166 (Host.floor : (⟨S3x100000, .f32⟩ : BufTy).Contents (Elt F) → (⟨S3x100000, .f32⟩ : BufTy).Contents (Elt F))
  :: StableHlo.unary main_v165 main_v167 (Host.floor : (⟨S3x100000, .f32⟩ : BufTy).Contents (Elt F) → (⟨S3x100000, .f32⟩ : BufTy).Contents (Elt F))
  :: StableHlo.binary main_v164 main_v166 main_v168 (subf : (⟨S3x100000, .f32⟩ : BufTy).Contents (Elt F) → (⟨S3x100000, .f32⟩ : BufTy).Contents (Elt F) → (⟨S3x100000, .f32⟩ : BufTy).Contents (Elt F))
  :: StableHlo.unary main_v168 main_v169 (broadcastInDim S3x100000x1 ![0, 1] bcast_S3x100000_S3x100000x1_0_1 : (⟨S3x100000, .f32⟩ : BufTy).Contents (Elt F) → (⟨S3x100000x1, .f32⟩ : BufTy).Contents (Elt F))
  :: StableHlo.binary main_v165 main_v167 main_v170 (subf : (⟨S3x100000, .f32⟩ : BufTy).Contents (Elt F) → (⟨S3x100000, .f32⟩ : BufTy).Contents (Elt F) → (⟨S3x100000, .f32⟩ : BufTy).Contents (Elt F))
  :: StableHlo.unary main_v170 main_v171 (broadcastInDim S3x100000x1 ![0, 1] bcast_S3x100000_S3x100000x1_0_1 : (⟨S3x100000, .f32⟩ : BufTy).Contents (Elt F) → (⟨S3x100000x1, .f32⟩ : BufTy).Contents (Elt F))
  :: StableHlo.unary main_v166 main_v172 (fptosi 32 : (⟨S3x100000, .f32⟩ : BufTy).Contents (Elt F) → (⟨S3x100000, .i32⟩ : BufTy).Contents (Elt F))
  :: StableHlo.unary main_v167 main_v173 (fptosi 32 : (⟨S3x100000, .f32⟩ : BufTy).Contents (Elt F) → (⟨S3x100000, .i32⟩ : BufTy).Contents (Elt F))
  :: StableHlo.nullary main_c_53 (constantI S_ 32 1#32)
  :: StableHlo.unary main_c_53 main_v174 (broadcastInDim S3x100000 ![] bcast_S_S3x100000 : (⟨S_, .i32⟩ : BufTy).Contents (Elt F) → (⟨S3x100000, .i32⟩ : BufTy).Contents (Elt F))
  :: StableHlo.binary main_v172 main_v174 main_v175 (addi : (⟨S3x100000, .i32⟩ : BufTy).Contents (Elt F) → (⟨S3x100000, .i32⟩ : BufTy).Contents (Elt F) → (⟨S3x100000, .i32⟩ : BufTy).Contents (Elt F))
  :: StableHlo.nullary main_c_54 (constantI S_ 32 127#32)
  :: StableHlo.unary main_c_54 main_v176 (broadcastInDim S3x100000 ![] bcast_S_S3x100000 : (⟨S_, .i32⟩ : BufTy).Contents (Elt F) → (⟨S3x100000, .i32⟩ : BufTy).Contents (Elt F))
  :: StableHlo.binary main_v175 main_v176 main_v177 (minsi : (⟨S3x100000, .i32⟩ : BufTy).Contents (Elt F) → (⟨S3x100000, .i32⟩ : BufTy).Contents (Elt F) → (⟨S3x100000, .i32⟩ : BufTy).Contents (Elt F))
  :: StableHlo.nullary main_c_55 (constantI S_ 32 1#32)
  :: StableHlo.unary main_c_55 main_v178 (broadcastInDim S3x100000 ![] bcast_S_S3x100000 : (⟨S_, .i32⟩ : BufTy).Contents (Elt F) → (⟨S3x100000, .i32⟩ : BufTy).Contents (Elt F))
  :: StableHlo.binary main_v173 main_v178 main_v179 (addi : (⟨S3x100000, .i32⟩ : BufTy).Contents (Elt F) → (⟨S3x100000, .i32⟩ : BufTy).Contents (Elt F) → (⟨S3x100000, .i32⟩ : BufTy).Contents (Elt F))
  :: StableHlo.nullary main_c_56 (constantI S_ 32 127#32)
  :: StableHlo.unary main_c_56 main_v180 (broadcastInDim S3x100000 ![] bcast_S_S3x100000 : (⟨S_, .i32⟩ : BufTy).Contents (Elt F) → (⟨S3x100000, .i32⟩ : BufTy).Contents (Elt F))
  :: [] )
set_option maxHeartbeats 40000000 in
/-- Each touches TensorCore references only. -/
theorem w3_ops4_sub : (w3_ops4 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub ..⟩
set_option maxHeartbeats 40000000 in
/-- None allocates a buffer. -/
theorem w3_ops4_fresh : (w3_ops4 : List (HloOp τ sig (Elt F))).Forall fun op => op.fresh = ∅ := by
  simp only [List.Forall]; repeat' constructor
/-- The references the operations write. -/
abbrev w3_ops4_W : List (Ref sig .tc) := [main_v166, main_v167, main_v168, main_v169, main_v170, main_v171, main_v172, main_v173, main_c_53, main_v174, main_v175, main_c_54, main_v176, main_v177, main_c_55, main_v178, main_v179, main_c_56, main_v180]
set_option maxHeartbeats 40000000 in
/-- Each writes inside that list. -/
theorem w3_ops4_writes : (w3_ops4 : List (HloOp τ sig (Elt F))).Forall fun op => op.writes ⊆ (w3_ops4_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- Window 3 is the chain of its lists' runs, the last in tail position: both sides unfold to the same sequence of steps. -/
theorem main_part3_chain (c : Dev nD) : main_part3 (F := F) c = (Pipeline.chainK
  [ StableHlo.seq w3_ops0,
    StableHlo.seq w3_ops1,
    StableHlo.seq w3_ops2,
    StableHlo.seq w3_ops3 ]
  (StableHlo.seq w3_ops4) : Prog (TpuEff nD τ sig (Elt F) (Pipeline.Sig Λ₀ (Fin 0) fun p => (pcfgs (F := F) p).Adm) .tc) PUnit) := by
  chain_rfl

end Cert.ReferenceIdeal.RefRun

end
-- ==== Proof.RefRun.W4.lean ====
/- The reference program's window main_part4 (@main's statements 241 … 300 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 40000000 in
/-- 60 host operations of @main, window 4, in order. -/
abbrev w4_ops0 : List (HloOp τ sig (Elt F)) :=
  ( StableHlo.binary main_v179 main_v180 main_v181 (minsi : (⟨S3x100000, .i32⟩ : BufTy).Contents (Elt F) → (⟨S3x100000, .i32⟩ : BufTy).Contents (Elt F) → (⟨S3x100000, .i32⟩ : BufTy).Contents (Elt F))
  :: StableHlo.nullary main_c_57 (constantI S_ 32 0#32)
  :: StableHlo.unary main_c_57 main_v182 (broadcastInDim S3x100000 ![] bcast_S_S3x100000 : (⟨S_, .i32⟩ : BufTy).Contents (Elt F) → (⟨S3x100000, .i32⟩ : BufTy).Contents (Elt F))
  :: StableHlo.binary main_v173 main_v182 main_v183 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_58 (constantI S_ 32 128#32)
  :: StableHlo.unary main_c_58 main_v184 (broadcastInDim S3x100000 ![] bcast_S_S3x100000 : (⟨S_, .i32⟩ : BufTy).Contents (Elt F) → (⟨S3x100000, .i32⟩ : BufTy).Contents (Elt F))
  :: StableHlo.binary main_v173 main_v184 main_v185 (addi : (⟨S3x100000, .i32⟩ : BufTy).Contents (Elt F) → (⟨S3x100000, .i32⟩ : BufTy).Contents (Elt F) → (⟨S3x100000, .i32⟩ : BufTy).Contents (Elt F))
  :: StableHlo.ternary main_v183 main_v185 main_v173 main_v186 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_59 (constantI S_ 32 0#32)
  :: StableHlo.unary main_c_59 main_v187 (broadcastInDim S3x100000 ![] bcast_S_S3x100000 : (⟨S_, .i32⟩ : BufTy).Contents (Elt F) → (⟨S3x100000, .i32⟩ : BufTy).Contents (Elt F))
  :: StableHlo.binary main_v172 main_v187 main_v188 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_60 (constantI S_ 32 128#32)
  :: StableHlo.unary main_c_60 main_v189 (broadcastInDim S3x100000 ![] bcast_S_S3x100000 : (⟨S_, .i32⟩ : BufTy).Contents (Elt F) → (⟨S3x100000, .i32⟩ : BufTy).Contents (Elt F))
  :: StableHlo.binary main_v172 main_v189 main_v190 (addi : (⟨S3x100000, .i32⟩ : BufTy).Contents (Elt F) → (⟨S3x100000, .i32⟩ : BufTy).Contents (Elt F) → (⟨S3x100000, .i32⟩ : BufTy).Contents (Elt F))
  :: StableHlo.ternary main_v188 main_v190 main_v172 main_v191 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v186 main_v192 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v191 main_v193 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v192 main_v193 main_v194 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg2 main_v194 main_v195 ((fun x i => Host.gather gather_S3x72x128x128_S3x100000x2_S3x72x100000_1_23_0_0_23_2_17211 x i) : (⟨S3x72x128x128, .f32⟩ : BufTy).Contents (Elt F) → (⟨S3x100000x2, .i32⟩ : BufTy).Contents (Elt F) → (⟨S3x72x100000, .f32⟩ : BufTy).Contents (Elt F))
  :: StableHlo.unary main_v195 main_v196 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_61 (constantI S_ 32 0#32)
  :: StableHlo.unary main_c_61 main_v197 (broadcastInDim S3x100000 ![] bcast_S_S3x100000 : (⟨S_, .i32⟩ : BufTy).Contents (Elt F) → (⟨S3x100000, .i32⟩ : BufTy).Contents (Elt F))
  :: StableHlo.binary main_v173 main_v197 main_v198 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_62 (constantI S_ 32 128#32)
  :: StableHlo.unary main_c_62 main_v199 (broadcastInDim S3x100000 ![] bcast_S_S3x100000 : (⟨S_, .i32⟩ : BufTy).Contents (Elt F) → (⟨S3x100000, .i32⟩ : BufTy).Contents (Elt F))
  :: StableHlo.binary main_v173 main_v199 main_v200 (addi : (⟨S3x100000, .i32⟩ : BufTy).Contents (Elt F) → (⟨S3x100000, .i32⟩ : BufTy).Contents (Elt F) → (⟨S3x100000, .i32⟩ : BufTy).Contents (Elt F))
  :: StableHlo.ternary main_v198 main_v200 main_v173 main_v201 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_63 (constantI S_ 32 0#32)
  :: StableHlo.unary main_c_63 main_v202 (broadcastInDim S3x100000 ![] bcast_S_S3x100000 : (⟨S_, .i32⟩ : BufTy).Contents (Elt F) → (⟨S3x100000, .i32⟩ : BufTy).Contents (Elt F))
  :: StableHlo.binary main_v177 main_v202 main_v203 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_64 (constantI S_ 32 128#32)
  :: StableHlo.unary main_c_64 main_v204 (broadcastInDim S3x100000 ![] bcast_S_S3x100000 : (⟨S_, .i32⟩ : BufTy).Contents (Elt F) → (⟨S3x100000, .i32⟩ : BufTy).Contents (Elt F))
  :: StableHlo.binary main_v177 main_v204 main_v205 (addi : (⟨S3x100000, .i32⟩ : BufTy).Contents (Elt F) → (⟨S3x100000, .i32⟩ : BufTy).Contents (Elt F) → (⟨S3x100000, .i32⟩ : BufTy).Contents (Elt F))
  :: StableHlo.ternary main_v203 main_v205 main_v177 main_v206 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v201 main_v207 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v206 main_v208 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v207 main_v208 main_v209 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg2 main_v209 main_v210 ((fun x i => Host.gather gather_S3x72x128x128_S3x100000x2_S3x72x100000_1_23_0_0_23_2_17211 x i) : (⟨S3x72x128x128, .f32⟩ : BufTy).Contents (Elt F) → (⟨S3x100000x2, .i32⟩ : BufTy).Contents (Elt F) → (⟨S3x72x100000, .f32⟩ : BufTy).Contents (Elt F))
  :: StableHlo.unary main_v210 main_v211 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_65 (constantI S_ 32 0#32)
  :: StableHlo.unary main_c_65 main_v212 (broadcastInDim S3x100000 ![] bcast_S_S3x100000 : (⟨S_, .i32⟩ : BufTy).Contents (Elt F) → (⟨S3x100000, .i32⟩ : BufTy).Contents (Elt F))
  :: StableHlo.binary main_v181 main_v212 main_v213 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_66 (constantI S_ 32 128#32)
  :: StableHlo.unary main_c_66 main_v214 (broadcastInDim S3x100000 ![] bcast_S_S3x100000 : (⟨S_, .i32⟩ : BufTy).Contents (Elt F) → (⟨S3x100000, .i32⟩ : BufTy).Contents (Elt F))
  :: StableHlo.binary main_v181 main_v214 main_v215 (addi : (⟨S3x100000, .i32⟩ : BufTy).Contents (Elt F) → (⟨S3x100000, .i32⟩ : BufTy).Contents (Elt F) → (⟨S3x100000, .i32⟩ : BufTy).Contents (Elt F))
  :: StableHlo.ternary main_v213 main_v215 main_v181 main_v216 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_67 (constantI S_ 32 0#32)
  :: StableHlo.unary main_c_67 main_v217 (broadcastInDim S3x100000 ![] bcast_S_S3x100000 : (⟨S_, .i32⟩ : BufTy).Contents (Elt F) → (⟨S3x100000, .i32⟩ : BufTy).Contents (Elt F))
  :: StableHlo.binary main_v172 main_v217 main_v218 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_68 (constantI S_ 32 128#32)
  :: StableHlo.unary main_c_68 main_v219 (broadcastInDim S3x100000 ![] bcast_S_S3x100000 : (⟨S_, .i32⟩ : BufTy).Contents (Elt F) → (⟨S3x100000, .i32⟩ : BufTy).Contents (Elt F))
  :: StableHlo.binary main_v172 main_v219 main_v220 (addi : (⟨S3x100000, .i32⟩ : BufTy).Contents (Elt F) → (⟨S3x100000, .i32⟩ : BufTy).Contents (Elt F) → (⟨S3x100000, .i32⟩ : BufTy).Contents (Elt F))
  :: StableHlo.ternary main_v218 main_v220 main_v172 main_v221 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v216 main_v222 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v221 main_v223 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v222 main_v223 main_v224 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg2 main_v224 main_v225 ((fun x i => Host.gather gather_S3x72x128x128_S3x100000x2_S3x72x100000_1_23_0_0_23_2_17211 x i) : (⟨S3x72x128x128, .f32⟩ : BufTy).Contents (Elt F) → (⟨S3x100000x2, .i32⟩ : BufTy).Contents (Elt F) → (⟨S3x72x100000, .f32⟩ : BufTy).Contents (Elt F))
  :: StableHlo.unary main_v225 main_v226 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_69 (constantI S_ 32 0#32)
  :: StableHlo.unary main_c_69 main_v227 (broadcastInDim S3x100000 ![] bcast_S_S3x100000 : (⟨S_, .i32⟩ : BufTy).Contents (Elt F) → (⟨S3x100000, .i32⟩ : BufTy).Contents (Elt F))
  :: [] )
set_option maxHeartbeats 40000000 in
/-- Each touches TensorCore references only. -/
theorem w4_ops0_sub : (w4_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub ..⟩
set_option maxHeartbeats 40000000 in
/-- None allocates a buffer. -/
theorem w4_ops0_fresh : (w4_ops0 : List (HloOp τ sig (Elt F))).Forall fun op => op.fresh = ∅ := by
  simp only [List.Forall]; repeat' constructor
/-- The references the operations write. -/
abbrev w4_ops0_W : List (Ref sig .tc) := [main_v181, main_c_57, main_v182, main_v183, main_c_58, main_v184, main_v185, main_v186, main_c_59, main_v187, main_v188, main_c_60, main_v189, main_v190, main_v191, main_v192, main_v193, main_v194, main_v195, main_v196, main_c_61, main_v197, main_v198, main_c_62, main_v199, main_v200, main_v201, main_c_63, main_v202, main_v203, main_c_64, main_v204, main_v205, main_v206, main_v207, main_v208, main_v209, main_v210, main_v211, main_c_65, main_v212, main_v213, main_c_66, main_v214, main_v215, main_v216, main_c_67, main_v217, main_v218, main_c_68, main_v219, main_v220, main_v221, main_v222, main_v223, main_v224, main_v225, main_v226, main_c_69, main_v227]
set_option maxHeartbeats 40000000 in
/-- Each writes inside that list. -/
theorem w4_ops0_writes : (w4_ops0 : List (HloOp τ sig (Elt F))).Forall fun op => op.writes ⊆ (w4_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- Window 4 is the chain of its lists' runs, the last in tail position: both sides unfold to the same sequence of steps. -/
theorem main_part4_chain (c : Dev nD) : main_part4 (F := F) c = (Pipeline.chainK
  [  ]
  (StableHlo.seq w4_ops0) : Prog (TpuEff nD τ sig (Elt F) (Pipeline.Sig Λ₀ (Fin 0) fun p => (pcfgs (F := F) p).Adm) .tc) PUnit) := by
  chain_rfl

end Cert.ReferenceIdeal.RefRun

end
-- ==== Proof.RefRun.W5.lean ====
/- The reference program's window main_part5 (@main's statements 301 … 360 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 40000000 in
/-- 60 host operations of @main, window 5, in order. -/
abbrev w5_ops0 : List (HloOp τ sig (Elt F)) :=
  ( StableHlo.binary main_v181 main_v227 main_v228 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_70 (constantI S_ 32 128#32)
  :: StableHlo.unary main_c_70 main_v229 (broadcastInDim S3x100000 ![] bcast_S_S3x100000 : (⟨S_, .i32⟩ : BufTy).Contents (Elt F) → (⟨S3x100000, .i32⟩ : BufTy).Contents (Elt F))
  :: StableHlo.binary main_v181 main_v229 main_v230 (addi : (⟨S3x100000, .i32⟩ : BufTy).Contents (Elt F) → (⟨S3x100000, .i32⟩ : BufTy).Contents (Elt F) → (⟨S3x100000, .i32⟩ : BufTy).Contents (Elt F))
  :: StableHlo.ternary main_v228 main_v230 main_v181 main_v231 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_71 (constantI S_ 32 0#32)
  :: StableHlo.unary main_c_71 main_v232 (broadcastInDim S3x100000 ![] bcast_S_S3x100000 : (⟨S_, .i32⟩ : BufTy).Contents (Elt F) → (⟨S3x100000, .i32⟩ : BufTy).Contents (Elt F))
  :: StableHlo.binary main_v177 main_v232 main_v233 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_72 (constantI S_ 32 128#32)
  :: StableHlo.unary main_c_72 main_v234 (broadcastInDim S3x100000 ![] bcast_S_S3x100000 : (⟨S_, .i32⟩ : BufTy).Contents (Elt F) → (⟨S3x100000, .i32⟩ : BufTy).Contents (Elt F))
  :: StableHlo.binary main_v177 main_v234 main_v235 (addi : (⟨S3x100000, .i32⟩ : BufTy).Contents (Elt F) → (⟨S3x100000, .i32⟩ : BufTy).Contents (Elt F) → (⟨S3x100000, .i32⟩ : BufTy).Contents (Elt F))
  :: StableHlo.ternary main_v233 main_v235 main_v177 main_v236 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v231 main_v237 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v236 main_v238 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v237 main_v238 main_v239 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg2 main_v239 main_v240 ((fun x i => Host.gather gather_S3x72x128x128_S3x100000x2_S3x72x100000_1_23_0_0_23_2_17211 x i) : (⟨S3x72x128x128, .f32⟩ : BufTy).Contents (Elt F) → (⟨S3x100000x2, .i32⟩ : BufTy).Contents (Elt F) → (⟨S3x72x100000, .f32⟩ : BufTy).Contents (Elt F))
  :: StableHlo.unary main_v240 main_v241 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_cst_73 (constant S_ .f32 0x3F800000#32)
  :: StableHlo.unary main_cst_73 main_v242 (broadcastInDim S3x100000x1 ![] bcast_S_S3x100000x1 : (⟨S_, .f32⟩ : BufTy).Contents (Elt F) → (⟨S3x100000x1, .f32⟩ : BufTy).Contents (Elt F))
  :: StableHlo.binary main_v242 main_v169 main_v243 (subf : (⟨S3x100000x1, .f32⟩ : BufTy).Contents (Elt F) → (⟨S3x100000x1, .f32⟩ : BufTy).Contents (Elt F) → (⟨S3x100000x1, .f32⟩ : BufTy).Contents (Elt F))
  :: StableHlo.unary main_v243 main_v244 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v196 main_v244 main_v245 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v169 main_v246 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v211 main_v246 main_v247 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v245 main_v247 main_v248 (addf : (⟨S3x100000x72, .f32⟩ : BufTy).Contents (Elt F) → (⟨S3x100000x72, .f32⟩ : BufTy).Contents (Elt F) → (⟨S3x100000x72, .f32⟩ : BufTy).Contents (Elt F))
  :: StableHlo.nullary main_cst_74 (constant S_ .f32 0x3F800000#32)
  :: StableHlo.unary main_cst_74 main_v249 (broadcastInDim S3x100000x1 ![] bcast_S_S3x100000x1 : (⟨S_, .f32⟩ : BufTy).Contents (Elt F) → (⟨S3x100000x1, .f32⟩ : BufTy).Contents (Elt F))
  :: StableHlo.binary main_v249 main_v169 main_v250 (subf : (⟨S3x100000x1, .f32⟩ : BufTy).Contents (Elt F) → (⟨S3x100000x1, .f32⟩ : BufTy).Contents (Elt F) → (⟨S3x100000x1, .f32⟩ : BufTy).Contents (Elt F))
  :: StableHlo.unary main_v250 main_v251 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v226 main_v251 main_v252 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v169 main_v253 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v241 main_v253 main_v254 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v252 main_v254 main_v255 (addf : (⟨S3x100000x72, .f32⟩ : BufTy).Contents (Elt F) → (⟨S3x100000x72, .f32⟩ : BufTy).Contents (Elt F) → (⟨S3x100000x72, .f32⟩ : BufTy).Contents (Elt F))
  :: StableHlo.nullary main_cst_75 (constant S_ .f32 0x3F800000#32)
  :: StableHlo.unary main_cst_75 main_v256 (broadcastInDim S3x100000x1 ![] bcast_S_S3x100000x1 : (⟨S_, .f32⟩ : BufTy).Contents (Elt F) → (⟨S3x100000x1, .f32⟩ : BufTy).Contents (Elt F))
  :: StableHlo.binary main_v256 main_v171 main_v257 (subf : (⟨S3x100000x1, .f32⟩ : BufTy).Contents (Elt F) → (⟨S3x100000x1, .f32⟩ : BufTy).Contents (Elt F) → (⟨S3x100000x1, .f32⟩ : BufTy).Contents (Elt F))
  :: StableHlo.unary main_v257 main_v258 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v248 main_v258 main_v259 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v171 main_v260 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v255 main_v260 main_v261 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v259 main_v261 main_v262 (addf : (⟨S3x100000x72, .f32⟩ : BufTy).Contents (Elt F) → (⟨S3x100000x72, .f32⟩ : BufTy).Contents (Elt F) → (⟨S3x100000x72, .f32⟩ : BufTy).Contents (Elt F))
  :: StableHlo.unary main_v262 main_v263 ((transpose S100000x3x72 [1, 0, 2] · transposes_S3x100000x72_S100000x3x72_1_0_2) : (⟨S3x100000x72, .f32⟩ : BufTy).Contents (Elt F) → (⟨S100000x3x72, .f32⟩ : BufTy).Contents (Elt F))
  :: StableHlo.reshape main_v263 main_v264 rfl shapeCasts_S100000x3x72_S100000x216
  :: StableHlo.binary main_v264 main_v147 main_v265 (addf : (⟨S100000x216, .f32⟩ : BufTy).Contents (Elt F) → (⟨S100000x216, .f32⟩ : BufTy).Contents (Elt F) → (⟨S100000x216, .f32⟩ : BufTy).Contents (Elt F))
  :: StableHlo.unary main_v30 main_v266 ((extractStridedSlice S3x100000x1 ![0, 0, 0] · slices_S3x100000x2_S3x100000x1_0_0_0) : (⟨S3x100000x2, .f32⟩ : BufTy).Contents (Elt F) → (⟨S3x100000x1, .f32⟩ : BufTy).Contents (Elt F))
  :: StableHlo.reshape main_v266 main_v267 rfl shapeCasts_S3x100000x1_S3x100000
  :: StableHlo.nullary main_cst_76 (constant S_ .f32 0x3F800000#32)
  :: StableHlo.unary main_cst_76 main_v268 (broadcastInDim S3x100000 ![] bcast_S_S3x100000 : (⟨S_, .f32⟩ : BufTy).Contents (Elt F) → (⟨S3x100000, .f32⟩ : BufTy).Contents (Elt F))
  :: StableHlo.binary main_v267 main_v268 main_v269 (addf : (⟨S3x100000, .f32⟩ : BufTy).Contents (Elt F) → (⟨S3x100000, .f32⟩ : BufTy).Contents (Elt F) → (⟨S3x100000, .f32⟩ : BufTy).Contents (Elt F))
  :: StableHlo.nullary main_cst_77 (constant S_ .f32 0x3F000000#32)
  :: StableHlo.unary main_cst_77 main_v270 (broadcastInDim S3x100000 ![] bcast_S_S3x100000 : (⟨S_, .f32⟩ : BufTy).Contents (Elt F) → (⟨S3x100000, .f32⟩ : BufTy).Contents (Elt F))
  :: StableHlo.binary main_v269 main_v270 main_v271 (mulf : (⟨S3x100000, .f32⟩ : BufTy).Contents (Elt F) → (⟨S3x100000, .f32⟩ : BufTy).Contents (Elt F) → (⟨S3x100000, .f32⟩ : BufTy).Contents (Elt F))
  :: StableHlo.nullary main_cst_78 (constant S_ .f32 0x437F0000#32)
  :: StableHlo.unary main_cst_78 main_v272 (broadcastInDim S3x100000 ![] bcast_S_S3x100000 : (⟨S_, .f32⟩ : BufTy).Contents (Elt F) → (⟨S3x100000, .f32⟩ : BufTy).Contents (Elt F))
  :: StableHlo.binary main_v271 main_v272 main_v273 (mulf : (⟨S3x100000, .f32⟩ : BufTy).Contents (Elt F) → (⟨S3x100000, .f32⟩ : BufTy).Contents (Elt F) → (⟨S3x100000, .f32⟩ : BufTy).Contents (Elt F))
  :: StableHlo.unary main_v30 main_v274 ((extractStridedSlice S3x100000x1 ![0, 0, 1] · slices_S3x100000x2_S3x100000x1_0_0_1) : (⟨S3x100000x2, .f32⟩ : BufTy).Contents (Elt F) → (⟨S3x100000x1, .f32⟩ : BufTy).Contents (Elt F))
  :: StableHlo.reshape main_v274 main_v275 rfl shapeCasts_S3x100000x1_S3x100000
  :: StableHlo.nullary main_cst_79 (constant S_ .f32 0x3F800000#32)
  :: StableHlo.unary main_cst_79 main_v276 (broadcastInDim S3x100000 ![] bcast_S_S3x100000 : (⟨S_, .f32⟩ : BufTy).Contents (Elt F) → (⟨S3x100000, .f32⟩ : BufTy).Contents (Elt F))
  :: StableHlo.binary main_v275 main_v276 main_v277 (addf : (⟨S3x100000, .f32⟩ : BufTy).Contents (Elt F) → (⟨S3x100000, .f32⟩ : BufTy).Contents (Elt F) → (⟨S3x100000, .f32⟩ : BufTy).Contents (Elt F))
  :: [] )
set_option maxHeartbeats 40000000 in
/-- Each touches TensorCore references only. -/
theorem w5_ops0_sub : (w5_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub ..⟩
set_option maxHeartbeats 40000000 in
/-- None allocates a buffer. -/
theorem w5_ops0_fresh : (w5_ops0 : List (HloOp τ sig (Elt F))).Forall fun op => op.fresh = ∅ := by
  simp only [List.Forall]; repeat' constructor
/-- The references the operations write. -/
abbrev w5_ops0_W : List (Ref sig .tc) := [main_v228, main_c_70, main_v229, main_v230, main_v231, main_c_71, main_v232, main_v233, main_c_72, main_v234, main_v235, main_v236, main_v237, main_v238, main_v239, main_v240, main_v241, main_cst_73, main_v242, main_v243, main_v244, main_v245, main_v246, main_v247, main_v248, main_cst_74, main_v249, main_v250, main_v251, main_v252, main_v253, main_v254, main_v255, main_cst_75, main_v256, main_v257, main_v258, main_v259, main_v260, main_v261, main_v262, main_v263, main_v264, main_v265, main_v266, main_v267, main_cst_76, main_v268, main_v269, main_cst_77, main_v270, main_v271, main_cst_78, main_v272, main_v273, main_v274, main_v275, main_cst_79, main_v276, main_v277]
set_option maxHeartbeats 40000000 in
/-- Each writes inside that list. -/
theorem w5_ops0_writes : (w5_ops0 : List (HloOp τ sig (Elt F))).Forall fun op => op.writes ⊆ (w5_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- Window 5 is the chain of its lists' runs, the last in tail position: both sides unfold to the same sequence of steps. -/
theorem main_part5_chain (c : Dev nD) : main_part5 (F := F) c = (Pipeline.chainK
  [  ]
  (StableHlo.seq w5_ops0) : Prog (TpuEff nD τ sig (Elt F) (Pipeline.Sig Λ₀ (Fin 0) fun p => (pcfgs (F := F) p).Adm) .tc) PUnit) := by
  chain_rfl

end Cert.ReferenceIdeal.RefRun

end
-- ==== Proof.RefRun.W6.lean ====
/- The reference program's window main_part6 (@main's statements 361 … 420 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- 8 host operations of @main, window 6, in order. -/
abbrev w6_ops0 : List (HloOp τ sig (Elt F)) :=
  [ StableHlo.nullary main_cst_80 (constant S_ .f32 0x3F000000#32),
    StableHlo.unary main_cst_80 main_v278 (broadcastInDim S3x100000 ![] bcast_S_S3x100000 : (⟨S_, .f32⟩ : BufTy).Contents (Elt F) → (⟨S3x100000, .f32⟩ : BufTy).Contents (Elt F)),
    StableHlo.binary main_v277 main_v278 main_v279 (mulf : (⟨S3x100000, .f32⟩ : BufTy).Contents (Elt F) → (⟨S3x100000, .f32⟩ : BufTy).Contents (Elt F) → (⟨S3x100000, .f32⟩ : BufTy).Contents (Elt F)),
    StableHlo.nullary main_cst_81 (constant S_ .f32 0x437F0000#32),
    StableHlo.unary main_cst_81 main_v280 (broadcastInDim S3x100000 ![] bcast_S_S3x100000 : (⟨S_, .f32⟩ : BufTy).Contents (Elt F) → (⟨S3x100000, .f32⟩ : BufTy).Contents (Elt F)),
    StableHlo.binary main_v279 main_v280 main_v281 (mulf : (⟨S3x100000, .f32⟩ : BufTy).Contents (Elt F) → (⟨S3x100000, .f32⟩ : BufTy).Contents (Elt F) → (⟨S3x100000, .f32⟩ : BufTy).Contents (Elt F)),
    StableHlo.nullary main_cst_82 (constant S_ .f32 0x00000000#32),
    StableHlo.nullary main_c_83 (constantI S_ 32 255#32) ]
/-- Each touches TensorCore references only. -/
theorem w6_ops0_sub : (w6_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩
/-- None allocates a buffer. -/
theorem w6_ops0_fresh : (w6_ops0 : List (HloOp τ sig (Elt F))).Forall fun op => op.fresh = ∅ := by
  simp only [List.Forall]; repeat' constructor
/-- The references the operations write. -/
abbrev w6_ops0_W : List (Ref sig .tc) := [main_cst_80, main_v278, main_v279, main_cst_81, main_v280, main_v281, main_cst_82, main_c_83]
/-- Each writes inside that list. -/
theorem w6_ops0_writes : (w6_ops0 : List (HloOp τ sig (Elt F))).Forall fun op => op.writes ⊆ (w6_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 6 host operations of @clip (main_call4), window 6, in order. -/
abbrev w6_ops1 : List (HloOp τ sig (Elt F)) :=
  [ StableHlo.TRef.unary (.of main_cst_82 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S3x100000, .f32⟩) (broadcastInDim S3x100000 ![] bcast_S_S3x100000),
    StableHlo.TRef.binary (.of main_call4_v1 : StableHlo.TRef sig ⟨S3x100000, .f32⟩) (.of main_v273 : StableHlo.TRef sig ⟨S3x100000, .f32⟩) (.of main_call4_v2 : StableHlo.TRef sig ⟨S3x100000, .f32⟩) maximumf,
    StableHlo.TRef.unary (.of main_c_83 : StableHlo.TRef sig ⟨S_, .i32⟩) (.of main_call4_v3 : StableHlo.TRef sig ⟨S_, .f32⟩) (sitofp .f32),
    StableHlo.TRef.unary (.of main_call4_v3 : StableHlo.TRef sig ⟨S_, .f32⟩) (.of main_call4_v4 : StableHlo.TRef sig ⟨S3x100000, .f32⟩) (broadcastInDim S3x100000 ![] bcast_S_S3x100000),
    StableHlo.TRef.binary (.of main_call4_v4 : StableHlo.TRef sig ⟨S3x100000, .f32⟩) (.of main_call4_v2 : StableHlo.TRef sig ⟨S3x100000, .f32⟩) (.of main_v282 : StableHlo.TRef sig ⟨S3x100000, .f32⟩) minimumf ]
/-- Each touches TensorCore references only. -/
theorem w6_ops1_sub : (w6_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- None allocates a buffer. -/
theorem w6_ops1_fresh : (w6_ops1 : List (HloOp τ sig (Elt F))).Forall fun op => op.fresh = ∅ := by
  simp only [List.Forall]; repeat' constructor
/-- The references the operations write. -/
abbrev w6_ops1_W : List (Ref sig .tc) := [main_call4_v0, main_call4_v1, main_call4_v2, main_call4_v3, main_call4_v4, main_v282]
/-- Each writes inside that list. -/
theorem w6_ops1_writes : (w6_ops1 : List (HloOp τ sig (Elt F))).Forall fun op => op.writes ⊆ (w6_ops1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 2 host operations of @main, window 6, in order. -/
abbrev w6_ops2 : List (HloOp τ sig (Elt F)) :=
  [ StableHlo.nullary main_cst_84 (constant S_ .f32 0x00000000#32),
    StableHlo.nullary main_c_85 (constantI S_ 32 255#32) ]
/-- Each touches TensorCore references only. -/
theorem w6_ops2_sub : (w6_ops2 : List (HloOp τ sig (Elt F))).Forall fun op => op.bufs ⊆ StableHlo.tcRefs τ sig :=
  ⟨StableHlo.nullary_bufs_sub .., StableHlo.nullary_bufs_sub ..⟩
/-- None allocates a buffer. -/
theorem w6_ops2_fresh : (w6_ops2 : List (HloOp τ sig (Elt F))).Forall fun op => op.fresh = ∅ := by
  simp only [List.Forall]; repeat' constructor
/-- The references the operations write. -/
abbrev w6_ops2_W : List (Ref sig .tc) := [main_cst_84, main_c_85]
/-- Each writes inside that list. -/
theorem w6_ops2_writes : (w6_ops2 : List (HloOp τ sig (Elt F))).Forall fun op => op.writes ⊆ (w6_ops2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 6 host operations of @clip (main_call5), window 6, in order. -/
abbrev w6_ops3 : List (HloOp τ sig (Elt F)) :=
  [ StableHlo.TRef.unary (.of main_cst_84 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S3x100000, .f32⟩) (broadcastInDim S3x100000 ![] bcast_S_S3x100000),
    StableHlo.TRef.binary (.of main_call5_v1 : StableHlo.TRef sig ⟨S3x100000, .f32⟩) (.of main_v281 : StableHlo.TRef sig ⟨S3x100000, .f32⟩) (.of main_call5_v2 : StableHlo.TRef sig ⟨S3x100000, .f32⟩) maximumf,
    StableHlo.TRef.unary (.of main_c_85 : StableHlo.TRef sig ⟨S_, .i32⟩) (.of main_call5_v3 : StableHlo.TRef sig ⟨S_, .f32⟩) (sitofp .f32),
    StableHlo.TRef.unary (.of main_call5_v3 : StableHlo.TRef sig ⟨S_, .f32⟩) (.of main_call5_v4 : StableHlo.TRef sig ⟨S3x100000, .f32⟩) (broadcastInDim S3x100000 ![] bcast_S_S3x100000),
    StableHlo.TRef.binary (.of main_call5_v4 : StableHlo.TRef sig ⟨S3x100000, .f32⟩) (.of main_call5_v2 : StableHlo.TRef sig ⟨S3x100000, .f32⟩) (.of main_v283 : StableHlo.TRef sig ⟨S3x100000, .f32⟩) minimumf ]
/-- Each touches TensorCore references only. -/
theorem w6_ops3_sub : (w6_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- None allocates a buffer. -/
theorem w6_ops3_fresh : (w6_ops3 : List (HloOp τ sig (Elt F))).Forall fun op => op.fresh = ∅ := by
  simp only [List.Forall]; repeat' constructor
/-- The references the operations write. -/
abbrev w6_ops3_W : List (Ref sig .tc) := [main_call5_v0, main_call5_v1, main_call5_v2, main_call5_v3, main_call5_v4, main_v283]
/-- Each writes inside that list. -/
theorem w6_ops3_writes : (w6_ops3 : List (HloOp τ sig (Elt F))).Forall fun op => op.writes ⊆ (w6_ops3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

set_option maxHeartbeats 40000000 in
/-- 48 host operations of @main, window 6, in order. -/
abbrev w6_ops4 : List (HloOp τ sig (Elt F)) :=
  ( StableHlo.unary main_v282 main_v284 (Host.floor : (⟨S3x100000, .f32⟩ : BufTy).Contents (Elt F) → (⟨S3x100000, .f32⟩ : BufTy).Contents (Elt F))
  :: StableHlo.unary main_v283 main_v285 (Host.floor : (⟨S3x100000, .f32⟩ : BufTy).Contents (Elt F) → (⟨S3x100000, .f32⟩ : BufTy).Contents (Elt F))
  :: StableHlo.binary main_v282 main_v284 main_v286 (subf : (⟨S3x100000, .f32⟩ : BufTy).Contents (Elt F) → (⟨S3x100000, .f32⟩ : BufTy).Contents (Elt F) → (⟨S3x100000, .f32⟩ : BufTy).Contents (Elt F))
  :: StableHlo.unary main_v286 main_v287 (broadcastInDim S3x100000x1 ![0, 1] bcast_S3x100000_S3x100000x1_0_1 : (⟨S3x100000, .f32⟩ : BufTy).Contents (Elt F) → (⟨S3x100000x1, .f32⟩ : BufTy).Contents (Elt F))
  :: StableHlo.binary main_v283 main_v285 main_v288 (subf : (⟨S3x100000, .f32⟩ : BufTy).Contents (Elt F) → (⟨S3x100000, .f32⟩ : BufTy).Contents (Elt F) → (⟨S3x100000, .f32⟩ : BufTy).Contents (Elt F))
  :: StableHlo.unary main_v288 main_v289 (broadcastInDim S3x100000x1 ![0, 1] bcast_S3x100000_S3x100000x1_0_1 : (⟨S3x100000, .f32⟩ : BufTy).Contents (Elt F) → (⟨S3x100000x1, .f32⟩ : BufTy).Contents (Elt F))
  :: StableHlo.unary main_v284 main_v290 (fptosi 32 : (⟨S3x100000, .f32⟩ : BufTy).Contents (Elt F) → (⟨S3x100000, .i32⟩ : BufTy).Contents (Elt F))
  :: StableHlo.unary main_v285 main_v291 (fptosi 32 : (⟨S3x100000, .f32⟩ : BufTy).Contents (Elt F) → (⟨S3x100000, .i32⟩ : BufTy).Contents (Elt F))
  :: StableHlo.nullary main_c_86 (constantI S_ 32 1#32)
  :: StableHlo.unary main_c_86 main_v292 (broadcastInDim S3x100000 ![] bcast_S_S3x100000 : (⟨S_, .i32⟩ : BufTy).Contents (Elt F) → (⟨S3x100000, .i32⟩ : BufTy).Contents (Elt F))
  :: StableHlo.binary main_v290 main_v292 main_v293 (addi : (⟨S3x100000, .i32⟩ : BufTy).Contents (Elt F) → (⟨S3x100000, .i32⟩ : BufTy).Contents (Elt F) → (⟨S3x100000, .i32⟩ : BufTy).Contents (Elt F))
  :: StableHlo.nullary main_c_87 (constantI S_ 32 255#32)
  :: StableHlo.unary main_c_87 main_v294 (broadcastInDim S3x100000 ![] bcast_S_S3x100000 : (⟨S_, .i32⟩ : BufTy).Contents (Elt F) → (⟨S3x100000, .i32⟩ : BufTy).Contents (Elt F))
  :: StableHlo.binary main_v293 main_v294 main_v295 (minsi : (⟨S3x100000, .i32⟩ : BufTy).Contents (Elt F) → (⟨S3x100000, .i32⟩ : BufTy).Contents (Elt F) → (⟨S3x100000, .i32⟩ : BufTy).Contents (Elt F))
  :: StableHlo.nullary main_c_88 (constantI S_ 32 1#32)
  :: StableHlo.unary main_c_88 main_v296 (broadcastInDim S3x100000 ![] bcast_S_S3x100000 : (⟨S_, .i32⟩ : BufTy).Contents (Elt F) → (⟨S3x100000, .i32⟩ : BufTy).Contents (Elt F))
  :: StableHlo.binary main_v291 main_v296 main_v297 (addi : (⟨S3x100000, .i32⟩ : BufTy).Contents (Elt F) → (⟨S3x100000, .i32⟩ : BufTy).Contents (Elt F) → (⟨S3x100000, .i32⟩ : BufTy).Contents (Elt F))
  :: StableHlo.nullary main_c_89 (constantI S_ 32 255#32)
  :: StableHlo.unary main_c_89 main_v298 (broadcastInDim S3x100000 ![] bcast_S_S3x100000 : (⟨S_, .i32⟩ : BufTy).Contents (Elt F) → (⟨S3x100000, .i32⟩ : BufTy).Contents (Elt F))
  :: StableHlo.binary main_v297 main_v298 main_v299 (minsi : (⟨S3x100000, .i32⟩ : BufTy).Contents (Elt F) → (⟨S3x100000, .i32⟩ : BufTy).Contents (Elt F) → (⟨S3x100000, .i32⟩ : BufTy).Contents (Elt F))
  :: StableHlo.nullary main_c_90 (constantI S_ 32 0#32)
  :: StableHlo.unary main_c_90 main_v300 (broadcastInDim S3x100000 ![] bcast_S_S3x100000 : (⟨S_, .i32⟩ : BufTy).Contents (Elt F) → (⟨S3x100000, .i32⟩ : BufTy).Contents (Elt F))
  :: StableHlo.binary main_v291 main_v300 main_v301 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_91 (constantI S_ 32 256#32)
  :: StableHlo.unary main_c_91 main_v302 (broadcastInDim S3x100000 ![] bcast_S_S3x100000 : (⟨S_, .i32⟩ : BufTy).Contents (Elt F) → (⟨S3x100000, .i32⟩ : BufTy).Contents (Elt F))
  :: StableHlo.binary main_v291 main_v302 main_v303 (addi : (⟨S3x100000, .i32⟩ : BufTy).Contents (Elt F) → (⟨S3x100000, .i32⟩ : BufTy).Contents (Elt F) → (⟨S3x100000, .i32⟩ : BufTy).Contents (Elt F))
  :: StableHlo.ternary main_v301 main_v303 main_v291 main_v304 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_92 (constantI S_ 32 0#32)
  :: StableHlo.unary main_c_92 main_v305 (broadcastInDim S3x100000 ![] bcast_S_S3x100000 : (⟨S_, .i32⟩ : BufTy).Contents (Elt F) → (⟨S3x100000, .i32⟩ : BufTy).Contents (Elt F))
  :: StableHlo.binary main_v290 main_v305 main_v306 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_93 (constantI S_ 32 256#32)
  :: StableHlo.unary main_c_93 main_v307 (broadcastInDim S3x100000 ![] bcast_S_S3x100000 : (⟨S_, .i32⟩ : BufTy).Contents (Elt F) → (⟨S3x100000, .i32⟩ : BufTy).Contents (Elt F))
  :: StableHlo.binary main_v290 main_v307 main_v308 (addi : (⟨S3x100000, .i32⟩ : BufTy).Contents (Elt F) → (⟨S3x100000, .i32⟩ : BufTy).Contents (Elt F) → (⟨S3x100000, .i32⟩ : BufTy).Contents (Elt F))
  :: StableHlo.ternary main_v306 main_v308 main_v290 main_v309 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v304 main_v310 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v309 main_v311 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v310 main_v311 main_v312 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg3 main_v312 main_v313 ((fun x i => Host.gather gather_S3x72x256x256_S3x100000x2_S3x72x100000_1_23_0_0_23_2_17211 x i) : (⟨S3x72x256x256, .f32⟩ : BufTy).Contents (Elt F) → (⟨S3x100000x2, .i32⟩ : BufTy).Contents (Elt F) → (⟨S3x72x100000, .f32⟩ : BufTy).Contents (Elt F))
  :: StableHlo.unary main_v313 main_v314 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_94 (constantI S_ 32 0#32)
  :: StableHlo.unary main_c_94 main_v315 (broadcastInDim S3x100000 ![] bcast_S_S3x100000 : (⟨S_, .i32⟩ : BufTy).Contents (Elt F) → (⟨S3x100000, .i32⟩ : BufTy).Contents (Elt F))
  :: StableHlo.binary main_v291 main_v315 main_v316 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_95 (constantI S_ 32 256#32)
  :: StableHlo.unary main_c_95 main_v317 (broadcastInDim S3x100000 ![] bcast_S_S3x100000 : (⟨S_, .i32⟩ : BufTy).Contents (Elt F) → (⟨S3x100000, .i32⟩ : BufTy).Contents (Elt F))
  :: StableHlo.binary main_v291 main_v317 main_v318 (addi : (⟨S3x100000, .i32⟩ : BufTy).Contents (Elt F) → (⟨S3x100000, .i32⟩ : BufTy).Contents (Elt F) → (⟨S3x100000, .i32⟩ : BufTy).Contents (Elt F))
  :: StableHlo.ternary main_v316 main_v318 main_v291 main_v319 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_96 (constantI S_ 32 0#32)
  :: StableHlo.unary main_c_96 main_v320 (broadcastInDim S3x100000 ![] bcast_S_S3x100000 : (⟨S_, .i32⟩ : BufTy).Contents (Elt F) → (⟨S3x100000, .i32⟩ : BufTy).Contents (Elt F))
  :: [] )
set_option maxHeartbeats 40000000 in
/-- Each touches TensorCore references only. -/
theorem w6_ops4_sub : (w6_ops4 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub ..⟩
set_option maxHeartbeats 40000000 in
/-- None allocates a buffer. -/
theorem w6_ops4_fresh : (w6_ops4 : List (HloOp τ sig (Elt F))).Forall fun op => op.fresh = ∅ := by
  simp only [List.Forall]; repeat' constructor
/-- The references the operations write. -/
abbrev w6_ops4_W : List (Ref sig .tc) := [main_v284, main_v285, main_v286, main_v287, main_v288, main_v289, main_v290, main_v291, main_c_86, main_v292, main_v293, main_c_87, main_v294, main_v295, main_c_88, main_v296, main_v297, main_c_89, main_v298, main_v299, main_c_90, main_v300, main_v301, main_c_91, main_v302, main_v303, main_v304, main_c_92, main_v305, main_v306, main_c_93, main_v307, main_v308, main_v309, main_v310, main_v311, main_v312, main_v313, main_v314, main_c_94, main_v315, main_v316, main_c_95, main_v317, main_v318, main_v319, main_c_96, main_v320]
set_option maxHeartbeats 40000000 in
/-- Each writes inside that list. -/
theorem w6_ops4_writes : (w6_ops4 : List (HloOp τ sig (Elt F))).Forall fun op => op.writes ⊆ (w6_ops4_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- Window 6 is the chain of its lists' runs, the last in tail position: both sides unfold to the same sequence of steps. -/
theorem main_part6_chain (c : Dev nD) : main_part6 (F := F) c = (Pipeline.chainK
  [ StableHlo.seq w6_ops0,
    StableHlo.seq w6_ops1,
    StableHlo.seq w6_ops2,
    StableHlo.seq w6_ops3 ]
  (StableHlo.seq w6_ops4) : Prog (TpuEff nD τ sig (Elt F) (Pipeline.Sig Λ₀ (Fin 0) fun p => (pcfgs (F := F) p).Adm) .tc) PUnit) := by
  chain_rfl

end Cert.ReferenceIdeal.RefRun

end
-- ==== Proof.RefRun.W7.lean ====
/- The reference program's window main_part7 (@main's statements 421 … 480 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 40000000 in
/-- 60 host operations of @main, window 7, in order. -/
abbrev w7_ops0 : List (HloOp τ sig (Elt F)) :=
  ( StableHlo.binary main_v295 main_v320 main_v321 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_97 (constantI S_ 32 256#32)
  :: StableHlo.unary main_c_97 main_v322 (broadcastInDim S3x100000 ![] bcast_S_S3x100000 : (⟨S_, .i32⟩ : BufTy).Contents (Elt F) → (⟨S3x100000, .i32⟩ : BufTy).Contents (Elt F))
  :: StableHlo.binary main_v295 main_v322 main_v323 (addi : (⟨S3x100000, .i32⟩ : BufTy).Contents (Elt F) → (⟨S3x100000, .i32⟩ : BufTy).Contents (Elt F) → (⟨S3x100000, .i32⟩ : BufTy).Contents (Elt F))
  :: StableHlo.ternary main_v321 main_v323 main_v295 main_v324 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v319 main_v325 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v324 main_v326 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v325 main_v326 main_v327 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg3 main_v327 main_v328 ((fun x i => Host.gather gather_S3x72x256x256_S3x100000x2_S3x72x100000_1_23_0_0_23_2_17211 x i) : (⟨S3x72x256x256, .f32⟩ : BufTy).Contents (Elt F) → (⟨S3x100000x2, .i32⟩ : BufTy).Contents (Elt F) → (⟨S3x72x100000, .f32⟩ : BufTy).Contents (Elt F))
  :: StableHlo.unary main_v328 main_v329 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_98 (constantI S_ 32 0#32)
  :: StableHlo.unary main_c_98 main_v330 (broadcastInDim S3x100000 ![] bcast_S_S3x100000 : (⟨S_, .i32⟩ : BufTy).Contents (Elt F) → (⟨S3x100000, .i32⟩ : BufTy).Contents (Elt F))
  :: StableHlo.binary main_v299 main_v330 main_v331 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_99 (constantI S_ 32 256#32)
  :: StableHlo.unary main_c_99 main_v332 (broadcastInDim S3x100000 ![] bcast_S_S3x100000 : (⟨S_, .i32⟩ : BufTy).Contents (Elt F) → (⟨S3x100000, .i32⟩ : BufTy).Contents (Elt F))
  :: StableHlo.binary main_v299 main_v332 main_v333 (addi : (⟨S3x100000, .i32⟩ : BufTy).Contents (Elt F) → (⟨S3x100000, .i32⟩ : BufTy).Contents (Elt F) → (⟨S3x100000, .i32⟩ : BufTy).Contents (Elt F))
  :: StableHlo.ternary main_v331 main_v333 main_v299 main_v334 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_100 (constantI S_ 32 0#32)
  :: StableHlo.unary main_c_100 main_v335 (broadcastInDim S3x100000 ![] bcast_S_S3x100000 : (⟨S_, .i32⟩ : BufTy).Contents (Elt F) → (⟨S3x100000, .i32⟩ : BufTy).Contents (Elt F))
  :: StableHlo.binary main_v290 main_v335 main_v336 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_101 (constantI S_ 32 256#32)
  :: StableHlo.unary main_c_101 main_v337 (broadcastInDim S3x100000 ![] bcast_S_S3x100000 : (⟨S_, .i32⟩ : BufTy).Contents (Elt F) → (⟨S3x100000, .i32⟩ : BufTy).Contents (Elt F))
  :: StableHlo.binary main_v290 main_v337 main_v338 (addi : (⟨S3x100000, .i32⟩ : BufTy).Contents (Elt F) → (⟨S3x100000, .i32⟩ : BufTy).Contents (Elt F) → (⟨S3x100000, .i32⟩ : BufTy).Contents (Elt F))
  :: StableHlo.ternary main_v336 main_v338 main_v290 main_v339 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v334 main_v340 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v339 main_v341 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v340 main_v341 main_v342 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg3 main_v342 main_v343 ((fun x i => Host.gather gather_S3x72x256x256_S3x100000x2_S3x72x100000_1_23_0_0_23_2_17211 x i) : (⟨S3x72x256x256, .f32⟩ : BufTy).Contents (Elt F) → (⟨S3x100000x2, .i32⟩ : BufTy).Contents (Elt F) → (⟨S3x72x100000, .f32⟩ : BufTy).Contents (Elt F))
  :: StableHlo.unary main_v343 main_v344 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_102 (constantI S_ 32 0#32)
  :: StableHlo.unary main_c_102 main_v345 (broadcastInDim S3x100000 ![] bcast_S_S3x100000 : (⟨S_, .i32⟩ : BufTy).Contents (Elt F) → (⟨S3x100000, .i32⟩ : BufTy).Contents (Elt F))
  :: StableHlo.binary main_v299 main_v345 main_v346 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_103 (constantI S_ 32 256#32)
  :: StableHlo.unary main_c_103 main_v347 (broadcastInDim S3x100000 ![] bcast_S_S3x100000 : (⟨S_, .i32⟩ : BufTy).Contents (Elt F) → (⟨S3x100000, .i32⟩ : BufTy).Contents (Elt F))
  :: StableHlo.binary main_v299 main_v347 main_v348 (addi : (⟨S3x100000, .i32⟩ : BufTy).Contents (Elt F) → (⟨S3x100000, .i32⟩ : BufTy).Contents (Elt F) → (⟨S3x100000, .i32⟩ : BufTy).Contents (Elt F))
  :: StableHlo.ternary main_v346 main_v348 main_v299 main_v349 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_104 (constantI S_ 32 0#32)
  :: StableHlo.unary main_c_104 main_v350 (broadcastInDim S3x100000 ![] bcast_S_S3x100000 : (⟨S_, .i32⟩ : BufTy).Contents (Elt F) → (⟨S3x100000, .i32⟩ : BufTy).Contents (Elt F))
  :: StableHlo.binary main_v295 main_v350 main_v351 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_105 (constantI S_ 32 256#32)
  :: StableHlo.unary main_c_105 main_v352 (broadcastInDim S3x100000 ![] bcast_S_S3x100000 : (⟨S_, .i32⟩ : BufTy).Contents (Elt F) → (⟨S3x100000, .i32⟩ : BufTy).Contents (Elt F))
  :: StableHlo.binary main_v295 main_v352 main_v353 (addi : (⟨S3x100000, .i32⟩ : BufTy).Contents (Elt F) → (⟨S3x100000, .i32⟩ : BufTy).Contents (Elt F) → (⟨S3x100000, .i32⟩ : BufTy).Contents (Elt F))
  :: StableHlo.ternary main_v351 main_v353 main_v295 main_v354 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v349 main_v355 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v354 main_v356 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v355 main_v356 main_v357 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg3 main_v357 main_v358 ((fun x i => Host.gather gather_S3x72x256x256_S3x100000x2_S3x72x100000_1_23_0_0_23_2_17211 x i) : (⟨S3x72x256x256, .f32⟩ : BufTy).Contents (Elt F) → (⟨S3x100000x2, .i32⟩ : BufTy).Contents (Elt F) → (⟨S3x72x100000, .f32⟩ : BufTy).Contents (Elt F))
  :: StableHlo.unary main_v358 main_v359 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_cst_106 (constant S_ .f32 0x3F800000#32)
  :: StableHlo.unary main_cst_106 main_v360 (broadcastInDim S3x100000x1 ![] bcast_S_S3x100000x1 : (⟨S_, .f32⟩ : BufTy).Contents (Elt F) → (⟨S3x100000x1, .f32⟩ : BufTy).Contents (Elt F))
  :: StableHlo.binary main_v360 main_v287 main_v361 (subf : (⟨S3x100000x1, .f32⟩ : BufTy).Contents (Elt F) → (⟨S3x100000x1, .f32⟩ : BufTy).Contents (Elt F) → (⟨S3x100000x1, .f32⟩ : BufTy).Contents (Elt F))
  :: StableHlo.unary main_v361 main_v362 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v314 main_v362 main_v363 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v287 main_v364 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v329 main_v364 main_v365 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v363 main_v365 main_v366 (addf : (⟨S3x100000x72, .f32⟩ : BufTy).Contents (Elt F) → (⟨S3x100000x72, .f32⟩ : BufTy).Contents (Elt F) → (⟨S3x100000x72, .f32⟩ : BufTy).Contents (Elt F))
  :: StableHlo.nullary main_cst_107 (constant S_ .f32 0x3F800000#32)
  :: StableHlo.unary main_cst_107 main_v367 (broadcastInDim S3x100000x1 ![] bcast_S_S3x100000x1 : (⟨S_, .f32⟩ : BufTy).Contents (Elt F) → (⟨S3x100000x1, .f32⟩ : BufTy).Contents (Elt F))
  :: StableHlo.binary main_v367 main_v287 main_v368 (subf : (⟨S3x100000x1, .f32⟩ : BufTy).Contents (Elt F) → (⟨S3x100000x1, .f32⟩ : BufTy).Contents (Elt F) → (⟨S3x100000x1, .f32⟩ : BufTy).Contents (Elt F))
  :: StableHlo.unary main_v368 main_v369 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: [] )
set_option maxHeartbeats 40000000 in
/-- Each touches TensorCore references only. -/
theorem w7_ops0_sub : (w7_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub ..⟩
set_option maxHeartbeats 40000000 in
/-- None allocates a buffer. -/
theorem w7_ops0_fresh : (w7_ops0 : List (HloOp τ sig (Elt F))).Forall fun op => op.fresh = ∅ := by
  simp only [List.Forall]; repeat' constructor
/-- The references the operations write. -/
abbrev w7_ops0_W : List (Ref sig .tc) := [main_v321, main_c_97, main_v322, main_v323, main_v324, main_v325, main_v326, main_v327, main_v328, main_v329, main_c_98, main_v330, main_v331, main_c_99, main_v332, main_v333, main_v334, main_c_100, main_v335, main_v336, main_c_101, main_v337, main_v338, main_v339, main_v340, main_v341, main_v342, main_v343, main_v344, main_c_102, main_v345, main_v346, main_c_103, main_v347, main_v348, main_v349, main_c_104, main_v350, main_v351, main_c_105, main_v352, main_v353, main_v354, main_v355, main_v356, main_v357, main_v358, main_v359, main_cst_106, main_v360, main_v361, main_v362, main_v363, main_v364, main_v365, main_v366, main_cst_107, main_v367, main_v368, main_v369]
set_option maxHeartbeats 40000000 in
/-- Each writes inside that list. -/
theorem w7_ops0_writes : (w7_ops0 : List (HloOp τ sig (Elt F))).Forall fun op => op.writes ⊆ (w7_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- Window 7 is the chain of its lists' runs, the last in tail position: both sides unfold to the same sequence of steps. -/
theorem main_part7_chain (c : Dev nD) : main_part7 (F := F) c = (Pipeline.chainK
  [  ]
  (StableHlo.seq w7_ops0) : Prog (TpuEff nD τ sig (Elt F) (Pipeline.Sig Λ₀ (Fin 0) fun p => (pcfgs (F := F) p).Adm) .tc) PUnit) := by
  chain_rfl

end Cert.ReferenceIdeal.RefRun

end
-- ==== Proof.RefRun.W8.lean ====
/- The reference program's window main_part8 (@main's statements 481 … 540 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 40000000 in
/-- 39 host operations of @main, window 8, in order. -/
abbrev w8_ops0 : List (HloOp τ sig (Elt F)) :=
  ( StableHlo.binary main_v344 main_v369 main_v370 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v287 main_v371 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v359 main_v371 main_v372 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v370 main_v372 main_v373 (addf : (⟨S3x100000x72, .f32⟩ : BufTy).Contents (Elt F) → (⟨S3x100000x72, .f32⟩ : BufTy).Contents (Elt F) → (⟨S3x100000x72, .f32⟩ : BufTy).Contents (Elt F))
  :: StableHlo.nullary main_cst_108 (constant S_ .f32 0x3F800000#32)
  :: StableHlo.unary main_cst_108 main_v374 (broadcastInDim S3x100000x1 ![] bcast_S_S3x100000x1 : (⟨S_, .f32⟩ : BufTy).Contents (Elt F) → (⟨S3x100000x1, .f32⟩ : BufTy).Contents (Elt F))
  :: StableHlo.binary main_v374 main_v289 main_v375 (subf : (⟨S3x100000x1, .f32⟩ : BufTy).Contents (Elt F) → (⟨S3x100000x1, .f32⟩ : BufTy).Contents (Elt F) → (⟨S3x100000x1, .f32⟩ : BufTy).Contents (Elt F))
  :: StableHlo.unary main_v375 main_v376 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v366 main_v376 main_v377 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v289 main_v378 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v373 main_v378 main_v379 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v377 main_v379 main_v380 (addf : (⟨S3x100000x72, .f32⟩ : BufTy).Contents (Elt F) → (⟨S3x100000x72, .f32⟩ : BufTy).Contents (Elt F) → (⟨S3x100000x72, .f32⟩ : BufTy).Contents (Elt F))
  :: StableHlo.unary main_v380 main_v381 ((transpose S100000x3x72 [1, 0, 2] · transposes_S3x100000x72_S100000x3x72_1_0_2) : (⟨S3x100000x72, .f32⟩ : BufTy).Contents (Elt F) → (⟨S100000x3x72, .f32⟩ : BufTy).Contents (Elt F))
  :: StableHlo.reshape main_v381 main_v382 rfl shapeCasts_S100000x3x72_S100000x216
  :: StableHlo.binary main_v382 main_v265 main_v383 (addf : (⟨S100000x216, .f32⟩ : BufTy).Contents (Elt F) → (⟨S100000x216, .f32⟩ : BufTy).Contents (Elt F) → (⟨S100000x216, .f32⟩ : BufTy).Contents (Elt F))
  :: StableHlo.unary main_v30 main_v384 ((extractStridedSlice S3x100000x1 ![0, 0, 0] · slices_S3x100000x2_S3x100000x1_0_0_0) : (⟨S3x100000x2, .f32⟩ : BufTy).Contents (Elt F) → (⟨S3x100000x1, .f32⟩ : BufTy).Contents (Elt F))
  :: StableHlo.reshape main_v384 main_v385 rfl shapeCasts_S3x100000x1_S3x100000
  :: StableHlo.nullary main_cst_109 (constant S_ .f32 0x3F800000#32)
  :: StableHlo.unary main_cst_109 main_v386 (broadcastInDim S3x100000 ![] bcast_S_S3x100000 : (⟨S_, .f32⟩ : BufTy).Contents (Elt F) → (⟨S3x100000, .f32⟩ : BufTy).Contents (Elt F))
  :: StableHlo.binary main_v385 main_v386 main_v387 (addf : (⟨S3x100000, .f32⟩ : BufTy).Contents (Elt F) → (⟨S3x100000, .f32⟩ : BufTy).Contents (Elt F) → (⟨S3x100000, .f32⟩ : BufTy).Contents (Elt F))
  :: StableHlo.nullary main_cst_110 (constant S_ .f32 0x3F000000#32)
  :: StableHlo.unary main_cst_110 main_v388 (broadcastInDim S3x100000 ![] bcast_S_S3x100000 : (⟨S_, .f32⟩ : BufTy).Contents (Elt F) → (⟨S3x100000, .f32⟩ : BufTy).Contents (Elt F))
  :: StableHlo.binary main_v387 main_v388 main_v389 (mulf : (⟨S3x100000, .f32⟩ : BufTy).Contents (Elt F) → (⟨S3x100000, .f32⟩ : BufTy).Contents (Elt F) → (⟨S3x100000, .f32⟩ : BufTy).Contents (Elt F))
  :: StableHlo.nullary main_cst_111 (constant S_ .f32 0x43FF8000#32)
  :: StableHlo.unary main_cst_111 main_v390 (broadcastInDim S3x100000 ![] bcast_S_S3x100000 : (⟨S_, .f32⟩ : BufTy).Contents (Elt F) → (⟨S3x100000, .f32⟩ : BufTy).Contents (Elt F))
  :: StableHlo.binary main_v389 main_v390 main_v391 (mulf : (⟨S3x100000, .f32⟩ : BufTy).Contents (Elt F) → (⟨S3x100000, .f32⟩ : BufTy).Contents (Elt F) → (⟨S3x100000, .f32⟩ : BufTy).Contents (Elt F))
  :: StableHlo.unary main_v30 main_v392 ((extractStridedSlice S3x100000x1 ![0, 0, 1] · slices_S3x100000x2_S3x100000x1_0_0_1) : (⟨S3x100000x2, .f32⟩ : BufTy).Contents (Elt F) → (⟨S3x100000x1, .f32⟩ : BufTy).Contents (Elt F))
  :: StableHlo.reshape main_v392 main_v393 rfl shapeCasts_S3x100000x1_S3x100000
  :: StableHlo.nullary main_cst_112 (constant S_ .f32 0x3F800000#32)
  :: StableHlo.unary main_cst_112 main_v394 (broadcastInDim S3x100000 ![] bcast_S_S3x100000 : (⟨S_, .f32⟩ : BufTy).Contents (Elt F) → (⟨S3x100000, .f32⟩ : BufTy).Contents (Elt F))
  :: StableHlo.binary main_v393 main_v394 main_v395 (addf : (⟨S3x100000, .f32⟩ : BufTy).Contents (Elt F) → (⟨S3x100000, .f32⟩ : BufTy).Contents (Elt F) → (⟨S3x100000, .f32⟩ : BufTy).Contents (Elt F))
  :: StableHlo.nullary main_cst_113 (constant S_ .f32 0x3F000000#32)
  :: StableHlo.unary main_cst_113 main_v396 (broadcastInDim S3x100000 ![] bcast_S_S3x100000 : (⟨S_, .f32⟩ : BufTy).Contents (Elt F) → (⟨S3x100000, .f32⟩ : BufTy).Contents (Elt F))
  :: StableHlo.binary main_v395 main_v396 main_v397 (mulf : (⟨S3x100000, .f32⟩ : BufTy).Contents (Elt F) → (⟨S3x100000, .f32⟩ : BufTy).Contents (Elt F) → (⟨S3x100000, .f32⟩ : BufTy).Contents (Elt F))
  :: StableHlo.nullary main_cst_114 (constant S_ .f32 0x43FF8000#32)
  :: StableHlo.unary main_cst_114 main_v398 (broadcastInDim S3x100000 ![] bcast_S_S3x100000 : (⟨S_, .f32⟩ : BufTy).Contents (Elt F) → (⟨S3x100000, .f32⟩ : BufTy).Contents (Elt F))
  :: StableHlo.binary main_v397 main_v398 main_v399 (mulf : (⟨S3x100000, .f32⟩ : BufTy).Contents (Elt F) → (⟨S3x100000, .f32⟩ : BufTy).Contents (Elt F) → (⟨S3x100000, .f32⟩ : BufTy).Contents (Elt F))
  :: StableHlo.nullary main_cst_115 (constant S_ .f32 0x00000000#32)
  :: StableHlo.nullary main_c_116 (constantI S_ 32 511#32)
  :: [] )
set_option maxHeartbeats 40000000 in
/-- Each touches TensorCore references only. -/
theorem w8_ops0_sub : (w8_ops0 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩
set_option maxHeartbeats 40000000 in
/-- None allocates a buffer. -/
theorem w8_ops0_fresh : (w8_ops0 : List (HloOp τ sig (Elt F))).Forall fun op => op.fresh = ∅ := by
  simp only [List.Forall]; repeat' constructor
/-- The references the operations write. -/
abbrev w8_ops0_W : List (Ref sig .tc) := [main_v370, main_v371, main_v372, main_v373, main_cst_108, main_v374, main_v375, main_v376, main_v377, main_v378, main_v379, main_v380, main_v381, main_v382, main_v383, main_v384, main_v385, main_cst_109, main_v386, main_v387, main_cst_110, main_v388, main_v389, main_cst_111, main_v390, main_v391, main_v392, main_v393, main_cst_112, main_v394, main_v395, main_cst_113, main_v396, main_v397, main_cst_114, main_v398, main_v399, main_cst_115, main_c_116]
set_option maxHeartbeats 40000000 in
/-- Each writes inside that list. -/
theorem w8_ops0_writes : (w8_ops0 : List (HloOp τ sig (Elt F))).Forall fun op => op.writes ⊆ (w8_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 6 host operations of @clip (main_call6), window 8, in order. -/
abbrev w8_ops1 : List (HloOp τ sig (Elt F)) :=
  [ StableHlo.TRef.unary (.of main_cst_115 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S3x100000, .f32⟩) (broadcastInDim S3x100000 ![] bcast_S_S3x100000),
    StableHlo.TRef.binary (.of main_call6_v1 : StableHlo.TRef sig ⟨S3x100000, .f32⟩) (.of main_v391 : StableHlo.TRef sig ⟨S3x100000, .f32⟩) (.of main_call6_v2 : StableHlo.TRef sig ⟨S3x100000, .f32⟩) maximumf,
    StableHlo.TRef.unary (.of main_c_116 : StableHlo.TRef sig ⟨S_, .i32⟩) (.of main_call6_v3 : StableHlo.TRef sig ⟨S_, .f32⟩) (sitofp .f32),
    StableHlo.TRef.unary (.of main_call6_v3 : StableHlo.TRef sig ⟨S_, .f32⟩) (.of main_call6_v4 : StableHlo.TRef sig ⟨S3x100000, .f32⟩) (broadcastInDim S3x100000 ![] bcast_S_S3x100000),
    StableHlo.TRef.binary (.of main_call6_v4 : StableHlo.TRef sig ⟨S3x100000, .f32⟩) (.of main_call6_v2 : StableHlo.TRef sig ⟨S3x100000, .f32⟩) (.of main_v400 : StableHlo.TRef sig ⟨S3x100000, .f32⟩) minimumf ]
/-- Each touches TensorCore references only. -/
theorem w8_ops1_sub : (w8_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- None allocates a buffer. -/
theorem w8_ops1_fresh : (w8_ops1 : List (HloOp τ sig (Elt F))).Forall fun op => op.fresh = ∅ := by
  simp only [List.Forall]; repeat' constructor
/-- The references the operations write. -/
abbrev w8_ops1_W : List (Ref sig .tc) := [main_call6_v0, main_call6_v1, main_call6_v2, main_call6_v3, main_call6_v4, main_v400]
/-- Each writes inside that list. -/
theorem w8_ops1_writes : (w8_ops1 : List (HloOp τ sig (Elt F))).Forall fun op => op.writes ⊆ (w8_ops1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 2 host operations of @main, window 8, in order. -/
abbrev w8_ops2 : List (HloOp τ sig (Elt F)) :=
  [ StableHlo.nullary main_cst_117 (constant S_ .f32 0x00000000#32),
    StableHlo.nullary main_c_118 (constantI S_ 32 511#32) ]
/-- Each touches TensorCore references only. -/
theorem w8_ops2_sub : (w8_ops2 : List (HloOp τ sig (Elt F))).Forall fun op => op.bufs ⊆ StableHlo.tcRefs τ sig :=
  ⟨StableHlo.nullary_bufs_sub .., StableHlo.nullary_bufs_sub ..⟩
/-- None allocates a buffer. -/
theorem w8_ops2_fresh : (w8_ops2 : List (HloOp τ sig (Elt F))).Forall fun op => op.fresh = ∅ := by
  simp only [List.Forall]; repeat' constructor
/-- The references the operations write. -/
abbrev w8_ops2_W : List (Ref sig .tc) := [main_cst_117, main_c_118]
/-- Each writes inside that list. -/
theorem w8_ops2_writes : (w8_ops2 : List (HloOp τ sig (Elt F))).Forall fun op => op.writes ⊆ (w8_ops2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- 6 host operations of @clip (main_call7), window 8, in order. -/
abbrev w8_ops3 : List (HloOp τ sig (Elt F)) :=
  [ StableHlo.TRef.unary (.of main_cst_117 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S3x100000, .f32⟩) (broadcastInDim S3x100000 ![] bcast_S_S3x100000),
    StableHlo.TRef.binary (.of main_call7_v1 : StableHlo.TRef sig ⟨S3x100000, .f32⟩) (.of main_v399 : StableHlo.TRef sig ⟨S3x100000, .f32⟩) (.of main_call7_v2 : StableHlo.TRef sig ⟨S3x100000, .f32⟩) maximumf,
    StableHlo.TRef.unary (.of main_c_118 : StableHlo.TRef sig ⟨S_, .i32⟩) (.of main_call7_v3 : StableHlo.TRef sig ⟨S_, .f32⟩) (sitofp .f32),
    StableHlo.TRef.unary (.of main_call7_v3 : StableHlo.TRef sig ⟨S_, .f32⟩) (.of main_call7_v4 : StableHlo.TRef sig ⟨S3x100000, .f32⟩) (broadcastInDim S3x100000 ![] bcast_S_S3x100000),
    StableHlo.TRef.binary (.of main_call7_v4 : StableHlo.TRef sig ⟨S3x100000, .f32⟩) (.of main_call7_v2 : StableHlo.TRef sig ⟨S3x100000, .f32⟩) (.of main_v401 : StableHlo.TRef sig ⟨S3x100000, .f32⟩) minimumf ]
/-- Each touches TensorCore references only. -/
theorem w8_ops3_sub : (w8_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- None allocates a buffer. -/
theorem w8_ops3_fresh : (w8_ops3 : List (HloOp τ sig (Elt F))).Forall fun op => op.fresh = ∅ := by
  simp only [List.Forall]; repeat' constructor
/-- The references the operations write. -/
abbrev w8_ops3_W : List (Ref sig .tc) := [main_call7_v0, main_call7_v1, main_call7_v2, main_call7_v3, main_call7_v4, main_v401]
/-- Each writes inside that list. -/
theorem w8_ops3_writes : (w8_ops3 : List (HloOp τ sig (Elt F))).Forall fun op => op.writes ⊆ (w8_ops3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

set_option maxHeartbeats 40000000 in
/-- 17 host operations of @main, window 8, in order. -/
abbrev w8_ops4 : List (HloOp τ sig (Elt F)) :=
  ( StableHlo.unary main_v400 main_v402 (Host.floor : (⟨S3x100000, .f32⟩ : BufTy).Contents (Elt F) → (⟨S3x100000, .f32⟩ : BufTy).Contents (Elt F))
  :: StableHlo.unary main_v401 main_v403 (Host.floor : (⟨S3x100000, .f32⟩ : BufTy).Contents (Elt F) → (⟨S3x100000, .f32⟩ : BufTy).Contents (Elt F))
  :: StableHlo.binary main_v400 main_v402 main_v404 (subf : (⟨S3x100000, .f32⟩ : BufTy).Contents (Elt F) → (⟨S3x100000, .f32⟩ : BufTy).Contents (Elt F) → (⟨S3x100000, .f32⟩ : BufTy).Contents (Elt F))
  :: StableHlo.unary main_v404 main_v405 (broadcastInDim S3x100000x1 ![0, 1] bcast_S3x100000_S3x100000x1_0_1 : (⟨S3x100000, .f32⟩ : BufTy).Contents (Elt F) → (⟨S3x100000x1, .f32⟩ : BufTy).Contents (Elt F))
  :: StableHlo.binary main_v401 main_v403 main_v406 (subf : (⟨S3x100000, .f32⟩ : BufTy).Contents (Elt F) → (⟨S3x100000, .f32⟩ : BufTy).Contents (Elt F) → (⟨S3x100000, .f32⟩ : BufTy).Contents (Elt F))
  :: StableHlo.unary main_v406 main_v407 (broadcastInDim S3x100000x1 ![0, 1] bcast_S3x100000_S3x100000x1_0_1 : (⟨S3x100000, .f32⟩ : BufTy).Contents (Elt F) → (⟨S3x100000x1, .f32⟩ : BufTy).Contents (Elt F))
  :: StableHlo.unary main_v402 main_v408 (fptosi 32 : (⟨S3x100000, .f32⟩ : BufTy).Contents (Elt F) → (⟨S3x100000, .i32⟩ : BufTy).Contents (Elt F))
  :: StableHlo.unary main_v403 main_v409 (fptosi 32 : (⟨S3x100000, .f32⟩ : BufTy).Contents (Elt F) → (⟨S3x100000, .i32⟩ : BufTy).Contents (Elt F))
  :: StableHlo.nullary main_c_119 (constantI S_ 32 1#32)
  :: StableHlo.unary main_c_119 main_v410 (broadcastInDim S3x100000 ![] bcast_S_S3x100000 : (⟨S_, .i32⟩ : BufTy).Contents (Elt F) → (⟨S3x100000, .i32⟩ : BufTy).Contents (Elt F))
  :: StableHlo.binary main_v408 main_v410 main_v411 (addi : (⟨S3x100000, .i32⟩ : BufTy).Contents (Elt F) → (⟨S3x100000, .i32⟩ : BufTy).Contents (Elt F) → (⟨S3x100000, .i32⟩ : BufTy).Contents (Elt F))
  :: StableHlo.nullary main_c_120 (constantI S_ 32 511#32)
  :: StableHlo.unary main_c_120 main_v412 (broadcastInDim S3x100000 ![] bcast_S_S3x100000 : (⟨S_, .i32⟩ : BufTy).Contents (Elt F) → (⟨S3x100000, .i32⟩ : BufTy).Contents (Elt F))
  :: StableHlo.binary main_v411 main_v412 main_v413 (minsi : (⟨S3x100000, .i32⟩ : BufTy).Contents (Elt F) → (⟨S3x100000, .i32⟩ : BufTy).Contents (Elt F) → (⟨S3x100000, .i32⟩ : BufTy).Contents (Elt F))
  :: StableHlo.nullary main_c_121 (constantI S_ 32 1#32)
  :: StableHlo.unary main_c_121 main_v414 (broadcastInDim S3x100000 ![] bcast_S_S3x100000 : (⟨S_, .i32⟩ : BufTy).Contents (Elt F) → (⟨S3x100000, .i32⟩ : BufTy).Contents (Elt F))
  :: StableHlo.binary main_v409 main_v414 main_v415 (addi : (⟨S3x100000, .i32⟩ : BufTy).Contents (Elt F) → (⟨S3x100000, .i32⟩ : BufTy).Contents (Elt F) → (⟨S3x100000, .i32⟩ : BufTy).Contents (Elt F))
  :: [] )
set_option maxHeartbeats 40000000 in
/-- Each touches TensorCore references only. -/
theorem w8_ops4_sub : (w8_ops4 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
set_option maxHeartbeats 40000000 in
/-- None allocates a buffer. -/
theorem w8_ops4_fresh : (w8_ops4 : List (HloOp τ sig (Elt F))).Forall fun op => op.fresh = ∅ := by
  simp only [List.Forall]; repeat' constructor
/-- The references the operations write. -/
abbrev w8_ops4_W : List (Ref sig .tc) := [main_v402, main_v403, main_v404, main_v405, main_v406, main_v407, main_v408, main_v409, main_c_119, main_v410, main_v411, main_c_120, main_v412, main_v413, main_c_121, main_v414, main_v415]
set_option maxHeartbeats 40000000 in
/-- Each writes inside that list. -/
theorem w8_ops4_writes : (w8_ops4 : List (HloOp τ sig (Elt F))).Forall fun op => op.writes ⊆ (w8_ops4_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- Window 8 is the chain of its lists' runs, the last in tail position: both sides unfold to the same sequence of steps. -/
theorem main_part8_chain (c : Dev nD) : main_part8 (F := F) c = (Pipeline.chainK
  [ StableHlo.seq w8_ops0,
    StableHlo.seq w8_ops1,
    StableHlo.seq w8_ops2,
    StableHlo.seq w8_ops3 ]
  (StableHlo.seq w8_ops4) : Prog (TpuEff nD τ sig (Elt F) (Pipeline.Sig Λ₀ (Fin 0) fun p => (pcfgs (F := F) p).Adm) .tc) PUnit) := by
  chain_rfl

end Cert.ReferenceIdeal.RefRun

end
-- ==== Proof.RefRun.W9.lean ====
/- The reference program's window main_part9 (@main's statements 541 … 600 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 40000000 in
/-- 60 host operations of @main, window 9, in order. -/
abbrev w9_ops0 : List (HloOp τ sig (Elt F)) :=
  ( StableHlo.nullary main_c_122 (constantI S_ 32 511#32)
  :: StableHlo.unary main_c_122 main_v416 (broadcastInDim S3x100000 ![] bcast_S_S3x100000 : (⟨S_, .i32⟩ : BufTy).Contents (Elt F) → (⟨S3x100000, .i32⟩ : BufTy).Contents (Elt F))
  :: StableHlo.binary main_v415 main_v416 main_v417 (minsi : (⟨S3x100000, .i32⟩ : BufTy).Contents (Elt F) → (⟨S3x100000, .i32⟩ : BufTy).Contents (Elt F) → (⟨S3x100000, .i32⟩ : BufTy).Contents (Elt F))
  :: StableHlo.nullary main_c_123 (constantI S_ 32 0#32)
  :: StableHlo.unary main_c_123 main_v418 (broadcastInDim S3x100000 ![] bcast_S_S3x100000 : (⟨S_, .i32⟩ : BufTy).Contents (Elt F) → (⟨S3x100000, .i32⟩ : BufTy).Contents (Elt F))
  :: StableHlo.binary main_v409 main_v418 main_v419 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_124 (constantI S_ 32 512#32)
  :: StableHlo.unary main_c_124 main_v420 (broadcastInDim S3x100000 ![] bcast_S_S3x100000 : (⟨S_, .i32⟩ : BufTy).Contents (Elt F) → (⟨S3x100000, .i32⟩ : BufTy).Contents (Elt F))
  :: StableHlo.binary main_v409 main_v420 main_v421 (addi : (⟨S3x100000, .i32⟩ : BufTy).Contents (Elt F) → (⟨S3x100000, .i32⟩ : BufTy).Contents (Elt F) → (⟨S3x100000, .i32⟩ : BufTy).Contents (Elt F))
  :: StableHlo.ternary main_v419 main_v421 main_v409 main_v422 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_125 (constantI S_ 32 0#32)
  :: StableHlo.unary main_c_125 main_v423 (broadcastInDim S3x100000 ![] bcast_S_S3x100000 : (⟨S_, .i32⟩ : BufTy).Contents (Elt F) → (⟨S3x100000, .i32⟩ : BufTy).Contents (Elt F))
  :: StableHlo.binary main_v408 main_v423 main_v424 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_126 (constantI S_ 32 512#32)
  :: StableHlo.unary main_c_126 main_v425 (broadcastInDim S3x100000 ![] bcast_S_S3x100000 : (⟨S_, .i32⟩ : BufTy).Contents (Elt F) → (⟨S3x100000, .i32⟩ : BufTy).Contents (Elt F))
  :: StableHlo.binary main_v408 main_v425 main_v426 (addi : (⟨S3x100000, .i32⟩ : BufTy).Contents (Elt F) → (⟨S3x100000, .i32⟩ : BufTy).Contents (Elt F) → (⟨S3x100000, .i32⟩ : BufTy).Contents (Elt F))
  :: StableHlo.ternary main_v424 main_v426 main_v408 main_v427 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v422 main_v428 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v427 main_v429 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v428 main_v429 main_v430 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg4 main_v430 main_v431 ((fun x i => Host.gather gather_S3x72x512x512_S3x100000x2_S3x72x100000_1_23_0_0_23_2_17211 x i) : (⟨S3x72x512x512, .f32⟩ : BufTy).Contents (Elt F) → (⟨S3x100000x2, .i32⟩ : BufTy).Contents (Elt F) → (⟨S3x72x100000, .f32⟩ : BufTy).Contents (Elt F))
  :: StableHlo.unary main_v431 main_v432 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_127 (constantI S_ 32 0#32)
  :: StableHlo.unary main_c_127 main_v433 (broadcastInDim S3x100000 ![] bcast_S_S3x100000 : (⟨S_, .i32⟩ : BufTy).Contents (Elt F) → (⟨S3x100000, .i32⟩ : BufTy).Contents (Elt F))
  :: StableHlo.binary main_v409 main_v433 main_v434 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_128 (constantI S_ 32 512#32)
  :: StableHlo.unary main_c_128 main_v435 (broadcastInDim S3x100000 ![] bcast_S_S3x100000 : (⟨S_, .i32⟩ : BufTy).Contents (Elt F) → (⟨S3x100000, .i32⟩ : BufTy).Contents (Elt F))
  :: StableHlo.binary main_v409 main_v435 main_v436 (addi : (⟨S3x100000, .i32⟩ : BufTy).Contents (Elt F) → (⟨S3x100000, .i32⟩ : BufTy).Contents (Elt F) → (⟨S3x100000, .i32⟩ : BufTy).Contents (Elt F))
  :: StableHlo.ternary main_v434 main_v436 main_v409 main_v437 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_129 (constantI S_ 32 0#32)
  :: StableHlo.unary main_c_129 main_v438 (broadcastInDim S3x100000 ![] bcast_S_S3x100000 : (⟨S_, .i32⟩ : BufTy).Contents (Elt F) → (⟨S3x100000, .i32⟩ : BufTy).Contents (Elt F))
  :: StableHlo.binary main_v413 main_v438 main_v439 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_130 (constantI S_ 32 512#32)
  :: StableHlo.unary main_c_130 main_v440 (broadcastInDim S3x100000 ![] bcast_S_S3x100000 : (⟨S_, .i32⟩ : BufTy).Contents (Elt F) → (⟨S3x100000, .i32⟩ : BufTy).Contents (Elt F))
  :: StableHlo.binary main_v413 main_v440 main_v441 (addi : (⟨S3x100000, .i32⟩ : BufTy).Contents (Elt F) → (⟨S3x100000, .i32⟩ : BufTy).Contents (Elt F) → (⟨S3x100000, .i32⟩ : BufTy).Contents (Elt F))
  :: StableHlo.ternary main_v439 main_v441 main_v413 main_v442 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v437 main_v443 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v442 main_v444 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v443 main_v444 main_v445 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg4 main_v445 main_v446 ((fun x i => Host.gather gather_S3x72x512x512_S3x100000x2_S3x72x100000_1_23_0_0_23_2_17211 x i) : (⟨S3x72x512x512, .f32⟩ : BufTy).Contents (Elt F) → (⟨S3x100000x2, .i32⟩ : BufTy).Contents (Elt F) → (⟨S3x72x100000, .f32⟩ : BufTy).Contents (Elt F))
  :: StableHlo.unary main_v446 main_v447 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_c_131 (constantI S_ 32 0#32)
  :: StableHlo.unary main_c_131 main_v448 (broadcastInDim S3x100000 ![] bcast_S_S3x100000 : (⟨S_, .i32⟩ : BufTy).Contents (Elt F) → (⟨S3x100000, .i32⟩ : BufTy).Contents (Elt F))
  :: StableHlo.binary main_v417 main_v448 main_v449 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_132 (constantI S_ 32 512#32)
  :: StableHlo.unary main_c_132 main_v450 (broadcastInDim S3x100000 ![] bcast_S_S3x100000 : (⟨S_, .i32⟩ : BufTy).Contents (Elt F) → (⟨S3x100000, .i32⟩ : BufTy).Contents (Elt F))
  :: StableHlo.binary main_v417 main_v450 main_v451 (addi : (⟨S3x100000, .i32⟩ : BufTy).Contents (Elt F) → (⟨S3x100000, .i32⟩ : BufTy).Contents (Elt F) → (⟨S3x100000, .i32⟩ : BufTy).Contents (Elt F))
  :: StableHlo.ternary main_v449 main_v451 main_v417 main_v452 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_133 (constantI S_ 32 0#32)
  :: StableHlo.unary main_c_133 main_v453 (broadcastInDim S3x100000 ![] bcast_S_S3x100000 : (⟨S_, .i32⟩ : BufTy).Contents (Elt F) → (⟨S3x100000, .i32⟩ : BufTy).Contents (Elt F))
  :: StableHlo.binary main_v408 main_v453 main_v454 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_134 (constantI S_ 32 512#32)
  :: StableHlo.unary main_c_134 main_v455 (broadcastInDim S3x100000 ![] bcast_S_S3x100000 : (⟨S_, .i32⟩ : BufTy).Contents (Elt F) → (⟨S3x100000, .i32⟩ : BufTy).Contents (Elt F))
  :: StableHlo.binary main_v408 main_v455 main_v456 (addi : (⟨S3x100000, .i32⟩ : BufTy).Contents (Elt F) → (⟨S3x100000, .i32⟩ : BufTy).Contents (Elt F) → (⟨S3x100000, .i32⟩ : BufTy).Contents (Elt F))
  :: StableHlo.ternary main_v454 main_v456 main_v408 main_v457 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v452 main_v458 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v457 main_v459 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v458 main_v459 main_v460 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg4 main_v460 main_v461 ((fun x i => Host.gather gather_S3x72x512x512_S3x100000x2_S3x72x100000_1_23_0_0_23_2_17211 x i) : (⟨S3x72x512x512, .f32⟩ : BufTy).Contents (Elt F) → (⟨S3x100000x2, .i32⟩ : BufTy).Contents (Elt F) → (⟨S3x72x100000, .f32⟩ : BufTy).Contents (Elt F))
  :: StableHlo.unary main_v461 main_v462 ((transpose S3x100000x72 [0, 2, 1] · transposes_S3x72x100000_S3x100000x72_0_2_1) : (⟨S3x72x100000, .f32⟩ : BufTy).Contents (Elt F) → (⟨S3x100000x72, .f32⟩ : BufTy).Contents (Elt F))
  :: [] )
set_option maxHeartbeats 40000000 in
/-- Each touches TensorCore references only. -/
theorem w9_ops0_sub : (w9_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub ..⟩
set_option maxHeartbeats 40000000 in
/-- None allocates a buffer. -/
theorem w9_ops0_fresh : (w9_ops0 : List (HloOp τ sig (Elt F))).Forall fun op => op.fresh = ∅ := by
  simp only [List.Forall]; repeat' constructor
/-- The references the operations write. -/
abbrev w9_ops0_W : List (Ref sig .tc) := [main_c_122, main_v416, main_v417, main_c_123, main_v418, main_v419, main_c_124, main_v420, main_v421, main_v422, main_c_125, main_v423, main_v424, main_c_126, main_v425, main_v426, main_v427, main_v428, main_v429, main_v430, main_v431, main_v432, main_c_127, main_v433, main_v434, main_c_128, main_v435, main_v436, main_v437, main_c_129, main_v438, main_v439, main_c_130, main_v440, main_v441, main_v442, main_v443, main_v444, main_v445, main_v446, main_v447, main_c_131, main_v448, main_v449, main_c_132, main_v450, main_v451, main_v452, main_c_133, main_v453, main_v454, main_c_134, main_v455, main_v456, main_v457, main_v458, main_v459, main_v460, main_v461, main_v462]
set_option maxHeartbeats 40000000 in
/-- Each writes inside that list. -/
theorem w9_ops0_writes : (w9_ops0 : List (HloOp τ sig (Elt F))).Forall fun op => op.writes ⊆ (w9_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- Window 9 is the chain of its lists' runs, the last in tail position: both sides unfold to the same sequence of steps. -/
theorem main_part9_chain (c : Dev nD) : main_part9 (F := F) c = (Pipeline.chainK
  [  ]
  (StableHlo.seq w9_ops0) : Prog (TpuEff nD τ sig (Elt F) (Pipeline.Sig Λ₀ (Fin 0) fun p => (pcfgs (F := F) p).Adm) .tc) PUnit) := by
  chain_rfl

end Cert.ReferenceIdeal.RefRun

end
-- ==== Proof.RefRun.W10.lean ====
/- The reference program's window main_part10 (@main's statements 601 … 648 of 648) as lists of its host
   operations: one list per stretch of @main's own operations and one per call of a module-local function (the
   function's operations over that call's buffers), so that the window is the chain of the lists' runs; with each
   list: every operation touches TensorCore references only, allocates nothing, and writes inside a listed set. -/
import proofs.«135668_j17884243821138_2_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 40000000 in
/-- 47 host operations of @main, window 10, in order. -/
abbrev w10_ops0 : List (HloOp τ sig (Elt F)) :=
  ( StableHlo.nullary main_c_135 (constantI S_ 32 0#32)
  :: StableHlo.unary main_c_135 main_v463 (broadcastInDim S3x100000 ![] bcast_S_S3x100000 : (⟨S_, .i32⟩ : BufTy).Contents (Elt F) → (⟨S3x100000, .i32⟩ : BufTy).Contents (Elt F))
  :: StableHlo.binary main_v417 main_v463 main_v464 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_136 (constantI S_ 32 512#32)
  :: StableHlo.unary main_c_136 main_v465 (broadcastInDim S3x100000 ![] bcast_S_S3x100000 : (⟨S_, .i32⟩ : BufTy).Contents (Elt F) → (⟨S3x100000, .i32⟩ : BufTy).Contents (Elt F))
  :: StableHlo.binary main_v417 main_v465 main_v466 (addi : (⟨S3x100000, .i32⟩ : BufTy).Contents (Elt F) → (⟨S3x100000, .i32⟩ : BufTy).Contents (Elt F) → (⟨S3x100000, .i32⟩ : BufTy).Contents (Elt F))
  :: StableHlo.ternary main_v464 main_v466 main_v417 main_v467 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.nullary main_c_137 (constantI S_ 32 0#32)
  :: StableHlo.unary main_c_137 main_v468 (broadcastInDim S3x100000 ![] bcast_S_S3x100000 : (⟨S_, .i32⟩ : BufTy).Contents (Elt F) → (⟨S3x100000, .i32⟩ : BufTy).Contents (Elt F))
  :: StableHlo.binary main_v413 main_v468 main_v469 (cmpi .slt : (⟨S3x100000, .i32⟩ : BufTy).Contents (Elt F) → (⟨S3x100000, .i32⟩ : BufTy).Contents (Elt F) → (⟨S3x100000, .i1⟩ : BufTy).Contents (Elt F))
  :: StableHlo.nullary main_c_138 (constantI S_ 32 512#32)
  :: StableHlo.unary main_c_138 main_v470 (broadcastInDim S3x100000 ![] bcast_S_S3x100000 : (⟨S_, .i32⟩ : BufTy).Contents (Elt F) → (⟨S3x100000, .i32⟩ : BufTy).Contents (Elt F))
  :: StableHlo.binary main_v413 main_v470 main_v471 (addi : (⟨S3x100000, .i32⟩ : BufTy).Contents (Elt F) → (⟨S3x100000, .i32⟩ : BufTy).Contents (Elt F) → (⟨S3x100000, .i32⟩ : BufTy).Contents (Elt F))
  :: StableHlo.ternary main_v469 main_v471 main_v413 main_v472 (select : (⟨S3x100000, .i1⟩ : BufTy).Contents (Elt F) → (⟨S3x100000, .i32⟩ : BufTy).Contents (Elt F) → (⟨S3x100000, .i32⟩ : BufTy).Contents (Elt F) → (⟨S3x100000, .i32⟩ : BufTy).Contents (Elt F))
  :: StableHlo.unary main_v467 main_v473 (broadcastInDim S3x100000x1 ![0, 1] bcast_S3x100000_S3x100000x1_0_1 : (⟨S3x100000, .i32⟩ : BufTy).Contents (Elt F) → (⟨S3x100000x1, .i32⟩ : BufTy).Contents (Elt F))
  :: StableHlo.unary main_v472 main_v474 (broadcastInDim S3x100000x1 ![0, 1] bcast_S3x100000_S3x100000x1_0_1 : (⟨S3x100000, .i32⟩ : BufTy).Contents (Elt F) → (⟨S3x100000x1, .i32⟩ : BufTy).Contents (Elt F))
  :: StableHlo.binary main_v473 main_v474 main_v475 ((fun a b => concatenate S3x100000x2 2 [⟨S3x100000x1, a⟩, ⟨S3x100000x1, b⟩] concatenates_S3x100000x1_S3x100000x1_S3x100000x2_d2) : (⟨S3x100000x1, .i32⟩ : BufTy).Contents (Elt F) → (⟨S3x100000x1, .i32⟩ : BufTy).Contents (Elt F) → (⟨S3x100000x2, .i32⟩ : BufTy).Contents (Elt F))
  :: StableHlo.binary main_arg4 main_v475 main_v476 ((fun x i => Host.gather gather_S3x72x512x512_S3x100000x2_S3x72x100000_1_23_0_0_23_2_17211 x i) : (⟨S3x72x512x512, .f32⟩ : BufTy).Contents (Elt F) → (⟨S3x100000x2, .i32⟩ : BufTy).Contents (Elt F) → (⟨S3x72x100000, .f32⟩ : BufTy).Contents (Elt F))
  :: StableHlo.unary main_v476 main_v477 ((transpose S3x100000x72 [0, 2, 1] · transposes_S3x72x100000_S3x100000x72_0_2_1) : (⟨S3x72x100000, .f32⟩ : BufTy).Contents (Elt F) → (⟨S3x100000x72, .f32⟩ : BufTy).Contents (Elt F))
  :: StableHlo.nullary main_cst_139 (constant S_ .f32 0x3F800000#32)
  :: StableHlo.unary main_cst_139 main_v478 (broadcastInDim S3x100000x1 ![] bcast_S_S3x100000x1 : (⟨S_, .f32⟩ : BufTy).Contents (Elt F) → (⟨S3x100000x1, .f32⟩ : BufTy).Contents (Elt F))
  :: StableHlo.binary main_v478 main_v405 main_v479 (subf : (⟨S3x100000x1, .f32⟩ : BufTy).Contents (Elt F) → (⟨S3x100000x1, .f32⟩ : BufTy).Contents (Elt F) → (⟨S3x100000x1, .f32⟩ : BufTy).Contents (Elt F))
  :: StableHlo.unary main_v479 main_v480 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v432 main_v480 main_v481 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v405 main_v482 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v447 main_v482 main_v483 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v481 main_v483 main_v484 (addf : (⟨S3x100000x72, .f32⟩ : BufTy).Contents (Elt F) → (⟨S3x100000x72, .f32⟩ : BufTy).Contents (Elt F) → (⟨S3x100000x72, .f32⟩ : BufTy).Contents (Elt F))
  :: StableHlo.nullary main_cst_140 (constant S_ .f32 0x3F800000#32)
  :: StableHlo.unary main_cst_140 main_v485 (broadcastInDim S3x100000x1 ![] bcast_S_S3x100000x1 : (⟨S_, .f32⟩ : BufTy).Contents (Elt F) → (⟨S3x100000x1, .f32⟩ : BufTy).Contents (Elt F))
  :: StableHlo.binary main_v485 main_v405 main_v486 (subf : (⟨S3x100000x1, .f32⟩ : BufTy).Contents (Elt F) → (⟨S3x100000x1, .f32⟩ : BufTy).Contents (Elt F) → (⟨S3x100000x1, .f32⟩ : BufTy).Contents (Elt F))
  :: StableHlo.unary main_v486 main_v487 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v462 main_v487 main_v488 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v405 main_v489 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v477 main_v489 main_v490 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v488 main_v490 main_v491 (addf : (⟨S3x100000x72, .f32⟩ : BufTy).Contents (Elt F) → (⟨S3x100000x72, .f32⟩ : BufTy).Contents (Elt F) → (⟨S3x100000x72, .f32⟩ : BufTy).Contents (Elt F))
  :: StableHlo.nullary main_cst_141 (constant S_ .f32 0x3F800000#32)
  :: StableHlo.unary main_cst_141 main_v492 (broadcastInDim S3x100000x1 ![] bcast_S_S3x100000x1 : (⟨S_, .f32⟩ : BufTy).Contents (Elt F) → (⟨S3x100000x1, .f32⟩ : BufTy).Contents (Elt F))
  :: StableHlo.binary main_v492 main_v407 main_v493 (subf : (⟨S3x100000x1, .f32⟩ : BufTy).Contents (Elt F) → (⟨S3x100000x1, .f32⟩ : BufTy).Contents (Elt F) → (⟨S3x100000x1, .f32⟩ : BufTy).Contents (Elt F))
  :: StableHlo.unary main_v493 main_v494 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v484 main_v494 main_v495 (mulf : (⟨S3x100000x72, .f32⟩ : BufTy).Contents (Elt F) → (⟨S3x100000x72, .f32⟩ : BufTy).Contents (Elt F) → (⟨S3x100000x72, .f32⟩ : BufTy).Contents (Elt F))
  :: StableHlo.unary main_v407 main_v496 (broadcastInDim S3x100000x72 ![0, 1, 2] bcast_S3x100000x1_S3x100000x72_0_1_2 : (⟨S3x100000x1, .f32⟩ : BufTy).Contents (Elt F) → (⟨S3x100000x72, .f32⟩ : BufTy).Contents (Elt F))
  :: StableHlo.binary main_v491 main_v496 main_v497 (mulf : (⟨S3x100000x72, .f32⟩ : BufTy).Contents (Elt F) → (⟨S3x100000x72, .f32⟩ : BufTy).Contents (Elt F) → (⟨S3x100000x72, .f32⟩ : BufTy).Contents (Elt F))
  :: StableHlo.binary main_v495 main_v497 main_v498 (addf : (⟨S3x100000x72, .f32⟩ : BufTy).Contents (Elt F) → (⟨S3x100000x72, .f32⟩ : BufTy).Contents (Elt F) → (⟨S3x100000x72, .f32⟩ : BufTy).Contents (Elt F))
  :: StableHlo.unary main_v498 main_v499 ((transpose S100000x3x72 [1, 0, 2] · transposes_S3x100000x72_S100000x3x72_1_0_2) : (⟨S3x100000x72, .f32⟩ : BufTy).Contents (Elt F) → (⟨S100000x3x72, .f32⟩ : BufTy).Contents (Elt F))
  :: StableHlo.reshape main_v499 main_v500 rfl shapeCasts_S100000x3x72_S100000x216
  :: StableHlo.binary main_v500 main_v383 main_v501 (addf : (⟨S100000x216, .f32⟩ : BufTy).Contents (Elt F) → (⟨S100000x216, .f32⟩ : BufTy).Contents (Elt F) → (⟨S100000x216, .f32⟩ : BufTy).Contents (Elt F))
  :: StableHlo.nary ![main_v147, main_v265, main_v383, main_v501] main_v502 (fun u => concatenate S100000x864 1 [⟨S100000x216, u 0⟩, ⟨S100000x216, u 1⟩, ⟨S100000x216, u 2⟩, ⟨S100000x216, u 3⟩] concatenates_S100000x216_S100000x216_S100000x216_S100000x216_S100000x864_d1)
  :: [] )
set_option maxHeartbeats 40000000 in
/-- Each touches TensorCore references only. -/
theorem w10_ops0_sub : (w10_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.nary_bufs_sub ..⟩
set_option maxHeartbeats 40000000 in
/-- None allocates a buffer. -/
theorem w10_ops0_fresh : (w10_ops0 : List (HloOp τ sig (Elt F))).Forall fun op => op.fresh = ∅ := by
  simp only [List.Forall]; repeat' constructor
/-- The references the operations write. -/
abbrev w10_ops0_W : List (Ref sig .tc) := [main_c_135, main_v463, main_v464, main_c_136, main_v465, main_v466, main_v467, main_c_137, main_v468, main_v469, main_c_138, main_v470, main_v471, main_v472, main_v473, main_v474, main_v475, main_v476, main_v477, main_cst_139, main_v478, main_v479, main_v480, main_v481, main_v482, main_v483, main_v484, main_cst_140, main_v485, main_v486, main_v487, main_v488, main_v489, main_v490, main_v491, main_cst_141, main_v492, main_v493, main_v494, main_v495, main_v496, main_v497, main_v498, main_v499, main_v500, main_v501, main_v502]
set_option maxHeartbeats 40000000 in
/-- Each writes inside that list. -/
theorem w10_ops0_writes : (w10_ops0 : List (HloOp τ sig (Elt F))).Forall fun op => op.writes ⊆ (w10_ops0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))⟩

/-- The last window is the chain of its lists' runs: both sides unfold to the same sequence of steps. -/
theorem main_part10_chain (c : Dev nD) : main_part10 (F := F) c = (Pipeline.chain
  [ StableHlo.seq w10_ops0 ] : Prog (TpuEff nD τ sig (Elt F) (Pipeline.Sig Λ₀ (Fin 0) fun p => (pcfgs (F := F) p).Adm) .tc) PUnit) := by
  chain_rfl

end Cert.ReferenceIdeal.RefRun

end
-- ==== Proof.RefRun.lean ====
/- The reference program's @main as ONE list of its 687 host operations (a call of a module-local function is the
   function's operations over that call's buffers, in place) and its run: @main is the straight line of that list,
   so from any memory with zero counters every weakly fair execution terminates with each TensorCore buffer at the
   fold of the operations' results over its launch contents (`after ops`); no operation writes an argument, so the
   arguments end unchanged. The list is the concatenation of the per-window lists of the modules imported here. -/
import proofs.«135668_j17884243821138_2_alg».proof.Proof.RefRun.W0
import proofs.«135668_j17884243821138_2_alg».proof.Proof.RefRun.W1
import proofs.«135668_j17884243821138_2_alg».proof.Proof.RefRun.W2
import proofs.«135668_j17884243821138_2_alg».proof.Proof.RefRun.W3
import proofs.«135668_j17884243821138_2_alg».proof.Proof.RefRun.W4
import proofs.«135668_j17884243821138_2_alg».proof.Proof.RefRun.W5
import proofs.«135668_j17884243821138_2_alg».proof.Proof.RefRun.W6
import proofs.«135668_j17884243821138_2_alg».proof.Proof.RefRun.W7
import proofs.«135668_j17884243821138_2_alg».proof.Proof.RefRun.W8
import proofs.«135668_j17884243821138_2_alg».proof.Proof.RefRun.W9
import proofs.«135668_j17884243821138_2_alg».proof.Proof.RefRun.W10

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## Lists of lists of operations -/

section Lists

variable {n : Nat} {t : Topo} {s : RefSig} {Val : EltTy → Type} {Λ : Labels}

/-- The chain of the runs of some lists of operations is the run of their concatenation. -/
theorem chain_map_seq : ∀ Ls : List (List (HloOp t s Val)),
    Pipeline.chain (Ls.map fun L => (seq L : Prog (TpuEff n t s Val Λ .tc) PUnit)) = seq Ls.flatten
  | [] => rfl
  | L :: Ls => by
    rw [List.map_cons, Pipeline.chain_cons, chain_map_seq Ls, List.flatten_cons, seq_append]

/-- What holds of every element of every list holds of every element of their concatenation. -/
theorem forall_flatten {α : Type _} {p : α → Prop} {Ls : List (List α)} (h : Ls.Forall fun L => L.Forall p) :
    Ls.flatten.Forall p := by
  refine List.forall_iff_forall_mem.mpr fun a ha => ?_
  obtain ⟨L, hL, haL⟩ := List.mem_flatten.mp ha
  exact List.forall_iff_forall_mem.mp (List.forall_iff_forall_mem.mp h L hL) a haL

/-- Lists of operations that write inside given lists of references, one for one: their concatenation writes inside
    the concatenation of the references. -/
theorem writes_flatten {Ls : List (List (HloOp t s Val))} {Ws : List (List (Ref s .tc))}
    (h : List.Forall₂ (fun L W => L.Forall fun op => op.writes ⊆ (W.map (Proc.devRef (τ := t) .tc)).toFinset) Ls Ws) :
    Ls.flatten.Forall fun op => op.writes ⊆ (Ws.flatten.map (Proc.devRef (τ := t) .tc)).toFinset := by
  induction h with
  | nil => exact trivial
  | @cons L W Ls Ws hLW _ ih =>
    rw [List.flatten_cons, List.flatten_cons]
    refine List.forall_iff_forall_mem.mpr fun op hop => ?_
    rcases List.mem_append.mp hop with hop | hop
    · exact (List.forall_iff_forall_mem.mp hLW op hop).trans fun x hx => by
        rw [List.map_append, List.toFinset_append]; exact Finset.mem_union_left _ hx
    · exact (List.forall_iff_forall_mem.mp ih op hop).trans fun x hx => by
        rw [List.map_append, List.toFinset_append]; exact Finset.mem_union_right _ hx

end Lists

variable {F : FTy → Type} [FloatOps F]

/-! ## @main as one list -/

/-- @main's 687 operations, in order: the windows' lists, concatenated. -/
abbrev ops : List (HloOp τ sig (Elt F)) :=
  List.flatten
    [ w0_ops0,
    w1_ops0,
    w1_ops1,
    w1_ops2,
    w1_ops3,
    w1_ops4,
    w2_ops0,
    w3_ops0,
    w3_ops1,
    w3_ops2,
    w3_ops3,
    w3_ops4,
    w4_ops0,
    w5_ops0,
    w6_ops0,
    w6_ops1,
    w6_ops2,
    w6_ops3,
    w6_ops4,
    w7_ops0,
    w8_ops0,
    w8_ops1,
    w8_ops2,
    w8_ops3,
    w8_ops4,
    w9_ops0,
    w10_ops0 ]

/-- The references @main's operations write, in order. -/
abbrev opsW : List (Ref sig .tc) :=
  List.flatten
    [ w0_ops0_W,
    w1_ops0_W,
    w1_ops1_W,
    w1_ops2_W,
    w1_ops3_W,
    w1_ops4_W,
    w2_ops0_W,
    w3_ops0_W,
    w3_ops1_W,
    w3_ops2_W,
    w3_ops3_W,
    w3_ops4_W,
    w4_ops0_W,
    w5_ops0_W,
    w6_ops0_W,
    w6_ops1_W,
    w6_ops2_W,
    w6_ops3_W,
    w6_ops4_W,
    w7_ops0_W,
    w8_ops0_W,
    w8_ops1_W,
    w8_ops2_W,
    w8_ops3_W,
    w8_ops4_W,
    w9_ops0_W,
    w10_ops0_W ]

/-- @main is the chain of its windows' lists' runs: each window is the chain of its own, and a window followed by the
    chain of the rest is the chain of all. -/
theorem main_chain (c : Dev nD) : main (F := F) c = (Pipeline.chain
    [ seq w0_ops0,
    seq w1_ops0,
    seq w1_ops1,
    seq w1_ops2,
    seq w1_ops3,
    seq w1_ops4,
    seq w2_ops0,
    seq w3_ops0,
    seq w3_ops1,
    seq w3_ops2,
    seq w3_ops3,
    seq w3_ops4,
    seq w4_ops0,
    seq w5_ops0,
    seq w6_ops0,
    seq w6_ops1,
    seq w6_ops2,
    seq w6_ops3,
    seq w6_ops4,
    seq w7_ops0,
    seq w8_ops0,
    seq w8_ops1,
    seq w8_ops2,
    seq w8_ops3,
    seq w8_ops4,
    seq w9_ops0,
    seq w10_ops0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c) = _
  rewrite [main_part10_chain, main_part9_chain, Pipeline.chainK_bind_chain, main_part8_chain, Pipeline.chainK_bind_chain, main_part7_chain, Pipeline.chainK_bind_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

/-- @main is the straight line of its operations. -/
theorem main_eq (c : Dev nD) : main (F := F) c = seq ops :=
  (main_chain c).trans (chain_map_seq
    [ w0_ops0,
    w1_ops0,
    w1_ops1,
    w1_ops2,
    w1_ops3,
    w1_ops4,
    w2_ops0,
    w3_ops0,
    w3_ops1,
    w3_ops2,
    w3_ops3,
    w3_ops4,
    w4_ops0,
    w5_ops0,
    w6_ops0,
    w6_ops1,
    w6_ops2,
    w6_ops3,
    w6_ops4,
    w7_ops0,
    w8_ops0,
    w8_ops1,
    w8_ops2,
    w8_ops3,
    w8_ops4,
    w9_ops0,
    w10_ops0 ])

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_flatten ⟨w0_ops0_sub, w1_ops0_sub, w1_ops1_sub, w1_ops2_sub, w1_ops3_sub, w1_ops4_sub, w2_ops0_sub, w3_ops0_sub, w3_ops1_sub, w3_ops2_sub, w3_ops3_sub, w3_ops4_sub, w4_ops0_sub, w5_ops0_sub, w6_ops0_sub, w6_ops1_sub, w6_ops2_sub, w6_ops3_sub, w6_ops4_sub, w7_ops0_sub, w8_ops0_sub, w8_ops1_sub, w8_ops2_sub, w8_ops3_sub, w8_ops4_sub, w9_ops0_sub, w10_ops0_sub⟩

/-- No operation allocates a buffer. -/
theorem ops_fresh : (ops : List (HloOp τ sig (Elt F))).Forall fun op => op.fresh = ∅ :=
  forall_flatten ⟨w0_ops0_fresh, w1_ops0_fresh, w1_ops1_fresh, w1_ops2_fresh, w1_ops3_fresh, w1_ops4_fresh, w2_ops0_fresh, w3_ops0_fresh, w3_ops1_fresh, w3_ops2_fresh, w3_ops3_fresh, w3_ops4_fresh, w4_ops0_fresh, w5_ops0_fresh, w6_ops0_fresh, w6_ops1_fresh, w6_ops2_fresh, w6_ops3_fresh, w6_ops4_fresh, w7_ops0_fresh, w8_ops0_fresh, w8_ops1_fresh, w8_ops2_fresh, w8_ops3_fresh, w8_ops4_fresh, w9_ops0_fresh, w10_ops0_fresh⟩

/-- Every operation writes inside `opsW`. -/
theorem ops_writes : (ops : List (HloOp τ sig (Elt F))).Forall fun op => op.writes ⊆ (opsW.map (Proc.devRef (τ := τ) .tc)).toFinset :=
  writes_flatten (.cons w0_ops0_writes (.cons w1_ops0_writes (.cons w1_ops1_writes (.cons w1_ops2_writes (.cons w1_ops3_writes (.cons w1_ops4_writes (.cons w2_ops0_writes (.cons w3_ops0_writes (.cons w3_ops1_writes (.cons w3_ops2_writes (.cons w3_ops3_writes (.cons w3_ops4_writes (.cons w4_ops0_writes (.cons w5_ops0_writes (.cons w6_ops0_writes (.cons w6_ops1_writes (.cons w6_ops2_writes (.cons w6_ops3_writes (.cons w6_ops4_writes (.cons w7_ops0_writes (.cons w8_ops0_writes (.cons w8_ops1_writes (.cons w8_ops2_writes (.cons w8_ops3_writes (.cons w8_ops4_writes (.cons w9_ops0_writes (.cons w10_ops0_writes (.nil))))))))))))))))))))))))))))

/-! ## The run -/

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-! ## The arguments are kept -/

/-- A reference no operation writes keeps its contents through @main. -/
theorem kept (V : Valuation τ sig (Elt F)) (r : Ref sig .tc) (h : r ∉ opsW) :
    after ops V (Proc.devRef .tc r) = V (Proc.devRef .tc r) :=
  after_of_writes_sub ops V ops_writes h

theorem kept_arg0 (V : Valuation τ sig (Elt F)) :
    after ops V (Proc.devRef .tc main_arg0) = V (Proc.devRef .tc main_arg0) := kept V main_arg0 (by decide)
theorem kept_arg1 (V : Valuation τ sig (Elt F)) :
    after ops V (Proc.devRef .tc main_arg1) = V (Proc.devRef .tc main_arg1) := kept V main_arg1 (by decide)
theorem kept_arg2 (V : Valuation τ sig (Elt F)) :
    after ops V (Proc.devRef .tc main_arg2) = V (Proc.devRef .tc main_arg2) := kept V main_arg2 (by decide)
theorem kept_arg3 (V : Valuation τ sig (Elt F)) :
    after ops V (Proc.devRef .tc main_arg3) = V (Proc.devRef .tc main_arg3) := kept V main_arg3 (by decide)
theorem kept_arg4 (V : Valuation τ sig (Elt F)) :
    after ops V (Proc.devRef .tc main_arg4) = V (Proc.devRef .tc main_arg4) := kept V main_arg4 (by decide)

/-- On every device, for any float values, from any memory with zero counters: every weakly fair execution of @main
    terminates with the five arguments unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_arg0).trans (kept_arg0 _), (h c main_arg1).trans (kept_arg1 _), (h c main_arg2).trans (kept_arg2 _), (h c main_arg3).trans (kept_arg3 _), (h c main_arg4).trans (kept_arg4 _)⟩)
    (run_all m ρ)

end Cert.ReferenceIdeal.RefRun

end
-- ==== Proof.Spec.lean ====
/-
  The tri-plane sampler's result as one function of its per-scale corner values and weights, and the one law that joins
  the two programs.

  For each of the four scales `s`, each of the three planes `p`, each point `n` and each of the 72 channels `c` there are
  four corner values a00, a01, a10, a11 and, per scale, plane and point, two fractional weights wx, wy. The bilinear
  sample is
      samp s p n c = (a00·(1 − wx) + a01·wx)·(1 − wy) + (a10·(1 − wx) + a11·wx)·wy.
  The kernel accumulates the scales into a buffer it first sets to zero:  ((0 + samp 0) + samp 1) + … ;
  the reference adds each new scale in front of the running sum:          samp s + (… + samp 0).
  Addition of extended reals is commutative and associative and 0 is its unit — at infinite values too — so the two running
  sums are equal at every scale; no finiteness is needed. The result array has, at point `n` and column
  `k = 216·s + 72·p + c`, the running sum up to scale `s` at `(p, n, c)`.
-/
import Idealize.ShloMosaic.PureOps.Ideal

noncomputable section

namespace Cert.Tri

/-- The bilinear blend of four corner values by two weights; `one` is the programs' literal 1.0. -/
def blend (one a00 a01 a10 a11 wx wy : EReal) : EReal :=
  (a00 * (one - wx) + a01 * wx) * (one - wy) + (a10 * (one - wx) + a11 * wx) * wy

variable (samp : ℕ → EReal)

/-- The kernel's running sum over the scales: a zeroed accumulator, each scale added on the right. -/
def accK : ℕ → EReal
  | 0 => 0 + samp 0
  | s + 1 => accK s + samp (s + 1)

/-- The reference's running sum: each new scale added in front of the previous sum. -/
def accR : ℕ → EReal
  | 0 => samp 0
  | s + 1 => samp (s + 1) + accR s

/-- The two running sums agree at every scale. -/
theorem accK_eq_accR : ∀ s, accK samp s = accR samp s
  | 0 => by simp [accK, accR]
  | s + 1 => by rw [accK, accR, accK_eq_accR s, add_comm]

end Cert.Tri

end
-- ==== Proof.KI.ValPay.lean ====
/-
  The kernel body's arithmetic read at one element. Each of the three planes' stores writes, at row `r` and channel `ch`
  of its 72-column strip, what the scratch held there plus the bilinear blend of the four corner blocks by the two weight
  blocks at (plane, r, ch) — the weights at (plane, r, 0), broadcast along the channels.
-/
import proofs.«135668_j17884243821138_2_alg».proof.Proof.KI.Frame
import proofs.«135668_j17884243821138_2_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

/-- The programs' literal 1.0 as it reads over the extended reals (the word is kept, never evaluated). -/
abbrev ONE : EReal := (Scalar.ofBits .f32 0x3F800000#32 : Ideal .f32)

/-! ## Layout operations of the body at an element -/

/-- A [1,1,a,b] vector viewed [a,b] reads (0,0,i,j) at (i,j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A [1000,1] column broadcast along 72 channels reads (r,0) at (r,ch). -/
theorem broadcastTo_col_apply {α : Type} (v : S1000x1.Idx → α) (h : S1000x1.Broadcasts S1000x72) (r : Fin 1000) (ch : Fin 72) :
    broadcastTo S1000x72 v h (ix2 r ch) = v (ix2 r (0 : Fin 1)) :=
  broadcastTo_apply v h _ _ (fun a => by
    match a with
    | ⟨0, _⟩ => rfl
    | ⟨1, _⟩ => rfl)

/-- A load of plane `p` of a [1,3,1000,72] block reads the block at (0,p,r,ch). -/
theorem ld_plane72 {Val : EltTy → Type} {e : EltTy} (X : S1x3x1000x72.Idx → Val e) (off : Fin 4 → ℕ) (inb : ∀ a, off a + S1x1x1000x72.size a ≤ S1x3x1000x72.size a)
    (p : Fin 3) (hoff : off = ![0, p.val, 0, 0]) (r : Fin 1000) (ch : Fin 72) :
    View.ld X (Rect.unit (s := S1x3x1000x72) off S1x1x1000x72.size inb) (ix4 (0 : Fin 1) (0 : Fin 1) r ch) = X (ix4 (0 : Fin 1) p r ch) := by
  subst hoff
  refine congrArg X (funext fun a => Fin.ext ?_)
  match a with
  | ⟨0, _⟩ => show 0 + 1 * 0 = 0; rfl
  | ⟨1, _⟩ => show p.val + 1 * 0 = p.val; omega
  | ⟨2, _⟩ => show 0 + 1 * r.val = r.val; omega
  | ⟨3, _⟩ => show 0 + 1 * ch.val = ch.val; omega

/-- A load of plane `p` of a [1,3,1000,1] block reads the block at (0,p,r,0). -/
theorem ld_plane1 {Val : EltTy → Type} {e : EltTy} (X : S1x3x1000x1.Idx → Val e) (off : Fin 4 → ℕ) (inb : ∀ a, off a + S1x1x1000x1.size a ≤ S1x3x1000x1.size a)
    (p : Fin 3) (hoff : off = ![0, p.val, 0, 0]) (r : Fin 1000) :
    View.ld X (Rect.unit (s := S1x3x1000x1) off S1x1x1000x1.size inb) (ix4 (0 : Fin 1) (0 : Fin 1) r (0 : Fin 1)) = X (ix4 (0 : Fin 1) p r (0 : Fin 1)) := by
  subst hoff
  refine congrArg X (funext fun a => Fin.ext ?_)
  match a with
  | ⟨0, _⟩ => show 0 + 1 * 0 = 0; rfl
  | ⟨1, _⟩ => show p.val + 1 * 0 = p.val; omega
  | ⟨2, _⟩ => show 0 + 1 * r.val = r.val; omega
  | ⟨3, _⟩ => show 0 + 1 * 0 = 0; rfl

/-- A corner block's plane, loaded and viewed [1000,72], at (r,ch). -/
theorem corner_apply (X : Vec Ideal S1x3x1000x72 .f32) (off : Fin 4 → ℕ) (inb : ∀ a, off a + S1x1x1000x72.size a ≤ S1x3x1000x72.size a)
    (p : Fin 3) (hoff : off = ![0, p.val, 0, 0]) (r : Fin 1000) (ch : Fin 72) :
    shapeCast S1000x72 (View.ld X (Rect.unit (s := S1x3x1000x72) off S1x1x1000x72.size inb)) shapeCasts_S1x1x1000x72_S1000x72 (ix2 r ch)
      = X (ix4 (0 : Fin 1) p r ch) :=
  (shapeCast_11ab_ab_apply _ _ r ch).trans (ld_plane72 X off inb p hoff r ch)

/-- A weight block's plane, loaded and viewed [1000,1], at (r,0). -/
theorem weight_apply (X : Vec Ideal S1x3x1000x1 .f32) (off : Fin 4 → ℕ) (inb : ∀ a, off a + S1x1x1000x1.size a ≤ S1x3x1000x1.size a)
    (p : Fin 3) (hoff : off = ![0, p.val, 0, 0]) (r : Fin 1000) :
    shapeCast S1000x1 (View.ld X (Rect.unit (s := S1x3x1000x1) off S1x1x1000x1.size inb)) shapeCasts_S1x1x1000x1_S1000x1 (ix2 r (0 : Fin 1))
      = X (ix4 (0 : Fin 1) p r (0 : Fin 1)) :=
  (shapeCast_11ab_ab_apply _ _ r (0 : Fin 1)).trans (ld_plane1 X off inb p hoff r)

/-- The blend of the six blocks at plane `p`, row `r`, channel `ch`. -/
def bl (x0 x1 x2 x3 : Vec Ideal S1x3x1000x72 .f32) (x4 x5 : Vec Ideal S1x3x1000x1 .f32) (p : Fin 3) (r : Fin 1000) (ch : Fin 72) : EReal :=
  Cert.Tri.blend ONE (x0 (ix4 (0 : Fin 1) p r ch)) (x1 (ix4 (0 : Fin 1) p r ch)) (x2 (ix4 (0 : Fin 1) p r ch)) (x3 (ix4 (0 : Fin 1) p r ch))
    (x4 (ix4 (0 : Fin 1) p r (0 : Fin 1))) (x5 (ix4 (0 : Fin 1) p r (0 : Fin 1)))

section Planes

variable (x0 x1 x2 x3 : Vec Ideal S1x3x1000x72 .f32) (x4 x5 : Vec Ideal S1x3x1000x1 .f32) (a : Vec Ideal S1000x72 .f32)
  (r : Fin 1000) (ch : Fin 72)

local notation "R72_" p => Rect.unit (s := S1x3x1000x72) ![0, p, 0, 0] S1x1x1000x72.size
local notation "R1_" p => Rect.unit (s := S1x3x1000x1) ![0, p, 0, 0] S1x1x1000x1.size

/-- Plane 0's store: the scratch strip plus the blend. -/
theorem pay_plane0 :
    k0_pay8 (k0_pay5 (View.ld x5 ((R1_ 0) inb_S1x3x1000x1_S1x1x1000x1_0_0_0_0)))
        (k0_pay6 (View.ld x0 ((R72_ 0) inb_S1x3x1000x72_S1x1x1000x72_0_0_0_0)) (View.ld x1 ((R72_ 0) inb_S1x3x1000x72_S1x1x1000x72_0_0_0_0)) (View.ld x4 ((R1_ 0) inb_S1x3x1000x1_S1x1x1000x1_0_0_0_0)))
        (k0_pay7 (View.ld x2 ((R72_ 0) inb_S1x3x1000x72_S1x1x1000x72_0_0_0_0)) (View.ld x3 ((R72_ 0) inb_S1x3x1000x72_S1x1x1000x72_0_0_0_0)) (View.ld x4 ((R1_ 0) inb_S1x3x1000x1_S1x1x1000x1_0_0_0_0)))
        a (ix2 r ch)
      = a (ix2 r ch) + bl x0 x1 x2 x3 x4 x5 0 r ch := by
  unfold k0_pay8 k0_pay5 k0_pay6 k0_pay7 k0_pay4 bl Cert.Tri.blend
  simp only [addf_apply, mulf_apply, subf_apply, broadcast_apply, shapeCast_self, broadcastTo_col_apply]
  rw [corner_apply x0 _ inb_S1x3x1000x72_S1x1x1000x72_0_0_0_0 0 rfl r ch, corner_apply x1 _ inb_S1x3x1000x72_S1x1x1000x72_0_0_0_0 0 rfl r ch, corner_apply x2 _ inb_S1x3x1000x72_S1x1x1000x72_0_0_0_0 0 rfl r ch,
    corner_apply x3 _ inb_S1x3x1000x72_S1x1x1000x72_0_0_0_0 0 rfl r ch, weight_apply x4 _ inb_S1x3x1000x1_S1x1x1000x1_0_0_0_0 0 rfl r, weight_apply x5 _ inb_S1x3x1000x1_S1x1x1000x1_0_0_0_0 0 rfl r]

/-- Plane 1's store: the scratch strip plus the blend. -/
theorem pay_plane1 :
    k0_pay16 (k0_pay9 (View.ld x1 ((R72_ 1) inb_S1x3x1000x72_S1x1x1000x72_0_1_0_0))) (k0_pay10 (View.ld x2 ((R72_ 1) inb_S1x3x1000x72_S1x1x1000x72_0_1_0_0))) (k0_pay11 (View.ld x3 ((R72_ 1) inb_S1x3x1000x72_S1x1x1000x72_0_1_0_0)))
        (k0_pay12 (View.ld x4 ((R1_ 1) inb_S1x3x1000x1_S1x1x1000x1_0_1_0_0))) (k0_pay13 (View.ld x5 ((R1_ 1) inb_S1x3x1000x1_S1x1x1000x1_0_1_0_0)))
        (k0_pay14 (View.ld x0 ((R72_ 1) inb_S1x3x1000x72_S1x1x1000x72_0_1_0_0)) (View.ld x4 ((R1_ 1) inb_S1x3x1000x1_S1x1x1000x1_0_1_0_0))) (k0_pay15 (View.ld x4 ((R1_ 1) inb_S1x3x1000x1_S1x1x1000x1_0_1_0_0)))
        a (ix2 r ch)
      = a (ix2 r ch) + bl x0 x1 x2 x3 x4 x5 1 r ch := by
  unfold k0_pay16 k0_pay9 k0_pay10 k0_pay11 k0_pay12 k0_pay13 k0_pay14 k0_pay15 k0_pay12 bl Cert.Tri.blend
  simp only [addf_apply, mulf_apply, subf_apply, broadcast_apply, shapeCast_self, broadcastTo_col_apply]
  rw [corner_apply x0 _ inb_S1x3x1000x72_S1x1x1000x72_0_1_0_0 1 rfl r ch, corner_apply x1 _ inb_S1x3x1000x72_S1x1x1000x72_0_1_0_0 1 rfl r ch, corner_apply x2 _ inb_S1x3x1000x72_S1x1x1000x72_0_1_0_0 1 rfl r ch,
    corner_apply x3 _ inb_S1x3x1000x72_S1x1x1000x72_0_1_0_0 1 rfl r ch, weight_apply x4 _ inb_S1x3x1000x1_S1x1x1000x1_0_1_0_0 1 rfl r, weight_apply x5 _ inb_S1x3x1000x1_S1x1x1000x1_0_1_0_0 1 rfl r]

/-- Plane 2's store: the scratch strip plus the blend. -/
theorem pay_plane2 :
    k0_pay1 (k0_pay17 (View.ld x0 ((R72_ 2) inb_S1x3x1000x72_S1x1x1000x72_0_2_0_0))) (k0_pay18 (View.ld x1 ((R72_ 2) inb_S1x3x1000x72_S1x1x1000x72_0_2_0_0))) (k0_pay19 (View.ld x2 ((R72_ 2) inb_S1x3x1000x72_S1x1x1000x72_0_2_0_0))) (k0_pay20 (View.ld x3 ((R72_ 2) inb_S1x3x1000x72_S1x1x1000x72_0_2_0_0)))
        (k0_pay21 (View.ld x4 ((R1_ 2) inb_S1x3x1000x1_S1x1x1000x1_0_2_0_0))) (View.ld x5 ((R1_ 2) inb_S1x3x1000x1_S1x1x1000x1_0_2_0_0))
        a (ix2 r ch)
      = a (ix2 r ch) + bl x0 x1 x2 x3 x4 x5 2 r ch := by
  unfold k0_pay1 k0_pay17 k0_pay18 k0_pay19 k0_pay20 k0_pay21 bl Cert.Tri.blend
  simp only [addf_apply, mulf_apply, subf_apply, broadcast_apply, shapeCast_self, broadcastTo_col_apply]
  rw [corner_apply x0 _ inb_S1x3x1000x72_S1x1x1000x72_0_2_0_0 2 rfl r ch, corner_apply x1 _ inb_S1x3x1000x72_S1x1x1000x72_0_2_0_0 2 rfl r ch, corner_apply x2 _ inb_S1x3x1000x72_S1x1x1000x72_0_2_0_0 2 rfl r ch,
    corner_apply x3 _ inb_S1x3x1000x72_S1x1x1000x72_0_2_0_0 2 rfl r ch, weight_apply x4 _ inb_S1x3x1000x1_S1x1x1000x1_0_2_0_0 2 rfl r, weight_apply x5 _ inb_S1x3x1000x1_S1x1x1000x1_0_2_0_0 2 rfl r]

end Planes

end Cert.KernelIdeal.Val
end
-- ==== Proof.KI.ValPiece.lean ====
/-
  The scratch as its three column strips. The body stores the [1000,216] scratch in three strips of 72 columns, at
  columns 0, 72 and 144 — after one store of the whole scratch at the points that zero it. Read back at (r, j), what the
  strips' stores leave is the store of strip j / 72 at (r, j % 72); and a strip loaded before its own store reads what was
  there before: the whole earlier store, none of the other strips reaching it.
-/
import proofs.«135668_j17884243821138_2_alg».proof.Proof.KI.Frame
import Idealize.ShloMosaic.Lib.Pipeline.Value
import Idealize.ShloMosaic.Lib.Pipeline.CanonAppend
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section Strips

variable {Val : EltTy → Type} [∀ e, Nonempty (Val e)]

/-- Where strip `o`'s element (r, ch) sits in the scratch: (r, o + ch). -/
theorem strip_idx (o : ℕ) (inb : ∀ a, (![0, o] : Fin 2 → ℕ) a + S1000x72.size a ≤ S1000x216.size a) (r : Fin 1000) (ch : Fin 72) (h : o + ch.val < 216) :
    (Rect.unit (s := S1000x216) ![0, o] S1000x72.size inb).idx (ix2 r ch) = ix2 r (⟨o + ch.val, h⟩ : Fin 216) :=
  funext fun a => Fin.ext (by
    match a with
    | ⟨0, _⟩ => show 0 + 1 * r.val = r.val; omega
    | ⟨1, _⟩ => show o + 1 * ch.val = o + ch.val; omega)

/-- An element (r, j) is in strip `o` exactly when o ≤ j < o + 72. -/
theorem mem_strip (o : ℕ) (inb : ∀ a, (![0, o] : Fin 2 → ℕ) a + S1000x72.size a ≤ S1000x216.size a) (r : Fin 1000) (j : Fin 216) :
    ix2 r j ∈ (Rect.unit (s := S1000x216) ![0, o] S1000x72.size inb).set ↔ o ≤ j.val ∧ j.val < o + 72 := by
  rw [Rect.mem_set_unit]
  constructor
  · intro h; exact h ⟨1, by decide⟩
  · intro h a
    match a with
    | ⟨0, _⟩ => exact ⟨Nat.zero_le _, by show r.val < 0 + 1000; omega⟩
    | ⟨1, _⟩ => exact h

/-- The three strips cover the scratch. -/
theorem strips_cover (P2 P1 P0 : S1000x72.Idx → Val .f32) (y : S1000x216.Idx) :
    ∃ p ∈ ([⟨(Rect.unit (s := S1000x216) ![0, 144] S1000x72.size inb_S1000x216_S1000x72_0_144), P2⟩, ⟨(Rect.unit (s := S1000x216) ![0, 72] S1000x72.size inb_S1000x216_S1000x72_0_72), P1⟩, ⟨(Rect.unit (s := S1000x216) ![0, 0] S1000x72.size inb_S1000x216_S1000x72_0_0), P0⟩] : List (View.Piece Val S1000x216 .f32)), y ∈ p.1.set := by
  obtain ⟨r, j, rfl⟩ : ∃ (r : Fin 1000) (j : Fin 216), y = ix2 r j := ⟨y 0, y 1, eq_ix2 y⟩
  have hj := j.isLt
  by_cases h1 : j.val < 72
  · refine ⟨⟨(Rect.unit (s := S1000x216) ![0, 0] S1000x72.size inb_S1000x216_S1000x72_0_0), P0⟩, List.mem_cons_of_mem _ (List.mem_cons_of_mem _ List.mem_cons_self), ?_⟩
    show ix2 r j ∈ (Rect.unit (s := S1000x216) ![0, 0] S1000x72.size inb_S1000x216_S1000x72_0_0).set
    rw [mem_strip 0 inb_S1000x216_S1000x72_0_0 r j]; omega
  · by_cases h2 : j.val < 144
    · refine ⟨⟨(Rect.unit (s := S1000x216) ![0, 72] S1000x72.size inb_S1000x216_S1000x72_0_72), P1⟩, List.mem_cons_of_mem _ List.mem_cons_self, ?_⟩
      show ix2 r j ∈ (Rect.unit (s := S1000x216) ![0, 72] S1000x72.size inb_S1000x216_S1000x72_0_72).set
      rw [mem_strip 72 inb_S1000x216_S1000x72_0_72 r j]; omega
    · refine ⟨⟨(Rect.unit (s := S1000x216) ![0, 144] S1000x72.size inb_S1000x216_S1000x72_0_144), P2⟩, List.mem_cons_self, ?_⟩
      show ix2 r j ∈ (Rect.unit (s := S1000x216) ![0, 144] S1000x72.size inb_S1000x216_S1000x72_0_144).set
      rw [mem_strip 144 inb_S1000x216_S1000x72_0_144 r j]; omega

/-- Three strip stores, each a block of one function `G` of the scratch's index, leave `G` — whatever was stored before. -/
theorem canon_strips (G : S1000x216.Idx → Val .f32) (P2 P1 P0 : S1000x72.Idx → Val .f32) (L' : List (View.Piece Val S1000x216 .f32))
    (h2 : ∀ (r : Fin 1000) (ch : Fin 72), P2 (ix2 r ch) = G (ix2 r (⟨144 + ch.val, by omega⟩ : Fin 216)))
    (h1 : ∀ (r : Fin 1000) (ch : Fin 72), P1 (ix2 r ch) = G (ix2 r (⟨72 + ch.val, by omega⟩ : Fin 216)))
    (h0 : ∀ (r : Fin 1000) (ch : Fin 72), P0 (ix2 r ch) = G (ix2 r (⟨0 + ch.val, by omega⟩ : Fin 216)))
    (y : S1000x216.Idx) :
    View.canon (⟨(Rect.unit (s := S1000x216) ![0, 144] S1000x72.size inb_S1000x216_S1000x72_0_144), P2⟩ :: ⟨(Rect.unit (s := S1000x216) ![0, 72] S1000x72.size inb_S1000x216_S1000x72_0_72), P1⟩ :: ⟨(Rect.unit (s := S1000x216) ![0, 0] S1000x72.size inb_S1000x216_S1000x72_0_0), P0⟩ :: L') y = G y := by
  refine View.canon_append_of_pieces G L' [⟨(Rect.unit (s := S1000x216) ![0, 144] S1000x72.size inb_S1000x216_S1000x72_0_144), P2⟩, ⟨(Rect.unit (s := S1000x216) ![0, 72] S1000x72.size inb_S1000x216_S1000x72_0_72), P1⟩, ⟨(Rect.unit (s := S1000x216) ![0, 0] S1000x72.size inb_S1000x216_S1000x72_0_0), P0⟩] ?_ y (strips_cover P2 P1 P0 y)
  intro p hp
  simp only [List.mem_cons, List.mem_nil_iff, or_false] at hp
  rcases hp with rfl | rfl | rfl
  · intro x
    obtain ⟨r, ch, rfl⟩ : ∃ (r : Fin 1000) (ch : Fin 72), x = ix2 r ch := ⟨x 0, x 1, eq_ix2 x⟩
    exact (h2 r ch).trans (congrArg G (strip_idx 144 inb_S1000x216_S1000x72_0_144 r ch _).symm)
  · intro x
    obtain ⟨r, ch, rfl⟩ : ∃ (r : Fin 1000) (ch : Fin 72), x = ix2 r ch := ⟨x 0, x 1, eq_ix2 x⟩
    exact (h1 r ch).trans (congrArg G (strip_idx 72 inb_S1000x216_S1000x72_0_72 r ch _).symm)
  · intro x
    obtain ⟨r, ch, rfl⟩ : ∃ (r : Fin 1000) (ch : Fin 72), x = ix2 r ch := ⟨x 0, x 1, eq_ix2 x⟩
    exact (h0 r ch).trans (congrArg G (strip_idx 0 inb_S1000x216_S1000x72_0_0 r ch _).symm)

variable {sig : RefSig} {κ : Kind} {sp : Space} (v : View sig κ sp S1000x216 .f32)

/-- Strip 0 loaded after the whole store reads that store. -/
theorem readCov_first0 (Z : S1000x216.Idx → Val .f32) (r : Fin 1000) (ch : Fin 72) :
    v.readCov [⟨(Rect.unit (s := S1000x216) ![0, 0] S1000x216.size inb_S1000x216_S1000x216_0_0), Z⟩] (Rect.unit (s := S1000x216) ![0, 0] S1000x72.size inb_S1000x216_S1000x72_0_0).toLoadRect (ix2 r ch) = Z (ix2 r (⟨0 + ch.val, by omega⟩ : Fin 216)) := by
  rw [View.readCov_eq_canon']
  show View.canon _ ((Rect.unit (s := S1000x216) ![0, 0] S1000x72.size inb_S1000x216_S1000x72_0_0).idx (ix2 r ch)) = _
  rw [View.canon_unit_zero hz2, strip_idx 0 inb_S1000x216_S1000x72_0_0 r ch (by omega)]

/-- Strip 1 loaded after the whole store and strip 0's reads the whole store. -/
theorem readCov_first1 (Z : S1000x216.Idx → Val .f32) (P0 : S1000x72.Idx → Val .f32) (r : Fin 1000) (ch : Fin 72) :
    v.readCov [⟨(Rect.unit (s := S1000x216) ![0, 0] S1000x72.size inb_S1000x216_S1000x72_0_0), P0⟩, ⟨(Rect.unit (s := S1000x216) ![0, 0] S1000x216.size inb_S1000x216_S1000x216_0_0), Z⟩] (Rect.unit (s := S1000x216) ![0, 72] S1000x72.size inb_S1000x216_S1000x72_0_72).toLoadRect (ix2 r ch) = Z (ix2 r (⟨72 + ch.val, by omega⟩ : Fin 216)) := by
  rw [View.readCov_eq_canon']
  show View.canon _ ((Rect.unit (s := S1000x216) ![0, 72] S1000x72.size inb_S1000x216_S1000x72_0_72).idx (ix2 r ch)) = _
  rw [strip_idx 72 inb_S1000x216_S1000x72_0_72 r ch (by omega), View.canon_cons_of_not_mem _ _ (by rw [mem_strip 0 inb_S1000x216_S1000x72_0_0]; show ¬(0 ≤ 72 + ch.val ∧ 72 + ch.val < 0 + 72); omega),
    View.canon_unit_zero hz2]

/-- Strip 2 loaded after the whole store and strips 0 and 1's reads the whole store. -/
theorem readCov_first2 (Z : S1000x216.Idx → Val .f32) (P1 P0 : S1000x72.Idx → Val .f32) (r : Fin 1000) (ch : Fin 72) :
    v.readCov [⟨(Rect.unit (s := S1000x216) ![0, 72] S1000x72.size inb_S1000x216_S1000x72_0_72), P1⟩, ⟨(Rect.unit (s := S1000x216) ![0, 0] S1000x72.size inb_S1000x216_S1000x72_0_0), P0⟩, ⟨(Rect.unit (s := S1000x216) ![0, 0] S1000x216.size inb_S1000x216_S1000x216_0_0), Z⟩] (Rect.unit (s := S1000x216) ![0, 144] S1000x72.size inb_S1000x216_S1000x72_0_144).toLoadRect (ix2 r ch) = Z (ix2 r (⟨144 + ch.val, by omega⟩ : Fin 216)) := by
  rw [View.readCov_eq_canon']
  show View.canon _ ((Rect.unit (s := S1000x216) ![0, 144] S1000x72.size inb_S1000x216_S1000x72_0_144).idx (ix2 r ch)) = _
  rw [strip_idx 144 inb_S1000x216_S1000x72_0_144 r ch (by omega), View.canon_cons_of_not_mem _ _ (by rw [mem_strip 72 inb_S1000x216_S1000x72_0_72]; show ¬(72 ≤ 144 + ch.val ∧ 144 + ch.val < 72 + 72); omega),
    View.canon_cons_of_not_mem _ _ (by rw [mem_strip 0 inb_S1000x216_S1000x72_0_0]; show ¬(0 ≤ 144 + ch.val ∧ 144 + ch.val < 0 + 72); omega),
    View.canon_unit_zero hz2]

/-- The whole scratch loaded after any stores reads what they leave. -/
theorem readCov_whole (L : List (View.Piece Val S1000x216 .f32)) (r : Fin 1000) (j : Fin 216) :
    v.readCov L (Rect.unit (s := S1000x216) ![0, 0] S1000x216.size inb_S1000x216_S1000x216_0_0).toLoadRect (ix2 r j) = View.canon L (ix2 r j) := by
  rw [View.readCov_eq_canon']
  show View.canon _ ((Rect.unit (s := S1000x216) ![0, 0] S1000x216.size inb_S1000x216_S1000x216_0_0).idx (ix2 r j)) = _
  refine congrArg (View.canon L) (funext fun a => Fin.ext ?_)
  match a with
  | ⟨0, _⟩ => show 0 + 1 * r.val = r.val; omega
  | ⟨1, _⟩ => show 0 + 1 * j.val = j.val; omega

/-- A strip of untouched contents, loaded, reads them at (r, o + ch). -/
theorem ld_strip (X : S1000x216.Idx → Val .f32) (o : ℕ) (inb : ∀ a, (![0, o] : Fin 2 → ℕ) a + S1000x72.size a ≤ S1000x216.size a)
    (r : Fin 1000) (ch : Fin 72) (h : o + ch.val < 216) :
    View.ld X (Rect.unit (s := S1000x216) ![0, o] S1000x72.size inb) (ix2 r ch) = X (ix2 r (⟨o + ch.val, h⟩ : Fin 216)) :=
  congrArg X (strip_idx o inb r ch h)

end Strips

end Cert.KernelIdeal.Val
end
-- ==== Proof.KI.ValCase.lean ====
/-
  What each of the body's two cases leaves, read at one element. Where the point zeroes the scratch first (grid
  coordinate 1 zero) the scratch and the output block end at 0 + the blend of the point's six input blocks; elsewhere at
  what the scratch held + that blend. The element (r, j) of the [1000,216] scratch belongs to plane j / 72, channel j % 72.
-/
import proofs.«135668_j17884243821138_2_alg».proof.Proof.KI.ValPay
import proofs.«135668_j17884243821138_2_alg».proof.Proof.KI.ValPiece
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

section Cases

variable (x0 x1 x2 x3 : Vec Ideal S1x3x1000x72 .f32) (x4 x5 : Vec Ideal S1x3x1000x1 .f32)

/-- The blend at the scratch's element (r, j): plane j / 72, channel j % 72. -/
def blAt (r : Fin 1000) (j : Fin 216) : EReal :=
  bl x0 x1 x2 x3 x4 x5 ⟨j.val / 72, by have := j.isLt; omega⟩ r ⟨j.val % 72, Nat.mod_lt _ (by decide)⟩

theorem bl_congr {p p' : Fin 3} {ch ch' : Fin 72} (hp : p = p') (hc : ch = ch') (r : Fin 1000) :
    bl x0 x1 x2 x3 x4 x5 p r ch = bl x0 x1 x2 x3 x4 x5 p' r ch' := by subst hp; subst hc; rfl

local notation "R72_" p => Rect.unit (s := S1x3x1000x72) ![0, p, 0, 0] S1x1x1000x72.size
local notation "R1_" p => Rect.unit (s := S1x3x1000x1) ![0, p, 0, 0] S1x1x1000x1.size

/-- The three strips' stored values, over the six blocks and the strip `a` of the scratch loaded just before. -/
abbrev P0 (a : Vec Ideal S1000x72 .f32) : FVec Ideal S1000x72 .f32 :=
  k0_pay8 (k0_pay5 (View.ld x5 ((R1_ 0) inb_S1x3x1000x1_S1x1x1000x1_0_0_0_0)))
    (k0_pay6 (View.ld x0 ((R72_ 0) inb_S1x3x1000x72_S1x1x1000x72_0_0_0_0)) (View.ld x1 ((R72_ 0) inb_S1x3x1000x72_S1x1x1000x72_0_0_0_0)) (View.ld x4 ((R1_ 0) inb_S1x3x1000x1_S1x1x1000x1_0_0_0_0)))
    (k0_pay7 (View.ld x2 ((R72_ 0) inb_S1x3x1000x72_S1x1x1000x72_0_0_0_0)) (View.ld x3 ((R72_ 0) inb_S1x3x1000x72_S1x1x1000x72_0_0_0_0)) (View.ld x4 ((R1_ 0) inb_S1x3x1000x1_S1x1x1000x1_0_0_0_0))) a
abbrev P1 (a : Vec Ideal S1000x72 .f32) : FVec Ideal S1000x72 .f32 :=
  k0_pay16 (k0_pay9 (View.ld x1 ((R72_ 1) inb_S1x3x1000x72_S1x1x1000x72_0_1_0_0))) (k0_pay10 (View.ld x2 ((R72_ 1) inb_S1x3x1000x72_S1x1x1000x72_0_1_0_0))) (k0_pay11 (View.ld x3 ((R72_ 1) inb_S1x3x1000x72_S1x1x1000x72_0_1_0_0)))
    (k0_pay12 (View.ld x4 ((R1_ 1) inb_S1x3x1000x1_S1x1x1000x1_0_1_0_0))) (k0_pay13 (View.ld x5 ((R1_ 1) inb_S1x3x1000x1_S1x1x1000x1_0_1_0_0)))
    (k0_pay14 (View.ld x0 ((R72_ 1) inb_S1x3x1000x72_S1x1x1000x72_0_1_0_0)) (View.ld x4 ((R1_ 1) inb_S1x3x1000x1_S1x1x1000x1_0_1_0_0))) (k0_pay15 (View.ld x4 ((R1_ 1) inb_S1x3x1000x1_S1x1x1000x1_0_1_0_0))) a
abbrev P2 (a : Vec Ideal S1000x72 .f32) : FVec Ideal S1000x72 .f32 :=
  k0_pay1 (k0_pay17 (View.ld x0 ((R72_ 2) inb_S1x3x1000x72_S1x1x1000x72_0_2_0_0))) (k0_pay18 (View.ld x1 ((R72_ 2) inb_S1x3x1000x72_S1x1x1000x72_0_2_0_0))) (k0_pay19 (View.ld x2 ((R72_ 2) inb_S1x3x1000x72_S1x1x1000x72_0_2_0_0))) (k0_pay20 (View.ld x3 ((R72_ 2) inb_S1x3x1000x72_S1x1x1000x72_0_2_0_0)))
    (k0_pay21 (View.ld x4 ((R1_ 2) inb_S1x3x1000x1_S1x1x1000x1_0_2_0_0))) (View.ld x5 ((R1_ 2) inb_S1x3x1000x1_S1x1x1000x1_0_2_0_0)) a

/-- The zero store's value at any element. -/
theorem pay3_apply (y : S1000x216.Idx) : (k0_pay3 (F := Ideal)) y = 0 := by
  unfold k0_pay3
  simp only [shapeCast_self, broadcast_apply]
  exact Ideal.ofBits_zero_f32

/-- The adding case's three strip stores, over a scratch that held `xs0`: at (r, j), `xs0` there plus the blend. -/
theorem strips_B (xs0 : Vec Ideal S1000x216 .f32) (r : Fin 1000) (j : Fin 216) :
    View.canon [⟨(Rect.unit (s := S1000x216) ![0, 144] S1000x72.size inb_S1000x216_S1000x72_0_144), P2 x0 x1 x2 x3 x4 x5 (View.ld xs0 (Rect.unit (s := S1000x216) ![0, 144] S1000x72.size inb_S1000x216_S1000x72_0_144))⟩, ⟨(Rect.unit (s := S1000x216) ![0, 72] S1000x72.size inb_S1000x216_S1000x72_0_72), P1 x0 x1 x2 x3 x4 x5 (View.ld xs0 (Rect.unit (s := S1000x216) ![0, 72] S1000x72.size inb_S1000x216_S1000x72_0_72))⟩, ⟨(Rect.unit (s := S1000x216) ![0, 0] S1000x72.size inb_S1000x216_S1000x72_0_0), P0 x0 x1 x2 x3 x4 x5 (View.ld xs0 (Rect.unit (s := S1000x216) ![0, 0] S1000x72.size inb_S1000x216_S1000x72_0_0))⟩] (ix2 r j)
      = xs0 (ix2 r j) + blAt x0 x1 x2 x3 x4 x5 r j := by
  refine canon_strips (fun y => xs0 y + blAt x0 x1 x2 x3 x4 x5 ⟨(y 0).val, idx2_lt0 y⟩ ⟨(y 1).val, idx2_lt1 y⟩) _ _ _ [] ?_ ?_ ?_ (ix2 r j)
  · intro r ch
    exact (pay_plane2 x0 x1 x2 x3 x4 x5 _ r ch).trans (congrArg₂ (· + ·) (ld_strip xs0 144 inb_S1000x216_S1000x72_0_144 r ch _) (bl_congr x0 x1 x2 x3 x4 x5 (Fin.ext (by show 2 = (144 + ch.val) / 72; omega)) (Fin.ext (by show ch.val = (144 + ch.val) % 72; omega)) r))
  · intro r ch
    exact (pay_plane1 x0 x1 x2 x3 x4 x5 _ r ch).trans (congrArg₂ (· + ·) (ld_strip xs0 72 inb_S1000x216_S1000x72_0_72 r ch _) (bl_congr x0 x1 x2 x3 x4 x5 (Fin.ext (by show 1 = (72 + ch.val) / 72; omega)) (Fin.ext (by show ch.val = (72 + ch.val) % 72; omega)) r))
  · intro r ch
    exact (pay_plane0 x0 x1 x2 x3 x4 x5 _ r ch).trans (congrArg₂ (· + ·) (ld_strip xs0 0 inb_S1000x216_S1000x72_0_0 r ch _) (bl_congr x0 x1 x2 x3 x4 x5 (Fin.ext (by show 0 = (0 + ch.val) / 72; omega)) (Fin.ext (by show ch.val = (0 + ch.val) % 72; omega)) r))

variable {sig' : RefSig} {κ' : Kind} {sp' : Space} (v : View sig' κ' sp' S1000x216 .f32)

/-- The zeroing case's stores — the whole scratch zeroed, then the three strips, each loaded back before its store —
    leave, at (r, j), 0 plus the blend: each strip's load reads the zero store, whatever the earlier strips' stores `q0`, `q1`. -/
theorem strips_A (q0 q1 : S1000x72.Idx → Elt Ideal .f32) (r : Fin 1000) (j : Fin 216) :
    View.canon (Val := Elt Ideal) (s := S1000x216) (e := .f32)
        [⟨(Rect.unit (s := S1000x216) ![0, 144] S1000x72.size inb_S1000x216_S1000x72_0_144), P2 x0 x1 x2 x3 x4 x5 (v.readCov (Val := Elt Ideal) [⟨(Rect.unit (s := S1000x216) ![0, 72] S1000x72.size inb_S1000x216_S1000x72_0_72), q1⟩, ⟨(Rect.unit (s := S1000x216) ![0, 0] S1000x72.size inb_S1000x216_S1000x72_0_0), q0⟩, ⟨(Rect.unit (s := S1000x216) ![0, 0] S1000x216.size inb_S1000x216_S1000x216_0_0), (k0_pay3 (F := Ideal))⟩] (Rect.unit (s := S1000x216) ![0, 144] S1000x72.size inb_S1000x216_S1000x72_0_144).toLoadRect)⟩,
         ⟨(Rect.unit (s := S1000x216) ![0, 72] S1000x72.size inb_S1000x216_S1000x72_0_72), P1 x0 x1 x2 x3 x4 x5 (v.readCov (Val := Elt Ideal) [⟨(Rect.unit (s := S1000x216) ![0, 0] S1000x72.size inb_S1000x216_S1000x72_0_0), q0⟩, ⟨(Rect.unit (s := S1000x216) ![0, 0] S1000x216.size inb_S1000x216_S1000x216_0_0), (k0_pay3 (F := Ideal))⟩] (Rect.unit (s := S1000x216) ![0, 72] S1000x72.size inb_S1000x216_S1000x72_0_72).toLoadRect)⟩,
         ⟨(Rect.unit (s := S1000x216) ![0, 0] S1000x72.size inb_S1000x216_S1000x72_0_0), P0 x0 x1 x2 x3 x4 x5 (v.readCov (Val := Elt Ideal) [⟨(Rect.unit (s := S1000x216) ![0, 0] S1000x216.size inb_S1000x216_S1000x216_0_0), (k0_pay3 (F := Ideal))⟩] (Rect.unit (s := S1000x216) ![0, 0] S1000x72.size inb_S1000x216_S1000x72_0_0).toLoadRect)⟩,
         ⟨(Rect.unit (s := S1000x216) ![0, 0] S1000x216.size inb_S1000x216_S1000x216_0_0), (k0_pay3 (F := Ideal))⟩] (ix2 r j)
      = 0 + blAt x0 x1 x2 x3 x4 x5 r j := by
  refine canon_strips (Val := Elt Ideal) (fun y => 0 + blAt x0 x1 x2 x3 x4 x5 ⟨(y 0).val, idx2_lt0 y⟩ ⟨(y 1).val, idx2_lt1 y⟩)
    (P2 x0 x1 x2 x3 x4 x5 (v.readCov (Val := Elt Ideal) [⟨(Rect.unit (s := S1000x216) ![0, 72] S1000x72.size inb_S1000x216_S1000x72_0_72), q1⟩, ⟨(Rect.unit (s := S1000x216) ![0, 0] S1000x72.size inb_S1000x216_S1000x72_0_0), q0⟩, ⟨(Rect.unit (s := S1000x216) ![0, 0] S1000x216.size inb_S1000x216_S1000x216_0_0), (k0_pay3 (F := Ideal))⟩] (Rect.unit (s := S1000x216) ![0, 144] S1000x72.size inb_S1000x216_S1000x72_0_144).toLoadRect))
    (P1 x0 x1 x2 x3 x4 x5 (v.readCov (Val := Elt Ideal) [⟨(Rect.unit (s := S1000x216) ![0, 0] S1000x72.size inb_S1000x216_S1000x72_0_0), q0⟩, ⟨(Rect.unit (s := S1000x216) ![0, 0] S1000x216.size inb_S1000x216_S1000x216_0_0), (k0_pay3 (F := Ideal))⟩] (Rect.unit (s := S1000x216) ![0, 72] S1000x72.size inb_S1000x216_S1000x72_0_72).toLoadRect))
    (P0 x0 x1 x2 x3 x4 x5 (v.readCov (Val := Elt Ideal) [⟨(Rect.unit (s := S1000x216) ![0, 0] S1000x216.size inb_S1000x216_S1000x216_0_0), (k0_pay3 (F := Ideal))⟩] (Rect.unit (s := S1000x216) ![0, 0] S1000x72.size inb_S1000x216_S1000x72_0_0).toLoadRect))
    [⟨(Rect.unit (s := S1000x216) ![0, 0] S1000x216.size inb_S1000x216_S1000x216_0_0), (k0_pay3 (F := Ideal))⟩] ?_ ?_ ?_ (ix2 r j)
  · intro r ch
    refine (pay_plane2 x0 x1 x2 x3 x4 x5 _ r ch).trans (congrArg₂ (· + ·) ?_ (bl_congr x0 x1 x2 x3 x4 x5 (Fin.ext (by show 2 = (144 + ch.val) / 72; omega)) (Fin.ext (by show ch.val = (144 + ch.val) % 72; omega)) r))
    exact (readCov_first2 v _ q1 q0 r ch).trans (pay3_apply _)
  · intro r ch
    refine (pay_plane1 x0 x1 x2 x3 x4 x5 _ r ch).trans (congrArg₂ (· + ·) ?_ (bl_congr x0 x1 x2 x3 x4 x5 (Fin.ext (by show 1 = (72 + ch.val) / 72; omega)) (Fin.ext (by show ch.val = (72 + ch.val) % 72; omega)) r))
    exact (readCov_first1 v _ q0 r ch).trans (pay3_apply _)
  · intro r ch
    refine (pay_plane0 x0 x1 x2 x3 x4 x5 _ r ch).trans (congrArg₂ (· + ·) ?_ (bl_congr x0 x1 x2 x3 x4 x5 (Fin.ext (by show 0 = (0 + ch.val) / 72; omega)) (Fin.ext (by show ch.val = (0 + ch.val) % 72; omega)) r))
    exact (readCov_first0 v _ r ch).trans (pay3_apply _)

end Cases

/-! ## The two cases' scratch and output contents -/

section Runs

variable (c : Dev nD) (i : grid0.Coords) (arg2 : Memref sig .tc .vmem S1x3x1000x72 .f32) (harg2 : arg2.IsWhole) (arg3 : Memref sig .tc .vmem S1x3x1000x72 .f32) (harg3 : arg3.IsWhole) (arg4 : Memref sig .tc .vmem S1x3x1000x72 .f32) (harg4 : arg4.IsWhole) (arg5 : Memref sig .tc .vmem S1x3x1000x72 .f32) (harg5 : arg5.IsWhole) (arg6 : Memref sig .tc .vmem S1x3x1000x1 .f32) (harg6 : arg6.IsWhole) (arg7 : Memref sig .tc .vmem S1x3x1000x1 .f32) (harg7 : arg7.IsWhole) (arg8 : Memref sig .tc .vmem S1x1000x216 .f32) (harg8 : arg8.IsWhole) (arg9 : Memref sig .tc .vmem S1000x216 .f32) (harg9 : arg9.IsWhole)
variable (x0 x1 x2 x3 : Vec Ideal S1x3x1000x72 .f32) (x4 x5 : Vec Ideal S1x3x1000x1 .f32)

/-- The adding case leaves in the scratch, at (r, j), what it held plus the blend. -/
theorem sout_B (hc0 : ¬cond0_0 i) (xs0 : Vec Ideal S1000x216 .f32) (r : Fin 1000) (j : Fin 216) :
    sout0_B_0 (F := Ideal) c i arg2 harg2 arg3 harg3 arg4 harg4 arg5 harg5 arg6 harg6 arg7 harg7 arg8 harg8 arg9 harg9 hc0 x0 x1 x2 x3 x4 x5 xs0 (ix2 r j) = xs0 (ix2 r j) + blAt x0 x1 x2 x3 x4 x5 r j := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  simp only [View.readAt_eq_ld, harg2.read_unread, harg3.read_unread, harg4.read_unread, harg5.read_unread, harg6.read_unread, harg7.read_unread, harg9.read_unread]
  exact strips_B x0 x1 x2 x3 x4 x5 xs0 r j

/-- The adding case leaves the same in the output block, at (0, r, j). -/
theorem out_B (hc0 : ¬cond0_0 i) (xs0 : Vec Ideal S1000x216 .f32) (r : Fin 1000) (j : Fin 216) :
    out0_B_6 (F := Ideal) c i arg2 harg2 arg3 harg3 arg4 harg4 arg5 harg5 arg6 harg6 arg7 harg7 arg8 harg8 arg9 harg9 hc0 x0 x1 x2 x3 x4 x5 xs0 (ix3 (0 : Fin 1) r j) = xs0 (ix2 r j) + blAt x0 x1 x2 x3 x4 x5 r j := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero hz3]
  unfold k0_pay2
  rw [shapeCast_ab_1ab_apply, readCov_whole]
  simp only [View.readAt_eq_ld, harg2.read_unread, harg3.read_unread, harg4.read_unread, harg5.read_unread, harg6.read_unread, harg7.read_unread, harg9.read_unread]
  exact strips_B x0 x1 x2 x3 x4 x5 xs0 r j

/-- The zeroing case leaves in the scratch, at (r, j), 0 plus the blend. -/
theorem sout_A (hc0 : cond0_0 i) (r : Fin 1000) (j : Fin 216) :
    sout0_A_0 (F := Ideal) c i arg2 harg2 arg3 harg3 arg4 harg4 arg5 harg5 arg6 harg6 arg7 harg7 arg8 harg8 arg9 harg9 hc0 x0 x1 x2 x3 x4 x5 (ix2 r j) = 0 + blAt x0 x1 x2 x3 x4 x5 r j := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg2.read_unread, harg3.read_unread, harg4.read_unread, harg5.read_unread, harg6.read_unread, harg7.read_unread, harg9.read_unread]
  exact strips_A x0 x1 x2 x3 x4 x5 arg9.view _ _ r j

/-- The zeroing case leaves the same in the output block, at (0, r, j). -/
theorem out_A (hc0 : cond0_0 i) (r : Fin 1000) (j : Fin 216) :
    out0_A_6 (F := Ideal) c i arg2 harg2 arg3 harg3 arg4 harg4 arg5 harg5 arg6 harg6 arg7 harg7 arg8 harg8 arg9 harg9 hc0 x0 x1 x2 x3 x4 x5 (ix3 (0 : Fin 1) r j) = 0 + blAt x0 x1 x2 x3 x4 x5 r j := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz3]
  unfold k0_pay2
  rw [shapeCast_ab_1ab_apply, readCov_whole]
  simp only [View.readAt_eq_ld, harg2.read_unread, harg3.read_unread, harg4.read_unread, harg5.read_unread, harg6.read_unread, harg7.read_unread, harg9.read_unread]
  exact strips_A x0 x1 x2 x3 x4 x5 arg9.view _ _ r j

end Runs

end Cert.KernelIdeal.Val
end
-- ==== Proof.KI.ValBlock.lean ====
/-
  The windows' blocks inside their arrays. Grid point t has coordinates (t / 4, t % 4): block (t % 4, 0, t / 4, 0) of each
  of the six input arrays (scale t % 4, all three planes, points 1000·(t / 4) … 1000·(t / 4) + 999), and block
  (t % 4, t / 4, 0) of the result array. So the blend of the point's six blocks at (plane, r, ch) is the bilinear sample of
  scale t % 4 at point 1000·(t / 4) + r.
-/
import proofs.«135668_j17884243821138_2_alg».proof.Proof.KI.ValCase

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

variable (m : (ℓ : Loc nD τ sig) → Buf (Elt Ideal) ℓ)

/-! ## The printed index maps, decided over the grid -/

theorem idx_facts0 : ∀ t : Fin cfg0.N, win0_0.index t (0 : Fin 4) = t.val % 4 ∧ win0_0.index t (1 : Fin 4) = 0
    ∧ win0_0.index t (2 : Fin 4) = t.val / 4 ∧ win0_0.index t (3 : Fin 4) = 0 :=
  (by decide +kernel : ∀ t : Fin grid0.N, _)
theorem idx_facts1 : ∀ t : Fin cfg0.N, win0_1.index t (0 : Fin 4) = t.val % 4 ∧ win0_1.index t (1 : Fin 4) = 0
    ∧ win0_1.index t (2 : Fin 4) = t.val / 4 ∧ win0_1.index t (3 : Fin 4) = 0 :=
  (by decide +kernel : ∀ t : Fin grid0.N, _)
theorem idx_facts2 : ∀ t : Fin cfg0.N, win0_2.index t (0 : Fin 4) = t.val % 4 ∧ win0_2.index t (1 : Fin 4) = 0
    ∧ win0_2.index t (2 : Fin 4) = t.val / 4 ∧ win0_2.index t (3 : Fin 4) = 0 :=
  (by decide +kernel : ∀ t : Fin grid0.N, _)
theorem idx_facts3 : ∀ t : Fin cfg0.N, win0_3.index t (0 : Fin 4) = t.val % 4 ∧ win0_3.index t (1 : Fin 4) = 0
    ∧ win0_3.index t (2 : Fin 4) = t.val / 4 ∧ win0_3.index t (3 : Fin 4) = 0 :=
  (by decide +kernel : ∀ t : Fin grid0.N, _)
theorem idx_facts4 : ∀ t : Fin cfg0.N, win0_4.index t (0 : Fin 4) = t.val % 4 ∧ win0_4.index t (1 : Fin 4) = 0
    ∧ win0_4.index t (2 : Fin 4) = t.val / 4 ∧ win0_4.index t (3 : Fin 4) = 0 :=
  (by decide +kernel : ∀ t : Fin grid0.N, _)
theorem idx_facts5 : ∀ t : Fin cfg0.N, win0_5.index t (0 : Fin 4) = t.val % 4 ∧ win0_5.index t (1 : Fin 4) = 0
    ∧ win0_5.index t (2 : Fin 4) = t.val / 4 ∧ win0_5.index t (3 : Fin 4) = 0 :=
  (by decide +kernel : ∀ t : Fin grid0.N, _)
theorem idx_facts6 : ∀ t : Fin cfg0.N, win0_6.index t (0 : Fin 3) = t.val % 4 ∧ win0_6.index t (1 : Fin 3) = t.val / 4
    ∧ win0_6.index t (2 : Fin 3) = 0 :=
  (by decide +kernel : ∀ t : Fin grid0.N, _)

/-! ## The six arrays as the region finds them -/

/-- Corner array 0: [scale, plane, point, channel]. -/
abbrev A0 (c : Dev nD) : S4x3x100000x72.Idx → EReal := V m c main_v411
/-- Corner array 1: [scale, plane, point, channel]. -/
abbrev A1 (c : Dev nD) : S4x3x100000x72.Idx → EReal := V m c main_v416
/-- Corner array 2: [scale, plane, point, channel]. -/
abbrev A2 (c : Dev nD) : S4x3x100000x72.Idx → EReal := V m c main_v421
/-- Corner array 3: [scale, plane, point, channel]. -/
abbrev A3 (c : Dev nD) : S4x3x100000x72.Idx → EReal := V m c main_v426
/-- Weight array 0 (along x): [scale, plane, point, 1]. -/
abbrev A4 (c : Dev nD) : S4x3x100000x1.Idx → EReal := V m c main_v431
/-- Weight array 1 (along y): [scale, plane, point, 1]. -/
abbrev A5 (c : Dev nD) : S4x3x100000x1.Idx → EReal := V m c main_v436

/-- The bilinear sample of scale `s` at plane `p`, point `n`, channel `ch` (0 past the fourth scale). -/
def sampK (c : Dev nD) (n : Fin 100000) (p : Fin 3) (ch : Fin 72) (s : ℕ) : EReal :=
  if h : s < 4 then
    Cert.Tri.blend ONE (A0 m c (ix4 (⟨s, h⟩ : Fin 4) p n ch)) (A1 m c (ix4 (⟨s, h⟩ : Fin 4) p n ch)) (A2 m c (ix4 (⟨s, h⟩ : Fin 4) p n ch))
      (A3 m c (ix4 (⟨s, h⟩ : Fin 4) p n ch)) (A4 m c (ix4 (⟨s, h⟩ : Fin 4) p n (0 : Fin 1))) (A5 m c (ix4 (⟨s, h⟩ : Fin 4) p n (0 : Fin 1)))
  else 0

/-! ## A block's element in its array -/

theorem iblk0_apply (c : Dev nD) (t : Fin cfg0.N) (p : Fin 3) (r : Fin 1000) (ch : Fin 72) (hs : t.val % 4 < 4)
    (hn : 1000 * (t.val / 4) + r.val < 100000) :
    (iblk m c 0 t : Vec Ideal S1x3x1000x72 .f32) (ix4 (0 : Fin 1) p r ch)
      = A0 m c (ix4 (⟨t.val % 4, hs⟩ : Fin 4) p (⟨1000 * (t.val / 4) + r.val, hn⟩ : Fin 100000) ch) := by
  obtain ⟨e0, e1, e2, e3⟩ := idx_facts0 t
  unfold iblk
  rw [View.read_apply]
  show V m c main_v411 _ = V m c main_v411 _
  congr 1
  funext a
  apply Fin.ext
  match a with
  | ⟨0, _⟩ => show win0_0.index t (0 : Fin 4) * 1 + 1 * 0 = t.val % 4; omega
  | ⟨1, _⟩ => show win0_0.index t (1 : Fin 4) * 3 + 1 * p.val = p.val; omega
  | ⟨2, _⟩ => show win0_0.index t (2 : Fin 4) * 1000 + 1 * r.val = 1000 * (t.val / 4) + r.val; omega
  | ⟨3, _⟩ => show win0_0.index t (3 : Fin 4) * 72 + 1 * ch.val = ch.val; omega

theorem iblk1_apply (c : Dev nD) (t : Fin cfg0.N) (p : Fin 3) (r : Fin 1000) (ch : Fin 72) (hs : t.val % 4 < 4)
    (hn : 1000 * (t.val / 4) + r.val < 100000) :
    (iblk m c 1 t : Vec Ideal S1x3x1000x72 .f32) (ix4 (0 : Fin 1) p r ch)
      = A1 m c (ix4 (⟨t.val % 4, hs⟩ : Fin 4) p (⟨1000 * (t.val / 4) + r.val, hn⟩ : Fin 100000) ch) := by
  obtain ⟨e0, e1, e2, e3⟩ := idx_facts1 t
  unfold iblk
  rw [View.read_apply]
  show V m c main_v416 _ = V m c main_v416 _
  congr 1
  funext a
  apply Fin.ext
  match a with
  | ⟨0, _⟩ => show win0_1.index t (0 : Fin 4) * 1 + 1 * 0 = t.val % 4; omega
  | ⟨1, _⟩ => show win0_1.index t (1 : Fin 4) * 3 + 1 * p.val = p.val; omega
  | ⟨2, _⟩ => show win0_1.index t (2 : Fin 4) * 1000 + 1 * r.val = 1000 * (t.val / 4) + r.val; omega
  | ⟨3, _⟩ => show win0_1.index t (3 : Fin 4) * 72 + 1 * ch.val = ch.val; omega

theorem iblk2_apply (c : Dev nD) (t : Fin cfg0.N) (p : Fin 3) (r : Fin 1000) (ch : Fin 72) (hs : t.val % 4 < 4)
    (hn : 1000 * (t.val / 4) + r.val < 100000) :
    (iblk m c 2 t : Vec Ideal S1x3x1000x72 .f32) (ix4 (0 : Fin 1) p r ch)
      = A2 m c (ix4 (⟨t.val % 4, hs⟩ : Fin 4) p (⟨1000 * (t.val / 4) + r.val, hn⟩ : Fin 100000) ch) := by
  obtain ⟨e0, e1, e2, e3⟩ := idx_facts2 t
  unfold iblk
  rw [View.read_apply]
  show V m c main_v421 _ = V m c main_v421 _
  congr 1
  funext a
  apply Fin.ext
  match a with
  | ⟨0, _⟩ => show win0_2.index t (0 : Fin 4) * 1 + 1 * 0 = t.val % 4; omega
  | ⟨1, _⟩ => show win0_2.index t (1 : Fin 4) * 3 + 1 * p.val = p.val; omega
  | ⟨2, _⟩ => show win0_2.index t (2 : Fin 4) * 1000 + 1 * r.val = 1000 * (t.val / 4) + r.val; omega
  | ⟨3, _⟩ => show win0_2.index t (3 : Fin 4) * 72 + 1 * ch.val = ch.val; omega

theorem iblk3_apply (c : Dev nD) (t : Fin cfg0.N) (p : Fin 3) (r : Fin 1000) (ch : Fin 72) (hs : t.val % 4 < 4)
    (hn : 1000 * (t.val / 4) + r.val < 100000) :
    (iblk m c 3 t : Vec Ideal S1x3x1000x72 .f32) (ix4 (0 : Fin 1) p r ch)
      = A3 m c (ix4 (⟨t.val % 4, hs⟩ : Fin 4) p (⟨1000 * (t.val / 4) + r.val, hn⟩ : Fin 100000) ch) := by
  obtain ⟨e0, e1, e2, e3⟩ := idx_facts3 t
  unfold iblk
  rw [View.read_apply]
  show V m c main_v426 _ = V m c main_v426 _
  congr 1
  funext a
  apply Fin.ext
  match a with
  | ⟨0, _⟩ => show win0_3.index t (0 : Fin 4) * 1 + 1 * 0 = t.val % 4; omega
  | ⟨1, _⟩ => show win0_3.index t (1 : Fin 4) * 3 + 1 * p.val = p.val; omega
  | ⟨2, _⟩ => show win0_3.index t (2 : Fin 4) * 1000 + 1 * r.val = 1000 * (t.val / 4) + r.val; omega
  | ⟨3, _⟩ => show win0_3.index t (3 : Fin 4) * 72 + 1 * ch.val = ch.val; omega

theorem iblk4_apply (c : Dev nD) (t : Fin cfg0.N) (p : Fin 3) (r : Fin 1000) (hs : t.val % 4 < 4)
    (hn : 1000 * (t.val / 4) + r.val < 100000) :
    (iblk m c 4 t : Vec Ideal S1x3x1000x1 .f32) (ix4 (0 : Fin 1) p r (0 : Fin 1))
      = A4 m c (ix4 (⟨t.val % 4, hs⟩ : Fin 4) p (⟨1000 * (t.val / 4) + r.val, hn⟩ : Fin 100000) (0 : Fin 1)) := by
  obtain ⟨e0, e1, e2, e3⟩ := idx_facts4 t
  unfold iblk
  rw [View.read_apply]
  show V m c main_v431 _ = V m c main_v431 _
  congr 1
  funext a
  apply Fin.ext
  match a with
  | ⟨0, _⟩ => show win0_4.index t (0 : Fin 4) * 1 + 1 * 0 = t.val % 4; omega
  | ⟨1, _⟩ => show win0_4.index t (1 : Fin 4) * 3 + 1 * p.val = p.val; omega
  | ⟨2, _⟩ => show win0_4.index t (2 : Fin 4) * 1000 + 1 * r.val = 1000 * (t.val / 4) + r.val; omega
  | ⟨3, _⟩ => show win0_4.index t (3 : Fin 4) * 1 + 1 * 0 = 0; omega

theorem iblk5_apply (c : Dev nD) (t : Fin cfg0.N) (p : Fin 3) (r : Fin 1000) (hs : t.val % 4 < 4)
    (hn : 1000 * (t.val / 4) + r.val < 100000) :
    (iblk m c 5 t : Vec Ideal S1x3x1000x1 .f32) (ix4 (0 : Fin 1) p r (0 : Fin 1))
      = A5 m c (ix4 (⟨t.val % 4, hs⟩ : Fin 4) p (⟨1000 * (t.val / 4) + r.val, hn⟩ : Fin 100000) (0 : Fin 1)) := by
  obtain ⟨e0, e1, e2, e3⟩ := idx_facts5 t
  unfold iblk
  rw [View.read_apply]
  show V m c main_v436 _ = V m c main_v436 _
  congr 1
  funext a
  apply Fin.ext
  match a with
  | ⟨0, _⟩ => show win0_5.index t (0 : Fin 4) * 1 + 1 * 0 = t.val % 4; omega
  | ⟨1, _⟩ => show win0_5.index t (1 : Fin 4) * 3 + 1 * p.val = p.val; omega
  | ⟨2, _⟩ => show win0_5.index t (2 : Fin 4) * 1000 + 1 * r.val = 1000 * (t.val / 4) + r.val; omega
  | ⟨3, _⟩ => show win0_5.index t (3 : Fin 4) * 1 + 1 * 0 = 0; omega

/-- The blend of point `t`'s six blocks at the scratch's element (r, j) is the sample of scale t % 4 at point
    1000·(t / 4) + r, plane j / 72, channel j % 72. -/
theorem blAt_iblk (c : Dev nD) (t : Fin cfg0.N) (r : Fin 1000) (j : Fin 216) (hn : 1000 * (t.val / 4) + r.val < 100000) :
    blAt (iblk m c 0 t) (iblk m c 1 t) (iblk m c 2 t) (iblk m c 3 t) (iblk m c 4 t) (iblk m c 5 t) r j
      = sampK m c (⟨1000 * (t.val / 4) + r.val, hn⟩ : Fin 100000) (⟨j.val / 72, by have := j.isLt; omega⟩ : Fin 3)
          (⟨j.val % 72, Nat.mod_lt _ (by decide)⟩ : Fin 72) (t.val % 4) := by
  have hs : t.val % 4 < 4 := Nat.mod_lt _ (by decide)
  unfold blAt bl sampK
  rw [dif_pos hs, iblk0_apply m c t _ r _ hs hn, iblk1_apply m c t _ r _ hs hn, iblk2_apply m c t _ r _ hs hn, iblk3_apply m c t _ r _ hs hn,
    iblk4_apply m c t _ r hs hn, iblk5_apply m c t _ r hs hn]

end Cert.KernelIdeal.Val
end
-- ==== Proof.KI.ValAcc.lean ====
/-
  The running sum, point by point. After the body at grid point n the scratch and the output block hold, at (r, j), the
  kernel's running sum over the scales 0 … n % 4 of the bilinear samples at point 1000·(n / 4) + r, plane j / 72, channel
  j % 72: a point with n % 4 = 0 starts the sum from zero, every other point adds its scale to what the point before left.
-/
import proofs.«135668_j17884243821138_2_alg».proof.Proof.KI.ValBlock

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

variable (m : (ℓ : Loc nD τ sig) → Buf (Elt Ideal) ℓ)

/-- The running sum after point `n` at the scratch's element (r, j). -/
def accAt (c : Dev nD) (n : ℕ) (hn : n < 400) (r : Fin 1000) (j : Fin 216) : EReal :=
  Cert.Tri.accK (sampK m c (⟨1000 * (n / 4) + r.val, by have := r.isLt; omega⟩ : Fin 100000) (⟨j.val / 72, by have := j.isLt; omega⟩ : Fin 3)
    (⟨j.val % 72, Nat.mod_lt _ (by decide)⟩ : Fin 72)) (n % 4)

theorem accK_start (samp : ℕ → EReal) (a : ℕ) (ha : a = 0) : Cert.Tri.accK samp a = 0 + samp a := by subst ha; rfl

theorem accK_step (samp samp' : ℕ → EReal) (a b : ℕ) (hs : samp = samp') (hab : b = a + 1) :
    Cert.Tri.accK samp' b = Cert.Tri.accK samp a + samp' b := by subst hs; subst hab; rfl

/-- What the scratch and the output block hold after point `n` is the running sum. -/
theorem outs_eq (c : Dev nD) : ∀ (n : ℕ) (h : n < cfg0.N) (hn : n < 400) (r : Fin 1000) (j : Fin 216),
    (outsAt0 m c n h).2 (ix2 r j) = accAt m c n hn r j ∧ (outsAt0 m c n h).1 (ix3 (0 : Fin 1) r j) = accAt m c n hn r j
  | n, h, hn, r, j => by
    have hr := r.isLt
    have hb : 1000 * (n / 4) + r.val < 100000 := by omega
    have key := blAt_iblk m c ⟨n, h⟩ r j hb
    dsimp only at key
    by_cases h0 : n % 4 = 0
    · rw [outsAt0_A m c ⟨n, h⟩ h0]
      dsimp only
      constructor
      · refine (sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((hcond0_0 ⟨n, h⟩).mpr h0) r j).trans ?_
        rw [key]; exact (accK_start _ _ h0).symm
      · refine (out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((hcond0_0 ⟨n, h⟩).mpr h0) r j).trans ?_
        rw [key]; exact (accK_start _ _ h0).symm
    · obtain ⟨k, rfl⟩ : ∃ k, n = k + 1 := ⟨n - 1, by omega⟩
      have ih := (outs_eq c k (Nat.lt_of_succ_lt h) (by omega) r j).1
      have hstep : accAt m c (k + 1) hn r j = accAt m c k (by omega) r j
          + sampK m c (⟨1000 * ((k + 1) / 4) + r.val, hb⟩ : Fin 100000) (⟨j.val / 72, by have := j.isLt; omega⟩ : Fin 3)
              (⟨j.val % 72, Nat.mod_lt _ (by decide)⟩ : Fin 72) ((k + 1) % 4) :=
        accK_step _ _ _ _ (congrArg (fun n' => sampK m c n' _ _) (Fin.ext (by show 1000 * (k / 4) + r.val = 1000 * ((k + 1) / 4) + r.val; omega))) (by omega)
      rw [outsAt0_B m c ⟨k + 1, h⟩ h0]
      dsimp only
      constructor
      · refine (sout_B c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (ms0_5 ⟨k + 1, h⟩) (hs0_5 ⟨k + 1, h⟩) (ms0_6 ⟨k + 1, h⟩) (hs0_6 ⟨k + 1, h⟩) scM0_0 (Memref.isWhole_whole _) (iblk m c 0 ⟨k + 1, h⟩) (iblk m c 1 ⟨k + 1, h⟩) (iblk m c 2 ⟨k + 1, h⟩) (iblk m c 3 ⟨k + 1, h⟩) (iblk m c 4 ⟨k + 1, h⟩) (iblk m c 5 ⟨k + 1, h⟩) (fun hh => h0 ((hcond0_0 ⟨k + 1, h⟩).mp hh)) (outsAt0 m c k (Nat.lt_of_succ_lt h)).2 r j).trans ?_
        rw [key, ih, hstep]
      · refine (out_B c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (ms0_5 ⟨k + 1, h⟩) (hs0_5 ⟨k + 1, h⟩) (ms0_6 ⟨k + 1, h⟩) (hs0_6 ⟨k + 1, h⟩) scM0_0 (Memref.isWhole_whole _) (iblk m c 0 ⟨k + 1, h⟩) (iblk m c 1 ⟨k + 1, h⟩) (iblk m c 2 ⟨k + 1, h⟩) (iblk m c 3 ⟨k + 1, h⟩) (iblk m c 4 ⟨k + 1, h⟩) (iblk m c 5 ⟨k + 1, h⟩) (fun hh => h0 ((hcond0_0 ⟨k + 1, h⟩).mp hh)) (outsAt0 m c k (Nat.lt_of_succ_lt h)).2 r j).trans ?_
        rw [key, ih, hstep]
  termination_by n => n

end Cert.KernelIdeal.Val
end
-- ==== Proof.KI.ValFinal.lean ====
/-
  The result array. Point t writes block (t % 4, t / 4, 0) of the [4,100000,216] result back at every point, and the blocks
  tile the array: the element (s, n, j) lies in the block of point 4·(n / 1000) + s. So the array ends holding, at (s, n, j),
  the running sum over the scales 0 … s of the bilinear samples at point n, plane j / 72, channel j % 72.
-/
import proofs.«135668_j17884243821138_2_alg».proof.Proof.KI.ValAcc

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

variable (m : (ℓ : Loc nD τ sig) → Buf (Elt Ideal) ℓ)

/-- The result array as one function of its index (scale, point, 72·plane + channel). -/
def G6 (c : Dev nD) : S4x100000x216.Idx → EReal := fun i =>
  Cert.Tri.accK (sampK m c (⟨(i 1).val, (i 1).isLt⟩ : Fin 100000) (⟨(i 2).val / 72, by have h2 : (i 2).val < 216 := (i 2).isLt; omega⟩ : Fin 3)
    (⟨(i 2).val % 72, Nat.mod_lt _ (by decide)⟩ : Fin 72)) (i 0).val

theorem acc_congr (c : Dev nD) {n n' : Fin 100000} {p p' : Fin 3} {ch ch' : Fin 72} {s s' : ℕ} (hn : n = n') (hp : p = p')
    (hc : ch = ch') (hs : s = s') :
    Cert.Tri.accK (sampK m c n p ch) s = Cert.Tri.accK (sampK m c n' p' ch') s' := by
  subst hn; subst hp; subst hc; subst hs; rfl

/-- What the output block holds after point `t`, element by element, is the result function at the element's place in the array. -/
theorem flushed_point (c : Dev nD) (t : Fin cfg0.N) (y : S1x1000x216.Idx) :
    (outsAt0 m c t.val t.isLt).1 y = G6 m c (((cfg0.win 6).blk t).view.emb y) := by
  obtain ⟨e0, e1, e2⟩ := idx_facts6 t
  have hN : t.val < 400 := lt_of_lt_of_eq t.isLt N_0
  obtain ⟨u, r, j, rfl⟩ : ∃ (u : Fin 1) (r : Fin 1000) (j : Fin 216), y = ix3 u r j := ⟨y 0, y 1, y 2, eq_ix3 y⟩
  obtain rfl : u = 0 := Subsingleton.elim _ _
  have hr := r.isLt
  have hj := j.isLt
  rw [(outs_eq m c t.val t.isLt hN r j).2]
  unfold accAt G6
  refine acc_congr m c (Fin.ext ?_) (Fin.ext ?_) (Fin.ext ?_) ?_
  · show 1000 * (t.val / 4) + r.val = win0_6.index t (1 : Fin 3) * 1000 + 1 * r.val; omega
  · show j.val / 72 = (win0_6.index t (2 : Fin 3) * 216 + 1 * j.val) / 72; omega
  · show j.val % 72 = (win0_6.index t (2 : Fin 3) * 216 + 1 * j.val) % 72; omega
  · show t.val % 4 = win0_6.index t (0 : Fin 3) * 1 + 1 * 0; omega

/-- What point `t` writes back is block `t` of the result function. -/
theorem flushed_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext y
  exact flushed_point m c t y

/-- Every element of the result array is in some point's block. -/
theorem cover6 (i : S4x100000x216.Idx) :
    ∃ t : Fin cfg0.N, (cfg0.win 6).flush t = true ∧ i ∈ ((cfg0.win 6).blk t).view.set := by
  have h0 : (i 0).val < 4 := (i 0).isLt
  have h1 : (i 1).val < 100000 := (i 1).isLt
  have h2 : (i 2).val < 216 := (i 2).isLt
  have hN : cfg0.N = 400 := N_0
  have hlt : 4 * ((i 1).val / 1000) + (i 0).val < cfg0.N := by rw [hN]; omega
  obtain ⟨e0, e1, e2⟩ := idx_facts6 ⟨4 * ((i 1).val / 1000) + (i 0).val, hlt⟩
  dsimp only at e0 e1 e2
  refine ⟨⟨4 * ((i 1).val / 1000) + (i 0).val, hlt⟩, flush0_6 _, ?_⟩
  show i ∈ ((View.whole main_v437).slice (win0_6.rect ⟨4 * ((i 1).val / 1000) + (i 0).val, hlt⟩)).set
  rw [View.set_slice_whole, Rect.mem_set_unit]
  intro a
  match a with
  | ⟨0, _⟩ => show win0_6.index ⟨4 * ((i 1).val / 1000) + (i 0).val, hlt⟩ (0 : Fin 3) * 1 ≤ (i 0).val ∧ (i 0).val < win0_6.index ⟨4 * ((i 1).val / 1000) + (i 0).val, hlt⟩ (0 : Fin 3) * 1 + 1; omega
  | ⟨1, _⟩ => show win0_6.index ⟨4 * ((i 1).val / 1000) + (i 0).val, hlt⟩ (1 : Fin 3) * 1000 ≤ (i 1).val ∧ (i 1).val < win0_6.index ⟨4 * ((i 1).val / 1000) + (i 0).val, hlt⟩ (1 : Fin 3) * 1000 + 1000; omega
  | ⟨2, _⟩ => show win0_6.index ⟨4 * ((i 1).val / 1000) + (i 0).val, hlt⟩ (2 : Fin 3) * 216 ≤ (i 2).val ∧ (i 2).val < win0_6.index ⟨4 * ((i 1).val / 1000) + (i 0).val, hlt⟩ (2 : Fin 3) * 216 + 216; omega

/-- The result array after the run: the result function. -/
theorem final6_eq (c : Dev nD) : (dats m 0 c).arrAt 6 cfg0.N = G6 m c :=
  (dats m 0 c).arrAt_eq_of_cover 6 (G6 m c) (fun t _ => flushed_eq m c t) (cover6)

/-- At (s, n, j): the running sum over the scales 0 … s at point n, plane j / 72, channel j % 72. -/
theorem final6 (c : Dev nD) (s : Fin 4) (n : Fin 100000) (j : Fin 216) :
    (dats m 0 c).arrAt 6 cfg0.N (ix3 s n j)
      = Cert.Tri.accK (sampK m c n (⟨j.val / 72, by have := j.isLt; omega⟩ : Fin 3) (⟨j.val % 72, Nat.mod_lt _ (by decide)⟩ : Fin 72)) s.val :=
  congrFun (final6_eq m c) (ix3 s n j)

end Cert.KernelIdeal.Val
end
-- ==== Proof.Layout.lean ====
/- Layout reading: what one element of the result of a stacking, a transpose followed by a reshape, a concatenation
   along the feature axis or a broadcast is, as an element of the operand. Every statement is over arrays of the literal
   shapes [3, N, 72], [4, 3, N, 72], [4, N, 216], [N, 864] … with N = 100000 and over indices built from coordinates of
   literal extents, and depends on no program: a layout operation moves elements and computes nothing, so the element
   type is arbitrary. Each side condition of an operation is a hypothesis, so any proof of it fits. The last section is
   the reassociation of a four-term sum of extended reals. -/
import Idealize.ShloMosaic.PureOps.Ideal
import Idealize.ShloMosaic.Lib.ValueIdx
import Idealize.ShloMosaic.Lib.Pipeline.Value
import Idealize.ShloMosaic.Lib.ValueLayout

noncomputable section

namespace Cert.Layout

open Idealize.ShloMosaic Idealize.ShloMosaic.ValueIdx

/-! ## The shapes -/

abbrev T_ : Shape := ⟨0, ![]⟩
abbrev T3xNx72 : Shape := ⟨3, ![3, 100000, 72]⟩
abbrev T1x3xNx72 : Shape := ⟨4, ![1, 3, 100000, 72]⟩
abbrev T4x3xNx72 : Shape := ⟨4, ![4, 3, 100000, 72]⟩
abbrev T3xNx1 : Shape := ⟨3, ![3, 100000, 1]⟩
abbrev T1x3xNx1 : Shape := ⟨4, ![1, 3, 100000, 1]⟩
abbrev T4x3xNx1 : Shape := ⟨4, ![4, 3, 100000, 1]⟩
abbrev T4xNx216 : Shape := ⟨3, ![4, 100000, 216]⟩
abbrev TNx4x216 : Shape := ⟨3, ![100000, 4, 216]⟩
abbrev TNx864 : Shape := ⟨2, ![100000, 864]⟩
abbrev TNx3x72 : Shape := ⟨3, ![100000, 3, 72]⟩
abbrev TNx216 : Shape := ⟨2, ![100000, 216]⟩

variable {α : Type}

/-! ## Stacking along a new leading axis

Four arrays [3, N, c] are each given a leading unit axis and the four [1, 3, N, c] are laid end to end along it:
element (s, p, n, c) of the stack is element (p, n, c) of array s. First at c = 72 (the gathered corners), then at
c = 1 (the weights). -/

/-- An array [3, N, 72] under a new leading unit axis reads, at (z, p, n, c), its element (p, n, c). -/
theorem lead72_apply (a : T3xNx72.Idx → α)
    (hb : T3xNx72.BroadcastsInDim T1x3xNx72 (![1, 2, 3] : Fin 3 → Fin T1x3xNx72.rank))
    (z : Fin 1) (p : Fin 3) (n : Fin 100000) (c : Fin 72) :
    broadcastInDim T1x3xNx72 ![1, 2, 3] hb a (ix4 z p n c) = a (ix3 p n c) :=
  broadcastInDim_apply _ hb a _ _ fun b => match b with | ⟨0, _⟩ => rfl | ⟨1, _⟩ => rfl | ⟨2, _⟩ => rfl

/-- Four arrays [1, 3, N, 72] laid end to end along the leading axis: element (s, p, n, c) is piece s at (0, p, n, c). -/
theorem cat72_apply (u0 u1 u2 u3 : T1x3xNx72.Idx → α)
    (hc : Shape.Concatenates [T1x3xNx72, T1x3xNx72, T1x3xNx72, T1x3xNx72] T4x3xNx72 0)
    (s : Fin 4) (p : Fin 3) (n : Fin 100000) (c : Fin 72) :
    concatenate T4x3xNx72 0 [⟨T1x3xNx72, u0⟩, ⟨T1x3xNx72, u1⟩, ⟨T1x3xNx72, u2⟩, ⟨T1x3xNx72, u3⟩] hc (ix4 s p n c)
      = ![u0, u1, u2, u3] s (ix4 (0 : Fin 1) p n c) := by
  have hi : ∀ (s : Fin 4) (b : Fin T1x3xNx72.rank), b.cast (rfl : T1x3xNx72.rank = T4x3xNx72.rank) ≠ 0 →
      ((ix4 (0 : Fin 1) p n c : T1x3xNx72.Idx) b).val = ((ix4 s p n c : T4x3xNx72.Idx) (b.cast rfl)).val := fun s b hb =>
    match b, hb with
    | ⟨0, _⟩, hb => (hb (Fin.ext rfl)).elim
    | ⟨1, _⟩, _ => rfl
    | ⟨2, _⟩, _ => rfl
    | ⟨3, _⟩, _ => rfl
  match s with
  | ⟨0, _⟩ =>
    exact concatenate_apply_piece (t := T4x3xNx72) 0 [⟨T1x3xNx72, u0⟩, ⟨T1x3xNx72, u1⟩, ⟨T1x3xNx72, u2⟩, ⟨T1x3xNx72, u3⟩] hc _ 0 (by simp)
      T1x3xNx72 u0 rfl rfl 0 (by first | rfl | decide | simp) (ix4 (0 : Fin 1) p n c) (hi _) rfl
  | ⟨1, _⟩ =>
    exact concatenate_apply_piece (t := T4x3xNx72) 0 [⟨T1x3xNx72, u0⟩, ⟨T1x3xNx72, u1⟩, ⟨T1x3xNx72, u2⟩, ⟨T1x3xNx72, u3⟩] hc _ 1 (by simp)
      T1x3xNx72 u1 rfl rfl 1 (by first | rfl | decide | simp) (ix4 (0 : Fin 1) p n c) (hi _) rfl
  | ⟨2, _⟩ =>
    exact concatenate_apply_piece (t := T4x3xNx72) 0 [⟨T1x3xNx72, u0⟩, ⟨T1x3xNx72, u1⟩, ⟨T1x3xNx72, u2⟩, ⟨T1x3xNx72, u3⟩] hc _ 2 (by simp)
      T1x3xNx72 u2 rfl rfl 2 (by first | rfl | decide | simp) (ix4 (0 : Fin 1) p n c) (hi _) rfl
  | ⟨3, _⟩ =>
    exact concatenate_apply_piece (t := T4x3xNx72) 0 [⟨T1x3xNx72, u0⟩, ⟨T1x3xNx72, u1⟩, ⟨T1x3xNx72, u2⟩, ⟨T1x3xNx72, u3⟩] hc _ 3 (by simp)
      T1x3xNx72 u3 rfl rfl 3 (by first | rfl | decide | simp) (ix4 (0 : Fin 1) p n c) (hi _) rfl

/-- **The stack of four arrays [3, N, 72]** read at (s, p, n, c) is array s at (p, n, c). -/
theorem stack72_apply (a0 a1 a2 a3 : T3xNx72.Idx → α)
    (hb : T3xNx72.BroadcastsInDim T1x3xNx72 (![1, 2, 3] : Fin 3 → Fin T1x3xNx72.rank))
    (hc : Shape.Concatenates [T1x3xNx72, T1x3xNx72, T1x3xNx72, T1x3xNx72] T4x3xNx72 0)
    (s : Fin 4) (p : Fin 3) (n : Fin 100000) (c : Fin 72) :
    concatenate T4x3xNx72 0 [⟨T1x3xNx72, broadcastInDim T1x3xNx72 ![1, 2, 3] hb a0⟩,
        ⟨T1x3xNx72, broadcastInDim T1x3xNx72 ![1, 2, 3] hb a1⟩, ⟨T1x3xNx72, broadcastInDim T1x3xNx72 ![1, 2, 3] hb a2⟩,
        ⟨T1x3xNx72, broadcastInDim T1x3xNx72 ![1, 2, 3] hb a3⟩] hc (ix4 s p n c)
      = ![a0, a1, a2, a3] s (ix3 p n c) := by
  refine (cat72_apply _ _ _ _ hc s p n c).trans ?_
  match s with
  | ⟨0, _⟩ => exact lead72_apply a0 hb 0 p n c
  | ⟨1, _⟩ => exact lead72_apply a1 hb 0 p n c
  | ⟨2, _⟩ => exact lead72_apply a2 hb 0 p n c
  | ⟨3, _⟩ => exact lead72_apply a3 hb 0 p n c

/-- The stack at each literal position: position 0 … -/
theorem stack72_0 (a0 a1 a2 a3 : T3xNx72.Idx → α)
    (hb : T3xNx72.BroadcastsInDim T1x3xNx72 (![1, 2, 3] : Fin 3 → Fin T1x3xNx72.rank))
    (hc : Shape.Concatenates [T1x3xNx72, T1x3xNx72, T1x3xNx72, T1x3xNx72] T4x3xNx72 0) (p : Fin 3) (n : Fin 100000) (c : Fin 72) :
    concatenate T4x3xNx72 0 [⟨T1x3xNx72, broadcastInDim T1x3xNx72 ![1, 2, 3] hb a0⟩,
        ⟨T1x3xNx72, broadcastInDim T1x3xNx72 ![1, 2, 3] hb a1⟩, ⟨T1x3xNx72, broadcastInDim T1x3xNx72 ![1, 2, 3] hb a2⟩,
        ⟨T1x3xNx72, broadcastInDim T1x3xNx72 ![1, 2, 3] hb a3⟩] hc (ix4 (0 : Fin 4) p n c) = a0 (ix3 p n c) :=
  stack72_apply a0 a1 a2 a3 hb hc 0 p n c
/-- … position 1 … -/
theorem stack72_1 (a0 a1 a2 a3 : T3xNx72.Idx → α)
    (hb : T3xNx72.BroadcastsInDim T1x3xNx72 (![1, 2, 3] : Fin 3 → Fin T1x3xNx72.rank))
    (hc : Shape.Concatenates [T1x3xNx72, T1x3xNx72, T1x3xNx72, T1x3xNx72] T4x3xNx72 0) (p : Fin 3) (n : Fin 100000) (c : Fin 72) :
    concatenate T4x3xNx72 0 [⟨T1x3xNx72, broadcastInDim T1x3xNx72 ![1, 2, 3] hb a0⟩,
        ⟨T1x3xNx72, broadcastInDim T1x3xNx72 ![1, 2, 3] hb a1⟩, ⟨T1x3xNx72, broadcastInDim T1x3xNx72 ![1, 2, 3] hb a2⟩,
        ⟨T1x3xNx72, broadcastInDim T1x3xNx72 ![1, 2, 3] hb a3⟩] hc (ix4 (1 : Fin 4) p n c) = a1 (ix3 p n c) :=
  stack72_apply a0 a1 a2 a3 hb hc 1 p n c
/-- … position 2 … -/
theorem stack72_2 (a0 a1 a2 a3 : T3xNx72.Idx → α)
    (hb : T3xNx72.BroadcastsInDim T1x3xNx72 (![1, 2, 3] : Fin 3 → Fin T1x3xNx72.rank))
    (hc : Shape.Concatenates [T1x3xNx72, T1x3xNx72, T1x3xNx72, T1x3xNx72] T4x3xNx72 0) (p : Fin 3) (n : Fin 100000) (c : Fin 72) :
    concatenate T4x3xNx72 0 [⟨T1x3xNx72, broadcastInDim T1x3xNx72 ![1, 2, 3] hb a0⟩,
        ⟨T1x3xNx72, broadcastInDim T1x3xNx72 ![1, 2, 3] hb a1⟩, ⟨T1x3xNx72, broadcastInDim T1x3xNx72 ![1, 2, 3] hb a2⟩,
        ⟨T1x3xNx72, broadcastInDim T1x3xNx72 ![1, 2, 3] hb a3⟩] hc (ix4 (2 : Fin 4) p n c) = a2 (ix3 p n c) :=
  stack72_apply a0 a1 a2 a3 hb hc 2 p n c
/-- … and position 3. -/
theorem stack72_3 (a0 a1 a2 a3 : T3xNx72.Idx → α)
    (hb : T3xNx72.BroadcastsInDim T1x3xNx72 (![1, 2, 3] : Fin 3 → Fin T1x3xNx72.rank))
    (hc : Shape.Concatenates [T1x3xNx72, T1x3xNx72, T1x3xNx72, T1x3xNx72] T4x3xNx72 0) (p : Fin 3) (n : Fin 100000) (c : Fin 72) :
    concatenate T4x3xNx72 0 [⟨T1x3xNx72, broadcastInDim T1x3xNx72 ![1, 2, 3] hb a0⟩,
        ⟨T1x3xNx72, broadcastInDim T1x3xNx72 ![1, 2, 3] hb a1⟩, ⟨T1x3xNx72, broadcastInDim T1x3xNx72 ![1, 2, 3] hb a2⟩,
        ⟨T1x3xNx72, broadcastInDim T1x3xNx72 ![1, 2, 3] hb a3⟩] hc (ix4 (3 : Fin 4) p n c) = a3 (ix3 p n c) :=
  stack72_apply a0 a1 a2 a3 hb hc 3 p n c

/-- An array [3, N, 1] under a new leading unit axis reads, at (z, p, n, c), its element (p, n, c). -/
theorem lead1_apply (a : T3xNx1.Idx → α)
    (hb : T3xNx1.BroadcastsInDim T1x3xNx1 (![1, 2, 3] : Fin 3 → Fin T1x3xNx1.rank))
    (z : Fin 1) (p : Fin 3) (n : Fin 100000) (c : Fin 1) :
    broadcastInDim T1x3xNx1 ![1, 2, 3] hb a (ix4 z p n c) = a (ix3 p n c) :=
  broadcastInDim_apply _ hb a _ _ fun b => match b with
    | ⟨0, _⟩ => rfl
    | ⟨1, _⟩ => rfl
    | ⟨2, _⟩ => by have := c.isLt; show c.val = 0; omega

/-- Four arrays [1, 3, N, 1] laid end to end along the leading axis: element (s, p, n, c) is piece s at (0, p, n, c). -/
theorem cat1_apply (u0 u1 u2 u3 : T1x3xNx1.Idx → α)
    (hc : Shape.Concatenates [T1x3xNx1, T1x3xNx1, T1x3xNx1, T1x3xNx1] T4x3xNx1 0)
    (s : Fin 4) (p : Fin 3) (n : Fin 100000) (c : Fin 1) :
    concatenate T4x3xNx1 0 [⟨T1x3xNx1, u0⟩, ⟨T1x3xNx1, u1⟩, ⟨T1x3xNx1, u2⟩, ⟨T1x3xNx1, u3⟩] hc (ix4 s p n c)
      = ![u0, u1, u2, u3] s (ix4 (0 : Fin 1) p n c) := by
  have hi : ∀ (s : Fin 4) (b : Fin T1x3xNx1.rank), b.cast (rfl : T1x3xNx1.rank = T4x3xNx1.rank) ≠ 0 →
      ((ix4 (0 : Fin 1) p n c : T1x3xNx1.Idx) b).val = ((ix4 s p n c : T4x3xNx1.Idx) (b.cast rfl)).val := fun s b hb =>
    match b, hb with
    | ⟨0, _⟩, hb => (hb (Fin.ext rfl)).elim
    | ⟨1, _⟩, _ => rfl
    | ⟨2, _⟩, _ => rfl
    | ⟨3, _⟩, _ => rfl
  match s with
  | ⟨0, _⟩ =>
    exact concatenate_apply_piece (t := T4x3xNx1) 0 [⟨T1x3xNx1, u0⟩, ⟨T1x3xNx1, u1⟩, ⟨T1x3xNx1, u2⟩, ⟨T1x3xNx1, u3⟩] hc _ 0 (by simp)
      T1x3xNx1 u0 rfl rfl 0 (by first | rfl | decide | simp) (ix4 (0 : Fin 1) p n c) (hi _) rfl
  | ⟨1, _⟩ =>
    exact concatenate_apply_piece (t := T4x3xNx1) 0 [⟨T1x3xNx1, u0⟩, ⟨T1x3xNx1, u1⟩, ⟨T1x3xNx1, u2⟩, ⟨T1x3xNx1, u3⟩] hc _ 1 (by simp)
      T1x3xNx1 u1 rfl rfl 1 (by first | rfl | decide | simp) (ix4 (0 : Fin 1) p n c) (hi _) rfl
  | ⟨2, _⟩ =>
    exact concatenate_apply_piece (t := T4x3xNx1) 0 [⟨T1x3xNx1, u0⟩, ⟨T1x3xNx1, u1⟩, ⟨T1x3xNx1, u2⟩, ⟨T1x3xNx1, u3⟩] hc _ 2 (by simp)
      T1x3xNx1 u2 rfl rfl 2 (by first | rfl | decide | simp) (ix4 (0 : Fin 1) p n c) (hi _) rfl
  | ⟨3, _⟩ =>
    exact concatenate_apply_piece (t := T4x3xNx1) 0 [⟨T1x3xNx1, u0⟩, ⟨T1x3xNx1, u1⟩, ⟨T1x3xNx1, u2⟩, ⟨T1x3xNx1, u3⟩] hc _ 3 (by simp)
      T1x3xNx1 u3 rfl rfl 3 (by first | rfl | decide | simp) (ix4 (0 : Fin 1) p n c) (hi _) rfl

/-- **The stack of four arrays [3, N, 1]** read at (s, p, n, c) is array s at (p, n, c). -/
theorem stack1_apply (a0 a1 a2 a3 : T3xNx1.Idx → α)
    (hb : T3xNx1.BroadcastsInDim T1x3xNx1 (![1, 2, 3] : Fin 3 → Fin T1x3xNx1.rank))
    (hc : Shape.Concatenates [T1x3xNx1, T1x3xNx1, T1x3xNx1, T1x3xNx1] T4x3xNx1 0)
    (s : Fin 4) (p : Fin 3) (n : Fin 100000) (c : Fin 1) :
    concatenate T4x3xNx1 0 [⟨T1x3xNx1, broadcastInDim T1x3xNx1 ![1, 2, 3] hb a0⟩,
        ⟨T1x3xNx1, broadcastInDim T1x3xNx1 ![1, 2, 3] hb a1⟩, ⟨T1x3xNx1, broadcastInDim T1x3xNx1 ![1, 2, 3] hb a2⟩,
        ⟨T1x3xNx1, broadcastInDim T1x3xNx1 ![1, 2, 3] hb a3⟩] hc (ix4 s p n c)
      = ![a0, a1, a2, a3] s (ix3 p n c) := by
  refine (cat1_apply _ _ _ _ hc s p n c).trans ?_
  match s with
  | ⟨0, _⟩ => exact lead1_apply a0 hb 0 p n c
  | ⟨1, _⟩ => exact lead1_apply a1 hb 0 p n c
  | ⟨2, _⟩ => exact lead1_apply a2 hb 0 p n c
  | ⟨3, _⟩ => exact lead1_apply a3 hb 0 p n c

/-- The stack at each literal position: position 0 … -/
theorem stack1_0 (a0 a1 a2 a3 : T3xNx1.Idx → α)
    (hb : T3xNx1.BroadcastsInDim T1x3xNx1 (![1, 2, 3] : Fin 3 → Fin T1x3xNx1.rank))
    (hc : Shape.Concatenates [T1x3xNx1, T1x3xNx1, T1x3xNx1, T1x3xNx1] T4x3xNx1 0) (p : Fin 3) (n : Fin 100000) (c : Fin 1) :
    concatenate T4x3xNx1 0 [⟨T1x3xNx1, broadcastInDim T1x3xNx1 ![1, 2, 3] hb a0⟩,
        ⟨T1x3xNx1, broadcastInDim T1x3xNx1 ![1, 2, 3] hb a1⟩, ⟨T1x3xNx1, broadcastInDim T1x3xNx1 ![1, 2, 3] hb a2⟩,
        ⟨T1x3xNx1, broadcastInDim T1x3xNx1 ![1, 2, 3] hb a3⟩] hc (ix4 (0 : Fin 4) p n c) = a0 (ix3 p n c) :=
  stack1_apply a0 a1 a2 a3 hb hc 0 p n c
/-- … position 1 … -/
theorem stack1_1 (a0 a1 a2 a3 : T3xNx1.Idx → α)
    (hb : T3xNx1.BroadcastsInDim T1x3xNx1 (![1, 2, 3] : Fin 3 → Fin T1x3xNx1.rank))
    (hc : Shape.Concatenates [T1x3xNx1, T1x3xNx1, T1x3xNx1, T1x3xNx1] T4x3xNx1 0) (p : Fin 3) (n : Fin 100000) (c : Fin 1) :
    concatenate T4x3xNx1 0 [⟨T1x3xNx1, broadcastInDim T1x3xNx1 ![1, 2, 3] hb a0⟩,
        ⟨T1x3xNx1, broadcastInDim T1x3xNx1 ![1, 2, 3] hb a1⟩, ⟨T1x3xNx1, broadcastInDim T1x3xNx1 ![1, 2, 3] hb a2⟩,
        ⟨T1x3xNx1, broadcastInDim T1x3xNx1 ![1, 2, 3] hb a3⟩] hc (ix4 (1 : Fin 4) p n c) = a1 (ix3 p n c) :=
  stack1_apply a0 a1 a2 a3 hb hc 1 p n c
/-- … position 2 … -/
theorem stack1_2 (a0 a1 a2 a3 : T3xNx1.Idx → α)
    (hb : T3xNx1.BroadcastsInDim T1x3xNx1 (![1, 2, 3] : Fin 3 → Fin T1x3xNx1.rank))
    (hc : Shape.Concatenates [T1x3xNx1, T1x3xNx1, T1x3xNx1, T1x3xNx1] T4x3xNx1 0) (p : Fin 3) (n : Fin 100000) (c : Fin 1) :
    concatenate T4x3xNx1 0 [⟨T1x3xNx1, broadcastInDim T1x3xNx1 ![1, 2, 3] hb a0⟩,
        ⟨T1x3xNx1, broadcastInDim T1x3xNx1 ![1, 2, 3] hb a1⟩, ⟨T1x3xNx1, broadcastInDim T1x3xNx1 ![1, 2, 3] hb a2⟩,
        ⟨T1x3xNx1, broadcastInDim T1x3xNx1 ![1, 2, 3] hb a3⟩] hc (ix4 (2 : Fin 4) p n c) = a2 (ix3 p n c) :=
  stack1_apply a0 a1 a2 a3 hb hc 2 p n c
/-- … and position 3. -/
theorem stack1_3 (a0 a1 a2 a3 : T3xNx1.Idx → α)
    (hb : T3xNx1.BroadcastsInDim T1x3xNx1 (![1, 2, 3] : Fin 3 → Fin T1x3xNx1.rank))
    (hc : Shape.Concatenates [T1x3xNx1, T1x3xNx1, T1x3xNx1, T1x3xNx1] T4x3xNx1 0) (p : Fin 3) (n : Fin 100000) (c : Fin 1) :
    concatenate T4x3xNx1 0 [⟨T1x3xNx1, broadcastInDim T1x3xNx1 ![1, 2, 3] hb a0⟩,
        ⟨T1x3xNx1, broadcastInDim T1x3xNx1 ![1, 2, 3] hb a1⟩, ⟨T1x3xNx1, broadcastInDim T1x3xNx1 ![1, 2, 3] hb a2⟩,
        ⟨T1x3xNx1, broadcastInDim T1x3xNx1 ![1, 2, 3] hb a3⟩] hc (ix4 (3 : Fin 4) p n c) = a3 (ix3 p n c) :=
  stack1_apply a0 a1 a2 a3 hb hc 3 p n c

/-! ## A transpose [1, 0, 2] followed by a reshape that merges the two trailing axes

[S, N, C] transposed to [N, S, C] and reshaped to [N, S·C]: element (n, C·s + j) of the result is element (s, n, j)
of the operand. The reshape keeps the row-major position, (n·S + s)·C + j = n·(S·C) + (C·s + j); the transpose
exchanges the two leading coordinates. -/

/-- [4, N, 216] → [N, 4, 216] → [N, 864], read at (n, 216·s + j): the operand at (s, n, j). -/
theorem tail_apply (o : T4xNx216.Idx → α)
    (ht : T4xNx216.Transposes [1, 0, 2] TNx4x216) (hs : TNx4x216.ShapeCasts TNx864)
    (n : Fin 100000) (s : Fin 4) (j : Fin 216) (h : 216 * s.val + j.val < 864) :
    shapeCast TNx864 (transpose TNx4x216 [1, 0, 2] o ht) hs (ix2 n (⟨216 * s.val + j.val, h⟩ : Fin 864)) = o (ix3 s n j) :=
  (shapeCast_apply _ hs _ (ix3 n s j) (by
      rw [Shape.rowMajor_val_three, Shape.rowMajor_val_two]
      show (n.val * 4 + s.val) * 216 + j.val = n.val * 864 + (216 * s.val + j.val)
      omega)).trans
    (transpose_apply _ o ht _ (ix3 s n j) fun b => match b with | ⟨0, _⟩ => rfl | ⟨1, _⟩ => rfl | ⟨2, _⟩ => rfl)

/-- The same at any column k of the 864: the operand at (k / 216, n, k % 216). -/
theorem tail_apply_divmod (o : T4xNx216.Idx → α)
    (ht : T4xNx216.Transposes [1, 0, 2] TNx4x216) (hs : TNx4x216.ShapeCasts TNx864)
    (n : Fin 100000) (k : Fin 864) :
    shapeCast TNx864 (transpose TNx4x216 [1, 0, 2] o ht) hs (ix2 n k)
      = o (ix3 (⟨k.val / 216, by have := k.isLt; omega⟩ : Fin 4) n (⟨k.val % 216, Nat.mod_lt _ (by decide)⟩ : Fin 216)) :=
  (shapeCast_apply _ hs _ (ix3 n (⟨k.val / 216, by have := k.isLt; omega⟩ : Fin 4) (⟨k.val % 216, Nat.mod_lt _ (by decide)⟩ : Fin 216)) (by
      rw [Shape.rowMajor_val_three, Shape.rowMajor_val_two]
      show (n.val * 4 + k.val / 216) * 216 + k.val % 216 = n.val * 864 + k.val
      omega)).trans
    (transpose_apply _ o ht _ (ix3 _ n _) fun b => match b with | ⟨0, _⟩ => rfl | ⟨1, _⟩ => rfl | ⟨2, _⟩ => rfl)

/-- [3, N, 72] → [N, 3, 72] → [N, 216], read at (n, 72·p + c): the operand at (p, n, c). -/
theorem relayout_apply (a : T3xNx72.Idx → α)
    (ht : T3xNx72.Transposes [1, 0, 2] TNx3x72) (hs : TNx3x72.ShapeCasts TNx216)
    (n : Fin 100000) (p : Fin 3) (c : Fin 72) (h : 72 * p.val + c.val < 216) :
    shapeCast TNx216 (transpose TNx3x72 [1, 0, 2] a ht) hs (ix2 n (⟨72 * p.val + c.val, h⟩ : Fin 216)) = a (ix3 p n c) :=
  (shapeCast_apply _ hs _ (ix3 n p c) (by
      rw [Shape.rowMajor_val_three, Shape.rowMajor_val_two]
      show (n.val * 3 + p.val) * 72 + c.val = n.val * 216 + (72 * p.val + c.val)
      omega)).trans
    (transpose_apply _ a ht _ (ix3 p n c) fun b => match b with | ⟨0, _⟩ => rfl | ⟨1, _⟩ => rfl | ⟨2, _⟩ => rfl)

/-- The same at any column k of the 216: the operand at (k / 72, n, k % 72). -/
theorem relayout_apply_divmod (a : T3xNx72.Idx → α)
    (ht : T3xNx72.Transposes [1, 0, 2] TNx3x72) (hs : TNx3x72.ShapeCasts TNx216)
    (n : Fin 100000) (k : Fin 216) :
    shapeCast TNx216 (transpose TNx3x72 [1, 0, 2] a ht) hs (ix2 n k)
      = a (ix3 (⟨k.val / 72, by have := k.isLt; omega⟩ : Fin 3) n (⟨k.val % 72, Nat.mod_lt _ (by decide)⟩ : Fin 72)) :=
  (shapeCast_apply _ hs _ (ix3 n (⟨k.val / 72, by have := k.isLt; omega⟩ : Fin 3) (⟨k.val % 72, Nat.mod_lt _ (by decide)⟩ : Fin 72)) (by
      rw [Shape.rowMajor_val_three, Shape.rowMajor_val_two]
      show (n.val * 3 + k.val / 72) * 72 + k.val % 72 = n.val * 216 + k.val
      omega)).trans
    (transpose_apply _ a ht _ (ix3 _ n _) fun b => match b with | ⟨0, _⟩ => rfl | ⟨1, _⟩ => rfl | ⟨2, _⟩ => rfl)

/-! ## Four arrays [N, 216] laid end to end along the feature axis -/

/-- Element (n, 216·s + j) of the concatenation is element (n, j) of piece s. -/
theorem cat216_apply (p0 p1 p2 p3 : TNx216.Idx → α)
    (hc : Shape.Concatenates [TNx216, TNx216, TNx216, TNx216] TNx864 1)
    (n : Fin 100000) (s : Fin 4) (j : Fin 216) (h : 216 * s.val + j.val < 864) :
    concatenate TNx864 1 [⟨TNx216, p0⟩, ⟨TNx216, p1⟩, ⟨TNx216, p2⟩, ⟨TNx216, p3⟩] hc (ix2 n (⟨216 * s.val + j.val, h⟩ : Fin 864))
      = ![p0, p1, p2, p3] s (ix2 n j) := by
  have hi : ∀ (q : Fin 864) (b : Fin TNx216.rank), b.cast (rfl : TNx216.rank = TNx864.rank) ≠ 1 →
      ((ix2 n j : TNx216.Idx) b).val = ((ix2 n q : TNx864.Idx) (b.cast rfl)).val := fun q b hb =>
    match b, hb with
    | ⟨0, _⟩, _ => rfl
    | ⟨1, _⟩, hb => (hb (Fin.ext rfl)).elim
  match s, h with
  | ⟨0, _⟩, h =>
    exact concatenate_apply_piece (t := TNx864) 1 [⟨TNx216, p0⟩, ⟨TNx216, p1⟩, ⟨TNx216, p2⟩, ⟨TNx216, p3⟩] hc _ 0 (by simp)
      TNx216 p0 rfl rfl 0 (by first | rfl | decide | simp) (ix2 n j) (hi _) (by show 0 + j.val = 216 * 0 + j.val; omega)
  | ⟨1, _⟩, h =>
    exact concatenate_apply_piece (t := TNx864) 1 [⟨TNx216, p0⟩, ⟨TNx216, p1⟩, ⟨TNx216, p2⟩, ⟨TNx216, p3⟩] hc _ 1 (by simp)
      TNx216 p1 rfl rfl 216 (by first | rfl | decide | simp) (ix2 n j) (hi _) (by show 216 + j.val = 216 * 1 + j.val; omega)
  | ⟨2, _⟩, h =>
    exact concatenate_apply_piece (t := TNx864) 1 [⟨TNx216, p0⟩, ⟨TNx216, p1⟩, ⟨TNx216, p2⟩, ⟨TNx216, p3⟩] hc _ 2 (by simp)
      TNx216 p2 rfl rfl 432 (by first | rfl | decide | simp) (ix2 n j) (hi _) (by show 432 + j.val = 216 * 2 + j.val; omega)
  | ⟨3, _⟩, h =>
    exact concatenate_apply_piece (t := TNx864) 1 [⟨TNx216, p0⟩, ⟨TNx216, p1⟩, ⟨TNx216, p2⟩, ⟨TNx216, p3⟩] hc _ 3 (by simp)
      TNx216 p3 rfl rfl 648 (by first | rfl | decide | simp) (ix2 n j) (hi _) (by show 648 + j.val = 216 * 3 + j.val; omega)

/-- The same at any column k of the 864: piece k / 216 at (n, k % 216). -/
theorem cat216_apply_divmod (p0 p1 p2 p3 : TNx216.Idx → α)
    (hc : Shape.Concatenates [TNx216, TNx216, TNx216, TNx216] TNx864 1)
    (n : Fin 100000) (k : Fin 864) :
    concatenate TNx864 1 [⟨TNx216, p0⟩, ⟨TNx216, p1⟩, ⟨TNx216, p2⟩, ⟨TNx216, p3⟩] hc (ix2 n k)
      = ![p0, p1, p2, p3] (⟨k.val / 216, by have := k.isLt; omega⟩ : Fin 4)
          (ix2 n (⟨k.val % 216, Nat.mod_lt _ (by decide)⟩ : Fin 216)) := by
  have h3 : 216 * (k.val / 216) + k.val % 216 < 864 := by have := k.isLt; omega
  have e : k = (⟨216 * (k.val / 216) + k.val % 216, h3⟩ : Fin 864) := Fin.ext (Nat.div_add_mod k.val 216).symm
  exact (congrArg (fun q : Fin 864 =>
      concatenate TNx864 1 [⟨TNx216, p0⟩, ⟨TNx216, p1⟩, ⟨TNx216, p2⟩, ⟨TNx216, p3⟩] hc (ix2 n q)) e).trans
    (cat216_apply p0 p1 p2 p3 hc n ⟨k.val / 216, by have := k.isLt; omega⟩ ⟨k.val % 216, Nat.mod_lt _ (by decide)⟩ h3)

/-! ## Broadcasts -/

/-- A weight array [3, N, 1] broadcast along its unit axis to [3, N, 72] reads, at (p, n, c), its element (p, n, 0). -/
theorem wbcast_apply (w : T3xNx1.Idx → α)
    (hb : T3xNx1.BroadcastsInDim T3xNx72 (![0, 1, 2] : Fin 3 → Fin T3xNx72.rank))
    (p : Fin 3) (n : Fin 100000) (c : Fin 72) :
    broadcastInDim T3xNx72 ![0, 1, 2] hb w (ix3 p n c) = w (ix3 p n (0 : Fin 1)) :=
  broadcastInDim_apply _ hb w _ _ fun b => match b with | ⟨0, _⟩ => rfl | ⟨1, _⟩ => rfl | ⟨2, _⟩ => rfl

/-- A scalar broadcast to any shape reads the scalar at every index. -/
theorem scalar_apply {T : Shape} (x : T_.Idx → α) (h : T_.BroadcastsInDim T (![] : Fin 0 → Fin T.rank)) (j : T.Idx) :
    broadcastInDim T ![] h x j = x ix0 :=
  broadcastInDim_apply _ h x j ix0 fun a => a.elim0

/-- A scalar constant broadcast to any shape reads, at every index, the extended real its word encodes. -/
theorem scalar_const_apply {T : Shape} (w : BitVec 32) (h : T_.BroadcastsInDim T (![] : Fin 0 → Fin T.rank)) (j : T.Idx) :
    broadcastInDim T ![] h (constant (F := Ideal) T_ .f32 w) j = Ideal.ofBits .f32 w :=
  scalar_apply _ h j

/-! ## A running sum of four extended reals, from zero

Addition of extended reals is commutative and associative (no finiteness is needed), so the sum accumulated from
zero, scale by scale, is the sum nested the other way round. -/

theorem acc1 (a0 : EReal) : 0 + a0 = a0 := zero_add a0
theorem acc2 (a0 a1 : EReal) : 0 + a0 + a1 = a1 + a0 := by rw [zero_add, add_comm]
theorem acc3 (a0 a1 a2 : EReal) : 0 + a0 + a1 + a2 = a2 + (a1 + a0) := by
  rw [zero_add, add_comm (a0 + a1) a2, add_comm a0 a1]
theorem acc4 (a0 a1 a2 a3 : EReal) : 0 + a0 + a1 + a2 + a3 = a3 + (a2 + (a1 + a0)) := by
  rw [zero_add, add_comm (a0 + a1 + a2) a3, add_comm (a0 + a1) a2, add_comm a0 a1]

end Cert.Layout

end
-- ==== Proof.KI.ValTail.lean ====
/-
  The two lines after the region and the whole run. The region's result [4,100000,216] is transposed to [100000,4,216]
  and reshaped to [100000,864]: element (n, k) of the final array is element (k / 216, n, k % 216) of the region's result —
  the running sum over the scales 0 … k / 216 of the bilinear samples at point n, plane (k % 216) / 72, channel (k % 216) % 72.
-/
import proofs.«135668_j17884243821138_2_alg».proof.Proof.KI.ValFinal
import proofs.«135668_j17884243821138_2_alg».proof.Proof.KI.Run
import proofs.«135668_j17884243821138_2_alg».proof.Proof.Layout
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

variable (m : (ℓ : Loc nD τ sig) → Buf (Elt Ideal) ℓ) (ρ : Dev nD → PrngReg)

/-- The final array as one function of its index (point, 216·scale + 72·plane + channel). -/
def OUT (c : Dev nD) : S100000x864.Idx → EReal := fun idx =>
  Cert.Tri.accK (sampK m c (⟨(idx 0).val, (idx 0).isLt⟩ : Fin 100000)
    (⟨(idx 1).val % 216 / 72, by have h := Nat.mod_lt (idx 1).val (show 0 < 216 by decide); omega⟩ : Fin 3)
    (⟨(idx 1).val % 216 % 72, Nat.mod_lt _ (by decide)⟩ : Fin 72)) ((idx 1).val / 216)

/-- What the two later lines make of the region's exit contents, at the final array: the region's result transposed and reshaped. -/
theorem tail_eq (c : Dev nD) :
    (Pipeline.afterTail₀ cfgs (dats m) 0 (V0 m) [hostOps1] c main_v439 : S100000x864.Idx → EReal)
      = shapeCast S100000x864 (transpose S100000x4x216 [1, 0, 2] ((dats m 0 c).arrAt 6 cfg0.N) transposes_S4x100000x216_S100000x4x216_1_0_2) shapeCasts_S100000x4x216_S100000x864 := by
  unfold Pipeline.afterTail₀
  show StableHlo.after hostOps1 _ (Proc.devRef .tc main_v439) = _
  after_results
  rw [Pipeline.withArrays_arr spec0 launch0.win.arr_inj c (V0 m c) _ 6]
  rfl

/-- Read at (n, k): the running sum over the scales 0 … k / 216 at point n, plane (k % 216) / 72, channel (k % 216) % 72. -/
theorem tail_val (c : Dev nD) (n : Fin 100000) (k : Fin 864) :
    (Pipeline.afterTail₀ cfgs (dats m) 0 (V0 m) [hostOps1] c main_v439 : S100000x864.Idx → EReal) (ix2 n k)
      = Cert.Tri.accK (sampK m c n (⟨k.val % 216 / 72, by have h := Nat.mod_lt k.val (show 0 < 216 by decide); omega⟩ : Fin 3)
          (⟨k.val % 216 % 72, Nat.mod_lt _ (by decide)⟩ : Fin 72)) (k.val / 216) := by
  rw [tail_eq]
  exact (Cert.Layout.tail_apply_divmod _ transposes_S4x100000x216_S100000x4x216_1_0_2 shapeCasts_S100000x4x216_S100000x864 n k).trans
    (final6 m c (⟨k.val / 216, by have := k.isLt; omega⟩ : Fin 4) n (⟨k.val % 216, Nat.mod_lt _ (by decide)⟩ : Fin 216))

/-- As one function. -/
theorem tail_fun (c : Dev nD) :
    (Pipeline.afterTail₀ cfgs (dats m) 0 (V0 m) [hostOps1] c main_v439 : S100000x864.Idx → EReal) = OUT m c := by
  funext idx
  obtain ⟨n, k, rfl⟩ : ∃ (n : Fin 100000) (k : Fin 864), idx = ix2 n k := ⟨idx 0, idx 1, eq_ix2 idx⟩
  exact tail_val m c n k

/-- The run, read: every weakly fair execution of @main terminates with the final array at `OUT` and the five argument
    arrays as launched. -/
theorem run_val : θ_run defs (onTc (τ := τ) (main (F := Ideal))) ⟨m, fun _ => 0, ρ⟩ (fun r => ∀ c : Dev nD,
      r.2.mem ((c.tc : Thread nD τ).loc main_v439) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v439 (Pipeline.mem_restRefs_of main_v439 (by decide) (by decide))).trans (tail_fun m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.KernelIdeal.Val
end
-- ==== Proof.RefValSsa.lean ====
/- Single assignment read off the reference program's list of operations. Every operation of @main writes ONE
   reference, the one listed at its place in `opsW`; the contents a reference holds at the END of the run are its
   operation's function applied to the END contents of the operands, whenever the operands are written before the
   operation that reads them and never again, and the result is not written again. The lemmas here state that for each builder, given
   the operation at a position of the list, that its operands are not written from that position on, and that its
   result is not written after it. -/
import proofs.«135668_j17884243821138_2_alg».proof.Proof.RefRun

set_option maxRecDepth 8192

noncomputable section

namespace Cert.ReferenceIdeal.Val

open Cert.ReferenceIdeal Cert.ReferenceIdeal.Gen Cert.ReferenceIdeal.RefRun Idealize.ShloMosaic Idealize.ShloMosaic.TcCoe Idealize.SL.Sem Idealize.ShloMosaic.StableHlo

section General

variable {t : Topo} {s : RefSig} {Val : EltTy → Type}

/-- The operation writes exactly the reference. -/
abbrev Writes1 (op : HloOp t s Val) (r : Ref s .tc) : Prop := op.writes = {Proc.devRef (τ := t) .tc r}

/-- Lists related one for one concatenate to lists related one for one. -/
theorem forall₂_flatten {α β : Type _} {R : α → β → Prop} {Ls : List (List α)} {Ws : List (List β)}
    (h : List.Forall₂ (List.Forall₂ R) Ls Ws) : List.Forall₂ R Ls.flatten Ws.flatten := by
  induction h with
  | nil => exact .nil
  | cons hLW _ ih =>
    rw [List.flatten_cons, List.flatten_cons]
    induction hLW with
    | nil => exact ih
    | cons hab _ ih' => exact .cons hab ih'

/-- Through operations that each write one listed reference, a reference not listed keeps its contents. -/
theorem after_keep {L : List (HloOp t s Val)} {Ws : List (Ref s .tc)} (h : List.Forall₂ Writes1 L Ws)
    {r : Ref s .tc} (hr : r ∉ Ws) (Q : Valuation t s Val) :
    after L Q (Proc.devRef .tc r) = Q (Proc.devRef .tc r) := by
  induction h generalizing Q with
  | nil => rfl
  | @cons op w L Ws hw _ ih =>
    rw [after_cons, ih (fun hm => hr (List.mem_cons_of_mem _ hm)), HloOp.result_of_not_mem]
    rw [hw, Finset.mem_singleton]
    exact fun e => hr (Proc.devRef_injective _ e ▸ List.mem_cons_self)

/-- A run is the run of what comes before a position, the operation there, and the run of what comes after. -/
theorem after_split (L : List (HloOp t s Val)) (i : Nat) (op : HloOp t s Val) (hop : L[i]? = some op)
    (V : Valuation t s Val) : after L V = after (L.drop (i + 1)) (op.result (after (L.take i) V)) := by
  obtain ⟨hi, rfl⟩ := List.getElem?_eq_some_iff.mp hop
  conv_lhs => rw [← List.take_append_drop i L, ← List.getElem_cons_drop_succ_eq_drop hi]
  induction L.take i generalizing V with
  | nil => rfl
  | cons a l ih => exact ih (a.result V)

variable {L : List (HloOp t s Val)} {Ws : List (Ref s .tc)} (h : List.Forall₂ Writes1 L Ws) (V : Valuation t s Val) (i : Nat)
include h

/-- The contents after the whole run, at a reference written neither at position `i` nor after it, are those before position `i`. -/
theorem after_eq_take {r : Ref s .tc} (hr : r ∉ Ws.drop i) :
    after L V (Proc.devRef .tc r) = after (L.take i) V (Proc.devRef .tc r) := by
  conv_lhs => rw [← List.take_append_drop i L]
  have : ∀ (A : List (HloOp t s Val)) (V : Valuation t s Val),
      after (A ++ L.drop i) V (Proc.devRef .tc r) = after A V (Proc.devRef .tc r) := by
    intro A
    induction A with
    | nil => intro V; exact after_keep (List.forall₂_drop i h) hr V
    | cons a l ih => intro V; exact ih (a.result V)
  exact this _ V

/-- The contents after the whole run, at the result of the operation at position `i` when nothing after writes it,
    are that operation's result from the contents before it. -/
theorem after_eq_result {op : HloOp t s Val} (hop : L[i]? = some op) {y : Ref s .tc} (hy : y ∉ Ws.drop (i + 1)) :
    after L V (Proc.devRef .tc y) = op.result (after (L.take i) V) (Proc.devRef .tc y) := by
  rw [after_split L i op hop V]
  exact after_keep (List.forall₂_drop (i + 1) h) hy _

theorem fin_nullary {y : Ref s .tc} {v : y.ty.Contents Val} {hy} (hop : L[i]? = some (nullary y v hy))
    (hy' : y ∉ Ws.drop (i + 1)) : after L V (Proc.devRef .tc y) = v := by
  rw [after_eq_result h V i hop hy']; exact nullary_result ..

theorem fin_unary {x y : Ref s .tc} {f : x.ty.Contents Val → y.ty.Contents Val} {hx hy}
    (hop : L[i]? = some (unary x y f hx hy)) (hx' : x ∉ Ws.drop i) (hy' : y ∉ Ws.drop (i + 1)) :
    after L V (Proc.devRef .tc y) = f (after L V (Proc.devRef .tc x)) := by
  rw [after_eq_result h V i hop hy', after_eq_take h V i hx']; exact unary_result ..

theorem fin_binary {a b y : Ref s .tc} {f : a.ty.Contents Val → b.ty.Contents Val → y.ty.Contents Val} {ha hb hy}
    (hop : L[i]? = some (binary a b y f ha hb hy)) (ha' : a ∉ Ws.drop i) (hb' : b ∉ Ws.drop i)
    (hy' : y ∉ Ws.drop (i + 1)) :
    after L V (Proc.devRef .tc y) = f (after L V (Proc.devRef .tc a)) (after L V (Proc.devRef .tc b)) := by
  rw [after_eq_result h V i hop hy', after_eq_take h V i ha', after_eq_take h V i hb']; exact binary_result ..

theorem fin_reshape {x y : Ref s .tc} {he : x.ty.elt = y.ty.elt} {hn : x.ty.shape.ShapeCasts y.ty.shape} {hx hy}
    (hop : L[i]? = some (reshape x y he hn hx hy)) (hx' : x ∉ Ws.drop i) (hy' : y ∉ Ws.drop (i + 1)) :
    after L V (Proc.devRef .tc y) = fun j => he ▸ shapeCast y.ty.shape (after L V (Proc.devRef .tc x)) hn j := by
  rw [after_eq_result h V i hop hy', after_eq_take h V i hx']; exact reshape_result ..

theorem fin_nary {n : Nat} {xs : Fin n → Ref s .tc} {y : Ref s .tc}
    {f : ((k : Fin n) → (xs k).ty.Contents Val) → y.ty.Contents Val} {hxs hy}
    (hop : L[i]? = some (nary xs y f hxs hy)) (hxs' : ∀ k, xs k ∉ Ws.drop i) (hy' : y ∉ Ws.drop (i + 1)) :
    after L V (Proc.devRef .tc y) = f (fun k => after L V (Proc.devRef .tc (xs k))) := by
  rw [after_eq_result h V i hop hy']
  rw [show (fun k => after L V (Proc.devRef .tc (xs k))) = fun k => after (L.take i) V (Proc.devRef .tc (xs k)) from
    funext fun k => after_eq_take h V i (hxs' k)]
  exact nary_result ..

end General

variable {F : FTy → Type} [FloatOps F]

theorem w0_ops0_w1 : List.Forall₂ Writes1 (w0_ops0 : List (HloOp τ sig (Elt F))) w0_ops0_W := by
  repeat' constructor
theorem w1_ops0_w1 : List.Forall₂ Writes1 (w1_ops0 : List (HloOp τ sig (Elt F))) w1_ops0_W := by
  repeat' constructor
theorem w1_ops1_w1 : List.Forall₂ Writes1 (w1_ops1 : List (HloOp τ sig (Elt F))) w1_ops1_W := by
  repeat' constructor
theorem w1_ops2_w1 : List.Forall₂ Writes1 (w1_ops2 : List (HloOp τ sig (Elt F))) w1_ops2_W := by
  repeat' constructor
theorem w1_ops3_w1 : List.Forall₂ Writes1 (w1_ops3 : List (HloOp τ sig (Elt F))) w1_ops3_W := by
  repeat' constructor
theorem w1_ops4_w1 : List.Forall₂ Writes1 (w1_ops4 : List (HloOp τ sig (Elt F))) w1_ops4_W := by
  repeat' constructor
theorem w2_ops0_w1 : List.Forall₂ Writes1 (w2_ops0 : List (HloOp τ sig (Elt F))) w2_ops0_W := by
  repeat' constructor
theorem w3_ops0_w1 : List.Forall₂ Writes1 (w3_ops0 : List (HloOp τ sig (Elt F))) w3_ops0_W := by
  repeat' constructor
theorem w3_ops1_w1 : List.Forall₂ Writes1 (w3_ops1 : List (HloOp τ sig (Elt F))) w3_ops1_W := by
  repeat' constructor
theorem w3_ops2_w1 : List.Forall₂ Writes1 (w3_ops2 : List (HloOp τ sig (Elt F))) w3_ops2_W := by
  repeat' constructor
theorem w3_ops3_w1 : List.Forall₂ Writes1 (w3_ops3 : List (HloOp τ sig (Elt F))) w3_ops3_W := by
  repeat' constructor
theorem w3_ops4_w1 : List.Forall₂ Writes1 (w3_ops4 : List (HloOp τ sig (Elt F))) w3_ops4_W := by
  repeat' constructor
theorem w4_ops0_w1 : List.Forall₂ Writes1 (w4_ops0 : List (HloOp τ sig (Elt F))) w4_ops0_W := by
  repeat' constructor
theorem w5_ops0_w1 : List.Forall₂ Writes1 (w5_ops0 : List (HloOp τ sig (Elt F))) w5_ops0_W := by
  repeat' constructor
theorem w6_ops0_w1 : List.Forall₂ Writes1 (w6_ops0 : List (HloOp τ sig (Elt F))) w6_ops0_W := by
  repeat' constructor
theorem w6_ops1_w1 : List.Forall₂ Writes1 (w6_ops1 : List (HloOp τ sig (Elt F))) w6_ops1_W := by
  repeat' constructor
theorem w6_ops2_w1 : List.Forall₂ Writes1 (w6_ops2 : List (HloOp τ sig (Elt F))) w6_ops2_W := by
  repeat' constructor
theorem w6_ops3_w1 : List.Forall₂ Writes1 (w6_ops3 : List (HloOp τ sig (Elt F))) w6_ops3_W := by
  repeat' constructor
theorem w6_ops4_w1 : List.Forall₂ Writes1 (w6_ops4 : List (HloOp τ sig (Elt F))) w6_ops4_W := by
  repeat' constructor
theorem w7_ops0_w1 : List.Forall₂ Writes1 (w7_ops0 : List (HloOp τ sig (Elt F))) w7_ops0_W := by
  repeat' constructor
theorem w8_ops0_w1 : List.Forall₂ Writes1 (w8_ops0 : List (HloOp τ sig (Elt F))) w8_ops0_W := by
  repeat' constructor
theorem w8_ops1_w1 : List.Forall₂ Writes1 (w8_ops1 : List (HloOp τ sig (Elt F))) w8_ops1_W := by
  repeat' constructor
theorem w8_ops2_w1 : List.Forall₂ Writes1 (w8_ops2 : List (HloOp τ sig (Elt F))) w8_ops2_W := by
  repeat' constructor
theorem w8_ops3_w1 : List.Forall₂ Writes1 (w8_ops3 : List (HloOp τ sig (Elt F))) w8_ops3_W := by
  repeat' constructor
theorem w8_ops4_w1 : List.Forall₂ Writes1 (w8_ops4 : List (HloOp τ sig (Elt F))) w8_ops4_W := by
  repeat' constructor
theorem w9_ops0_w1 : List.Forall₂ Writes1 (w9_ops0 : List (HloOp τ sig (Elt F))) w9_ops0_W := by
  repeat' constructor
theorem w10_ops0_w1 : List.Forall₂ Writes1 (w10_ops0 : List (HloOp τ sig (Elt F))) w10_ops0_W := by
  repeat' constructor

/-- Each of @main's operations writes exactly the reference at its place in `opsW`. -/
theorem ops_w1 : List.Forall₂ Writes1 (ops : List (HloOp τ sig (Elt F))) opsW :=
  forall₂_flatten (.cons w0_ops0_w1 (.cons w1_ops0_w1 (.cons w1_ops1_w1 (.cons w1_ops2_w1 (.cons w1_ops3_w1 (.cons w1_ops4_w1 (.cons w2_ops0_w1 (.cons w3_ops0_w1 (.cons w3_ops1_w1 (.cons w3_ops2_w1 (.cons w3_ops3_w1 (.cons w3_ops4_w1 (.cons w4_ops0_w1 (.cons w5_ops0_w1 (.cons w6_ops0_w1 (.cons w6_ops1_w1 (.cons w6_ops2_w1 (.cons w6_ops3_w1 (.cons w6_ops4_w1 (.cons w7_ops0_w1 (.cons w8_ops0_w1 (.cons w8_ops1_w1 (.cons w8_ops2_w1 (.cons w8_ops3_w1 (.cons w8_ops4_w1 (.cons w9_ops0_w1 (.cons w10_ops0_w1 (.nil))))))))))))))))))))))))))))

end Cert.ReferenceIdeal.Val

end
-- ==== Proof.RefValEqs.lean ====
/- The end contents of the reference's run at the buffers of its four bilinear blends, its running sums over the
   scales and its result: each is its operation's function of the end contents of the operation's operands
   (every operand is written before the operation and never again). One equation per operation, the operation
   named by its position in @main's list. -/
import proofs.«135668_j17884243821138_2_alg».proof.Proof.RefValSsa

set_option maxRecDepth 16384

noncomputable section

namespace Cert.ReferenceIdeal.Val

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F] (V : Valuation τ sig (Elt F))

theorem eq_main_cst_40 :
    after ops V (Proc.devRef .tc main_cst_40) = (constant S_ .f32 0x3F800000#32) :=
  fin_nullary ops_w1 V 177 rfl (by decide)
theorem eq_main_v125 :
    after ops V (Proc.devRef .tc main_v125) = (broadcastInDim S3x100000x1 ![] bcast_S_S3x100000x1 : (⟨S_, .f32⟩ : BufTy).Contents (Elt F) → (⟨S3x100000x1, .f32⟩ : BufTy).Contents (Elt F)) (after ops V (Proc.devRef .tc main_cst_40)) :=
  fin_unary ops_w1 V 178 rfl (by decide) (by decide)
theorem eq_main_v126 :
    after ops V (Proc.devRef .tc main_v126) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v125)) (after ops V (Proc.devRef .tc main_v52)) :=
  fin_binary ops_w1 V 179 rfl (by decide) (by decide) (by decide)
theorem eq_main_v127 :
    after ops V (Proc.devRef .tc main_v127) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v126)) :=
  fin_unary ops_w1 V 180 rfl (by decide) (by decide)
theorem eq_main_v128 :
    after ops V (Proc.devRef .tc main_v128) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v79)) (after ops V (Proc.devRef .tc main_v127)) :=
  fin_binary ops_w1 V 181 rfl (by decide) (by decide) (by decide)
theorem eq_main_v129 :
    after ops V (Proc.devRef .tc main_v129) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v52)) :=
  fin_unary ops_w1 V 182 rfl (by decide) (by decide)
theorem eq_main_v130 :
    after ops V (Proc.devRef .tc main_v130) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v94)) (after ops V (Proc.devRef .tc main_v129)) :=
  fin_binary ops_w1 V 183 rfl (by decide) (by decide) (by decide)
theorem eq_main_v131 :
    after ops V (Proc.devRef .tc main_v131) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v128)) (after ops V (Proc.devRef .tc main_v130)) :=
  fin_binary ops_w1 V 184 rfl (by decide) (by decide) (by decide)
theorem eq_main_cst_41 :
    after ops V (Proc.devRef .tc main_cst_41) = (constant S_ .f32 0x3F800000#32) :=
  fin_nullary ops_w1 V 185 rfl (by decide)
theorem eq_main_v132 :
    after ops V (Proc.devRef .tc main_v132) = (broadcastInDim S3x100000x1 ![] bcast_S_S3x100000x1 : (⟨S_, .f32⟩ : BufTy).Contents (Elt F) → (⟨S3x100000x1, .f32⟩ : BufTy).Contents (Elt F)) (after ops V (Proc.devRef .tc main_cst_41)) :=
  fin_unary ops_w1 V 186 rfl (by decide) (by decide)
theorem eq_main_v133 :
    after ops V (Proc.devRef .tc main_v133) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v132)) (after ops V (Proc.devRef .tc main_v52)) :=
  fin_binary ops_w1 V 187 rfl (by decide) (by decide) (by decide)
theorem eq_main_v134 :
    after ops V (Proc.devRef .tc main_v134) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v133)) :=
  fin_unary ops_w1 V 188 rfl (by decide) (by decide)
theorem eq_main_v135 :
    after ops V (Proc.devRef .tc main_v135) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v109)) (after ops V (Proc.devRef .tc main_v134)) :=
  fin_binary ops_w1 V 189 rfl (by decide) (by decide) (by decide)
theorem eq_main_v136 :
    after ops V (Proc.devRef .tc main_v136) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v52)) :=
  fin_unary ops_w1 V 190 rfl (by decide) (by decide)
theorem eq_main_v137 :
    after ops V (Proc.devRef .tc main_v137) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v124)) (after ops V (Proc.devRef .tc main_v136)) :=
  fin_binary ops_w1 V 191 rfl (by decide) (by decide) (by decide)
theorem eq_main_v138 :
    after ops V (Proc.devRef .tc main_v138) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v135)) (after ops V (Proc.devRef .tc main_v137)) :=
  fin_binary ops_w1 V 192 rfl (by decide) (by decide) (by decide)
theorem eq_main_cst_42 :
    after ops V (Proc.devRef .tc main_cst_42) = (constant S_ .f32 0x3F800000#32) :=
  fin_nullary ops_w1 V 193 rfl (by decide)
theorem eq_main_v139 :
    after ops V (Proc.devRef .tc main_v139) = (broadcastInDim S3x100000x1 ![] bcast_S_S3x100000x1 : (⟨S_, .f32⟩ : BufTy).Contents (Elt F) → (⟨S3x100000x1, .f32⟩ : BufTy).Contents (Elt F)) (after ops V (Proc.devRef .tc main_cst_42)) :=
  fin_unary ops_w1 V 194 rfl (by decide) (by decide)
theorem eq_main_v140 :
    after ops V (Proc.devRef .tc main_v140) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v139)) (after ops V (Proc.devRef .tc main_v54)) :=
  fin_binary ops_w1 V 195 rfl (by decide) (by decide) (by decide)
theorem eq_main_v141 :
    after ops V (Proc.devRef .tc main_v141) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v140)) :=
  fin_unary ops_w1 V 196 rfl (by decide) (by decide)
theorem eq_main_v142 :
    after ops V (Proc.devRef .tc main_v142) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v131)) (after ops V (Proc.devRef .tc main_v141)) :=
  fin_binary ops_w1 V 197 rfl (by decide) (by decide) (by decide)
theorem eq_main_v143 :
    after ops V (Proc.devRef .tc main_v143) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v54)) :=
  fin_unary ops_w1 V 198 rfl (by decide) (by decide)
theorem eq_main_v144 :
    after ops V (Proc.devRef .tc main_v144) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v138)) (after ops V (Proc.devRef .tc main_v143)) :=
  fin_binary ops_w1 V 199 rfl (by decide) (by decide) (by decide)
theorem eq_main_v145 :
    after ops V (Proc.devRef .tc main_v145) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v142)) (after ops V (Proc.devRef .tc main_v144)) :=
  fin_binary ops_w1 V 200 rfl (by decide) (by decide) (by decide)
theorem eq_main_v146 :
    after ops V (Proc.devRef .tc main_v146) = ((transpose S100000x3x72 [1, 0, 2] · transposes_S3x100000x72_S100000x3x72_1_0_2) : (⟨S3x100000x72, .f32⟩ : BufTy).Contents (Elt F) → (⟨S100000x3x72, .f32⟩ : BufTy).Contents (Elt F)) (after ops V (Proc.devRef .tc main_v145)) :=
  fin_unary ops_w1 V 201 rfl (by decide) (by decide)
theorem eq_main_v147 :
    after ops V (Proc.devRef .tc main_v147) = fun j => shapeCast S100000x216 (after ops V (Proc.devRef .tc main_v146)) shapeCasts_S100000x3x72_S100000x216 j :=
  fin_reshape ops_w1 V 202 rfl (by decide) (by decide)
theorem eq_main_cst_73 :
    after ops V (Proc.devRef .tc main_cst_73) = (constant S_ .f32 0x3F800000#32) :=
  fin_nullary ops_w1 V 337 rfl (by decide)
theorem eq_main_v242 :
    after ops V (Proc.devRef .tc main_v242) = (broadcastInDim S3x100000x1 ![] bcast_S_S3x100000x1 : (⟨S_, .f32⟩ : BufTy).Contents (Elt F) → (⟨S3x100000x1, .f32⟩ : BufTy).Contents (Elt F)) (after ops V (Proc.devRef .tc main_cst_73)) :=
  fin_unary ops_w1 V 338 rfl (by decide) (by decide)
theorem eq_main_v243 :
    after ops V (Proc.devRef .tc main_v243) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v242)) (after ops V (Proc.devRef .tc main_v169)) :=
  fin_binary ops_w1 V 339 rfl (by decide) (by decide) (by decide)
theorem eq_main_v244 :
    after ops V (Proc.devRef .tc main_v244) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v243)) :=
  fin_unary ops_w1 V 340 rfl (by decide) (by decide)
theorem eq_main_v245 :
    after ops V (Proc.devRef .tc main_v245) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v196)) (after ops V (Proc.devRef .tc main_v244)) :=
  fin_binary ops_w1 V 341 rfl (by decide) (by decide) (by decide)
theorem eq_main_v246 :
    after ops V (Proc.devRef .tc main_v246) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v169)) :=
  fin_unary ops_w1 V 342 rfl (by decide) (by decide)
theorem eq_main_v247 :
    after ops V (Proc.devRef .tc main_v247) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v211)) (after ops V (Proc.devRef .tc main_v246)) :=
  fin_binary ops_w1 V 343 rfl (by decide) (by decide) (by decide)
theorem eq_main_v248 :
    after ops V (Proc.devRef .tc main_v248) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v245)) (after ops V (Proc.devRef .tc main_v247)) :=
  fin_binary ops_w1 V 344 rfl (by decide) (by decide) (by decide)
theorem eq_main_cst_74 :
    after ops V (Proc.devRef .tc main_cst_74) = (constant S_ .f32 0x3F800000#32) :=
  fin_nullary ops_w1 V 345 rfl (by decide)
theorem eq_main_v249 :
    after ops V (Proc.devRef .tc main_v249) = (broadcastInDim S3x100000x1 ![] bcast_S_S3x100000x1 : (⟨S_, .f32⟩ : BufTy).Contents (Elt F) → (⟨S3x100000x1, .f32⟩ : BufTy).Contents (Elt F)) (after ops V (Proc.devRef .tc main_cst_74)) :=
  fin_unary ops_w1 V 346 rfl (by decide) (by decide)
theorem eq_main_v250 :
    after ops V (Proc.devRef .tc main_v250) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v249)) (after ops V (Proc.devRef .tc main_v169)) :=
  fin_binary ops_w1 V 347 rfl (by decide) (by decide) (by decide)
theorem eq_main_v251 :
    after ops V (Proc.devRef .tc main_v251) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v250)) :=
  fin_unary ops_w1 V 348 rfl (by decide) (by decide)
theorem eq_main_v252 :
    after ops V (Proc.devRef .tc main_v252) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v226)) (after ops V (Proc.devRef .tc main_v251)) :=
  fin_binary ops_w1 V 349 rfl (by decide) (by decide) (by decide)
theorem eq_main_v253 :
    after ops V (Proc.devRef .tc main_v253) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v169)) :=
  fin_unary ops_w1 V 350 rfl (by decide) (by decide)
theorem eq_main_v254 :
    after ops V (Proc.devRef .tc main_v254) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v241)) (after ops V (Proc.devRef .tc main_v253)) :=
  fin_binary ops_w1 V 351 rfl (by decide) (by decide) (by decide)
theorem eq_main_v255 :
    after ops V (Proc.devRef .tc main_v255) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v252)) (after ops V (Proc.devRef .tc main_v254)) :=
  fin_binary ops_w1 V 352 rfl (by decide) (by decide) (by decide)
theorem eq_main_cst_75 :
    after ops V (Proc.devRef .tc main_cst_75) = (constant S_ .f32 0x3F800000#32) :=
  fin_nullary ops_w1 V 353 rfl (by decide)
theorem eq_main_v256 :
    after ops V (Proc.devRef .tc main_v256) = (broadcastInDim S3x100000x1 ![] bcast_S_S3x100000x1 : (⟨S_, .f32⟩ : BufTy).Contents (Elt F) → (⟨S3x100000x1, .f32⟩ : BufTy).Contents (Elt F)) (after ops V (Proc.devRef .tc main_cst_75)) :=
  fin_unary ops_w1 V 354 rfl (by decide) (by decide)
theorem eq_main_v257 :
    after ops V (Proc.devRef .tc main_v257) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v256)) (after ops V (Proc.devRef .tc main_v171)) :=
  fin_binary ops_w1 V 355 rfl (by decide) (by decide) (by decide)
theorem eq_main_v258 :
    after ops V (Proc.devRef .tc main_v258) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v257)) :=
  fin_unary ops_w1 V 356 rfl (by decide) (by decide)
theorem eq_main_v259 :
    after ops V (Proc.devRef .tc main_v259) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v248)) (after ops V (Proc.devRef .tc main_v258)) :=
  fin_binary ops_w1 V 357 rfl (by decide) (by decide) (by decide)
theorem eq_main_v260 :
    after ops V (Proc.devRef .tc main_v260) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v171)) :=
  fin_unary ops_w1 V 358 rfl (by decide) (by decide)
theorem eq_main_v261 :
    after ops V (Proc.devRef .tc main_v261) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v255)) (after ops V (Proc.devRef .tc main_v260)) :=
  fin_binary ops_w1 V 359 rfl (by decide) (by decide) (by decide)
theorem eq_main_v262 :
    after ops V (Proc.devRef .tc main_v262) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v259)) (after ops V (Proc.devRef .tc main_v261)) :=
  fin_binary ops_w1 V 360 rfl (by decide) (by decide) (by decide)
theorem eq_main_v263 :
    after ops V (Proc.devRef .tc main_v263) = ((transpose S100000x3x72 [1, 0, 2] · transposes_S3x100000x72_S100000x3x72_1_0_2) : (⟨S3x100000x72, .f32⟩ : BufTy).Contents (Elt F) → (⟨S100000x3x72, .f32⟩ : BufTy).Contents (Elt F)) (after ops V (Proc.devRef .tc main_v262)) :=
  fin_unary ops_w1 V 361 rfl (by decide) (by decide)
theorem eq_main_v264 :
    after ops V (Proc.devRef .tc main_v264) = fun j => shapeCast S100000x216 (after ops V (Proc.devRef .tc main_v263)) shapeCasts_S100000x3x72_S100000x216 j :=
  fin_reshape ops_w1 V 362 rfl (by decide) (by decide)
theorem eq_main_cst_106 :
    after ops V (Proc.devRef .tc main_cst_106) = (constant S_ .f32 0x3F800000#32) :=
  fin_nullary ops_w1 V 498 rfl (by decide)
theorem eq_main_v360 :
    after ops V (Proc.devRef .tc main_v360) = (broadcastInDim S3x100000x1 ![] bcast_S_S3x100000x1 : (⟨S_, .f32⟩ : BufTy).Contents (Elt F) → (⟨S3x100000x1, .f32⟩ : BufTy).Contents (Elt F)) (after ops V (Proc.devRef .tc main_cst_106)) :=
  fin_unary ops_w1 V 499 rfl (by decide) (by decide)
theorem eq_main_v361 :
    after ops V (Proc.devRef .tc main_v361) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v360)) (after ops V (Proc.devRef .tc main_v287)) :=
  fin_binary ops_w1 V 500 rfl (by decide) (by decide) (by decide)
theorem eq_main_v362 :
    after ops V (Proc.devRef .tc main_v362) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v361)) :=
  fin_unary ops_w1 V 501 rfl (by decide) (by decide)
theorem eq_main_v363 :
    after ops V (Proc.devRef .tc main_v363) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v314)) (after ops V (Proc.devRef .tc main_v362)) :=
  fin_binary ops_w1 V 502 rfl (by decide) (by decide) (by decide)
theorem eq_main_v364 :
    after ops V (Proc.devRef .tc main_v364) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v287)) :=
  fin_unary ops_w1 V 503 rfl (by decide) (by decide)
theorem eq_main_v365 :
    after ops V (Proc.devRef .tc main_v365) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v329)) (after ops V (Proc.devRef .tc main_v364)) :=
  fin_binary ops_w1 V 504 rfl (by decide) (by decide) (by decide)
theorem eq_main_v366 :
    after ops V (Proc.devRef .tc main_v366) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v363)) (after ops V (Proc.devRef .tc main_v365)) :=
  fin_binary ops_w1 V 505 rfl (by decide) (by decide) (by decide)
theorem eq_main_cst_107 :
    after ops V (Proc.devRef .tc main_cst_107) = (constant S_ .f32 0x3F800000#32) :=
  fin_nullary ops_w1 V 506 rfl (by decide)
theorem eq_main_v367 :
    after ops V (Proc.devRef .tc main_v367) = (broadcastInDim S3x100000x1 ![] bcast_S_S3x100000x1 : (⟨S_, .f32⟩ : BufTy).Contents (Elt F) → (⟨S3x100000x1, .f32⟩ : BufTy).Contents (Elt F)) (after ops V (Proc.devRef .tc main_cst_107)) :=
  fin_unary ops_w1 V 507 rfl (by decide) (by decide)
theorem eq_main_v368 :
    after ops V (Proc.devRef .tc main_v368) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v367)) (after ops V (Proc.devRef .tc main_v287)) :=
  fin_binary ops_w1 V 508 rfl (by decide) (by decide) (by decide)
theorem eq_main_v369 :
    after ops V (Proc.devRef .tc main_v369) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v368)) :=
  fin_unary ops_w1 V 509 rfl (by decide) (by decide)
theorem eq_main_v370 :
    after ops V (Proc.devRef .tc main_v370) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v344)) (after ops V (Proc.devRef .tc main_v369)) :=
  fin_binary ops_w1 V 510 rfl (by decide) (by decide) (by decide)
theorem eq_main_v371 :
    after ops V (Proc.devRef .tc main_v371) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v287)) :=
  fin_unary ops_w1 V 511 rfl (by decide) (by decide)
theorem eq_main_v372 :
    after ops V (Proc.devRef .tc main_v372) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v359)) (after ops V (Proc.devRef .tc main_v371)) :=
  fin_binary ops_w1 V 512 rfl (by decide) (by decide) (by decide)
theorem eq_main_v373 :
    after ops V (Proc.devRef .tc main_v373) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v370)) (after ops V (Proc.devRef .tc main_v372)) :=
  fin_binary ops_w1 V 513 rfl (by decide) (by decide) (by decide)
theorem eq_main_cst_108 :
    after ops V (Proc.devRef .tc main_cst_108) = (constant S_ .f32 0x3F800000#32) :=
  fin_nullary ops_w1 V 514 rfl (by decide)
theorem eq_main_v374 :
    after ops V (Proc.devRef .tc main_v374) = (broadcastInDim S3x100000x1 ![] bcast_S_S3x100000x1 : (⟨S_, .f32⟩ : BufTy).Contents (Elt F) → (⟨S3x100000x1, .f32⟩ : BufTy).Contents (Elt F)) (after ops V (Proc.devRef .tc main_cst_108)) :=
  fin_unary ops_w1 V 515 rfl (by decide) (by decide)
theorem eq_main_v375 :
    after ops V (Proc.devRef .tc main_v375) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v374)) (after ops V (Proc.devRef .tc main_v289)) :=
  fin_binary ops_w1 V 516 rfl (by decide) (by decide) (by decide)
theorem eq_main_v376 :
    after ops V (Proc.devRef .tc main_v376) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v375)) :=
  fin_unary ops_w1 V 517 rfl (by decide) (by decide)
theorem eq_main_v377 :
    after ops V (Proc.devRef .tc main_v377) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v366)) (after ops V (Proc.devRef .tc main_v376)) :=
  fin_binary ops_w1 V 518 rfl (by decide) (by decide) (by decide)
theorem eq_main_v378 :
    after ops V (Proc.devRef .tc main_v378) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v289)) :=
  fin_unary ops_w1 V 519 rfl (by decide) (by decide)
theorem eq_main_v379 :
    after ops V (Proc.devRef .tc main_v379) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v373)) (after ops V (Proc.devRef .tc main_v378)) :=
  fin_binary ops_w1 V 520 rfl (by decide) (by decide) (by decide)
theorem eq_main_v380 :
    after ops V (Proc.devRef .tc main_v380) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v377)) (after ops V (Proc.devRef .tc main_v379)) :=
  fin_binary ops_w1 V 521 rfl (by decide) (by decide) (by decide)
theorem eq_main_v381 :
    after ops V (Proc.devRef .tc main_v381) = ((transpose S100000x3x72 [1, 0, 2] · transposes_S3x100000x72_S100000x3x72_1_0_2) : (⟨S3x100000x72, .f32⟩ : BufTy).Contents (Elt F) → (⟨S100000x3x72, .f32⟩ : BufTy).Contents (Elt F)) (after ops V (Proc.devRef .tc main_v380)) :=
  fin_unary ops_w1 V 522 rfl (by decide) (by decide)
theorem eq_main_v382 :
    after ops V (Proc.devRef .tc main_v382) = fun j => shapeCast S100000x216 (after ops V (Proc.devRef .tc main_v381)) shapeCasts_S100000x3x72_S100000x216 j :=
  fin_reshape ops_w1 V 523 rfl (by decide) (by decide)
theorem eq_main_cst_139 :
    after ops V (Proc.devRef .tc main_cst_139) = (constant S_ .f32 0x3F800000#32) :=
  fin_nullary ops_w1 V 659 rfl (by decide)
theorem eq_main_v478 :
    after ops V (Proc.devRef .tc main_v478) = (broadcastInDim S3x100000x1 ![] bcast_S_S3x100000x1 : (⟨S_, .f32⟩ : BufTy).Contents (Elt F) → (⟨S3x100000x1, .f32⟩ : BufTy).Contents (Elt F)) (after ops V (Proc.devRef .tc main_cst_139)) :=
  fin_unary ops_w1 V 660 rfl (by decide) (by decide)
theorem eq_main_v479 :
    after ops V (Proc.devRef .tc main_v479) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v478)) (after ops V (Proc.devRef .tc main_v405)) :=
  fin_binary ops_w1 V 661 rfl (by decide) (by decide) (by decide)
theorem eq_main_v480 :
    after ops V (Proc.devRef .tc main_v480) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v479)) :=
  fin_unary ops_w1 V 662 rfl (by decide) (by decide)
theorem eq_main_v481 :
    after ops V (Proc.devRef .tc main_v481) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v432)) (after ops V (Proc.devRef .tc main_v480)) :=
  fin_binary ops_w1 V 663 rfl (by decide) (by decide) (by decide)
theorem eq_main_v482 :
    after ops V (Proc.devRef .tc main_v482) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v405)) :=
  fin_unary ops_w1 V 664 rfl (by decide) (by decide)
theorem eq_main_v483 :
    after ops V (Proc.devRef .tc main_v483) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v447)) (after ops V (Proc.devRef .tc main_v482)) :=
  fin_binary ops_w1 V 665 rfl (by decide) (by decide) (by decide)
theorem eq_main_v484 :
    after ops V (Proc.devRef .tc main_v484) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v481)) (after ops V (Proc.devRef .tc main_v483)) :=
  fin_binary ops_w1 V 666 rfl (by decide) (by decide) (by decide)
theorem eq_main_cst_140 :
    after ops V (Proc.devRef .tc main_cst_140) = (constant S_ .f32 0x3F800000#32) :=
  fin_nullary ops_w1 V 667 rfl (by decide)
theorem eq_main_v485 :
    after ops V (Proc.devRef .tc main_v485) = (broadcastInDim S3x100000x1 ![] bcast_S_S3x100000x1 : (⟨S_, .f32⟩ : BufTy).Contents (Elt F) → (⟨S3x100000x1, .f32⟩ : BufTy).Contents (Elt F)) (after ops V (Proc.devRef .tc main_cst_140)) :=
  fin_unary ops_w1 V 668 rfl (by decide) (by decide)
theorem eq_main_v486 :
    after ops V (Proc.devRef .tc main_v486) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v485)) (after ops V (Proc.devRef .tc main_v405)) :=
  fin_binary ops_w1 V 669 rfl (by decide) (by decide) (by decide)
theorem eq_main_v487 :
    after ops V (Proc.devRef .tc main_v487) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v486)) :=
  fin_unary ops_w1 V 670 rfl (by decide) (by decide)
theorem eq_main_v488 :
    after ops V (Proc.devRef .tc main_v488) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v462)) (after ops V (Proc.devRef .tc main_v487)) :=
  fin_binary ops_w1 V 671 rfl (by decide) (by decide) (by decide)
theorem eq_main_v489 :
    after ops V (Proc.devRef .tc main_v489) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v405)) :=
  fin_unary ops_w1 V 672 rfl (by decide) (by decide)
theorem eq_main_v490 :
    after ops V (Proc.devRef .tc main_v490) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v477)) (after ops V (Proc.devRef .tc main_v489)) :=
  fin_binary ops_w1 V 673 rfl (by decide) (by decide) (by decide)
theorem eq_main_v491 :
    after ops V (Proc.devRef .tc main_v491) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v488)) (after ops V (Proc.devRef .tc main_v490)) :=
  fin_binary ops_w1 V 674 rfl (by decide) (by decide) (by decide)
theorem eq_main_cst_141 :
    after ops V (Proc.devRef .tc main_cst_141) = (constant S_ .f32 0x3F800000#32) :=
  fin_nullary ops_w1 V 675 rfl (by decide)
theorem eq_main_v492 :
    after ops V (Proc.devRef .tc main_v492) = (broadcastInDim S3x100000x1 ![] bcast_S_S3x100000x1 : (⟨S_, .f32⟩ : BufTy).Contents (Elt F) → (⟨S3x100000x1, .f32⟩ : BufTy).Contents (Elt F)) (after ops V (Proc.devRef .tc main_cst_141)) :=
  fin_unary ops_w1 V 676 rfl (by decide) (by decide)
theorem eq_main_v493 :
    after ops V (Proc.devRef .tc main_v493) = (subf : (⟨S3x100000x1, .f32⟩ : BufTy).Contents (Elt F) → (⟨S3x100000x1, .f32⟩ : BufTy).Contents (Elt F) → (⟨S3x100000x1, .f32⟩ : BufTy).Contents (Elt F)) (after ops V (Proc.devRef .tc main_v492)) (after ops V (Proc.devRef .tc main_v407)) :=
  fin_binary ops_w1 V 677 rfl (by decide) (by decide) (by decide)
theorem eq_main_v494 :
    after ops V (Proc.devRef .tc main_v494) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v493)) :=
  fin_unary ops_w1 V 678 rfl (by decide) (by decide)
theorem eq_main_v495 :
    after ops V (Proc.devRef .tc main_v495) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v484)) (after ops V (Proc.devRef .tc main_v494)) :=
  fin_binary ops_w1 V 679 rfl (by decide) (by decide) (by decide)
theorem eq_main_v496 :
    after ops V (Proc.devRef .tc main_v496) = (broadcastInDim S3x100000x72 ![0, 1, 2] bcast_S3x100000x1_S3x100000x72_0_1_2 : (⟨S3x100000x1, .f32⟩ : BufTy).Contents (Elt F) → (⟨S3x100000x72, .f32⟩ : BufTy).Contents (Elt F)) (after ops V (Proc.devRef .tc main_v407)) :=
  fin_unary ops_w1 V 680 rfl (by decide) (by decide)
theorem eq_main_v497 :
    after ops V (Proc.devRef .tc main_v497) = (mulf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v491)) (after ops V (Proc.devRef .tc main_v496)) :=
  fin_binary ops_w1 V 681 rfl (by decide) (by decide) (by decide)
theorem eq_main_v498 :
    after ops V (Proc.devRef .tc main_v498) = (addf : (⟨S3x100000x72, .f32⟩ : BufTy).Contents (Elt F) → (⟨S3x100000x72, .f32⟩ : BufTy).Contents (Elt F) → (⟨S3x100000x72, .f32⟩ : BufTy).Contents (Elt F)) (after ops V (Proc.devRef .tc main_v495)) (after ops V (Proc.devRef .tc main_v497)) :=
  fin_binary ops_w1 V 682 rfl (by decide) (by decide) (by decide)
theorem eq_main_v499 :
    after ops V (Proc.devRef .tc main_v499) = ((transpose S100000x3x72 [1, 0, 2] · transposes_S3x100000x72_S100000x3x72_1_0_2) : (⟨S3x100000x72, .f32⟩ : BufTy).Contents (Elt F) → (⟨S100000x3x72, .f32⟩ : BufTy).Contents (Elt F)) (after ops V (Proc.devRef .tc main_v498)) :=
  fin_unary ops_w1 V 683 rfl (by decide) (by decide)
theorem eq_main_v500 :
    after ops V (Proc.devRef .tc main_v500) = fun j => shapeCast S100000x216 (after ops V (Proc.devRef .tc main_v499)) shapeCasts_S100000x3x72_S100000x216 j :=
  fin_reshape ops_w1 V 684 rfl (by decide) (by decide)
theorem eq_main_v265 :
    after ops V (Proc.devRef .tc main_v265) = (addf : (⟨S100000x216, .f32⟩ : BufTy).Contents (Elt F) → (⟨S100000x216, .f32⟩ : BufTy).Contents (Elt F) → (⟨S100000x216, .f32⟩ : BufTy).Contents (Elt F)) (after ops V (Proc.devRef .tc main_v264)) (after ops V (Proc.devRef .tc main_v147)) :=
  fin_binary ops_w1 V 363 rfl (by decide) (by decide) (by decide)
theorem eq_main_v383 :
    after ops V (Proc.devRef .tc main_v383) = (addf : (⟨S100000x216, .f32⟩ : BufTy).Contents (Elt F) → (⟨S100000x216, .f32⟩ : BufTy).Contents (Elt F) → (⟨S100000x216, .f32⟩ : BufTy).Contents (Elt F)) (after ops V (Proc.devRef .tc main_v382)) (after ops V (Proc.devRef .tc main_v265)) :=
  fin_binary ops_w1 V 524 rfl (by decide) (by decide) (by decide)
theorem eq_main_v501 :
    after ops V (Proc.devRef .tc main_v501) = (addf : (⟨S100000x216, .f32⟩ : BufTy).Contents (Elt F) → (⟨S100000x216, .f32⟩ : BufTy).Contents (Elt F) → (⟨S100000x216, .f32⟩ : BufTy).Contents (Elt F)) (after ops V (Proc.devRef .tc main_v500)) (after ops V (Proc.devRef .tc main_v383)) :=
  fin_binary ops_w1 V 685 rfl (by decide) (by decide) (by decide)
theorem eq_main_v502 :
    after ops V (Proc.devRef .tc main_v502) = concatenate S100000x864 1 [⟨S100000x216, after ops V (Proc.devRef .tc main_v147)⟩, ⟨S100000x216, after ops V (Proc.devRef .tc main_v265)⟩, ⟨S100000x216, after ops V (Proc.devRef .tc main_v383)⟩, ⟨S100000x216, after ops V (Proc.devRef .tc main_v501)⟩] concatenates_S100000x216_S100000x216_S100000x216_S100000x216_S100000x864_d1 :=
  fin_nary ops_w1 V 686 rfl (by decide) (by decide)

end Cert.ReferenceIdeal.Val

end
-- ==== Proof.RefVal.lean ====
/- The reference's result, element by element, at the ideal instance. For each scale the 24 lines that blend the four
   gathered corner arrays by the two weight arrays compute, at (p, n, c), the bilinear blend of the corners' elements
   at (p, n, c) by the weights' elements at (p, n, 0); the transpose and the reshape move that element to (n, 72·p + c);
   each scale's array is added in front of the running sum of the scales before it; and the result lays the four
   running sums end to end: its element (n, k) is the running sum up to scale k / 216 at column k % 216. All of it is
   read off the END contents of the run (`after ops V`, for an arbitrary valuation `V` at the launch), through the
   equations of RefValEqs.lean. -/
import proofs.«135668_j17884243821138_2_alg».proof.Proof.RefValEqs
import proofs.«135668_j17884243821138_2_alg».proof.Proof.Spec
import proofs.«135668_j17884243821138_2_alg».proof.Proof.Layout

set_option maxRecDepth 8192

noncomputable section

namespace Cert.ReferenceIdeal.Val

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

/-- The programs' literal 1.0 (the word 0x3F800000) as it reads at the ideal instance. -/
abbrev ONE : EReal := Ideal.ofBits .f32 0x3F800000#32

/-! ## One scale's blend, over any arrays -/

/-- A weight array [3, N, 1] broadcast along the channel axis reads, at (p, n, c), its element (p, n, 0). -/
theorem wb_apply (w : (⟨S3x100000x1, .f32⟩ : BufTy).Contents (Elt Ideal)) (p : Fin 3) (n : Fin 100000) (ch : Fin 72) :
    (broadcastInDim S3x100000x72 ![0, 1, 2] bcast_S3x100000x1_S3x100000x72_0_1_2 w : (⟨S3x100000x72, .f32⟩ : BufTy).Contents (Elt Ideal)) (ix3 p n ch)
      = (w : S3x100000x1.Idx → EReal) (ix3 p n (0 : Fin 1)) :=
  Cert.Layout.wbcast_apply w _ p n ch

/-- The constant 1.0 broadcast to [3, N, 1] reads `ONE` everywhere. -/
theorem one_apply (j : S3x100000x1.Idx) :
    (broadcastInDim S3x100000x1 ![] bcast_S_S3x100000x1 (constant (F := Ideal) S_ .f32 0x3F800000#32) : (⟨S3x100000x1, .f32⟩ : BufTy).Contents (Elt Ideal)) j = ONE :=
  Cert.Layout.scalar_const_apply _ _ j

/-- The 24 lines of one scale: three times the constant 1.0 broadcast to [3, N, 1] and a weight array subtracted from
    it, the differences and the weights broadcast along the channel axis, six products and three sums. Read at
    (p, n, c) the last sum is the bilinear blend of the four corner arrays' elements at (p, n, c) by the weights'
    elements at (p, n, 0). -/
theorem blend_block
    {wx wy : (⟨S3x100000x1, .f32⟩ : BufTy).Contents (Elt Ideal)} {a00 a01 a10 a11 : (⟨S3x100000x72, .f32⟩ : BufTy).Contents (Elt Ideal)}
    {k1 k2 k3 : (⟨S_, .f32⟩ : BufTy).Contents (Elt Ideal)} {o1 o2 o3 m1 m2 m3 : (⟨S3x100000x1, .f32⟩ : BufTy).Contents (Elt Ideal)}
    {bm1 bwx1 bm2 bwx2 bm3 bwy t00 t01 top t10 t11 bot tt bb out : (⟨S3x100000x72, .f32⟩ : BufTy).Contents (Elt Ideal)}
    (hk1 : k1 = constant (F := Ideal) S_ .f32 0x3F800000#32)
    (ho1 : o1 = broadcastInDim S3x100000x1 ![] bcast_S_S3x100000x1 k1)
    (hm1 : m1 = subf (F := Ideal) (φ := .f32) o1 wx)
    (hbm1 : bm1 = broadcastInDim S3x100000x72 ![0, 1, 2] bcast_S3x100000x1_S3x100000x72_0_1_2 m1)
    (ht00 : t00 = mulf (F := Ideal) (φ := .f32) a00 bm1)
    (hbwx1 : bwx1 = broadcastInDim S3x100000x72 ![0, 1, 2] bcast_S3x100000x1_S3x100000x72_0_1_2 wx)
    (ht01 : t01 = mulf (F := Ideal) (φ := .f32) a01 bwx1)
    (htop : top = addf (F := Ideal) (φ := .f32) t00 t01)
    (hk2 : k2 = constant (F := Ideal) S_ .f32 0x3F800000#32)
    (ho2 : o2 = broadcastInDim S3x100000x1 ![] bcast_S_S3x100000x1 k2)
    (hm2 : m2 = subf (F := Ideal) (φ := .f32) o2 wx)
    (hbm2 : bm2 = broadcastInDim S3x100000x72 ![0, 1, 2] bcast_S3x100000x1_S3x100000x72_0_1_2 m2)
    (ht10 : t10 = mulf (F := Ideal) (φ := .f32) a10 bm2)
    (hbwx2 : bwx2 = broadcastInDim S3x100000x72 ![0, 1, 2] bcast_S3x100000x1_S3x100000x72_0_1_2 wx)
    (ht11 : t11 = mulf (F := Ideal) (φ := .f32) a11 bwx2)
    (hbot : bot = addf (F := Ideal) (φ := .f32) t10 t11)
    (hk3 : k3 = constant (F := Ideal) S_ .f32 0x3F800000#32)
    (ho3 : o3 = broadcastInDim S3x100000x1 ![] bcast_S_S3x100000x1 k3)
    (hm3 : m3 = subf (F := Ideal) (φ := .f32) o3 wy)
    (hbm3 : bm3 = broadcastInDim S3x100000x72 ![0, 1, 2] bcast_S3x100000x1_S3x100000x72_0_1_2 m3)
    (htt : tt = mulf (F := Ideal) (φ := .f32) top bm3)
    (hbwy : bwy = broadcastInDim S3x100000x72 ![0, 1, 2] bcast_S3x100000x1_S3x100000x72_0_1_2 wy)
    (hbb : bb = mulf (F := Ideal) (φ := .f32) bot bwy)
    (hout : out = addf (F := Ideal) (φ := .f32) tt bb)
    (p : Fin 3) (n : Fin 100000) (ch : Fin 72) :
    (out : S3x100000x72.Idx → EReal) (ix3 p n ch)
      = Cert.Tri.blend ONE ((a00 : S3x100000x72.Idx → EReal) (ix3 p n ch)) ((a01 : S3x100000x72.Idx → EReal) (ix3 p n ch))
          ((a10 : S3x100000x72.Idx → EReal) (ix3 p n ch)) ((a11 : S3x100000x72.Idx → EReal) (ix3 p n ch))
          ((wx : S3x100000x1.Idx → EReal) (ix3 p n (0 : Fin 1))) ((wy : S3x100000x1.Idx → EReal) (ix3 p n (0 : Fin 1))) := by
  subst hout hbb hbwy htt hbm3 hm3 ho3 hk3 hbot ht11 hbwx2 ht10 hbm2 hm2 ho2 hk2 htop ht01 hbwx1 ht00 hbm1 hm1 ho1 hk1
  simp only [addf_apply, mulf_apply, Cert.Tri.blend]
  repeat rw [wb_apply]
  simp only [subf_apply]
  rw [one_apply]

variable (V : Valuation τ sig (Elt Ideal))

/-! ## The four scales -/

/-- Scale 0's blend, read at (p, n, c). -/
theorem blend0 (p : Fin 3) (n : Fin 100000) (ch : Fin 72) :
    ((after ops V (Proc.devRef .tc main_v145) : S3x100000x72.Idx → EReal) (ix3 p n ch))
      = Cert.Tri.blend ONE ((after ops V (Proc.devRef .tc main_v79) : S3x100000x72.Idx → EReal) (ix3 p n ch)) ((after ops V (Proc.devRef .tc main_v94) : S3x100000x72.Idx → EReal) (ix3 p n ch))
      ((after ops V (Proc.devRef .tc main_v109) : S3x100000x72.Idx → EReal) (ix3 p n ch)) ((after ops V (Proc.devRef .tc main_v124) : S3x100000x72.Idx → EReal) (ix3 p n ch))
      ((after ops V (Proc.devRef .tc main_v52) : S3x100000x1.Idx → EReal) (ix3 p n (0 : Fin 1))) ((after ops V (Proc.devRef .tc main_v54) : S3x100000x1.Idx → EReal) (ix3 p n (0 : Fin 1))) :=
  blend_block (eq_main_cst_40 V) (eq_main_v125 V) (eq_main_v126 V) (eq_main_v127 V) (eq_main_v128 V) (eq_main_v129 V) (eq_main_v130 V) (eq_main_v131 V) (eq_main_cst_41 V) (eq_main_v132 V) (eq_main_v133 V) (eq_main_v134 V) (eq_main_v135 V) (eq_main_v136 V) (eq_main_v137 V) (eq_main_v138 V) (eq_main_cst_42 V) (eq_main_v139 V) (eq_main_v140 V) (eq_main_v141 V) (eq_main_v142 V) (eq_main_v143 V) (eq_main_v144 V) (eq_main_v145 V) p n ch

/-- Scale 0's array [N, 216], read at (n, j): the blend at (j / 72, n, j % 72). -/
theorem tri0 (n : Fin 100000) (j : Fin 216) :
    ((after ops V (Proc.devRef .tc main_v147) : S100000x216.Idx → EReal) (ix2 n j))
      = ((after ops V (Proc.devRef .tc main_v145) : S3x100000x72.Idx → EReal) (ix3 (⟨j.val / 72, by have := j.isLt; omega⟩ : Fin 3) n (⟨j.val % 72, Nat.mod_lt _ (by decide)⟩ : Fin 72))) := by
  rw [eq_main_v147 V, eq_main_v146 V]
  exact Cert.Layout.relayout_apply_divmod _ _ _ n j

/-- Scale 1's blend, read at (p, n, c). -/
theorem blend1 (p : Fin 3) (n : Fin 100000) (ch : Fin 72) :
    ((after ops V (Proc.devRef .tc main_v262) : S3x100000x72.Idx → EReal) (ix3 p n ch))
      = Cert.Tri.blend ONE ((after ops V (Proc.devRef .tc main_v196) : S3x100000x72.Idx → EReal) (ix3 p n ch)) ((after ops V (Proc.devRef .tc main_v211) : S3x100000x72.Idx → EReal) (ix3 p n ch))
      ((after ops V (Proc.devRef .tc main_v226) : S3x100000x72.Idx → EReal) (ix3 p n ch)) ((after ops V (Proc.devRef .tc main_v241) : S3x100000x72.Idx → EReal) (ix3 p n ch))
      ((after ops V (Proc.devRef .tc main_v169) : S3x100000x1.Idx → EReal) (ix3 p n (0 : Fin 1))) ((after ops V (Proc.devRef .tc main_v171) : S3x100000x1.Idx → EReal) (ix3 p n (0 : Fin 1))) :=
  blend_block (eq_main_cst_73 V) (eq_main_v242 V) (eq_main_v243 V) (eq_main_v244 V) (eq_main_v245 V) (eq_main_v246 V) (eq_main_v247 V) (eq_main_v248 V) (eq_main_cst_74 V) (eq_main_v249 V) (eq_main_v250 V) (eq_main_v251 V) (eq_main_v252 V) (eq_main_v253 V) (eq_main_v254 V) (eq_main_v255 V) (eq_main_cst_75 V) (eq_main_v256 V) (eq_main_v257 V) (eq_main_v258 V) (eq_main_v259 V) (eq_main_v260 V) (eq_main_v261 V) (eq_main_v262 V) p n ch

/-- Scale 1's array [N, 216], read at (n, j): the blend at (j / 72, n, j % 72). -/
theorem tri1 (n : Fin 100000) (j : Fin 216) :
    ((after ops V (Proc.devRef .tc main_v264) : S100000x216.Idx → EReal) (ix2 n j))
      = ((after ops V (Proc.devRef .tc main_v262) : S3x100000x72.Idx → EReal) (ix3 (⟨j.val / 72, by have := j.isLt; omega⟩ : Fin 3) n (⟨j.val % 72, Nat.mod_lt _ (by decide)⟩ : Fin 72))) := by
  rw [eq_main_v264 V, eq_main_v263 V]
  exact Cert.Layout.relayout_apply_divmod _ _ _ n j

/-- Scale 2's blend, read at (p, n, c). -/
theorem blend2 (p : Fin 3) (n : Fin 100000) (ch : Fin 72) :
    ((after ops V (Proc.devRef .tc main_v380) : S3x100000x72.Idx → EReal) (ix3 p n ch))
      = Cert.Tri.blend ONE ((after ops V (Proc.devRef .tc main_v314) : S3x100000x72.Idx → EReal) (ix3 p n ch)) ((after ops V (Proc.devRef .tc main_v329) : S3x100000x72.Idx → EReal) (ix3 p n ch))
      ((after ops V (Proc.devRef .tc main_v344) : S3x100000x72.Idx → EReal) (ix3 p n ch)) ((after ops V (Proc.devRef .tc main_v359) : S3x100000x72.Idx → EReal) (ix3 p n ch))
      ((after ops V (Proc.devRef .tc main_v287) : S3x100000x1.Idx → EReal) (ix3 p n (0 : Fin 1))) ((after ops V (Proc.devRef .tc main_v289) : S3x100000x1.Idx → EReal) (ix3 p n (0 : Fin 1))) :=
  blend_block (eq_main_cst_106 V) (eq_main_v360 V) (eq_main_v361 V) (eq_main_v362 V) (eq_main_v363 V) (eq_main_v364 V) (eq_main_v365 V) (eq_main_v366 V) (eq_main_cst_107 V) (eq_main_v367 V) (eq_main_v368 V) (eq_main_v369 V) (eq_main_v370 V) (eq_main_v371 V) (eq_main_v372 V) (eq_main_v373 V) (eq_main_cst_108 V) (eq_main_v374 V) (eq_main_v375 V) (eq_main_v376 V) (eq_main_v377 V) (eq_main_v378 V) (eq_main_v379 V) (eq_main_v380 V) p n ch

/-- Scale 2's array [N, 216], read at (n, j): the blend at (j / 72, n, j % 72). -/
theorem tri2 (n : Fin 100000) (j : Fin 216) :
    ((after ops V (Proc.devRef .tc main_v382) : S100000x216.Idx → EReal) (ix2 n j))
      = ((after ops V (Proc.devRef .tc main_v380) : S3x100000x72.Idx → EReal) (ix3 (⟨j.val / 72, by have := j.isLt; omega⟩ : Fin 3) n (⟨j.val % 72, Nat.mod_lt _ (by decide)⟩ : Fin 72))) := by
  rw [eq_main_v382 V, eq_main_v381 V]
  exact Cert.Layout.relayout_apply_divmod _ _ _ n j

/-- Scale 3's blend, read at (p, n, c). -/
theorem blend3 (p : Fin 3) (n : Fin 100000) (ch : Fin 72) :
    ((after ops V (Proc.devRef .tc main_v498) : S3x100000x72.Idx → EReal) (ix3 p n ch))
      = Cert.Tri.blend ONE ((after ops V (Proc.devRef .tc main_v432) : S3x100000x72.Idx → EReal) (ix3 p n ch)) ((after ops V (Proc.devRef .tc main_v447) : S3x100000x72.Idx → EReal) (ix3 p n ch))
      ((after ops V (Proc.devRef .tc main_v462) : S3x100000x72.Idx → EReal) (ix3 p n ch)) ((after ops V (Proc.devRef .tc main_v477) : S3x100000x72.Idx → EReal) (ix3 p n ch))
      ((after ops V (Proc.devRef .tc main_v405) : S3x100000x1.Idx → EReal) (ix3 p n (0 : Fin 1))) ((after ops V (Proc.devRef .tc main_v407) : S3x100000x1.Idx → EReal) (ix3 p n (0 : Fin 1))) :=
  blend_block (eq_main_cst_139 V) (eq_main_v478 V) (eq_main_v479 V) (eq_main_v480 V) (eq_main_v481 V) (eq_main_v482 V) (eq_main_v483 V) (eq_main_v484 V) (eq_main_cst_140 V) (eq_main_v485 V) (eq_main_v486 V) (eq_main_v487 V) (eq_main_v488 V) (eq_main_v489 V) (eq_main_v490 V) (eq_main_v491 V) (eq_main_cst_141 V) (eq_main_v492 V) (eq_main_v493 V) (eq_main_v494 V) (eq_main_v495 V) (eq_main_v496 V) (eq_main_v497 V) (eq_main_v498 V) p n ch

/-- Scale 3's array [N, 216], read at (n, j): the blend at (j / 72, n, j % 72). -/
theorem tri3 (n : Fin 100000) (j : Fin 216) :
    ((after ops V (Proc.devRef .tc main_v500) : S100000x216.Idx → EReal) (ix2 n j))
      = ((after ops V (Proc.devRef .tc main_v498) : S3x100000x72.Idx → EReal) (ix3 (⟨j.val / 72, by have := j.isLt; omega⟩ : Fin 3) n (⟨j.val % 72, Nat.mod_lt _ (by decide)⟩ : Fin 72))) := by
  rw [eq_main_v500 V, eq_main_v499 V]
  exact Cert.Layout.relayout_apply_divmod _ _ _ n j

/-! ## The sample, the running sums, the result -/

/-- The bilinear sample of scale `s` at plane `p`, point `n`, channel `ch`, from the END contents of the four corner
    buffers and the two weight buffers of that scale (0 past the four scales). -/
def sampR (n : Fin 100000) (p : Fin 3) (ch : Fin 72) : ℕ → EReal
  | 0 => Cert.Tri.blend ONE ((after ops V (Proc.devRef .tc main_v79) : S3x100000x72.Idx → EReal) (ix3 p n ch)) ((after ops V (Proc.devRef .tc main_v94) : S3x100000x72.Idx → EReal) (ix3 p n ch))
      ((after ops V (Proc.devRef .tc main_v109) : S3x100000x72.Idx → EReal) (ix3 p n ch)) ((after ops V (Proc.devRef .tc main_v124) : S3x100000x72.Idx → EReal) (ix3 p n ch))
      ((after ops V (Proc.devRef .tc main_v52) : S3x100000x1.Idx → EReal) (ix3 p n (0 : Fin 1))) ((after ops V (Proc.devRef .tc main_v54) : S3x100000x1.Idx → EReal) (ix3 p n (0 : Fin 1)))
  | 1 => Cert.Tri.blend ONE ((after ops V (Proc.devRef .tc main_v196) : S3x100000x72.Idx → EReal) (ix3 p n ch)) ((after ops V (Proc.devRef .tc main_v211) : S3x100000x72.Idx → EReal) (ix3 p n ch))
      ((after ops V (Proc.devRef .tc main_v226) : S3x100000x72.Idx → EReal) (ix3 p n ch)) ((after ops V (Proc.devRef .tc main_v241) : S3x100000x72.Idx → EReal) (ix3 p n ch))
      ((after ops V (Proc.devRef .tc main_v169) : S3x100000x1.Idx → EReal) (ix3 p n (0 : Fin 1))) ((after ops V (Proc.devRef .tc main_v171) : S3x100000x1.Idx → EReal) (ix3 p n (0 : Fin 1)))
  | 2 => Cert.Tri.blend ONE ((after ops V (Proc.devRef .tc main_v314) : S3x100000x72.Idx → EReal) (ix3 p n ch)) ((after ops V (Proc.devRef .tc main_v329) : S3x100000x72.Idx → EReal) (ix3 p n ch))
      ((after ops V (Proc.devRef .tc main_v344) : S3x100000x72.Idx → EReal) (ix3 p n ch)) ((after ops V (Proc.devRef .tc main_v359) : S3x100000x72.Idx → EReal) (ix3 p n ch))
      ((after ops V (Proc.devRef .tc main_v287) : S3x100000x1.Idx → EReal) (ix3 p n (0 : Fin 1))) ((after ops V (Proc.devRef .tc main_v289) : S3x100000x1.Idx → EReal) (ix3 p n (0 : Fin 1)))
  | 3 => Cert.Tri.blend ONE ((after ops V (Proc.devRef .tc main_v432) : S3x100000x72.Idx → EReal) (ix3 p n ch)) ((after ops V (Proc.devRef .tc main_v447) : S3x100000x72.Idx → EReal) (ix3 p n ch))
      ((after ops V (Proc.devRef .tc main_v462) : S3x100000x72.Idx → EReal) (ix3 p n ch)) ((after ops V (Proc.devRef .tc main_v477) : S3x100000x72.Idx → EReal) (ix3 p n ch))
      ((after ops V (Proc.devRef .tc main_v405) : S3x100000x1.Idx → EReal) (ix3 p n (0 : Fin 1))) ((after ops V (Proc.devRef .tc main_v407) : S3x100000x1.Idx → EReal) (ix3 p n (0 : Fin 1)))
  | _ => 0

/-- The running sum up to scale 0, read at (n, j). -/
theorem prev0 (n : Fin 100000) (j : Fin 216) :
    ((after ops V (Proc.devRef .tc main_v147) : S100000x216.Idx → EReal) (ix2 n j))
      = Cert.Tri.accR (sampR V n (⟨j.val / 72, by have := j.isLt; omega⟩ : Fin 3) (⟨j.val % 72, Nat.mod_lt _ (by decide)⟩ : Fin 72)) 0 := by
  rw [tri0 V n j, blend0 V]; rfl

/-- The running sum up to scale 1, read at (n, j). -/
theorem prev1 (n : Fin 100000) (j : Fin 216) :
    ((after ops V (Proc.devRef .tc main_v265) : S100000x216.Idx → EReal) (ix2 n j))
      = Cert.Tri.accR (sampR V n (⟨j.val / 72, by have := j.isLt; omega⟩ : Fin 3) (⟨j.val % 72, Nat.mod_lt _ (by decide)⟩ : Fin 72)) 1 := by
  rw [eq_main_v265 V, addf_apply, tri1 V n j, blend1 V, prev0 V n j]; rfl

/-- The running sum up to scale 2, read at (n, j). -/
theorem prev2 (n : Fin 100000) (j : Fin 216) :
    ((after ops V (Proc.devRef .tc main_v383) : S100000x216.Idx → EReal) (ix2 n j))
      = Cert.Tri.accR (sampR V n (⟨j.val / 72, by have := j.isLt; omega⟩ : Fin 3) (⟨j.val % 72, Nat.mod_lt _ (by decide)⟩ : Fin 72)) 2 := by
  rw [eq_main_v383 V, addf_apply, tri2 V n j, blend2 V, prev1 V n j]; rfl

/-- The running sum up to scale 3, read at (n, j). -/
theorem prev3 (n : Fin 100000) (j : Fin 216) :
    ((after ops V (Proc.devRef .tc main_v501) : S100000x216.Idx → EReal) (ix2 n j))
      = Cert.Tri.accR (sampR V n (⟨j.val / 72, by have := j.isLt; omega⟩ : Fin 3) (⟨j.val % 72, Nat.mod_lt _ (by decide)⟩ : Fin 72)) 3 := by
  rw [eq_main_v501 V, addf_apply, tri3 V n j, blend3 V, prev2 V n j]; rfl

/-- The four running sums as a family over the scale, read at (n, j). -/
theorem prevs (n : Fin 100000) (j : Fin 216) (q : Fin 4) :
    (![after ops V (Proc.devRef .tc main_v147), after ops V (Proc.devRef .tc main_v265), after ops V (Proc.devRef .tc main_v383), after ops V (Proc.devRef .tc main_v501)] q : S100000x216.Idx → EReal) (ix2 n j)
      = Cert.Tri.accR (sampR V n (⟨j.val / 72, by have := j.isLt; omega⟩ : Fin 3) (⟨j.val % 72, Nat.mod_lt _ (by decide)⟩ : Fin 72)) q.val := by
  match q with
  | ⟨0, _⟩ => exact prev0 V n j
  | ⟨1, _⟩ => exact prev1 V n j
  | ⟨2, _⟩ => exact prev2 V n j
  | ⟨3, _⟩ => exact prev3 V n j

/-- **The reference's result, element (n, k)**: the running sum, in the reference's order, up to scale k / 216 of the
    samples at plane (k % 216) / 72, point n, channel (k % 216) % 72. -/
theorem ref_val (n : Fin 100000) (k : Fin 864) :
    ((after ops V (Proc.devRef .tc main_v502) : S100000x864.Idx → EReal) (ix2 n k))
      = Cert.Tri.accR (sampR V n (⟨(k.val % 216) / 72, by omega⟩ : Fin 3) (⟨(k.val % 216) % 72, Nat.mod_lt _ (by decide)⟩ : Fin 72))
          (k.val / 216) := by
  rw [eq_main_v502 V, Cert.Layout.cat216_apply_divmod _ _ _ _ _ n k]
  exact prevs V n ⟨k.val % 216, Nat.mod_lt _ (by decide)⟩ ⟨k.val / 216, by have := k.isLt; omega⟩

end Cert.ReferenceIdeal.Val

end
-- ==== Proof.Cat.lean ====
/-
  A concatenate of two, three or four arrays, with the pieces as separate arguments. The library's `concatenate` takes
  its pieces as one list of (shape, array) pairs and a proof that the pieces' shapes fill the result shape along the axis;
  that proof speaks of the list, so a rewriting pass cannot change a piece under it. Naming the pieces as arguments of
  their own — the shapes and the filling proof fixed — lets a pass rewrite each piece; the definitions unfold back to
  `concatenate` by `rfl`.
-/
import Idealize.ShloMosaic.PureOps.Ideal

noncomputable section

namespace Cert.Cat

open Idealize.ShloMosaic

variable {α : Type}

def cat2 (t : Shape) (a : Fin t.rank) (s0 s1 : Shape) (h : Shape.Concatenates [s0, s1] t a)
    (x0 : s0.Idx → α) (x1 : s1.Idx → α) : t.Idx → α :=
  concatenate t a [⟨s0, x0⟩, ⟨s1, x1⟩] h

def cat3 (t : Shape) (a : Fin t.rank) (s0 s1 s2 : Shape) (h : Shape.Concatenates [s0, s1, s2] t a)
    (x0 : s0.Idx → α) (x1 : s1.Idx → α) (x2 : s2.Idx → α) : t.Idx → α :=
  concatenate t a [⟨s0, x0⟩, ⟨s1, x1⟩, ⟨s2, x2⟩] h

def cat4 (t : Shape) (a : Fin t.rank) (s0 s1 s2 s3 : Shape) (h : Shape.Concatenates [s0, s1, s2, s3] t a)
    (x0 : s0.Idx → α) (x1 : s1.Idx → α) (x2 : s2.Idx → α) (x3 : s3.Idx → α) : t.Idx → α :=
  concatenate t a [⟨s0, x0⟩, ⟨s1, x1⟩, ⟨s2, x2⟩, ⟨s3, x3⟩] h

theorem cat2_eq (t : Shape) (a : Fin t.rank) (s0 s1 : Shape) (h : Shape.Concatenates [s0, s1] t a)
    (x0 : s0.Idx → α) (x1 : s1.Idx → α) :
    concatenate t a [⟨s0, x0⟩, ⟨s1, x1⟩] h = cat2 t a s0 s1 h x0 x1 := rfl

theorem cat3_eq (t : Shape) (a : Fin t.rank) (s0 s1 s2 : Shape) (h : Shape.Concatenates [s0, s1, s2] t a)
    (x0 : s0.Idx → α) (x1 : s1.Idx → α) (x2 : s2.Idx → α) :
    concatenate t a [⟨s0, x0⟩, ⟨s1, x1⟩, ⟨s2, x2⟩] h = cat3 t a s0 s1 s2 h x0 x1 x2 := rfl

theorem cat4_eq (t : Shape) (a : Fin t.rank) (s0 s1 s2 s3 : Shape) (h : Shape.Concatenates [s0, s1, s2, s3] t a)
    (x0 : s0.Idx → α) (x1 : s1.Idx → α) (x2 : s2.Idx → α) (x3 : s3.Idx → α) :
    concatenate t a [⟨s0, x0⟩, ⟨s1, x1⟩, ⟨s2, x2⟩, ⟨s3, x3⟩] h = cat4 t a s0 s1 s2 s3 h x0 x1 x2 x3 := rfl

end Cert.Cat

end
-- ==== Proof.Bridge.Win0.lean ====
/-
  Window 0's array as the kernel's region finds it is, scale by scale, the reference's own per-scale array: the host lines
  that produce them — the normalisation of the points, the choice of the plane's two coordinates, the scaling to the grid's
  resolution, the clamp, the floor and the fractional part, the corner indices and the gather — are the same operations on
  the same arguments in both programs, so the two composed terms of the arguments coincide; the kernel's array stacks
  the four scales along a new leading axis.
-/
import proofs.«135668_j17884243821138_2_alg».proof.Proof.KI.Around
import proofs.«135668_j17884243821138_2_alg».proof.Proof.RefRun
import proofs.«135668_j17884243821138_2_alg».proof.Proof.Cat
import Idealize.ShloMosaic.PureOps.Ideal

set_option maxRecDepth 16384

noncomputable section

namespace Cert.Bridge

open Idealize.ShloMosaic Idealize.ShloMosaic.TcCoe
open Idealize.SL Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 32000000 in
theorem win0
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.KernelIdeal.Hand.V (F := Ideal) m c Cert.KernelIdeal.main_v411 : (⟨Cert.KernelIdeal.S4x3x100000x72, .f32⟩ : BufTy).Contents (Elt Ideal))
      = Cert.Cat.cat4 Cert.KernelIdeal.S4x3x100000x72 0 Cert.KernelIdeal.S1x3x100000x72 Cert.KernelIdeal.S1x3x100000x72 Cert.KernelIdeal.S1x3x100000x72 Cert.KernelIdeal.S1x3x100000x72 Cert.KernelIdeal.Gen.concatenates_S1x3x100000x72_S1x3x100000x72_S1x3x100000x72_S1x3x100000x72_S4x3x100000x72_d0
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v79) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v196) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v314) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v432) : (⟨Cert.ReferenceIdeal.S3x100000x72, .f32⟩ : BufTy).Contents (Elt Ideal))) := by
  show Cert.KernelIdeal.Hand.V0 m c _ = _
  rw [Cert.KernelIdeal.Hand.V0_eq]
  simp only [Cert.KernelIdeal.Hand.pre, afterL_cons, afterL_nil, Cert.ReferenceIdeal.RefRun.ops, List.flatten_cons, List.flatten_nil, List.append_nil, after_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.Cat.cat2_eq, Cert.Cat.cat3_eq, Cert.Cat.cat4_eq, Matrix.cons_val]
  have h0' : m' (c, Proc.devRef .tc Cert.ReferenceIdeal.main_arg0) = m (c, Proc.devRef .tc Cert.KernelIdeal.main_arg0) := h0
  have h1' : m' (c, Proc.devRef .tc Cert.ReferenceIdeal.main_arg1) = m (c, Proc.devRef .tc Cert.KernelIdeal.main_arg1) := h1
  have h2' : m' (c, Proc.devRef .tc Cert.ReferenceIdeal.main_arg2) = m (c, Proc.devRef .tc Cert.KernelIdeal.main_arg2) := h2
  have h3' : m' (c, Proc.devRef .tc Cert.ReferenceIdeal.main_arg3) = m (c, Proc.devRef .tc Cert.KernelIdeal.main_arg3) := h3
  have h4' : m' (c, Proc.devRef .tc Cert.ReferenceIdeal.main_arg4) = m (c, Proc.devRef .tc Cert.KernelIdeal.main_arg4) := h4
  simp only [launchContents]
  simp only [h0', h1', h2', h3', h4']
  rfl

end Cert.Bridge

end
-- ==== Proof.Bridge.Win1.lean ====
/-
  Window 1's array as the kernel's region finds it is, scale by scale, the reference's own per-scale array: the host lines
  that produce them — the normalisation of the points, the choice of the plane's two coordinates, the scaling to the grid's
  resolution, the clamp, the floor and the fractional part, the corner indices and the gather — are the same operations on
  the same arguments in both programs, so the two composed terms of the arguments coincide; the kernel's array stacks
  the four scales along a new leading axis.
-/
import proofs.«135668_j17884243821138_2_alg».proof.Proof.KI.Around
import proofs.«135668_j17884243821138_2_alg».proof.Proof.RefRun
import proofs.«135668_j17884243821138_2_alg».proof.Proof.Cat
import Idealize.ShloMosaic.PureOps.Ideal

set_option maxRecDepth 16384

noncomputable section

namespace Cert.Bridge

open Idealize.ShloMosaic Idealize.ShloMosaic.TcCoe
open Idealize.SL Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 32000000 in
theorem win1
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.KernelIdeal.Hand.V (F := Ideal) m c Cert.KernelIdeal.main_v416 : (⟨Cert.KernelIdeal.S4x3x100000x72, .f32⟩ : BufTy).Contents (Elt Ideal))
      = Cert.Cat.cat4 Cert.KernelIdeal.S4x3x100000x72 0 Cert.KernelIdeal.S1x3x100000x72 Cert.KernelIdeal.S1x3x100000x72 Cert.KernelIdeal.S1x3x100000x72 Cert.KernelIdeal.S1x3x100000x72 Cert.KernelIdeal.Gen.concatenates_S1x3x100000x72_S1x3x100000x72_S1x3x100000x72_S1x3x100000x72_S4x3x100000x72_d0
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v94) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v211) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v329) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v447) : (⟨Cert.ReferenceIdeal.S3x100000x72, .f32⟩ : BufTy).Contents (Elt Ideal))) := by
  show Cert.KernelIdeal.Hand.V0 m c _ = _
  rw [Cert.KernelIdeal.Hand.V0_eq]
  simp only [Cert.KernelIdeal.Hand.pre, afterL_cons, afterL_nil, Cert.ReferenceIdeal.RefRun.ops, List.flatten_cons, List.flatten_nil, List.append_nil, after_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.Cat.cat2_eq, Cert.Cat.cat3_eq, Cert.Cat.cat4_eq, Matrix.cons_val]
  have h0' : m' (c, Proc.devRef .tc Cert.ReferenceIdeal.main_arg0) = m (c, Proc.devRef .tc Cert.KernelIdeal.main_arg0) := h0
  have h1' : m' (c, Proc.devRef .tc Cert.ReferenceIdeal.main_arg1) = m (c, Proc.devRef .tc Cert.KernelIdeal.main_arg1) := h1
  have h2' : m' (c, Proc.devRef .tc Cert.ReferenceIdeal.main_arg2) = m (c, Proc.devRef .tc Cert.KernelIdeal.main_arg2) := h2
  have h3' : m' (c, Proc.devRef .tc Cert.ReferenceIdeal.main_arg3) = m (c, Proc.devRef .tc Cert.KernelIdeal.main_arg3) := h3
  have h4' : m' (c, Proc.devRef .tc Cert.ReferenceIdeal.main_arg4) = m (c, Proc.devRef .tc Cert.KernelIdeal.main_arg4) := h4
  simp only [launchContents]
  simp only [h0', h1', h2', h3', h4']
  rfl

end Cert.Bridge

end
-- ==== Proof.Bridge.Win2.lean ====
/-
  Window 2's array as the kernel's region finds it is, scale by scale, the reference's own per-scale array: the host lines
  that produce them — the normalisation of the points, the choice of the plane's two coordinates, the scaling to the grid's
  resolution, the clamp, the floor and the fractional part, the corner indices and the gather — are the same operations on
  the same arguments in both programs, so the two composed terms of the arguments coincide; the kernel's array stacks
  the four scales along a new leading axis.
-/
import proofs.«135668_j17884243821138_2_alg».proof.Proof.KI.Around
import proofs.«135668_j17884243821138_2_alg».proof.Proof.RefRun
import proofs.«135668_j17884243821138_2_alg».proof.Proof.Cat
import Idealize.ShloMosaic.PureOps.Ideal

set_option maxRecDepth 16384

noncomputable section

namespace Cert.Bridge

open Idealize.ShloMosaic Idealize.ShloMosaic.TcCoe
open Idealize.SL Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 32000000 in
theorem win2
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.KernelIdeal.Hand.V (F := Ideal) m c Cert.KernelIdeal.main_v421 : (⟨Cert.KernelIdeal.S4x3x100000x72, .f32⟩ : BufTy).Contents (Elt Ideal))
      = Cert.Cat.cat4 Cert.KernelIdeal.S4x3x100000x72 0 Cert.KernelIdeal.S1x3x100000x72 Cert.KernelIdeal.S1x3x100000x72 Cert.KernelIdeal.S1x3x100000x72 Cert.KernelIdeal.S1x3x100000x72 Cert.KernelIdeal.Gen.concatenates_S1x3x100000x72_S1x3x100000x72_S1x3x100000x72_S1x3x100000x72_S4x3x100000x72_d0
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v109) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v226) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v344) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v462) : (⟨Cert.ReferenceIdeal.S3x100000x72, .f32⟩ : BufTy).Contents (Elt Ideal))) := by
  show Cert.KernelIdeal.Hand.V0 m c _ = _
  rw [Cert.KernelIdeal.Hand.V0_eq]
  simp only [Cert.KernelIdeal.Hand.pre, afterL_cons, afterL_nil, Cert.ReferenceIdeal.RefRun.ops, List.flatten_cons, List.flatten_nil, List.append_nil, after_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.Cat.cat2_eq, Cert.Cat.cat3_eq, Cert.Cat.cat4_eq, Matrix.cons_val]
  have h0' : m' (c, Proc.devRef .tc Cert.ReferenceIdeal.main_arg0) = m (c, Proc.devRef .tc Cert.KernelIdeal.main_arg0) := h0
  have h1' : m' (c, Proc.devRef .tc Cert.ReferenceIdeal.main_arg1) = m (c, Proc.devRef .tc Cert.KernelIdeal.main_arg1) := h1
  have h2' : m' (c, Proc.devRef .tc Cert.ReferenceIdeal.main_arg2) = m (c, Proc.devRef .tc Cert.KernelIdeal.main_arg2) := h2
  have h3' : m' (c, Proc.devRef .tc Cert.ReferenceIdeal.main_arg3) = m (c, Proc.devRef .tc Cert.KernelIdeal.main_arg3) := h3
  have h4' : m' (c, Proc.devRef .tc Cert.ReferenceIdeal.main_arg4) = m (c, Proc.devRef .tc Cert.KernelIdeal.main_arg4) := h4
  simp only [launchContents]
  simp only [h0', h1', h2', h3', h4']
  rfl

end Cert.Bridge

end
-- ==== Proof.Bridge.Win3.lean ====
/-
  Window 3's array as the kernel's region finds it is, scale by scale, the reference's own per-scale array: the host lines
  that produce them — the normalisation of the points, the choice of the plane's two coordinates, the scaling to the grid's
  resolution, the clamp, the floor and the fractional part, the corner indices and the gather — are the same operations on
  the same arguments in both programs, so the two composed terms of the arguments coincide; the kernel's array stacks
  the four scales along a new leading axis.
-/
import proofs.«135668_j17884243821138_2_alg».proof.Proof.KI.Around
import proofs.«135668_j17884243821138_2_alg».proof.Proof.RefRun
import proofs.«135668_j17884243821138_2_alg».proof.Proof.Cat
import Idealize.ShloMosaic.PureOps.Ideal

set_option maxRecDepth 16384

noncomputable section

namespace Cert.Bridge

open Idealize.ShloMosaic Idealize.ShloMosaic.TcCoe
open Idealize.SL Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 32000000 in
theorem win3
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.KernelIdeal.Hand.V (F := Ideal) m c Cert.KernelIdeal.main_v426 : (⟨Cert.KernelIdeal.S4x3x100000x72, .f32⟩ : BufTy).Contents (Elt Ideal))
      = Cert.Cat.cat4 Cert.KernelIdeal.S4x3x100000x72 0 Cert.KernelIdeal.S1x3x100000x72 Cert.KernelIdeal.S1x3x100000x72 Cert.KernelIdeal.S1x3x100000x72 Cert.KernelIdeal.S1x3x100000x72 Cert.KernelIdeal.Gen.concatenates_S1x3x100000x72_S1x3x100000x72_S1x3x100000x72_S1x3x100000x72_S4x3x100000x72_d0
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v124) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v241) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v359) : (⟨Cert.ReferenceIdeal.S3x100000x72, .f32⟩ : BufTy).Contents (Elt Ideal)))
          (broadcastInDim Cert.KernelIdeal.S1x3x100000x72 ![1, 2, 3] Cert.KernelIdeal.Gen.bcast_S3x100000x72_S1x3x100000x72_1_2_3 (after (Cert.ReferenceIdeal.RefRun.ops (F := Ideal)) (launchContents m' c) (Proc.devRef .tc Cert.ReferenceIdeal.main_v477) : (⟨Cert.ReferenceIdeal.S3x100000x72, .f32⟩ : BufTy).Contents (Elt Ideal))) := by
  show Cert.KernelIdeal.Hand.V0 m c _ = _
  rw [Cert.KernelIdeal.Hand.V0_eq]
  simp only [Cert.KernelIdeal.Hand.pre, afterL_cons, afterL_nil, Cert.ReferenceIdeal.RefRun.ops, List.flatten_cons, List.flatten_nil, List.append_nil, after_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.Cat.cat2_eq, Cert.Cat.cat3_eq, Cert.Cat.cat4_eq, Matrix.cons_val]
  have h0' : m' (c, Proc.devRef .tc Cert.ReferenceIdeal.main_arg0) = m (c, Proc.devRef .tc Cert.KernelIdeal.main_arg0) := h0
  have h1' : m' (c, Proc.devRef .tc Cert.ReferenceIdeal.main_arg1) = m (c, Proc.devRef .tc Cert.KernelIdeal.main_arg1) := h1
  have h2' : m' (c, Proc.devRef .tc Cert.ReferenceIdeal.main_arg2) = m (c, Proc.devRef .tc Cert.KernelIdeal.main_arg2) := h2
  have h3' : m' (c, Proc.devRef .tc Cert.ReferenceIdeal.main_arg3) = m (c, Proc.devRef .tc Cert.KernelIdeal.main_arg3) := h3
  have h4' : m' (c, Proc.devRef .tc Cert.ReferenceIdeal.main_arg4) = m (c, Proc.devRef .tc Cert.KernelIdeal.main_arg4) := h4
  simp only [launchContents]
  simp only [h0', h1', h2', h3', h4']
  rfl

end Cert.Bridge

end
-- ==== Proof.Bridge.Win4.lean ====
/-
  Window 4's array as the kernel's region finds it is, scale by scale, the reference's own per-scale array: the host lines
  that produce them — the normalisation of the points, the choice of the plane's two coordinates, the scaling to the grid's
  resolution, the clamp, the floor and the fractional part, the corner indices and the gather — are the same operations on
  the same arguments in both programs, so the two composed terms of the arguments coincide; the kernel's array stacks
  the four scales along a new leading axis.
-/
import proofs.«135668_j17884243821138_2_alg».proof.Proof.KI.Around
import proofs.«135668_j17884243821138_2_alg».proof.Proof.RefRun
import proofs.«135668_j17884243821138_2_alg».proof.Proof.Cat
import Idealize.ShloMosaic.PureOps.Ideal

set_option maxRecDepth 16384

noncomputable section

namespace Cert.Bridge

open Idealize.ShloMosaic Idealize.ShloMosaic.TcCoe
open Idealize.SL Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 32000000 in
theorem win4
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.KernelIdeal.Hand.V (F := Ideal) m c Cert.KernelIdeal.main_v431 : (⟨Cert.KernelIdeal.S4x3x100000x1, .f32⟩ : BufTy).Contents (Elt Ideal))
      = Cert.Cat.cat4 Cert.KernelIdeal.S4x3x100000x1 0 Cert.KernelIdeal.S1x3x100000x1 Cert.KernelIdeal.S1x3x100000x1 Cert.KernelIdeal.S1x3x100000x1 Cert.KernelIdeal.S1x3x100000x1 Cert.KernelIdeal.Gen.concatenates_S1x3x100000x1_S1x3x100000x1_S1x3x100000x1_S1x3x100000x1_S4x3x100000x1_d0
          (broadcastInDim Cert.KernelIdeal.S1x3x100000x1 ![1, 2, 3] Cert.KernelIdeal.Gen.bcast_S3x100000x1_S1x3x100000x1_1_2_3 (after (Cert.ReferenceIdeal.RefRun.ops (F := Ideal)) (launchContents m' c) (Proc.devRef .tc Cert.ReferenceIdeal.main_v52) : (⟨Cert.ReferenceIdeal.S3x100000x1, .f32⟩ : BufTy).Contents (Elt Ideal)))
          (broadcastInDim Cert.KernelIdeal.S1x3x100000x1 ![1, 2, 3] Cert.KernelIdeal.Gen.bcast_S3x100000x1_S1x3x100000x1_1_2_3 (after (Cert.ReferenceIdeal.RefRun.ops (F := Ideal)) (launchContents m' c) (Proc.devRef .tc Cert.ReferenceIdeal.main_v169) : (⟨Cert.ReferenceIdeal.S3x100000x1, .f32⟩ : BufTy).Contents (Elt Ideal)))
          (broadcastInDim Cert.KernelIdeal.S1x3x100000x1 ![1, 2, 3] Cert.KernelIdeal.Gen.bcast_S3x100000x1_S1x3x100000x1_1_2_3 (after (Cert.ReferenceIdeal.RefRun.ops (F := Ideal)) (launchContents m' c) (Proc.devRef .tc Cert.ReferenceIdeal.main_v287) : (⟨Cert.ReferenceIdeal.S3x100000x1, .f32⟩ : BufTy).Contents (Elt Ideal)))
          (broadcastInDim Cert.KernelIdeal.S1x3x100000x1 ![1, 2, 3] Cert.KernelIdeal.Gen.bcast_S3x100000x1_S1x3x100000x1_1_2_3 (after (Cert.ReferenceIdeal.RefRun.ops (F := Ideal)) (launchContents m' c) (Proc.devRef .tc Cert.ReferenceIdeal.main_v405) : (⟨Cert.ReferenceIdeal.S3x100000x1, .f32⟩ : BufTy).Contents (Elt Ideal))) := by
  show Cert.KernelIdeal.Hand.V0 m c _ = _
  rw [Cert.KernelIdeal.Hand.V0_eq]
  simp only [Cert.KernelIdeal.Hand.pre, afterL_cons, afterL_nil, Cert.ReferenceIdeal.RefRun.ops, List.flatten_cons, List.flatten_nil, List.append_nil, after_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.Cat.cat2_eq, Cert.Cat.cat3_eq, Cert.Cat.cat4_eq, Matrix.cons_val]
  have h0' : m' (c, Proc.devRef .tc Cert.ReferenceIdeal.main_arg0) = m (c, Proc.devRef .tc Cert.KernelIdeal.main_arg0) := h0
  have h1' : m' (c, Proc.devRef .tc Cert.ReferenceIdeal.main_arg1) = m (c, Proc.devRef .tc Cert.KernelIdeal.main_arg1) := h1
  have h2' : m' (c, Proc.devRef .tc Cert.ReferenceIdeal.main_arg2) = m (c, Proc.devRef .tc Cert.KernelIdeal.main_arg2) := h2
  have h3' : m' (c, Proc.devRef .tc Cert.ReferenceIdeal.main_arg3) = m (c, Proc.devRef .tc Cert.KernelIdeal.main_arg3) := h3
  have h4' : m' (c, Proc.devRef .tc Cert.ReferenceIdeal.main_arg4) = m (c, Proc.devRef .tc Cert.KernelIdeal.main_arg4) := h4
  simp only [launchContents]
  simp only [h0', h1', h2', h3', h4']
  rfl

end Cert.Bridge

end
-- ==== Proof.Bridge.Win5.lean ====
/-
  Window 5's array as the kernel's region finds it is, scale by scale, the reference's own per-scale array: the host lines
  that produce them — the normalisation of the points, the choice of the plane's two coordinates, the scaling to the grid's
  resolution, the clamp, the floor and the fractional part, the corner indices and the gather — are the same operations on
  the same arguments in both programs, so the two composed terms of the arguments coincide; the kernel's array stacks
  the four scales along a new leading axis.
-/
import proofs.«135668_j17884243821138_2_alg».proof.Proof.KI.Around
import proofs.«135668_j17884243821138_2_alg».proof.Proof.RefRun
import proofs.«135668_j17884243821138_2_alg».proof.Proof.Cat
import Idealize.ShloMosaic.PureOps.Ideal

set_option maxRecDepth 16384

noncomputable section

namespace Cert.Bridge

open Idealize.ShloMosaic Idealize.ShloMosaic.TcCoe
open Idealize.SL Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 32000000 in
theorem win5
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.KernelIdeal.Hand.V (F := Ideal) m c Cert.KernelIdeal.main_v436 : (⟨Cert.KernelIdeal.S4x3x100000x1, .f32⟩ : BufTy).Contents (Elt Ideal))
      = Cert.Cat.cat4 Cert.KernelIdeal.S4x3x100000x1 0 Cert.KernelIdeal.S1x3x100000x1 Cert.KernelIdeal.S1x3x100000x1 Cert.KernelIdeal.S1x3x100000x1 Cert.KernelIdeal.S1x3x100000x1 Cert.KernelIdeal.Gen.concatenates_S1x3x100000x1_S1x3x100000x1_S1x3x100000x1_S1x3x100000x1_S4x3x100000x1_d0
          (broadcastInDim Cert.KernelIdeal.S1x3x100000x1 ![1, 2, 3] Cert.KernelIdeal.Gen.bcast_S3x100000x1_S1x3x100000x1_1_2_3 (after (Cert.ReferenceIdeal.RefRun.ops (F := Ideal)) (launchContents m' c) (Proc.devRef .tc Cert.ReferenceIdeal.main_v54) : (⟨Cert.ReferenceIdeal.S3x100000x1, .f32⟩ : BufTy).Contents (Elt Ideal)))
          (broadcastInDim Cert.KernelIdeal.S1x3x100000x1 ![1, 2, 3] Cert.KernelIdeal.Gen.bcast_S3x100000x1_S1x3x100000x1_1_2_3 (after (Cert.ReferenceIdeal.RefRun.ops (F := Ideal)) (launchContents m' c) (Proc.devRef .tc Cert.ReferenceIdeal.main_v171) : (⟨Cert.ReferenceIdeal.S3x100000x1, .f32⟩ : BufTy).Contents (Elt Ideal)))
          (broadcastInDim Cert.KernelIdeal.S1x3x100000x1 ![1, 2, 3] Cert.KernelIdeal.Gen.bcast_S3x100000x1_S1x3x100000x1_1_2_3 (after (Cert.ReferenceIdeal.RefRun.ops (F := Ideal)) (launchContents m' c) (Proc.devRef .tc Cert.ReferenceIdeal.main_v289) : (⟨Cert.ReferenceIdeal.S3x100000x1, .f32⟩ : BufTy).Contents (Elt Ideal)))
          (broadcastInDim Cert.KernelIdeal.S1x3x100000x1 ![1, 2, 3] Cert.KernelIdeal.Gen.bcast_S3x100000x1_S1x3x100000x1_1_2_3 (after (Cert.ReferenceIdeal.RefRun.ops (F := Ideal)) (launchContents m' c) (Proc.devRef .tc Cert.ReferenceIdeal.main_v407) : (⟨Cert.ReferenceIdeal.S3x100000x1, .f32⟩ : BufTy).Contents (Elt Ideal))) := by
  show Cert.KernelIdeal.Hand.V0 m c _ = _
  rw [Cert.KernelIdeal.Hand.V0_eq]
  simp only [Cert.KernelIdeal.Hand.pre, afterL_cons, afterL_nil, Cert.ReferenceIdeal.RefRun.ops, List.flatten_cons, List.flatten_nil, List.append_nil, after_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.Cat.cat2_eq, Cert.Cat.cat3_eq, Cert.Cat.cat4_eq, Matrix.cons_val]
  have h0' : m' (c, Proc.devRef .tc Cert.ReferenceIdeal.main_arg0) = m (c, Proc.devRef .tc Cert.KernelIdeal.main_arg0) := h0
  have h1' : m' (c, Proc.devRef .tc Cert.ReferenceIdeal.main_arg1) = m (c, Proc.devRef .tc Cert.KernelIdeal.main_arg1) := h1
  have h2' : m' (c, Proc.devRef .tc Cert.ReferenceIdeal.main_arg2) = m (c, Proc.devRef .tc Cert.KernelIdeal.main_arg2) := h2
  have h3' : m' (c, Proc.devRef .tc Cert.ReferenceIdeal.main_arg3) = m (c, Proc.devRef .tc Cert.KernelIdeal.main_arg3) := h3
  have h4' : m' (c, Proc.devRef .tc Cert.ReferenceIdeal.main_arg4) = m (c, Proc.devRef .tc Cert.KernelIdeal.main_arg4) := h4
  simp only [launchContents]
  simp only [h0', h1', h2', h3', h4']
  rfl

end Cert.Bridge

end
-- ==== Proof.Algebraic.lean ====
/-
  The value claim. Over the extended reals the kernel's result at point n and column k is the kernel-order running sum,
  up to scale k / 216, of the bilinear samples at plane (k % 216) / 72 and channel (k % 216) % 72, and the reference's
  result is the reference-order running sum of the reference's samples. A sample is a blend of four corner values by two
  weights; the kernel reads them from the arrays that stack the four scales, the reference from its per-scale arrays, and
  those are the same functions of the arguments (the host lines that compute them are the same operations in both
  programs). So the samples agree scale by scale, and the two running sums agree because addition of extended reals is
  commutative and associative with unit 0.
-/
import proofs.«135668_j17884243821138_2_alg».proof.Defs
import proofs.«135668_j17884243821138_2_alg».proof.Proof.Gen.KernelIdeal
import proofs.«135668_j17884243821138_2_alg».proof.Proof.Gen.ReferenceIdeal
import proofs.«135668_j17884243821138_2_alg».proof.Proof.Gen.Pre_finite_inputs
import proofs.«135668_j17884243821138_2_alg».proof.Proof.KI.ValTail
import proofs.«135668_j17884243821138_2_alg».proof.Proof.RefVal
import proofs.«135668_j17884243821138_2_alg».proof.Proof.Bridge.Win0
import proofs.«135668_j17884243821138_2_alg».proof.Proof.Bridge.Win1
import proofs.«135668_j17884243821138_2_alg».proof.Proof.Bridge.Win2
import proofs.«135668_j17884243821138_2_alg».proof.Proof.Bridge.Win3
import proofs.«135668_j17884243821138_2_alg».proof.Proof.Bridge.Win4
import proofs.«135668_j17884243821138_2_alg».proof.Proof.Bridge.Win5
import proofs.«135668_j17884243821138_2_alg».proof.Proof.Layout
import proofs.«135668_j17884243821138_2_alg».proof.Proof.Spec

set_option maxRecDepth 16384

noncomputable section

namespace Cert.Algebraic

open Idealize.ShloMosaic Idealize.ShloMosaic.TcCoe Idealize.ShloMosaic.ValueIdx
open Idealize.SL Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-! ## The kernel's stacked arrays, scale by scale -/

/-- The literal 1.0 reads the same at the ideal instance whether the kernel body or a host line spells it. -/
theorem one_eq : Cert.KernelIdeal.Val.ONE = Cert.ReferenceIdeal.Val.ONE := rfl

theorem a0_0
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A0 m c (ix4 (0 : Fin 4) p n ch) = (after (Cert.ReferenceIdeal.RefRun.ops (F := Ideal)) (launchContents m' c) (Proc.devRef .tc Cert.ReferenceIdeal.main_v79) : Cert.ReferenceIdeal.S3x100000x72.Idx → EReal) (ix3 p n ch) := by
  show (Cert.KernelIdeal.Hand.V (F := Ideal) m c Cert.KernelIdeal.main_v411 : (⟨Cert.KernelIdeal.S4x3x100000x72, .f32⟩ : BufTy).Contents (Elt Ideal)) (ix4 (0 : Fin 4) p n ch) = _
  rw [Cert.Bridge.win0 m m' c h0 h1 h2 h3 h4]
  exact Cert.Layout.stack72_0 _ _ _ _ _ _ p n ch

theorem a0_1
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A0 m c (ix4 (1 : Fin 4) p n ch) = (after (Cert.ReferenceIdeal.RefRun.ops (F := Ideal)) (launchContents m' c) (Proc.devRef .tc Cert.ReferenceIdeal.main_v196) : Cert.ReferenceIdeal.S3x100000x72.Idx → EReal) (ix3 p n ch) := by
  show (Cert.KernelIdeal.Hand.V (F := Ideal) m c Cert.KernelIdeal.main_v411 : (⟨Cert.KernelIdeal.S4x3x100000x72, .f32⟩ : BufTy).Contents (Elt Ideal)) (ix4 (1 : Fin 4) p n ch) = _
  rw [Cert.Bridge.win0 m m' c h0 h1 h2 h3 h4]
  exact Cert.Layout.stack72_1 _ _ _ _ _ _ p n ch

theorem a0_2
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A0 m c (ix4 (2 : Fin 4) p n ch) = (after (Cert.ReferenceIdeal.RefRun.ops (F := Ideal)) (launchContents m' c) (Proc.devRef .tc Cert.ReferenceIdeal.main_v314) : Cert.ReferenceIdeal.S3x100000x72.Idx → EReal) (ix3 p n ch) := by
  show (Cert.KernelIdeal.Hand.V (F := Ideal) m c Cert.KernelIdeal.main_v411 : (⟨Cert.KernelIdeal.S4x3x100000x72, .f32⟩ : BufTy).Contents (Elt Ideal)) (ix4 (2 : Fin 4) p n ch) = _
  rw [Cert.Bridge.win0 m m' c h0 h1 h2 h3 h4]
  exact Cert.Layout.stack72_2 _ _ _ _ _ _ p n ch

theorem a0_3
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A0 m c (ix4 (3 : Fin 4) p n ch) = (after (Cert.ReferenceIdeal.RefRun.ops (F := Ideal)) (launchContents m' c) (Proc.devRef .tc Cert.ReferenceIdeal.main_v432) : Cert.ReferenceIdeal.S3x100000x72.Idx → EReal) (ix3 p n ch) := by
  show (Cert.KernelIdeal.Hand.V (F := Ideal) m c Cert.KernelIdeal.main_v411 : (⟨Cert.KernelIdeal.S4x3x100000x72, .f32⟩ : BufTy).Contents (Elt Ideal)) (ix4 (3 : Fin 4) p n ch) = _
  rw [Cert.Bridge.win0 m m' c h0 h1 h2 h3 h4]
  exact Cert.Layout.stack72_3 _ _ _ _ _ _ p n ch

theorem a1_0
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A1 m c (ix4 (0 : Fin 4) p n ch) = (after (Cert.ReferenceIdeal.RefRun.ops (F := Ideal)) (launchContents m' c) (Proc.devRef .tc Cert.ReferenceIdeal.main_v94) : Cert.ReferenceIdeal.S3x100000x72.Idx → EReal) (ix3 p n ch) := by
  show (Cert.KernelIdeal.Hand.V (F := Ideal) m c Cert.KernelIdeal.main_v416 : (⟨Cert.KernelIdeal.S4x3x100000x72, .f32⟩ : BufTy).Contents (Elt Ideal)) (ix4 (0 : Fin 4) p n ch) = _
  rw [Cert.Bridge.win1 m m' c h0 h1 h2 h3 h4]
  exact Cert.Layout.stack72_0 _ _ _ _ _ _ p n ch

theorem a1_1
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A1 m c (ix4 (1 : Fin 4) p n ch) = (after (Cert.ReferenceIdeal.RefRun.ops (F := Ideal)) (launchContents m' c) (Proc.devRef .tc Cert.ReferenceIdeal.main_v211) : Cert.ReferenceIdeal.S3x100000x72.Idx → EReal) (ix3 p n ch) := by
  show (Cert.KernelIdeal.Hand.V (F := Ideal) m c Cert.KernelIdeal.main_v416 : (⟨Cert.KernelIdeal.S4x3x100000x72, .f32⟩ : BufTy).Contents (Elt Ideal)) (ix4 (1 : Fin 4) p n ch) = _
  rw [Cert.Bridge.win1 m m' c h0 h1 h2 h3 h4]
  exact Cert.Layout.stack72_1 _ _ _ _ _ _ p n ch

theorem a1_2
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A1 m c (ix4 (2 : Fin 4) p n ch) = (after (Cert.ReferenceIdeal.RefRun.ops (F := Ideal)) (launchContents m' c) (Proc.devRef .tc Cert.ReferenceIdeal.main_v329) : Cert.ReferenceIdeal.S3x100000x72.Idx → EReal) (ix3 p n ch) := by
  show (Cert.KernelIdeal.Hand.V (F := Ideal) m c Cert.KernelIdeal.main_v416 : (⟨Cert.KernelIdeal.S4x3x100000x72, .f32⟩ : BufTy).Contents (Elt Ideal)) (ix4 (2 : Fin 4) p n ch) = _
  rw [Cert.Bridge.win1 m m' c h0 h1 h2 h3 h4]
  exact Cert.Layout.stack72_2 _ _ _ _ _ _ p n ch

theorem a1_3
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A1 m c (ix4 (3 : Fin 4) p n ch) = (after (Cert.ReferenceIdeal.RefRun.ops (F := Ideal)) (launchContents m' c) (Proc.devRef .tc Cert.ReferenceIdeal.main_v447) : Cert.ReferenceIdeal.S3x100000x72.Idx → EReal) (ix3 p n ch) := by
  show (Cert.KernelIdeal.Hand.V (F := Ideal) m c Cert.KernelIdeal.main_v416 : (⟨Cert.KernelIdeal.S4x3x100000x72, .f32⟩ : BufTy).Contents (Elt Ideal)) (ix4 (3 : Fin 4) p n ch) = _
  rw [Cert.Bridge.win1 m m' c h0 h1 h2 h3 h4]
  exact Cert.Layout.stack72_3 _ _ _ _ _ _ p n ch

theorem a2_0
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A2 m c (ix4 (0 : Fin 4) p n ch) = (after (Cert.ReferenceIdeal.RefRun.ops (F := Ideal)) (launchContents m' c) (Proc.devRef .tc Cert.ReferenceIdeal.main_v109) : Cert.ReferenceIdeal.S3x100000x72.Idx → EReal) (ix3 p n ch) := by
  show (Cert.KernelIdeal.Hand.V (F := Ideal) m c Cert.KernelIdeal.main_v421 : (⟨Cert.KernelIdeal.S4x3x100000x72, .f32⟩ : BufTy).Contents (Elt Ideal)) (ix4 (0 : Fin 4) p n ch) = _
  rw [Cert.Bridge.win2 m m' c h0 h1 h2 h3 h4]
  exact Cert.Layout.stack72_0 _ _ _ _ _ _ p n ch

theorem a2_1
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A2 m c (ix4 (1 : Fin 4) p n ch) = (after (Cert.ReferenceIdeal.RefRun.ops (F := Ideal)) (launchContents m' c) (Proc.devRef .tc Cert.ReferenceIdeal.main_v226) : Cert.ReferenceIdeal.S3x100000x72.Idx → EReal) (ix3 p n ch) := by
  show (Cert.KernelIdeal.Hand.V (F := Ideal) m c Cert.KernelIdeal.main_v421 : (⟨Cert.KernelIdeal.S4x3x100000x72, .f32⟩ : BufTy).Contents (Elt Ideal)) (ix4 (1 : Fin 4) p n ch) = _
  rw [Cert.Bridge.win2 m m' c h0 h1 h2 h3 h4]
  exact Cert.Layout.stack72_1 _ _ _ _ _ _ p n ch

theorem a2_2
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A2 m c (ix4 (2 : Fin 4) p n ch) = (after (Cert.ReferenceIdeal.RefRun.ops (F := Ideal)) (launchContents m' c) (Proc.devRef .tc Cert.ReferenceIdeal.main_v344) : Cert.ReferenceIdeal.S3x100000x72.Idx → EReal) (ix3 p n ch) := by
  show (Cert.KernelIdeal.Hand.V (F := Ideal) m c Cert.KernelIdeal.main_v421 : (⟨Cert.KernelIdeal.S4x3x100000x72, .f32⟩ : BufTy).Contents (Elt Ideal)) (ix4 (2 : Fin 4) p n ch) = _
  rw [Cert.Bridge.win2 m m' c h0 h1 h2 h3 h4]
  exact Cert.Layout.stack72_2 _ _ _ _ _ _ p n ch

theorem a2_3
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A2 m c (ix4 (3 : Fin 4) p n ch) = (after (Cert.ReferenceIdeal.RefRun.ops (F := Ideal)) (launchContents m' c) (Proc.devRef .tc Cert.ReferenceIdeal.main_v462) : Cert.ReferenceIdeal.S3x100000x72.Idx → EReal) (ix3 p n ch) := by
  show (Cert.KernelIdeal.Hand.V (F := Ideal) m c Cert.KernelIdeal.main_v421 : (⟨Cert.KernelIdeal.S4x3x100000x72, .f32⟩ : BufTy).Contents (Elt Ideal)) (ix4 (3 : Fin 4) p n ch) = _
  rw [Cert.Bridge.win2 m m' c h0 h1 h2 h3 h4]
  exact Cert.Layout.stack72_3 _ _ _ _ _ _ p n ch

theorem a3_0
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A3 m c (ix4 (0 : Fin 4) p n ch) = (after (Cert.ReferenceIdeal.RefRun.ops (F := Ideal)) (launchContents m' c) (Proc.devRef .tc Cert.ReferenceIdeal.main_v124) : Cert.ReferenceIdeal.S3x100000x72.Idx → EReal) (ix3 p n ch) := by
  show (Cert.KernelIdeal.Hand.V (F := Ideal) m c Cert.KernelIdeal.main_v426 : (⟨Cert.KernelIdeal.S4x3x100000x72, .f32⟩ : BufTy).Contents (Elt Ideal)) (ix4 (0 : Fin 4) p n ch) = _
  rw [Cert.Bridge.win3 m m' c h0 h1 h2 h3 h4]
  exact Cert.Layout.stack72_0 _ _ _ _ _ _ p n ch

theorem a3_1
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A3 m c (ix4 (1 : Fin 4) p n ch) = (after (Cert.ReferenceIdeal.RefRun.ops (F := Ideal)) (launchContents m' c) (Proc.devRef .tc Cert.ReferenceIdeal.main_v241) : Cert.ReferenceIdeal.S3x100000x72.Idx → EReal) (ix3 p n ch) := by
  show (Cert.KernelIdeal.Hand.V (F := Ideal) m c Cert.KernelIdeal.main_v426 : (⟨Cert.KernelIdeal.S4x3x100000x72, .f32⟩ : BufTy).Contents (Elt Ideal)) (ix4 (1 : Fin 4) p n ch) = _
  rw [Cert.Bridge.win3 m m' c h0 h1 h2 h3 h4]
  exact Cert.Layout.stack72_1 _ _ _ _ _ _ p n ch

theorem a3_2
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A3 m c (ix4 (2 : Fin 4) p n ch) = (after (Cert.ReferenceIdeal.RefRun.ops (F := Ideal)) (launchContents m' c) (Proc.devRef .tc Cert.ReferenceIdeal.main_v359) : Cert.ReferenceIdeal.S3x100000x72.Idx → EReal) (ix3 p n ch) := by
  show (Cert.KernelIdeal.Hand.V (F := Ideal) m c Cert.KernelIdeal.main_v426 : (⟨Cert.KernelIdeal.S4x3x100000x72, .f32⟩ : BufTy).Contents (Elt Ideal)) (ix4 (2 : Fin 4) p n ch) = _
  rw [Cert.Bridge.win3 m m' c h0 h1 h2 h3 h4]
  exact Cert.Layout.stack72_2 _ _ _ _ _ _ p n ch

theorem a3_3
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) (ch : Fin 72) :
    Cert.KernelIdeal.Val.A3 m c (ix4 (3 : Fin 4) p n ch) = (after (Cert.ReferenceIdeal.RefRun.ops (F := Ideal)) (launchContents m' c) (Proc.devRef .tc Cert.ReferenceIdeal.main_v477) : Cert.ReferenceIdeal.S3x100000x72.Idx → EReal) (ix3 p n ch) := by
  show (Cert.KernelIdeal.Hand.V (F := Ideal) m c Cert.KernelIdeal.main_v426 : (⟨Cert.KernelIdeal.S4x3x100000x72, .f32⟩ : BufTy).Contents (Elt Ideal)) (ix4 (3 : Fin 4) p n ch) = _
  rw [Cert.Bridge.win3 m m' c h0 h1 h2 h3 h4]
  exact Cert.Layout.stack72_3 _ _ _ _ _ _ p n ch

theorem a4_0
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) :
    Cert.KernelIdeal.Val.A4 m c (ix4 (0 : Fin 4) p n (0 : Fin 1)) = (after (Cert.ReferenceIdeal.RefRun.ops (F := Ideal)) (launchContents m' c) (Proc.devRef .tc Cert.ReferenceIdeal.main_v52) : Cert.ReferenceIdeal.S3x100000x1.Idx → EReal) (ix3 p n (0 : Fin 1)) := by
  show (Cert.KernelIdeal.Hand.V (F := Ideal) m c Cert.KernelIdeal.main_v431 : (⟨Cert.KernelIdeal.S4x3x100000x1, .f32⟩ : BufTy).Contents (Elt Ideal)) (ix4 (0 : Fin 4) p n (0 : Fin 1)) = _
  rw [Cert.Bridge.win4 m m' c h0 h1 h2 h3 h4]
  exact Cert.Layout.stack1_0 _ _ _ _ _ _ p n (0 : Fin 1)

theorem a4_1
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) :
    Cert.KernelIdeal.Val.A4 m c (ix4 (1 : Fin 4) p n (0 : Fin 1)) = (after (Cert.ReferenceIdeal.RefRun.ops (F := Ideal)) (launchContents m' c) (Proc.devRef .tc Cert.ReferenceIdeal.main_v169) : Cert.ReferenceIdeal.S3x100000x1.Idx → EReal) (ix3 p n (0 : Fin 1)) := by
  show (Cert.KernelIdeal.Hand.V (F := Ideal) m c Cert.KernelIdeal.main_v431 : (⟨Cert.KernelIdeal.S4x3x100000x1, .f32⟩ : BufTy).Contents (Elt Ideal)) (ix4 (1 : Fin 4) p n (0 : Fin 1)) = _
  rw [Cert.Bridge.win4 m m' c h0 h1 h2 h3 h4]
  exact Cert.Layout.stack1_1 _ _ _ _ _ _ p n (0 : Fin 1)

theorem a4_2
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) :
    Cert.KernelIdeal.Val.A4 m c (ix4 (2 : Fin 4) p n (0 : Fin 1)) = (after (Cert.ReferenceIdeal.RefRun.ops (F := Ideal)) (launchContents m' c) (Proc.devRef .tc Cert.ReferenceIdeal.main_v287) : Cert.ReferenceIdeal.S3x100000x1.Idx → EReal) (ix3 p n (0 : Fin 1)) := by
  show (Cert.KernelIdeal.Hand.V (F := Ideal) m c Cert.KernelIdeal.main_v431 : (⟨Cert.KernelIdeal.S4x3x100000x1, .f32⟩ : BufTy).Contents (Elt Ideal)) (ix4 (2 : Fin 4) p n (0 : Fin 1)) = _
  rw [Cert.Bridge.win4 m m' c h0 h1 h2 h3 h4]
  exact Cert.Layout.stack1_2 _ _ _ _ _ _ p n (0 : Fin 1)

theorem a4_3
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) :
    Cert.KernelIdeal.Val.A4 m c (ix4 (3 : Fin 4) p n (0 : Fin 1)) = (after (Cert.ReferenceIdeal.RefRun.ops (F := Ideal)) (launchContents m' c) (Proc.devRef .tc Cert.ReferenceIdeal.main_v405) : Cert.ReferenceIdeal.S3x100000x1.Idx → EReal) (ix3 p n (0 : Fin 1)) := by
  show (Cert.KernelIdeal.Hand.V (F := Ideal) m c Cert.KernelIdeal.main_v431 : (⟨Cert.KernelIdeal.S4x3x100000x1, .f32⟩ : BufTy).Contents (Elt Ideal)) (ix4 (3 : Fin 4) p n (0 : Fin 1)) = _
  rw [Cert.Bridge.win4 m m' c h0 h1 h2 h3 h4]
  exact Cert.Layout.stack1_3 _ _ _ _ _ _ p n (0 : Fin 1)

theorem a5_0
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) :
    Cert.KernelIdeal.Val.A5 m c (ix4 (0 : Fin 4) p n (0 : Fin 1)) = (after (Cert.ReferenceIdeal.RefRun.ops (F := Ideal)) (launchContents m' c) (Proc.devRef .tc Cert.ReferenceIdeal.main_v54) : Cert.ReferenceIdeal.S3x100000x1.Idx → EReal) (ix3 p n (0 : Fin 1)) := by
  show (Cert.KernelIdeal.Hand.V (F := Ideal) m c Cert.KernelIdeal.main_v436 : (⟨Cert.KernelIdeal.S4x3x100000x1, .f32⟩ : BufTy).Contents (Elt Ideal)) (ix4 (0 : Fin 4) p n (0 : Fin 1)) = _
  rw [Cert.Bridge.win5 m m' c h0 h1 h2 h3 h4]
  exact Cert.Layout.stack1_0 _ _ _ _ _ _ p n (0 : Fin 1)

theorem a5_1
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) :
    Cert.KernelIdeal.Val.A5 m c (ix4 (1 : Fin 4) p n (0 : Fin 1)) = (after (Cert.ReferenceIdeal.RefRun.ops (F := Ideal)) (launchContents m' c) (Proc.devRef .tc Cert.ReferenceIdeal.main_v171) : Cert.ReferenceIdeal.S3x100000x1.Idx → EReal) (ix3 p n (0 : Fin 1)) := by
  show (Cert.KernelIdeal.Hand.V (F := Ideal) m c Cert.KernelIdeal.main_v436 : (⟨Cert.KernelIdeal.S4x3x100000x1, .f32⟩ : BufTy).Contents (Elt Ideal)) (ix4 (1 : Fin 4) p n (0 : Fin 1)) = _
  rw [Cert.Bridge.win5 m m' c h0 h1 h2 h3 h4]
  exact Cert.Layout.stack1_1 _ _ _ _ _ _ p n (0 : Fin 1)

theorem a5_2
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) :
    Cert.KernelIdeal.Val.A5 m c (ix4 (2 : Fin 4) p n (0 : Fin 1)) = (after (Cert.ReferenceIdeal.RefRun.ops (F := Ideal)) (launchContents m' c) (Proc.devRef .tc Cert.ReferenceIdeal.main_v289) : Cert.ReferenceIdeal.S3x100000x1.Idx → EReal) (ix3 p n (0 : Fin 1)) := by
  show (Cert.KernelIdeal.Hand.V (F := Ideal) m c Cert.KernelIdeal.main_v436 : (⟨Cert.KernelIdeal.S4x3x100000x1, .f32⟩ : BufTy).Contents (Elt Ideal)) (ix4 (2 : Fin 4) p n (0 : Fin 1)) = _
  rw [Cert.Bridge.win5 m m' c h0 h1 h2 h3 h4]
  exact Cert.Layout.stack1_2 _ _ _ _ _ _ p n (0 : Fin 1)

theorem a5_3
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p : Fin 3) (n : Fin 100000) :
    Cert.KernelIdeal.Val.A5 m c (ix4 (3 : Fin 4) p n (0 : Fin 1)) = (after (Cert.ReferenceIdeal.RefRun.ops (F := Ideal)) (launchContents m' c) (Proc.devRef .tc Cert.ReferenceIdeal.main_v407) : Cert.ReferenceIdeal.S3x100000x1.Idx → EReal) (ix3 p n (0 : Fin 1)) := by
  show (Cert.KernelIdeal.Hand.V (F := Ideal) m c Cert.KernelIdeal.main_v436 : (⟨Cert.KernelIdeal.S4x3x100000x1, .f32⟩ : BufTy).Contents (Elt Ideal)) (ix4 (3 : Fin 4) p n (0 : Fin 1)) = _
  rw [Cert.Bridge.win5 m m' c h0 h1 h2 h3 h4]
  exact Cert.Layout.stack1_3 _ _ _ _ _ _ p n (0 : Fin 1)

/-! ## The samples agree -/

/-- The kernel's sample at scale 0, over the reference's arrays of that scale. -/
theorem sampK_0
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (n : Fin 100000) (p : Fin 3) (ch : Fin 72) :
    Cert.KernelIdeal.Val.sampK m c n p ch 0
      = Cert.Tri.blend Cert.ReferenceIdeal.Val.ONE
          ((after (Cert.ReferenceIdeal.RefRun.ops (F := Ideal)) (launchContents m' c) (Proc.devRef .tc Cert.ReferenceIdeal.main_v79) : Cert.ReferenceIdeal.S3x100000x72.Idx → EReal) (ix3 p n ch))
          ((after (Cert.ReferenceIdeal.RefRun.ops (F := Ideal)) (launchContents m' c) (Proc.devRef .tc Cert.ReferenceIdeal.main_v94) : Cert.ReferenceIdeal.S3x100000x72.Idx → EReal) (ix3 p n ch))
          ((after (Cert.ReferenceIdeal.RefRun.ops (F := Ideal)) (launchContents m' c) (Proc.devRef .tc Cert.ReferenceIdeal.main_v109) : Cert.ReferenceIdeal.S3x100000x72.Idx → EReal) (ix3 p n ch))
          ((after (Cert.ReferenceIdeal.RefRun.ops (F := Ideal)) (launchContents m' c) (Proc.devRef .tc Cert.ReferenceIdeal.main_v124) : Cert.ReferenceIdeal.S3x100000x72.Idx → EReal) (ix3 p n ch))
          ((after (Cert.ReferenceIdeal.RefRun.ops (F := Ideal)) (launchContents m' c) (Proc.devRef .tc Cert.ReferenceIdeal.main_v52) : Cert.ReferenceIdeal.S3x100000x1.Idx → EReal) (ix3 p n (0 : Fin 1)))
          ((after (Cert.ReferenceIdeal.RefRun.ops (F := Ideal)) (launchContents m' c) (Proc.devRef .tc Cert.ReferenceIdeal.main_v54) : Cert.ReferenceIdeal.S3x100000x1.Idx → EReal) (ix3 p n (0 : Fin 1))) := by
  unfold Cert.KernelIdeal.Val.sampK
  rw [dif_pos (by decide : (0 : ℕ) < 4)]
  show Cert.Tri.blend Cert.KernelIdeal.Val.ONE (Cert.KernelIdeal.Val.A0 m c (ix4 (0 : Fin 4) p n ch)) (Cert.KernelIdeal.Val.A1 m c (ix4 (0 : Fin 4) p n ch))
      (Cert.KernelIdeal.Val.A2 m c (ix4 (0 : Fin 4) p n ch)) (Cert.KernelIdeal.Val.A3 m c (ix4 (0 : Fin 4) p n ch))
      (Cert.KernelIdeal.Val.A4 m c (ix4 (0 : Fin 4) p n (0 : Fin 1))) (Cert.KernelIdeal.Val.A5 m c (ix4 (0 : Fin 4) p n (0 : Fin 1))) = _
  rw [a0_0 m m' c h0 h1 h2 h3 h4 p n ch, a1_0 m m' c h0 h1 h2 h3 h4 p n ch, a2_0 m m' c h0 h1 h2 h3 h4 p n ch, a3_0 m m' c h0 h1 h2 h3 h4 p n ch,
    a4_0 m m' c h0 h1 h2 h3 h4 p n, a5_0 m m' c h0 h1 h2 h3 h4 p n, one_eq]

/-- The kernel's sample at scale 1, over the reference's arrays of that scale. -/
theorem sampK_1
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (n : Fin 100000) (p : Fin 3) (ch : Fin 72) :
    Cert.KernelIdeal.Val.sampK m c n p ch 1
      = Cert.Tri.blend Cert.ReferenceIdeal.Val.ONE
          ((after (Cert.ReferenceIdeal.RefRun.ops (F := Ideal)) (launchContents m' c) (Proc.devRef .tc Cert.ReferenceIdeal.main_v196) : Cert.ReferenceIdeal.S3x100000x72.Idx → EReal) (ix3 p n ch))
          ((after (Cert.ReferenceIdeal.RefRun.ops (F := Ideal)) (launchContents m' c) (Proc.devRef .tc Cert.ReferenceIdeal.main_v211) : Cert.ReferenceIdeal.S3x100000x72.Idx → EReal) (ix3 p n ch))
          ((after (Cert.ReferenceIdeal.RefRun.ops (F := Ideal)) (launchContents m' c) (Proc.devRef .tc Cert.ReferenceIdeal.main_v226) : Cert.ReferenceIdeal.S3x100000x72.Idx → EReal) (ix3 p n ch))
          ((after (Cert.ReferenceIdeal.RefRun.ops (F := Ideal)) (launchContents m' c) (Proc.devRef .tc Cert.ReferenceIdeal.main_v241) : Cert.ReferenceIdeal.S3x100000x72.Idx → EReal) (ix3 p n ch))
          ((after (Cert.ReferenceIdeal.RefRun.ops (F := Ideal)) (launchContents m' c) (Proc.devRef .tc Cert.ReferenceIdeal.main_v169) : Cert.ReferenceIdeal.S3x100000x1.Idx → EReal) (ix3 p n (0 : Fin 1)))
          ((after (Cert.ReferenceIdeal.RefRun.ops (F := Ideal)) (launchContents m' c) (Proc.devRef .tc Cert.ReferenceIdeal.main_v171) : Cert.ReferenceIdeal.S3x100000x1.Idx → EReal) (ix3 p n (0 : Fin 1))) := by
  unfold Cert.KernelIdeal.Val.sampK
  rw [dif_pos (by decide : (1 : ℕ) < 4)]
  show Cert.Tri.blend Cert.KernelIdeal.Val.ONE (Cert.KernelIdeal.Val.A0 m c (ix4 (1 : Fin 4) p n ch)) (Cert.KernelIdeal.Val.A1 m c (ix4 (1 : Fin 4) p n ch))
      (Cert.KernelIdeal.Val.A2 m c (ix4 (1 : Fin 4) p n ch)) (Cert.KernelIdeal.Val.A3 m c (ix4 (1 : Fin 4) p n ch))
      (Cert.KernelIdeal.Val.A4 m c (ix4 (1 : Fin 4) p n (0 : Fin 1))) (Cert.KernelIdeal.Val.A5 m c (ix4 (1 : Fin 4) p n (0 : Fin 1))) = _
  rw [a0_1 m m' c h0 h1 h2 h3 h4 p n ch, a1_1 m m' c h0 h1 h2 h3 h4 p n ch, a2_1 m m' c h0 h1 h2 h3 h4 p n ch, a3_1 m m' c h0 h1 h2 h3 h4 p n ch,
    a4_1 m m' c h0 h1 h2 h3 h4 p n, a5_1 m m' c h0 h1 h2 h3 h4 p n, one_eq]

/-- The kernel's sample at scale 2, over the reference's arrays of that scale. -/
theorem sampK_2
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (n : Fin 100000) (p : Fin 3) (ch : Fin 72) :
    Cert.KernelIdeal.Val.sampK m c n p ch 2
      = Cert.Tri.blend Cert.ReferenceIdeal.Val.ONE
          ((after (Cert.ReferenceIdeal.RefRun.ops (F := Ideal)) (launchContents m' c) (Proc.devRef .tc Cert.ReferenceIdeal.main_v314) : Cert.ReferenceIdeal.S3x100000x72.Idx → EReal) (ix3 p n ch))
          ((after (Cert.ReferenceIdeal.RefRun.ops (F := Ideal)) (launchContents m' c) (Proc.devRef .tc Cert.ReferenceIdeal.main_v329) : Cert.ReferenceIdeal.S3x100000x72.Idx → EReal) (ix3 p n ch))
          ((after (Cert.ReferenceIdeal.RefRun.ops (F := Ideal)) (launchContents m' c) (Proc.devRef .tc Cert.ReferenceIdeal.main_v344) : Cert.ReferenceIdeal.S3x100000x72.Idx → EReal) (ix3 p n ch))
          ((after (Cert.ReferenceIdeal.RefRun.ops (F := Ideal)) (launchContents m' c) (Proc.devRef .tc Cert.ReferenceIdeal.main_v359) : Cert.ReferenceIdeal.S3x100000x72.Idx → EReal) (ix3 p n ch))
          ((after (Cert.ReferenceIdeal.RefRun.ops (F := Ideal)) (launchContents m' c) (Proc.devRef .tc Cert.ReferenceIdeal.main_v287) : Cert.ReferenceIdeal.S3x100000x1.Idx → EReal) (ix3 p n (0 : Fin 1)))
          ((after (Cert.ReferenceIdeal.RefRun.ops (F := Ideal)) (launchContents m' c) (Proc.devRef .tc Cert.ReferenceIdeal.main_v289) : Cert.ReferenceIdeal.S3x100000x1.Idx → EReal) (ix3 p n (0 : Fin 1))) := by
  unfold Cert.KernelIdeal.Val.sampK
  rw [dif_pos (by decide : (2 : ℕ) < 4)]
  show Cert.Tri.blend Cert.KernelIdeal.Val.ONE (Cert.KernelIdeal.Val.A0 m c (ix4 (2 : Fin 4) p n ch)) (Cert.KernelIdeal.Val.A1 m c (ix4 (2 : Fin 4) p n ch))
      (Cert.KernelIdeal.Val.A2 m c (ix4 (2 : Fin 4) p n ch)) (Cert.KernelIdeal.Val.A3 m c (ix4 (2 : Fin 4) p n ch))
      (Cert.KernelIdeal.Val.A4 m c (ix4 (2 : Fin 4) p n (0 : Fin 1))) (Cert.KernelIdeal.Val.A5 m c (ix4 (2 : Fin 4) p n (0 : Fin 1))) = _
  rw [a0_2 m m' c h0 h1 h2 h3 h4 p n ch, a1_2 m m' c h0 h1 h2 h3 h4 p n ch, a2_2 m m' c h0 h1 h2 h3 h4 p n ch, a3_2 m m' c h0 h1 h2 h3 h4 p n ch,
    a4_2 m m' c h0 h1 h2 h3 h4 p n, a5_2 m m' c h0 h1 h2 h3 h4 p n, one_eq]

/-- The kernel's sample at scale 3, over the reference's arrays of that scale. -/
theorem sampK_3
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (n : Fin 100000) (p : Fin 3) (ch : Fin 72) :
    Cert.KernelIdeal.Val.sampK m c n p ch 3
      = Cert.Tri.blend Cert.ReferenceIdeal.Val.ONE
          ((after (Cert.ReferenceIdeal.RefRun.ops (F := Ideal)) (launchContents m' c) (Proc.devRef .tc Cert.ReferenceIdeal.main_v432) : Cert.ReferenceIdeal.S3x100000x72.Idx → EReal) (ix3 p n ch))
          ((after (Cert.ReferenceIdeal.RefRun.ops (F := Ideal)) (launchContents m' c) (Proc.devRef .tc Cert.ReferenceIdeal.main_v447) : Cert.ReferenceIdeal.S3x100000x72.Idx → EReal) (ix3 p n ch))
          ((after (Cert.ReferenceIdeal.RefRun.ops (F := Ideal)) (launchContents m' c) (Proc.devRef .tc Cert.ReferenceIdeal.main_v462) : Cert.ReferenceIdeal.S3x100000x72.Idx → EReal) (ix3 p n ch))
          ((after (Cert.ReferenceIdeal.RefRun.ops (F := Ideal)) (launchContents m' c) (Proc.devRef .tc Cert.ReferenceIdeal.main_v477) : Cert.ReferenceIdeal.S3x100000x72.Idx → EReal) (ix3 p n ch))
          ((after (Cert.ReferenceIdeal.RefRun.ops (F := Ideal)) (launchContents m' c) (Proc.devRef .tc Cert.ReferenceIdeal.main_v405) : Cert.ReferenceIdeal.S3x100000x1.Idx → EReal) (ix3 p n (0 : Fin 1)))
          ((after (Cert.ReferenceIdeal.RefRun.ops (F := Ideal)) (launchContents m' c) (Proc.devRef .tc Cert.ReferenceIdeal.main_v407) : Cert.ReferenceIdeal.S3x100000x1.Idx → EReal) (ix3 p n (0 : Fin 1))) := by
  unfold Cert.KernelIdeal.Val.sampK
  rw [dif_pos (by decide : (3 : ℕ) < 4)]
  show Cert.Tri.blend Cert.KernelIdeal.Val.ONE (Cert.KernelIdeal.Val.A0 m c (ix4 (3 : Fin 4) p n ch)) (Cert.KernelIdeal.Val.A1 m c (ix4 (3 : Fin 4) p n ch))
      (Cert.KernelIdeal.Val.A2 m c (ix4 (3 : Fin 4) p n ch)) (Cert.KernelIdeal.Val.A3 m c (ix4 (3 : Fin 4) p n ch))
      (Cert.KernelIdeal.Val.A4 m c (ix4 (3 : Fin 4) p n (0 : Fin 1))) (Cert.KernelIdeal.Val.A5 m c (ix4 (3 : Fin 4) p n (0 : Fin 1))) = _
  rw [a0_3 m m' c h0 h1 h2 h3 h4 p n ch, a1_3 m m' c h0 h1 h2 h3 h4 p n ch, a2_3 m m' c h0 h1 h2 h3 h4 p n ch, a3_3 m m' c h0 h1 h2 h3 h4 p n ch,
    a4_3 m m' c h0 h1 h2 h3 h4 p n, a5_3 m m' c h0 h1 h2 h3 h4 p n, one_eq]

/-- The two programs' samples agree at every scale (both are 0 past the fourth). -/
theorem samp_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (n : Fin 100000) (p : Fin 3) (ch : Fin 72) :
    ∀ s : ℕ, Cert.KernelIdeal.Val.sampK m c n p ch s = Cert.ReferenceIdeal.Val.sampR (launchContents m' c) n p ch s
  | 0 => (sampK_0 m m' c h0 h1 h2 h3 h4 n p ch).trans (by rw [Cert.ReferenceIdeal.Val.sampR])
  | 1 => (sampK_1 m m' c h0 h1 h2 h3 h4 n p ch).trans (by rw [Cert.ReferenceIdeal.Val.sampR])
  | 2 => (sampK_2 m m' c h0 h1 h2 h3 h4 n p ch).trans (by rw [Cert.ReferenceIdeal.Val.sampR])
  | 3 => (sampK_3 m m' c h0 h1 h2 h3 h4 n p ch).trans (by rw [Cert.ReferenceIdeal.Val.sampR])
  | s + 4 => by
    unfold Cert.KernelIdeal.Val.sampK
    rw [dif_neg (by omega)]
    rfl

/-! ## The claim -/

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hag
  refine ⟨fun c => Cert.KernelIdeal.Val.OUT m c, Cert.KernelIdeal.Val.run_val m ρ, ?_⟩
  refine (θ_run Cert.ReferenceIdeal.defs _ _).mono (fun r h c => ⟨?_, (h c Cert.ReferenceIdeal.main_arg0).trans (Cert.ReferenceIdeal.RefRun.kept_arg0 _),
    (h c Cert.ReferenceIdeal.main_arg1).trans (Cert.ReferenceIdeal.RefRun.kept_arg1 _), (h c Cert.ReferenceIdeal.main_arg2).trans (Cert.ReferenceIdeal.RefRun.kept_arg2 _),
    (h c Cert.ReferenceIdeal.main_arg3).trans (Cert.ReferenceIdeal.RefRun.kept_arg3 _), (h c Cert.ReferenceIdeal.main_arg4).trans (Cert.ReferenceIdeal.RefRun.kept_arg4 _)⟩)
    (Cert.ReferenceIdeal.RefRun.run_all (F := Ideal) m' ρ')
  refine (h c Cert.ReferenceIdeal.main_v502).trans ?_
  funext idx
  obtain ⟨n, k, rfl⟩ : ∃ (n : Fin 100000) (k : Fin 864), idx = ix2 n k := ⟨idx 0, idx 1, eq_ix2 idx⟩
  refine (Cert.ReferenceIdeal.Val.ref_val (launchContents m' c) n k).trans ?_
  rw [← Cert.Tri.accK_eq_accR]
  exact congrArg (fun f => Cert.Tri.accK f (k.val / 216))
    (funext fun s => (samp_eq m m' c (hag c).1 (hag c).2.1 (hag c).2.2.1 (hag c).2.2.2.1 (hag c).2.2.2.2 n _ _ s).symm)

end Cert.Algebraic

end
-- ==== Proof.lean ====
/-
  The certificate of a tri-plane bilinear sampler at four scales: a pallas kernel that blends the four gathered corners of
  each plane, accumulates the scales in a scratch buffer carried across the grid's scale axis and writes one
  [points, 3·72] slab per scale, against a plain jnp reference that blends on the host and keeps a running sum.

  The three frames: each program's @main is host lines (and, for the kernel, one pallas region between them); no line
  writes an argument array, the region's windows stage only arrays the host lines computed, and the kernel body's loads and
  stores stay inside its staging buffers and its scratch — so every weakly fair execution terminates without a fault and
  leaves the five argument arrays as launched. The idealized kernel is the kernel's own text read over the extended reals
  (the idealization rewrote nothing), so there is nothing to preserve. The value claim: over the extended reals both
  programs compute, at point n and column 216·s + 72·p + c, the sum over the scales up to s of the bilinear blend of the
  same four corner values by the same two weights — the kernel as ((0 + b₀) + b₁) + …, the reference as b_s + (… + b₀);
  addition of extended reals is commutative and associative with unit 0, at infinite values too, so the two agree and the
  precondition (finite inputs) is not used.
-/
import proofs.«135668_j17884243821138_2_alg».proof.Defs
import proofs.«135668_j17884243821138_2_alg».proof.Proof.Gen.Kernel
import proofs.«135668_j17884243821138_2_alg».proof.Proof.Gen.KernelIdeal
import proofs.«135668_j17884243821138_2_alg».proof.Proof.Gen.ReferenceIdeal
import proofs.«135668_j17884243821138_2_alg».proof.Proof.Gen.Pre_finite_inputs
import proofs.«135668_j17884243821138_2_alg».proof.Proof.K.Run
import proofs.«135668_j17884243821138_2_alg».proof.Proof.KI.Run
import proofs.«135668_j17884243821138_2_alg».proof.Proof.RefRun
import proofs.«135668_j17884243821138_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => Cert.ReferenceIdeal.RefRun.frame (F := Ideal) m ρ,
    trivial,
    Cert.Algebraic.algebraic⟩

end Cert.Proof

end
